-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v99)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v99) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v135) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x256x256x3 : Shape := ⟨4, ![1, 256, 256, 3]⟩
abbrev S16x11x256x256x2 : Shape := ⟨5, ![16, 11, 256, 256, 2]⟩
abbrev S_ : Shape := ⟨0, ![]⟩

class Facts : Prop where
  bcast_S_S1x256x256x3 : S_.BroadcastsInDim S1x256x256x3 (![] : Fin 0 → Fin S1x256x256x3.rank)
  reducesTo_S1x256x256x3_S_d0_1_2_3 : S1x256x256x3.ReducesTo [0, 1, 2, 3] S_
  h_S_ : 0 < S_.numel
  bcast_S_S16x11x256x256x2 : S_.BroadcastsInDim S16x11x256x256x2 (![] : Fin 0 → Fin S16x11x256x256x2.rank)
  reducesTo_S16x11x256x256x2_S_d0_1_2_3_4 : S16x11x256x256x2.ReducesTo [0, 1, 2, 3, 4] S_

variable [Facts]

def fn {F : FTy → Type} [FloatOps F] (main_arg0 : FVec F S1x256x256x3 .f32) (main_arg1 : FVec F S16x11x256x256x2 .f32) : IVec S_ 1 :=
  let main_v0 : FVec F S1x256x256x3 .f32 := Host.absf main_arg0
  let main_cst : FVec F S_ .f32 := constant S_ .f32 0x7F800000#32
  let main_v1 : FVec F S1x256x256x3 .f32 := broadcastInDim S1x256x256x3 ![] bcast_S_S1x256x256x3 main_cst
  let main_v2 : IVec S1x256x256x3 1 := cmpf .olt main_v0 main_v1
  let main_c : IVec S_ 1 := constantI S_ 1 1#1
  let main_v3 : IVec S_ 1 := (fun x v => Host.reduce IntOp.andi x v reducesTo_S1x256x256x3_S_d0_1_2_3 h_S_) main_v2 main_c
  let main_v4 : FVec F S16x11x256x256x2 .f32 := Host.absf main_arg1
  let main_cst_0 : FVec F S_ .f32 := constant S_ .f32 0x7F800000#32
  let main_v5 : FVec F S16x11x256x256x2 .f32 := broadcastInDim S16x11x256x256x2 ![] bcast_S_S16x11x256x256x2 main_cst_0
  let main_v6 : IVec S16x11x256x256x2 1 := cmpf .olt main_v4 main_v5
  let main_c_1 : IVec S_ 1 := constantI S_ 1 1#1
  let main_v7 : IVec S_ 1 := (fun x v => Host.reduce IntOp.andi x v reducesTo_S16x11x256x256x2_S_d0_1_2_3_4 h_S_) main_v6 main_c_1
  let main_v8 : IVec S_ 1 := andi main_v3 main_v7
  main_v8
-- ==== Kernel.lean ====
abbrev S1x256x256x3 : Shape := ⟨4, ![1, 256, 256, 3]⟩
abbrev S16x11x256x256x2 : Shape := ⟨5, ![16, 11, 256, 256, 2]⟩
abbrev S176x256x256x2 : Shape := ⟨4, ![176, 256, 256, 2]⟩
abbrev S176x256x256x1 : Shape := ⟨4, ![176, 256, 256, 1]⟩
abbrev S176x256x256 : Shape := ⟨3, ![176, 256, 256]⟩
abbrev S8x256x256 : Shape := ⟨3, ![8, 256, 256]⟩
abbrev S_ : Shape := ⟨0, ![]⟩
abbrev S256x256x3 : Shape := ⟨3, ![256, 256, 3]⟩
abbrev S65536x3 : Shape := ⟨2, ![65536, 3]⟩
abbrev S11534336 : Shape := ⟨1, ![11534336]⟩
abbrev S11534336x1 : Shape := ⟨2, ![11534336, 1]⟩
abbrev S1 : Shape := ⟨1, ![1]⟩
abbrev S1x1 : Shape := ⟨2, ![1, 1]⟩
abbrev S11534336x3 : Shape := ⟨2, ![11534336, 3]⟩
abbrev S176x256x256x3 : Shape := ⟨4, ![176, 256, 256, 3]⟩
abbrev S16x11x256x256x3 : Shape := ⟨5, ![16, 11, 256, 256, 3]⟩

abbrev nBuf : Space → Nat
  | .hbm => 249
  | .vmem => 12
  | .smem => 0
  | _ => 0

abbrev hbmTy0_0 (i : Nat) : BufTy := match i % 128 with
  | 0 => ⟨S1x256x256x3, .f32⟩
  | 1 => ⟨S16x11x256x256x2, .f32⟩
  | 2 => ⟨S176x256x256x2, .f32⟩
  | 3 => ⟨S176x256x256x1, .f32⟩
  | 4 => ⟨S176x256x256, .f32⟩
  | 5 => ⟨S176x256x256x1, .f32⟩
  | 6 => ⟨S176x256x256, .f32⟩
  | 7 => ⟨S176x256x256, .i32⟩
  | 8 => ⟨S176x256x256, .i32⟩
  | 9 => ⟨S176x256x256, .f32⟩
  | 10 => ⟨S176x256x256, .f32⟩
  | 11 => ⟨S_, .i32⟩
  | 12 => ⟨S176x256x256, .i32⟩
  | 13 => ⟨S176x256x256, .i32⟩
  | 14 => ⟨S_, .i32⟩
  | 15 => ⟨S176x256x256, .i32⟩
  | 16 => ⟨S176x256x256, .i32⟩
  | 17 => ⟨S_, .f32⟩
  | 18 => ⟨S176x256x256, .f32⟩
  | 19 => ⟨S176x256x256, .f32⟩
  | 20 => ⟨S_, .f32⟩
  | 21 => ⟨S176x256x256, .f32⟩
  | 22 => ⟨S176x256x256, .f32⟩
  | 23 => ⟨S176x256x256, .f32⟩
  | 24 => ⟨S176x256x256, .f32⟩
  | 25 => ⟨S176x256x256, .f32⟩
  | 26 => ⟨S176x256x256, .f32⟩
  | 27 => ⟨S_, .i32⟩
  | 28 => ⟨S176x256x256, .i32⟩
  | 29 => ⟨S176x256x256, .i1⟩
  | 30 => ⟨S_, .i32⟩
  | 31 => ⟨S176x256x256, .i32⟩
  | 32 => ⟨S176x256x256, .i1⟩
  | 33 => ⟨S176x256x256, .i1⟩
  | 34 => ⟨S_, .i32⟩
  | 35 => ⟨S176x256x256, .i32⟩
  | 36 => ⟨S176x256x256, .i1⟩
  | 37 => ⟨S_, .i32⟩
  | 38 => ⟨S176x256x256, .i32⟩
  | 39 => ⟨S176x256x256, .i1⟩
  | 40 => ⟨S176x256x256, .i1⟩
  | 41 => ⟨S_, .i32⟩
  | 42 => ⟨S176x256x256, .i32⟩
  | 43 => ⟨S176x256x256, .i1⟩
  | 44 => ⟨S_, .i32⟩
  | 45 => ⟨S176x256x256, .i32⟩
  | 46 => ⟨S176x256x256, .i1⟩
  | 47 => ⟨S176x256x256, .i1⟩
  | 48 => ⟨S_, .i32⟩
  | 49 => ⟨S176x256x256, .i32⟩
  | 50 => ⟨S176x256x256, .i1⟩
  | 51 => ⟨S_, .i32⟩
  | 52 => ⟨S176x256x256, .i32⟩
  | 53 => ⟨S176x256x256, .i1⟩
  | 54 => ⟨S176x256x256, .i1⟩
  | 55 => ⟨S256x256x3, .f32⟩
  | 56 => ⟨S65536x3, .f32⟩
  | 57 => ⟨S176x256x256, .i1⟩
  | 58 => ⟨S_, .i32⟩
  | 59 => ⟨S_, .i32⟩
  | 60 => ⟨S176x256x256, .i32⟩
  | 61 => ⟨S176x256x256, .i32⟩
  | 62 => ⟨S_, .i32⟩
  | 63 => ⟨S_, .i32⟩
  | 64 => ⟨S176x256x256, .i32⟩
  | 65 => ⟨S176x256x256, .i32⟩
  | 66 => ⟨S_, .i32⟩
  | 67 => ⟨S176x256x256, .i32⟩
  | 68 => ⟨S176x256x256, .i32⟩
  | 69 => ⟨S176x256x256, .i32⟩
  | 70 => ⟨S11534336, .i32⟩
  | 71 => ⟨S_, .i32⟩
  | 72 => ⟨S11534336, .i32⟩
  | 73 => ⟨S11534336, .i1⟩
  | 74 => ⟨S_, .i32⟩
  | 75 => ⟨S11534336, .i32⟩
  | 76 => ⟨S11534336, .i32⟩
  | 77 => ⟨S11534336, .i32⟩
  | 78 => ⟨S11534336x1, .i32⟩
  | 79 => ⟨S1, .i32⟩
  | 80 => ⟨S_, .i32⟩
  | 81 => ⟨S11534336x1, .i32⟩
  | 82 => ⟨S11534336x1, .i1⟩
  | 83 => ⟨S1x1, .i32⟩
  | 84 => ⟨S11534336x1, .i32⟩
  | 85 => ⟨S11534336x1, .i1⟩
  | 86 => ⟨S11534336x1, .i1⟩
  | 87 => ⟨S_, .i1⟩
  | 88 => ⟨S11534336, .i1⟩
  | 89 => ⟨S11534336x3, .f32⟩
  | 90 => ⟨S11534336x3, .i1⟩
  | 91 => ⟨S_, .f32⟩
  | 92 => ⟨S11534336x3, .f32⟩
  | 93 => ⟨S11534336x3, .f32⟩
  | 94 => ⟨S176x256x256x3, .f32⟩
  | 95 => ⟨S176x256x256x1, .i1⟩
  | 96 => ⟨S_, .f32⟩
  | 97 => ⟨S_, .f32⟩
  | 98 => ⟨S176x256x256x3, .i1⟩
  | 99 => ⟨S176x256x256x3, .f32⟩
  | 100 => ⟨S176x256x256x3, .f32⟩
  | 101 => ⟨S176x256x256, .i1⟩
  | 102 => ⟨S_, .i32⟩
  | 103 => ⟨S_, .i32⟩
  | 104 => ⟨S176x256x256, .i32⟩
  | 105 => ⟨S176x256x256, .i32⟩
  | 106 => ⟨S_, .i32⟩
  | 107 => ⟨S_, .i32⟩
  | 108 => ⟨S176x256x256, .i32⟩
  | 109 => ⟨S176x256x256, .i32⟩
  | 110 => ⟨S_, .i32⟩
  | 111 => ⟨S176x256x256, .i32⟩
  | 112 => ⟨S176x256x256, .i32⟩
  | 113 => ⟨S176x256x256, .i32⟩
  | 114 => ⟨S11534336, .i32⟩
  | 115 => ⟨S_, .i32⟩
  | 116 => ⟨S11534336, .i32⟩
  | 117 => ⟨S11534336, .i1⟩
  | 118 => ⟨S_, .i32⟩
  | 119 => ⟨S11534336, .i32⟩
  | 120 => ⟨S11534336, .i32⟩
  | 121 => ⟨S11534336, .i32⟩
  | 122 => ⟨S11534336x1, .i32⟩
  | 123 => ⟨S1, .i32⟩
  | 124 => ⟨S_, .i32⟩
  | 125 => ⟨S11534336x1, .i32⟩
  | 126 => ⟨S11534336x1, .i1⟩
  | 127 => ⟨S1x1, .i32⟩
  | _ => ⟨S1x256x256x3, .f32⟩

abbrev hbmTy0_1 (i : Nat) : BufTy := match i % 128 with
  | 0 => ⟨S11534336x1, .i32⟩
  | 1 => ⟨S11534336x1, .i1⟩
  | 2 => ⟨S11534336x1, .i1⟩
  | 3 => ⟨S_, .i1⟩
  | 4 => ⟨S11534336, .i1⟩
  | 5 => ⟨S11534336x3, .f32⟩
  | 6 => ⟨S11534336x3, .i1⟩
  | 7 => ⟨S_, .f32⟩
  | 8 => ⟨S11534336x3, .f32⟩
  | 9 => ⟨S11534336x3, .f32⟩
  | 10 => ⟨S176x256x256x3, .f32⟩
  | 11 => ⟨S176x256x256x1, .i1⟩
  | 12 => ⟨S_, .f32⟩
  | 13 => ⟨S_, .f32⟩
  | 14 => ⟨S176x256x256x3, .i1⟩
  | 15 => ⟨S176x256x256x3, .f32⟩
  | 16 => ⟨S176x256x256x3, .f32⟩
  | 17 => ⟨S176x256x256, .i1⟩
  | 18 => ⟨S_, .i32⟩
  | 19 => ⟨S_, .i32⟩
  | 20 => ⟨S176x256x256, .i32⟩
  | 21 => ⟨S176x256x256, .i32⟩
  | 22 => ⟨S_, .i32⟩
  | 23 => ⟨S_, .i32⟩
  | 24 => ⟨S176x256x256, .i32⟩
  | 25 => ⟨S176x256x256, .i32⟩
  | 26 => ⟨S_, .i32⟩
  | 27 => ⟨S176x256x256, .i32⟩
  | 28 => ⟨S176x256x256, .i32⟩
  | 29 => ⟨S176x256x256, .i32⟩
  | 30 => ⟨S11534336, .i32⟩
  | 31 => ⟨S_, .i32⟩
  | 32 => ⟨S11534336, .i32⟩
  | 33 => ⟨S11534336, .i1⟩
  | 34 => ⟨S_, .i32⟩
  | 35 => ⟨S11534336, .i32⟩
  | 36 => ⟨S11534336, .i32⟩
  | 37 => ⟨S11534336, .i32⟩
  | 38 => ⟨S11534336x1, .i32⟩
  | 39 => ⟨S1, .i32⟩
  | 40 => ⟨S_, .i32⟩
  | 41 => ⟨S11534336x1, .i32⟩
  | 42 => ⟨S11534336x1, .i1⟩
  | 43 => ⟨S1x1, .i32⟩
  | 44 => ⟨S11534336x1, .i32⟩
  | 45 => ⟨S11534336x1, .i1⟩
  | 46 => ⟨S11534336x1, .i1⟩
  | 47 => ⟨S_, .i1⟩
  | 48 => ⟨S11534336, .i1⟩
  | 49 => ⟨S11534336x3, .f32⟩
  | 50 => ⟨S11534336x3, .i1⟩
  | 51 => ⟨S_, .f32⟩
  | 52 => ⟨S11534336x3, .f32⟩
  | 53 => ⟨S11534336x3, .f32⟩
  | 54 => ⟨S176x256x256x3, .f32⟩
  | 55 => ⟨S176x256x256x1, .i1⟩
  | 56 => ⟨S_, .f32⟩
  | 57 => ⟨S_, .f32⟩
  | 58 => ⟨S176x256x256x3, .i1⟩
  | 59 => ⟨S176x256x256x3, .f32⟩
  | 60 => ⟨S176x256x256x3, .f32⟩
  | 61 => ⟨S176x256x256, .i1⟩
  | 62 => ⟨S_, .i32⟩
  | 63 => ⟨S_, .i32⟩
  | 64 => ⟨S176x256x256, .i32⟩
  | 65 => ⟨S176x256x256, .i32⟩
  | 66 => ⟨S_, .i32⟩
  | 67 => ⟨S_, .i32⟩
  | 68 => ⟨S176x256x256, .i32⟩
  | 69 => ⟨S176x256x256, .i32⟩
  | 70 => ⟨S_, .i32⟩
  | 71 => ⟨S176x256x256, .i32⟩
  | 72 => ⟨S176x256x256, .i32⟩
  | 73 => ⟨S176x256x256, .i32⟩
  | 74 => ⟨S11534336, .i32⟩
  | 75 => ⟨S_, .i32⟩
  | 76 => ⟨S11534336, .i32⟩
  | 77 => ⟨S11534336, .i1⟩
  | 78 => ⟨S_, .i32⟩
  | 79 => ⟨S11534336, .i32⟩
  | 80 => ⟨S11534336, .i32⟩
  | 81 => ⟨S11534336, .i32⟩
  | 82 => ⟨S11534336x1, .i32⟩
  | 83 => ⟨S1, .i32⟩
  | 84 => ⟨S_, .i32⟩
  | 85 => ⟨S11534336x1, .i32⟩
  | 86 => ⟨S11534336x1, .i1⟩
  | 87 => ⟨S1x1, .i32⟩
  | 88 => ⟨S11534336x1, .i32⟩
  | 89 => ⟨S11534336x1, .i1⟩
  | 90 => ⟨S11534336x1, .i1⟩
  | 91 => ⟨S_, .i1⟩
  | 92 => ⟨S11534336, .i1⟩
  | 93 => ⟨S11534336x3, .f32⟩
  | 94 => ⟨S11534336x3, .i1⟩
  | 95 => ⟨S_, .f32⟩
  | 96 => ⟨S11534336x3, .f32⟩
  | 97 => ⟨S11534336x3, .f32⟩
  | 98 => ⟨S176x256x256x3, .f32⟩
  | 99 => ⟨S176x256x256x1, .i1⟩
  | 100 => ⟨S_, .f32⟩
  | 101 => ⟨S_, .f32⟩
  | 102 => ⟨S176x256x256x3, .i1⟩
  | 103 => ⟨S176x256x256x3, .f32⟩
  | 104 => ⟨S176x256x256x3, .f32⟩
  | 105 => ⟨S176x256x256x1, .f32⟩
  | 106 => ⟨S176x256x256x3, .f32⟩
  | 107 => ⟨S176x256x256x3, .f32⟩
  | 108 => ⟨S176x256x256x1, .f32⟩
  | 109 => ⟨S176x256x256x3, .f32⟩
  | 110 => ⟨S176x256x256x3, .f32⟩
  | 111 => ⟨S176x256x256x3, .f32⟩
  | 112 => ⟨S176x256x256x1, .f32⟩
  | 113 => ⟨S176x256x256x3, .f32⟩
  | 114 => ⟨S176x256x256x3, .f32⟩
  | 115 => ⟨S176x256x256x3, .f32⟩
  | 116 => ⟨S176x256x256x1, .f32⟩
  | 117 => ⟨S176x256x256x3, .f32⟩
  | 118 => ⟨S176x256x256x3, .f32⟩
  | 119 => ⟨S176x256x256x3, .f32⟩
  | 120 => ⟨S16x11x256x256x3, .f32⟩
  | _ => ⟨S1x256x256x3, .f32⟩

abbrev hbmTy (i : Nat) : BufTy := match i / 128 with
  | 0 => hbmTy0_0 i
  | 1 => hbmTy0_1 i
  | _ => ⟨S1x256x256x3, .f32⟩

abbrev bufTy : (tb : Table) → Fin (tcTables nBuf tb) → BufTy
  | .hbm, ⟨i, _⟩ => hbmTy i
  | .local _ .vmem, ⟨0, _⟩ => ⟨S8x256x256, .f32⟩
  | .local _ .vmem, ⟨1, _⟩ => ⟨S8x256x256, .f32⟩
  | .local _ .vmem, ⟨2, _⟩ => ⟨S8x256x256, .f32⟩
  | .local _ .vmem, ⟨3, _⟩ => ⟨S8x256x256, .f32⟩
  | .local _ .vmem, ⟨4, _⟩ => ⟨S8x256x256, .i32⟩
  | .local _ .vmem, ⟨5, _⟩ => ⟨S8x256x256, .i32⟩
  | .local _ .vmem, ⟨6, _⟩ => ⟨S8x256x256, .i32⟩
  | .local _ .vmem, ⟨7, _⟩ => ⟨S8x256x256, .i32⟩
  | .local _ .vmem, ⟨8, _⟩ => ⟨S8x256x256, .f32⟩
  | .local _ .vmem, ⟨9, _⟩ => ⟨S8x256x256, .f32⟩
  | .local _ .vmem, ⟨10, _⟩ => ⟨S8x256x256, .f32⟩
  | .local _ .vmem, ⟨11, _⟩ => ⟨S8x256x256, .f32⟩
  | _, _ => ⟨S1x256x256x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5_0 : Ref sig .tc := ⟨.hbm, 7, rfl⟩
abbrev main_v5_1 : Ref sig .tc := ⟨.hbm, 8, rfl⟩
abbrev main_v5_2 : Ref sig .tc := ⟨.hbm, 9, rfl⟩
abbrev main_v5_3 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_2 : Ref sig .tc := ⟨.hbm, 27, rfl⟩
abbrev main_v18 : Ref sig .tc := ⟨.hbm, 28, rfl⟩
abbrev main_v19 : Ref sig .tc := ⟨.hbm, 29, rfl⟩
abbrev main_c_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_4 : Ref sig .tc := ⟨.hbm, 34, rfl⟩
abbrev main_v23 : Ref sig .tc := ⟨.hbm, 35, rfl⟩
abbrev main_v24 : Ref sig .tc := ⟨.hbm, 36, rfl⟩
abbrev main_c_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_6 : Ref sig .tc := ⟨.hbm, 41, rfl⟩
abbrev main_v28 : Ref sig .tc := ⟨.hbm, 42, rfl⟩
abbrev main_v29 : Ref sig .tc := ⟨.hbm, 43, rfl⟩
abbrev main_c_7 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_8 : Ref sig .tc := ⟨.hbm, 48, rfl⟩
abbrev main_v33 : Ref sig .tc := ⟨.hbm, 49, rfl⟩
abbrev main_v34 : Ref sig .tc := ⟨.hbm, 50, rfl⟩
abbrev main_c_9 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_c_10 : Ref sig .tc := ⟨.hbm, 58, rfl⟩
abbrev main_call0_v0 : Ref sig .tc := ⟨.hbm, 59, rfl⟩
abbrev main_call0_v1 : Ref sig .tc := ⟨.hbm, 60, rfl⟩
abbrev main_v41 : Ref sig .tc := ⟨.hbm, 61, rfl⟩
abbrev main_c_11 : Ref sig .tc := ⟨.hbm, 62, rfl⟩
abbrev main_call1_v0 : Ref sig .tc := ⟨.hbm, 63, rfl⟩
abbrev main_call1_v1 : Ref sig .tc := ⟨.hbm, 64, rfl⟩
abbrev main_v42 : Ref sig .tc := ⟨.hbm, 65, rfl⟩
abbrev main_c_12 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_call2_c : Ref sig .tc := ⟨.hbm, 71, rfl⟩
abbrev main_call2_v0 : Ref sig .tc := ⟨.hbm, 72, rfl⟩
abbrev main_call2_v1 : Ref sig .tc := ⟨.hbm, 73, rfl⟩
abbrev main_call2_c_0 : Ref sig .tc := ⟨.hbm, 74, rfl⟩
abbrev main_call2_v2 : Ref sig .tc := ⟨.hbm, 75, rfl⟩
abbrev main_call2_v3 : Ref sig .tc := ⟨.hbm, 76, rfl⟩
abbrev main_call2_v4 : Ref sig .tc := ⟨.hbm, 77, rfl⟩
abbrev main_call2_v5 : Ref sig .tc := ⟨.hbm, 78, rfl⟩
abbrev main_call2_c_1 : Ref sig .tc := ⟨.hbm, 79, rfl⟩
abbrev main_call2_c_2 : Ref sig .tc := ⟨.hbm, 80, rfl⟩
abbrev main_call2_v6 : Ref sig .tc := ⟨.hbm, 81, rfl⟩
abbrev main_call2_v7 : Ref sig .tc := ⟨.hbm, 82, rfl⟩
abbrev main_call2_v8 : Ref sig .tc := ⟨.hbm, 83, rfl⟩
abbrev main_call2_v9 : Ref sig .tc := ⟨.hbm, 84, rfl⟩
abbrev main_call2_v10 : Ref sig .tc := ⟨.hbm, 85, rfl⟩
abbrev main_call2_v11 : Ref sig .tc := ⟨.hbm, 86, rfl⟩
abbrev main_call2_c_3 : Ref sig .tc := ⟨.hbm, 87, rfl⟩
abbrev main_call2_v12 : Ref sig .tc := ⟨.hbm, 88, rfl⟩
abbrev main_call2_v13 : Ref sig .tc := ⟨.hbm, 89, rfl⟩
abbrev main_call2_v14 : Ref sig .tc := ⟨.hbm, 90, rfl⟩
abbrev main_call2_cst : Ref sig .tc := ⟨.hbm, 91, rfl⟩
abbrev main_call2_v15 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_cst_13 : Ref sig .tc := ⟨.hbm, 96, rfl⟩
abbrev main_call3_v0 : Ref sig .tc := ⟨.hbm, 97, rfl⟩
abbrev main_call3_v1 : Ref sig .tc := ⟨.hbm, 98, rfl⟩
abbrev main_call3_v2 : Ref sig .tc := ⟨.hbm, 99, rfl⟩
abbrev main_v50 : Ref sig .tc := ⟨.hbm, 100, rfl⟩
abbrev main_v51 : Ref sig .tc := ⟨.hbm, 101, rfl⟩
abbrev main_c_14 : Ref sig .tc := ⟨.hbm, 102, rfl⟩
abbrev main_call4_v0 : Ref sig .tc := ⟨.hbm, 103, rfl⟩
abbrev main_call4_v1 : Ref sig .tc := ⟨.hbm, 104, rfl⟩
abbrev main_v52 : Ref sig .tc := ⟨.hbm, 105, rfl⟩
abbrev main_c_15 : Ref sig .tc := ⟨.hbm, 106, rfl⟩
abbrev main_call5_v0 : Ref sig .tc := ⟨.hbm, 107, rfl⟩
abbrev main_call5_v1 : Ref sig .tc := ⟨.hbm, 108, rfl⟩
abbrev main_v53 : Ref sig .tc := ⟨.hbm, 109, rfl⟩
abbrev main_c_16 : Ref sig .tc := ⟨.hbm, 110, rfl⟩
abbrev main_v54 : Ref sig .tc := ⟨.hbm, 111, rfl⟩
abbrev main_v55 : Ref sig .tc := ⟨.hbm, 112, rfl⟩
abbrev main_v56 : Ref sig .tc := ⟨.hbm, 113, rfl⟩
abbrev main_v57 : Ref sig .tc := ⟨.hbm, 114, rfl⟩
abbrev main_call6_c : Ref sig .tc := ⟨.hbm, 115, rfl⟩
abbrev main_call6_v0 : Ref sig .tc := ⟨.hbm, 116, rfl⟩
abbrev main_call6_v1 : Ref sig .tc := ⟨.hbm, 117, rfl⟩
abbrev main_call6_c_0 : Ref sig .tc := ⟨.hbm, 118, rfl⟩
abbrev main_call6_v2 : Ref sig .tc := ⟨.hbm, 119, rfl⟩
abbrev main_call6_v3 : Ref sig .tc := ⟨.hbm, 120, rfl⟩
abbrev main_call6_v4 : Ref sig .tc := ⟨.hbm, 121, rfl⟩
abbrev main_call6_v5 : Ref sig .tc := ⟨.hbm, 122, rfl⟩
abbrev main_call6_c_1 : Ref sig .tc := ⟨.hbm, 123, rfl⟩
abbrev main_call6_c_2 : Ref sig .tc := ⟨.hbm, 124, rfl⟩
abbrev main_call6_v6 : Ref sig .tc := ⟨.hbm, 125, rfl⟩
abbrev main_call6_v7 : Ref sig .tc := ⟨.hbm, 126, rfl⟩
abbrev main_call6_v8 : Ref sig .tc := ⟨.hbm, 127, rfl⟩
abbrev main_call6_v9 : Ref sig .tc := ⟨.hbm, 128, rfl⟩
abbrev main_call6_v10 : Ref sig .tc := ⟨.hbm, 129, rfl⟩
abbrev main_call6_v11 : Ref sig .tc := ⟨.hbm, 130, rfl⟩
abbrev main_call6_c_3 : Ref sig .tc := ⟨.hbm, 131, rfl⟩
abbrev main_call6_v12 : Ref sig .tc := ⟨.hbm, 132, rfl⟩
abbrev main_call6_v13 : Ref sig .tc := ⟨.hbm, 133, rfl⟩
abbrev main_call6_v14 : Ref sig .tc := ⟨.hbm, 134, rfl⟩
abbrev main_call6_cst : Ref sig .tc := ⟨.hbm, 135, rfl⟩
abbrev main_call6_v15 : Ref sig .tc := ⟨.hbm, 136, rfl⟩
abbrev main_v58 : Ref sig .tc := ⟨.hbm, 137, rfl⟩
abbrev main_v59 : Ref sig .tc := ⟨.hbm, 138, rfl⟩
abbrev main_v60 : Ref sig .tc := ⟨.hbm, 139, rfl⟩
abbrev main_cst_17 : Ref sig .tc := ⟨.hbm, 140, rfl⟩
abbrev main_call7_v0 : Ref sig .tc := ⟨.hbm, 141, rfl⟩
abbrev main_call7_v1 : Ref sig .tc := ⟨.hbm, 142, rfl⟩
abbrev main_call7_v2 : Ref sig .tc := ⟨.hbm, 143, rfl⟩
abbrev main_v61 : Ref sig .tc := ⟨.hbm, 144, rfl⟩
abbrev main_v62 : Ref sig .tc := ⟨.hbm, 145, rfl⟩
abbrev main_c_18 : Ref sig .tc := ⟨.hbm, 146, rfl⟩
abbrev main_call8_v0 : Ref sig .tc := ⟨.hbm, 147, rfl⟩
abbrev main_call8_v1 : Ref sig .tc := ⟨.hbm, 148, rfl⟩
abbrev main_v63 : Ref sig .tc := ⟨.hbm, 149, rfl⟩
abbrev main_c_19 : Ref sig .tc := ⟨.hbm, 150, rfl⟩
abbrev main_call9_v0 : Ref sig .tc := ⟨.hbm, 151, rfl⟩
abbrev main_call9_v1 : Ref sig .tc := ⟨.hbm, 152, rfl⟩
abbrev main_v64 : Ref sig .tc := ⟨.hbm, 153, rfl⟩
abbrev main_c_20 : Ref sig .tc := ⟨.hbm, 154, rfl⟩
abbrev main_v65 : Ref sig .tc := ⟨.hbm, 155, rfl⟩
abbrev main_v66 : Ref sig .tc := ⟨.hbm, 156, rfl⟩
abbrev main_v67 : Ref sig .tc := ⟨.hbm, 157, rfl⟩
abbrev main_v68 : Ref sig .tc := ⟨.hbm, 158, rfl⟩
abbrev main_call10_c : Ref sig .tc := ⟨.hbm, 159, rfl⟩
abbrev main_call10_v0 : Ref sig .tc := ⟨.hbm, 160, rfl⟩
abbrev main_call10_v1 : Ref sig .tc := ⟨.hbm, 161, rfl⟩
abbrev main_call10_c_0 : Ref sig .tc := ⟨.hbm, 162, rfl⟩
abbrev main_call10_v2 : Ref sig .tc := ⟨.hbm, 163, rfl⟩
abbrev main_call10_v3 : Ref sig .tc := ⟨.hbm, 164, rfl⟩
abbrev main_call10_v4 : Ref sig .tc := ⟨.hbm, 165, rfl⟩
abbrev main_call10_v5 : Ref sig .tc := ⟨.hbm, 166, rfl⟩
abbrev main_call10_c_1 : Ref sig .tc := ⟨.hbm, 167, rfl⟩
abbrev main_call10_c_2 : Ref sig .tc := ⟨.hbm, 168, rfl⟩
abbrev main_call10_v6 : Ref sig .tc := ⟨.hbm, 169, rfl⟩
abbrev main_call10_v7 : Ref sig .tc := ⟨.hbm, 170, rfl⟩
abbrev main_call10_v8 : Ref sig .tc := ⟨.hbm, 171, rfl⟩
abbrev main_call10_v9 : Ref sig .tc := ⟨.hbm, 172, rfl⟩
abbrev main_call10_v10 : Ref sig .tc := ⟨.hbm, 173, rfl⟩
abbrev main_call10_v11 : Ref sig .tc := ⟨.hbm, 174, rfl⟩
abbrev main_call10_c_3 : Ref sig .tc := ⟨.hbm, 175, rfl⟩
abbrev main_call10_v12 : Ref sig .tc := ⟨.hbm, 176, rfl⟩
abbrev main_call10_v13 : Ref sig .tc := ⟨.hbm, 177, rfl⟩
abbrev main_call10_v14 : Ref sig .tc := ⟨.hbm, 178, rfl⟩
abbrev main_call10_cst : Ref sig .tc := ⟨.hbm, 179, rfl⟩
abbrev main_call10_v15 : Ref sig .tc := ⟨.hbm, 180, rfl⟩
abbrev main_v69 : Ref sig .tc := ⟨.hbm, 181, rfl⟩
abbrev main_v70 : Ref sig .tc := ⟨.hbm, 182, rfl⟩
abbrev main_v71 : Ref sig .tc := ⟨.hbm, 183, rfl⟩
abbrev main_cst_21 : Ref sig .tc := ⟨.hbm, 184, rfl⟩
abbrev main_call11_v0 : Ref sig .tc := ⟨.hbm, 185, rfl⟩
abbrev main_call11_v1 : Ref sig .tc := ⟨.hbm, 186, rfl⟩
abbrev main_call11_v2 : Ref sig .tc := ⟨.hbm, 187, rfl⟩
abbrev main_v72 : Ref sig .tc := ⟨.hbm, 188, rfl⟩
abbrev main_v73 : Ref sig .tc := ⟨.hbm, 189, rfl⟩
abbrev main_c_22 : Ref sig .tc := ⟨.hbm, 190, rfl⟩
abbrev main_call12_v0 : Ref sig .tc := ⟨.hbm, 191, rfl⟩
abbrev main_call12_v1 : Ref sig .tc := ⟨.hbm, 192, rfl⟩
abbrev main_v74 : Ref sig .tc := ⟨.hbm, 193, rfl⟩
abbrev main_c_23 : Ref sig .tc := ⟨.hbm, 194, rfl⟩
abbrev main_call13_v0 : Ref sig .tc := ⟨.hbm, 195, rfl⟩
abbrev main_call13_v1 : Ref sig .tc := ⟨.hbm, 196, rfl⟩
abbrev main_v75 : Ref sig .tc := ⟨.hbm, 197, rfl⟩
abbrev main_c_24 : Ref sig .tc := ⟨.hbm, 198, rfl⟩
abbrev main_v76 : Ref sig .tc := ⟨.hbm, 199, rfl⟩
abbrev main_v77 : Ref sig .tc := ⟨.hbm, 200, rfl⟩
abbrev main_v78 : Ref sig .tc := ⟨.hbm, 201, rfl⟩
abbrev main_v79 : Ref sig .tc := ⟨.hbm, 202, rfl⟩
abbrev main_call14_c : Ref sig .tc := ⟨.hbm, 203, rfl⟩
abbrev main_call14_v0 : Ref sig .tc := ⟨.hbm, 204, rfl⟩
abbrev main_call14_v1 : Ref sig .tc := ⟨.hbm, 205, rfl⟩
abbrev main_call14_c_0 : Ref sig .tc := ⟨.hbm, 206, rfl⟩
abbrev main_call14_v2 : Ref sig .tc := ⟨.hbm, 207, rfl⟩
abbrev main_call14_v3 : Ref sig .tc := ⟨.hbm, 208, rfl⟩
abbrev main_call14_v4 : Ref sig .tc := ⟨.hbm, 209, rfl⟩
abbrev main_call14_v5 : Ref sig .tc := ⟨.hbm, 210, rfl⟩
abbrev main_call14_c_1 : Ref sig .tc := ⟨.hbm, 211, rfl⟩
abbrev main_call14_c_2 : Ref sig .tc := ⟨.hbm, 212, rfl⟩
abbrev main_call14_v6 : Ref sig .tc := ⟨.hbm, 213, rfl⟩
abbrev main_call14_v7 : Ref sig .tc := ⟨.hbm, 214, rfl⟩
abbrev main_call14_v8 : Ref sig .tc := ⟨.hbm, 215, rfl⟩
abbrev main_call14_v9 : Ref sig .tc := ⟨.hbm, 216, rfl⟩
abbrev main_call14_v10 : Ref sig .tc := ⟨.hbm, 217, rfl⟩
abbrev main_call14_v11 : Ref sig .tc := ⟨.hbm, 218, rfl⟩
abbrev main_call14_c_3 : Ref sig .tc := ⟨.hbm, 219, rfl⟩
abbrev main_call14_v12 : Ref sig .tc := ⟨.hbm, 220, rfl⟩
abbrev main_call14_v13 : Ref sig .tc := ⟨.hbm, 221, rfl⟩
abbrev main_call14_v14 : Ref sig .tc := ⟨.hbm, 222, rfl⟩
abbrev main_call14_cst : Ref sig .tc := ⟨.hbm, 223, rfl⟩
abbrev main_call14_v15 : Ref sig .tc := ⟨.hbm, 224, rfl⟩
abbrev main_v80 : Ref sig .tc := ⟨.hbm, 225, rfl⟩
abbrev main_v81 : Ref sig .tc := ⟨.hbm, 226, rfl⟩
abbrev main_v82 : Ref sig .tc := ⟨.hbm, 227, rfl⟩
abbrev main_cst_25 : Ref sig .tc := ⟨.hbm, 228, rfl⟩
abbrev main_call15_v0 : Ref sig .tc := ⟨.hbm, 229, rfl⟩
abbrev main_call15_v1 : Ref sig .tc := ⟨.hbm, 230, rfl⟩
abbrev main_call15_v2 : Ref sig .tc := ⟨.hbm, 231, rfl⟩
abbrev main_v83 : Ref sig .tc := ⟨.hbm, 232, rfl⟩
abbrev main_v84 : Ref sig .tc := ⟨.hbm, 233, rfl⟩
abbrev main_v85 : Ref sig .tc := ⟨.hbm, 234, rfl⟩
abbrev main_v86 : Ref sig .tc := ⟨.hbm, 235, rfl⟩
abbrev main_v87 : Ref sig .tc := ⟨.hbm, 236, rfl⟩
abbrev main_v88 : Ref sig .tc := ⟨.hbm, 237, rfl⟩
abbrev main_v89 : Ref sig .tc := ⟨.hbm, 238, rfl⟩
abbrev main_v90 : Ref sig .tc := ⟨.hbm, 239, rfl⟩
abbrev main_v91 : Ref sig .tc := ⟨.hbm, 240, rfl⟩
abbrev main_v92 : Ref sig .tc := ⟨.hbm, 241, rfl⟩
abbrev main_v93 : Ref sig .tc := ⟨.hbm, 242, rfl⟩
abbrev main_v94 : Ref sig .tc := ⟨.hbm, 243, rfl⟩
abbrev main_v95 : Ref sig .tc := ⟨.hbm, 244, rfl⟩
abbrev main_v96 : Ref sig .tc := ⟨.hbm, 245, rfl⟩
abbrev main_v97 : Ref sig .tc := ⟨.hbm, 246, rfl⟩
abbrev main_v98 : Ref sig .tc := ⟨.hbm, 247, rfl⟩
abbrev main_v99 : Ref sig .tc := ⟨.hbm, 248, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![22], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x256 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S16x11x256x256x2_S176x256x256x2 : S16x11x256x256x2.ShapeCasts S176x256x256x2
  slices_S176x256x256x2_S176x256x256x1_0_0_0_0 : S176x256x256x2.Slices ![0, 0, 0, 0] S176x256x256x1
  shapeCasts_S176x256x256x1_S176x256x256 : S176x256x256x1.ShapeCasts S176x256x256
  slices_S176x256x256x2_S176x256x256x1_0_0_0_1 : S176x256x256x2.Slices ![0, 0, 0, 1] S176x256x256x1
  inb_S8x256x256_S8x256x256_0_0_0 : ∀ a, (![0, 0, 0] : Fin 3 → Nat) a + S8x256x256.size a ≤ S8x256x256.size a
  h_S8x256x256 : 0 < S8x256x256.numel
  shapeCasts_S8x256x256_S8x256x256 : S8x256x256.ShapeCasts S8x256x256
  bcast_S_S176x256x256 : S_.BroadcastsInDim S176x256x256 (![] : Fin 0 → Fin S176x256x256.rank)
  shapeCasts_S1x256x256x3_S256x256x3 : S1x256x256x3.ShapeCasts S256x256x3
  shapeCasts_S256x256x3_S65536x3 : S256x256x3.ShapeCasts S65536x3
  shapeCasts_S176x256x256_S11534336 : S176x256x256.ShapeCasts S11534336
  bcast_S_S11534336 : S_.BroadcastsInDim S11534336 (![] : Fin 0 → Fin S11534336.rank)
  bcast_S11534336_S11534336x1_0 : S11534336.BroadcastsInDim S11534336x1 (![0] : Fin 1 → Fin S11534336x1.rank)
  bcast_S_S11534336x1 : S_.BroadcastsInDim S11534336x1 (![] : Fin 0 → Fin S11534336x1.rank)
  bcast_S1_S1x1_1 : S1.BroadcastsInDim S1x1 (![1] : Fin 1 → Fin S1x1.rank)
  bcast_S1x1_S11534336x1_0_1 : S1x1.BroadcastsInDim S11534336x1 (![0, 1] : Fin 2 → Fin S11534336x1.rank)
  reducesTo_S11534336x1_S11534336_d1 : S11534336x1.ReducesTo [1] S11534336
  h_S_ : 0 < S_.numel
  bcast_S11534336_S11534336x3_0 : S11534336.BroadcastsInDim S11534336x3 (![0] : Fin 1 → Fin S11534336x3.rank)
  bcast_S_S11534336x3 : S_.BroadcastsInDim S11534336x3 (![] : Fin 0 → Fin S11534336x3.rank)
  shapeCasts_S11534336x3_S176x256x256x3 : S11534336x3.ShapeCasts S176x256x256x3
  bcast_S176x256x256_S176x256x256x1_0_1_2 : S176x256x256.BroadcastsInDim S176x256x256x1 (![0, 1, 2] : Fin 3 → Fin S176x256x256x1.rank)
  bcast_S176x256x256x1_S176x256x256x3_0_1_2_3 : S176x256x256x1.BroadcastsInDim S176x256x256x3 (![0, 1, 2, 3] : Fin 4 → Fin S176x256x256x3.rank)
  bcast_S_S176x256x256x3 : S_.BroadcastsInDim S176x256x256x3 (![] : Fin 0 → Fin S176x256x256x3.rank)
  shapeCasts_S176x256x256x3_S16x11x256x256x3 : S176x256x256x3.ShapeCasts S16x11x256x256x3
  gather_S65536x3_S11534336x1_S11534336x3_1_0_n_n_0_1_13_wf : GatherDims.WF S65536x3 S11534336x1 S11534336x3 [1] [0] [] [0] [] 1 ![1, 3]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x256.size a ≤ S176x256x256.size a
  hwx0_0 : ∀ i : grid0.Coords, EltTy.bits .f32 = 32 ∨ (Rect.block (s := S176x256x256) S8x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256x256.size a ≤ S176x256x256.size a
  hwx0_1 : ∀ i : grid0.Coords, EltTy.bits .f32 = 32 ∨ (Rect.block (s := S176x256x256) S8x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x256x256.size a ≤ S176x256x256.size a
  hwx0_2 : ∀ i : grid0.Coords, EltTy.bits .i32 = 32 ∨ (Rect.block (s := S176x256x256) S8x256x256.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x256x256.size a ≤ S176x256x256.size a
  hwx0_3 : ∀ i : grid0.Coords, EltTy.bits .i32 = 32 ∨ (Rect.block (s := S176x256x256) S8x256x256.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x256x256.size a ≤ S176x256x256.size a
  hwx0_4 : ∀ i : grid0.Coords, EltTy.bits .f32 = 32 ∨ (Rect.block (s := S176x256x256) S8x256x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x256x256.size a ≤ S176x256x256.size a
  hwx0_5 : ∀ i : grid0.Coords, EltTy.bits .f32 = 32 ∨ (Rect.block (s := S176x256x256) S8x256x256.size (cc0_transform_5 i) (hinb0_5 i)).WholeWords (EltTy.packing .f32)

variable [Facts₀]

def gather_S65536x3_S11534336x1_S11534336x3_1_0_n_n_0_1_13 : GatherDims S65536x3 S11534336x1 S11534336x3 where
  offsetDims := [1]
  collapsedSliceDims := [0]
  operandBatchingDims := []
  startIndicesBatchingDims := []
  startIndexMap := [0]
  indexVectorDim := 1
  sliceSizes := ![1, 3]
  wf := gather_S65536x3_S11534336x1_S11534336x3_1_0_n_n_0_1_13_wf

abbrev win0_0 : Pipeline.Window sig grid0 :=
  Pipeline.Window.ofSpec (Memref.whole main_v2) S8x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S8x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5_0) S8x256x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5_1) S8x256x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5_2) S8x256x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5_3) S8x256x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1x256x256x3 : Shape := ⟨4, ![1, 256, 256, 3]⟩
abbrev S16x11x256x256x2 : Shape := ⟨5, ![16, 11, 256, 256, 2]⟩
abbrev S256x256x3 : Shape := ⟨3, ![256, 256, 3]⟩
abbrev S176x256x256x3 : Shape := ⟨4, ![176, 256, 256, 3]⟩
abbrev S176x256x256x2 : Shape := ⟨4, ![176, 256, 256, 2]⟩
abbrev S176x256x256x1 : Shape := ⟨4, ![176, 256, 256, 1]⟩
abbrev S176x256x256 : Shape := ⟨3, ![176, 256, 256]⟩
abbrev S_ : Shape := ⟨0, ![]⟩
abbrev S11534336x3 : Shape := ⟨2, ![11534336, 3]⟩
abbrev S176 : Shape := ⟨1, ![176]⟩
abbrev S176x1x1 : Shape := ⟨3, ![176, 1, 1]⟩
abbrev S11534336 : Shape := ⟨1, ![11534336]⟩
abbrev S11534336x1 : Shape := ⟨2, ![11534336, 1]⟩
abbrev S1 : Shape := ⟨1, ![1]⟩
abbrev S1x1 : Shape := ⟨2, ![1, 1]⟩
abbrev S16x11x256x256x3 : Shape := ⟨5, ![16, 11, 256, 256, 3]⟩

abbrev nBuf : Space → Nat
  | .hbm => 292
  | .vmem => 0
  | .smem => 0
  | _ => 0

abbrev hbmTy0_0 (i : Nat) : BufTy := match i % 128 with
  | 0 => ⟨S1x256x256x3, .f32⟩
  | 1 => ⟨S16x11x256x256x2, .f32⟩
  | 2 => ⟨S256x256x3, .f32⟩
  | 3 => ⟨S176x256x256x3, .f32⟩
  | 4 => ⟨S176x256x256x2, .f32⟩
  | 5 => ⟨S176x256x256x1, .f32⟩
  | 6 => ⟨S176x256x256, .f32⟩
  | 7 => ⟨S_, .f32⟩
  | 8 => ⟨S176x256x256, .f32⟩
  | 9 => ⟨S176x256x256, .f32⟩
  | 10 => ⟨S_, .f32⟩
  | 11 => ⟨S176x256x256, .f32⟩
  | 12 => ⟨S176x256x256, .f32⟩
  | 13 => ⟨S_, .f32⟩
  | 14 => ⟨S176x256x256, .f32⟩
  | 15 => ⟨S176x256x256, .f32⟩
  | 16 => ⟨S176x256x256x1, .f32⟩
  | 17 => ⟨S176x256x256, .f32⟩
  | 18 => ⟨S_, .f32⟩
  | 19 => ⟨S176x256x256, .f32⟩
  | 20 => ⟨S176x256x256, .f32⟩
  | 21 => ⟨S_, .f32⟩
  | 22 => ⟨S176x256x256, .f32⟩
  | 23 => ⟨S176x256x256, .f32⟩
  | 24 => ⟨S_, .f32⟩
  | 25 => ⟨S176x256x256, .f32⟩
  | 26 => ⟨S176x256x256, .f32⟩
  | 27 => ⟨S176x256x256, .f32⟩
  | 28 => ⟨S176x256x256, .f32⟩
  | 29 => ⟨S176x256x256, .f32⟩
  | 30 => ⟨S176x256x256, .f32⟩
  | 31 => ⟨S_, .f32⟩
  | 32 => ⟨S176x256x256, .f32⟩
  | 33 => ⟨S176x256x256, .f32⟩
  | 34 => ⟨S_, .f32⟩
  | 35 => ⟨S176x256x256, .f32⟩
  | 36 => ⟨S176x256x256, .f32⟩
  | 37 => ⟨S176x256x256, .f32⟩
  | 38 => ⟨S176x256x256, .f32⟩
  | 39 => ⟨S176x256x256, .f32⟩
  | 40 => ⟨S176x256x256, .f32⟩
  | 41 => ⟨S176x256x256, .i32⟩
  | 42 => ⟨S176x256x256, .i32⟩
  | 43 => ⟨S_, .i32⟩
  | 44 => ⟨S176x256x256, .i32⟩
  | 45 => ⟨S176x256x256, .i32⟩
  | 46 => ⟨S_, .i32⟩
  | 47 => ⟨S176x256x256, .i32⟩
  | 48 => ⟨S176x256x256, .i32⟩
  | 49 => ⟨S_, .i32⟩
  | 50 => ⟨S176x256x256, .i32⟩
  | 51 => ⟨S176x256x256, .i1⟩
  | 52 => ⟨S_, .i32⟩
  | 53 => ⟨S176x256x256, .i32⟩
  | 54 => ⟨S176x256x256, .i1⟩
  | 55 => ⟨S176x256x256, .i1⟩
  | 56 => ⟨S_, .i32⟩
  | 57 => ⟨S176x256x256, .i32⟩
  | 58 => ⟨S176x256x256, .i1⟩
  | 59 => ⟨S_, .i32⟩
  | 60 => ⟨S176x256x256, .i32⟩
  | 61 => ⟨S176x256x256, .i1⟩
  | 62 => ⟨S176x256x256, .i1⟩
  | 63 => ⟨S_, .i32⟩
  | 64 => ⟨S176x256x256, .i32⟩
  | 65 => ⟨S176x256x256, .i1⟩
  | 66 => ⟨S_, .i32⟩
  | 67 => ⟨S176x256x256, .i32⟩
  | 68 => ⟨S176x256x256, .i1⟩
  | 69 => ⟨S176x256x256, .i1⟩
  | 70 => ⟨S_, .i32⟩
  | 71 => ⟨S176x256x256, .i32⟩
  | 72 => ⟨S176x256x256, .i1⟩
  | 73 => ⟨S_, .i32⟩
  | 74 => ⟨S176x256x256, .i32⟩
  | 75 => ⟨S176x256x256, .i1⟩
  | 76 => ⟨S176x256x256, .i1⟩
  | 77 => ⟨S11534336x3, .f32⟩
  | 78 => ⟨S176, .i32⟩
  | 79 => ⟨S176x1x1, .i32⟩
  | 80 => ⟨S176x256x256, .i1⟩
  | 81 => ⟨S_, .i32⟩
  | 82 => ⟨S_, .i32⟩
  | 83 => ⟨S176x256x256, .i32⟩
  | 84 => ⟨S176x256x256, .i32⟩
  | 85 => ⟨S_, .i32⟩
  | 86 => ⟨S_, .i32⟩
  | 87 => ⟨S176x256x256, .i32⟩
  | 88 => ⟨S176x256x256, .i32⟩
  | 89 => ⟨S_, .i32⟩
  | 90 => ⟨S176x1x1, .i32⟩
  | 91 => ⟨S176x1x1, .i32⟩
  | 92 => ⟨S176x256x256, .i32⟩
  | 93 => ⟨S176x256x256, .i32⟩
  | 94 => ⟨S_, .i32⟩
  | 95 => ⟨S176x256x256, .i32⟩
  | 96 => ⟨S176x256x256, .i32⟩
  | 97 => ⟨S176x256x256, .i32⟩
  | 98 => ⟨S11534336, .i32⟩
  | 99 => ⟨S_, .i32⟩
  | 100 => ⟨S11534336, .i32⟩
  | 101 => ⟨S11534336, .i1⟩
  | 102 => ⟨S_, .i32⟩
  | 103 => ⟨S11534336, .i32⟩
  | 104 => ⟨S11534336, .i32⟩
  | 105 => ⟨S11534336, .i32⟩
  | 106 => ⟨S11534336x1, .i32⟩
  | 107 => ⟨S1, .i32⟩
  | 108 => ⟨S_, .i32⟩
  | 109 => ⟨S11534336x1, .i32⟩
  | 110 => ⟨S11534336x1, .i1⟩
  | 111 => ⟨S1x1, .i32⟩
  | 112 => ⟨S11534336x1, .i32⟩
  | 113 => ⟨S11534336x1, .i1⟩
  | 114 => ⟨S11534336x1, .i1⟩
  | 115 => ⟨S_, .i1⟩
  | 116 => ⟨S11534336, .i1⟩
  | 117 => ⟨S11534336x3, .f32⟩
  | 118 => ⟨S11534336x3, .i1⟩
  | 119 => ⟨S_, .f32⟩
  | 120 => ⟨S11534336x3, .f32⟩
  | 121 => ⟨S11534336x3, .f32⟩
  | 122 => ⟨S176x256x256x3, .f32⟩
  | 123 => ⟨S176x256x256x1, .i1⟩
  | 124 => ⟨S_, .f32⟩
  | 125 => ⟨S_, .f32⟩
  | 126 => ⟨S176x256x256x3, .i1⟩
  | 127 => ⟨S176x256x256x3, .f32⟩
  | _ => ⟨S1x256x256x3, .f32⟩

abbrev hbmTy0_1 (i : Nat) : BufTy := match i % 128 with
  | 0 => ⟨S176x256x256x3, .f32⟩
  | 1 => ⟨S176x256x256, .i1⟩
  | 2 => ⟨S_, .i32⟩
  | 3 => ⟨S_, .i32⟩
  | 4 => ⟨S176x256x256, .i32⟩
  | 5 => ⟨S176x256x256, .i32⟩
  | 6 => ⟨S_, .i32⟩
  | 7 => ⟨S_, .i32⟩
  | 8 => ⟨S176x256x256, .i32⟩
  | 9 => ⟨S176x256x256, .i32⟩
  | 10 => ⟨S_, .i32⟩
  | 11 => ⟨S176x1x1, .i32⟩
  | 12 => ⟨S176x1x1, .i32⟩
  | 13 => ⟨S176x256x256, .i32⟩
  | 14 => ⟨S176x256x256, .i32⟩
  | 15 => ⟨S_, .i32⟩
  | 16 => ⟨S176x256x256, .i32⟩
  | 17 => ⟨S176x256x256, .i32⟩
  | 18 => ⟨S176x256x256, .i32⟩
  | 19 => ⟨S11534336, .i32⟩
  | 20 => ⟨S_, .i32⟩
  | 21 => ⟨S11534336, .i32⟩
  | 22 => ⟨S11534336, .i1⟩
  | 23 => ⟨S_, .i32⟩
  | 24 => ⟨S11534336, .i32⟩
  | 25 => ⟨S11534336, .i32⟩
  | 26 => ⟨S11534336, .i32⟩
  | 27 => ⟨S11534336x1, .i32⟩
  | 28 => ⟨S1, .i32⟩
  | 29 => ⟨S_, .i32⟩
  | 30 => ⟨S11534336x1, .i32⟩
  | 31 => ⟨S11534336x1, .i1⟩
  | 32 => ⟨S1x1, .i32⟩
  | 33 => ⟨S11534336x1, .i32⟩
  | 34 => ⟨S11534336x1, .i1⟩
  | 35 => ⟨S11534336x1, .i1⟩
  | 36 => ⟨S_, .i1⟩
  | 37 => ⟨S11534336, .i1⟩
  | 38 => ⟨S11534336x3, .f32⟩
  | 39 => ⟨S11534336x3, .i1⟩
  | 40 => ⟨S_, .f32⟩
  | 41 => ⟨S11534336x3, .f32⟩
  | 42 => ⟨S11534336x3, .f32⟩
  | 43 => ⟨S176x256x256x3, .f32⟩
  | 44 => ⟨S176x256x256x1, .i1⟩
  | 45 => ⟨S_, .f32⟩
  | 46 => ⟨S_, .f32⟩
  | 47 => ⟨S176x256x256x3, .i1⟩
  | 48 => ⟨S176x256x256x3, .f32⟩
  | 49 => ⟨S176x256x256x3, .f32⟩
  | 50 => ⟨S176x256x256, .i1⟩
  | 51 => ⟨S_, .i32⟩
  | 52 => ⟨S_, .i32⟩
  | 53 => ⟨S176x256x256, .i32⟩
  | 54 => ⟨S176x256x256, .i32⟩
  | 55 => ⟨S_, .i32⟩
  | 56 => ⟨S_, .i32⟩
  | 57 => ⟨S176x256x256, .i32⟩
  | 58 => ⟨S176x256x256, .i32⟩
  | 59 => ⟨S_, .i32⟩
  | 60 => ⟨S176x1x1, .i32⟩
  | 61 => ⟨S176x1x1, .i32⟩
  | 62 => ⟨S176x256x256, .i32⟩
  | 63 => ⟨S176x256x256, .i32⟩
  | 64 => ⟨S_, .i32⟩
  | 65 => ⟨S176x256x256, .i32⟩
  | 66 => ⟨S176x256x256, .i32⟩
  | 67 => ⟨S176x256x256, .i32⟩
  | 68 => ⟨S11534336, .i32⟩
  | 69 => ⟨S_, .i32⟩
  | 70 => ⟨S11534336, .i32⟩
  | 71 => ⟨S11534336, .i1⟩
  | 72 => ⟨S_, .i32⟩
  | 73 => ⟨S11534336, .i32⟩
  | 74 => ⟨S11534336, .i32⟩
  | 75 => ⟨S11534336, .i32⟩
  | 76 => ⟨S11534336x1, .i32⟩
  | 77 => ⟨S1, .i32⟩
  | 78 => ⟨S_, .i32⟩
  | 79 => ⟨S11534336x1, .i32⟩
  | 80 => ⟨S11534336x1, .i1⟩
  | 81 => ⟨S1x1, .i32⟩
  | 82 => ⟨S11534336x1, .i32⟩
  | 83 => ⟨S11534336x1, .i1⟩
  | 84 => ⟨S11534336x1, .i1⟩
  | 85 => ⟨S_, .i1⟩
  | 86 => ⟨S11534336, .i1⟩
  | 87 => ⟨S11534336x3, .f32⟩
  | 88 => ⟨S11534336x3, .i1⟩
  | 89 => ⟨S_, .f32⟩
  | 90 => ⟨S11534336x3, .f32⟩
  | 91 => ⟨S11534336x3, .f32⟩
  | 92 => ⟨S176x256x256x3, .f32⟩
  | 93 => ⟨S176x256x256x1, .i1⟩
  | 94 => ⟨S_, .f32⟩
  | 95 => ⟨S_, .f32⟩
  | 96 => ⟨S176x256x256x3, .i1⟩
  | 97 => ⟨S176x256x256x3, .f32⟩
  | 98 => ⟨S176x256x256x3, .f32⟩
  | 99 => ⟨S176x256x256, .i1⟩
  | 100 => ⟨S_, .i32⟩
  | 101 => ⟨S_, .i32⟩
  | 102 => ⟨S176x256x256, .i32⟩
  | 103 => ⟨S176x256x256, .i32⟩
  | 104 => ⟨S_, .i32⟩
  | 105 => ⟨S_, .i32⟩
  | 106 => ⟨S176x256x256, .i32⟩
  | 107 => ⟨S176x256x256, .i32⟩
  | 108 => ⟨S_, .i32⟩
  | 109 => ⟨S176x1x1, .i32⟩
  | 110 => ⟨S176x1x1, .i32⟩
  | 111 => ⟨S176x256x256, .i32⟩
  | 112 => ⟨S176x256x256, .i32⟩
  | 113 => ⟨S_, .i32⟩
  | 114 => ⟨S176x256x256, .i32⟩
  | 115 => ⟨S176x256x256, .i32⟩
  | 116 => ⟨S176x256x256, .i32⟩
  | 117 => ⟨S11534336, .i32⟩
  | 118 => ⟨S_, .i32⟩
  | 119 => ⟨S11534336, .i32⟩
  | 120 => ⟨S11534336, .i1⟩
  | 121 => ⟨S_, .i32⟩
  | 122 => ⟨S11534336, .i32⟩
  | 123 => ⟨S11534336, .i32⟩
  | 124 => ⟨S11534336, .i32⟩
  | 125 => ⟨S11534336x1, .i32⟩
  | 126 => ⟨S1, .i32⟩
  | 127 => ⟨S_, .i32⟩
  | _ => ⟨S1x256x256x3, .f32⟩

abbrev hbmTy0_2 (i : Nat) : BufTy := match i % 128 with
  | 0 => ⟨S11534336x1, .i32⟩
  | 1 => ⟨S11534336x1, .i1⟩
  | 2 => ⟨S1x1, .i32⟩
  | 3 => ⟨S11534336x1, .i32⟩
  | 4 => ⟨S11534336x1, .i1⟩
  | 5 => ⟨S11534336x1, .i1⟩
  | 6 => ⟨S_, .i1⟩
  | 7 => ⟨S11534336, .i1⟩
  | 8 => ⟨S11534336x3, .f32⟩
  | 9 => ⟨S11534336x3, .i1⟩
  | 10 => ⟨S_, .f32⟩
  | 11 => ⟨S11534336x3, .f32⟩
  | 12 => ⟨S11534336x3, .f32⟩
  | 13 => ⟨S176x256x256x3, .f32⟩
  | 14 => ⟨S176x256x256x1, .i1⟩
  | 15 => ⟨S_, .f32⟩
  | 16 => ⟨S_, .f32⟩
  | 17 => ⟨S176x256x256x3, .i1⟩
  | 18 => ⟨S176x256x256x3, .f32⟩
  | 19 => ⟨S176x256x256x3, .f32⟩
  | 20 => ⟨S176x256x256x1, .f32⟩
  | 21 => ⟨S176x256x256x3, .f32⟩
  | 22 => ⟨S176x256x256x3, .f32⟩
  | 23 => ⟨S176x256x256x1, .f32⟩
  | 24 => ⟨S176x256x256x3, .f32⟩
  | 25 => ⟨S176x256x256x3, .f32⟩
  | 26 => ⟨S176x256x256x3, .f32⟩
  | 27 => ⟨S176x256x256x1, .f32⟩
  | 28 => ⟨S176x256x256x3, .f32⟩
  | 29 => ⟨S176x256x256x3, .f32⟩
  | 30 => ⟨S176x256x256x3, .f32⟩
  | 31 => ⟨S176x256x256x1, .f32⟩
  | 32 => ⟨S176x256x256x3, .f32⟩
  | 33 => ⟨S176x256x256x3, .f32⟩
  | 34 => ⟨S176x256x256x3, .f32⟩
  | 35 => ⟨S16x11x256x256x3, .f32⟩
  | _ => ⟨S1x256x256x3, .f32⟩

abbrev hbmTy (i : Nat) : BufTy := match i / 128 with
  | 0 => hbmTy0_0 i
  | 1 => hbmTy0_1 i
  | 2 => hbmTy0_2 i
  | _ => ⟨S1x256x256x3, .f32⟩

abbrev bufTy : (tb : Table) → Fin (tcTables nBuf tb) → BufTy
  | .hbm, ⟨i, _⟩ => hbmTy i
  | _, _ => ⟨S1x256x256x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_5 : Ref sig .tc := ⟨.hbm, 31, rfl⟩
abbrev main_v23 : Ref sig .tc := ⟨.hbm, 32, rfl⟩
abbrev main_v24 : Ref sig .tc := ⟨.hbm, 33, rfl⟩
abbrev main_cst_6 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_c : Ref sig .tc := ⟨.hbm, 43, rfl⟩
abbrev main_v33 : Ref sig .tc := ⟨.hbm, 44, rfl⟩
abbrev main_v34 : Ref sig .tc := ⟨.hbm, 45, rfl⟩
abbrev main_c_7 : Ref sig .tc := ⟨.hbm, 46, rfl⟩
abbrev main_v35 : Ref sig .tc := ⟨.hbm, 47, rfl⟩
abbrev main_v36 : Ref sig .tc := ⟨.hbm, 48, rfl⟩
abbrev main_c_8 : Ref sig .tc := ⟨.hbm, 49, rfl⟩
abbrev main_v37 : Ref sig .tc := ⟨.hbm, 50, rfl⟩
abbrev main_v38 : Ref sig .tc := ⟨.hbm, 51, rfl⟩
abbrev main_c_9 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_c_10 : Ref sig .tc := ⟨.hbm, 56, rfl⟩
abbrev main_v42 : Ref sig .tc := ⟨.hbm, 57, rfl⟩
abbrev main_v43 : Ref sig .tc := ⟨.hbm, 58, rfl⟩
abbrev main_c_11 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_c_12 : Ref sig .tc := ⟨.hbm, 63, rfl⟩
abbrev main_v47 : Ref sig .tc := ⟨.hbm, 64, rfl⟩
abbrev main_v48 : Ref sig .tc := ⟨.hbm, 65, rfl⟩
abbrev main_c_13 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_c_14 : Ref sig .tc := ⟨.hbm, 70, rfl⟩
abbrev main_v52 : Ref sig .tc := ⟨.hbm, 71, rfl⟩
abbrev main_v53 : Ref sig .tc := ⟨.hbm, 72, rfl⟩
abbrev main_c_15 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_c_16 : Ref sig .tc := ⟨.hbm, 81, rfl⟩
abbrev main_call0_v0 : Ref sig .tc := ⟨.hbm, 82, rfl⟩
abbrev main_call0_v1 : Ref sig .tc := ⟨.hbm, 83, rfl⟩
abbrev main_v61 : Ref sig .tc := ⟨.hbm, 84, rfl⟩
abbrev main_c_17 : Ref sig .tc := ⟨.hbm, 85, rfl⟩
abbrev main_call1_v0 : Ref sig .tc := ⟨.hbm, 86, rfl⟩
abbrev main_call1_v1 : Ref sig .tc := ⟨.hbm, 87, rfl⟩
abbrev main_v62 : Ref sig .tc := ⟨.hbm, 88, rfl⟩
abbrev main_c_18 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_c_19 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_call2_c : Ref sig .tc := ⟨.hbm, 99, rfl⟩
abbrev main_call2_v0 : Ref sig .tc := ⟨.hbm, 100, rfl⟩
abbrev main_call2_v1 : Ref sig .tc := ⟨.hbm, 101, rfl⟩
abbrev main_call2_c_0 : Ref sig .tc := ⟨.hbm, 102, rfl⟩
abbrev main_call2_v2 : Ref sig .tc := ⟨.hbm, 103, rfl⟩
abbrev main_call2_v3 : Ref sig .tc := ⟨.hbm, 104, rfl⟩
abbrev main_call2_v4 : Ref sig .tc := ⟨.hbm, 105, rfl⟩
abbrev main_call2_v5 : Ref sig .tc := ⟨.hbm, 106, rfl⟩
abbrev main_call2_c_1 : Ref sig .tc := ⟨.hbm, 107, rfl⟩
abbrev main_call2_c_2 : Ref sig .tc := ⟨.hbm, 108, rfl⟩
abbrev main_call2_v6 : Ref sig .tc := ⟨.hbm, 109, rfl⟩
abbrev main_call2_v7 : Ref sig .tc := ⟨.hbm, 110, rfl⟩
abbrev main_call2_v8 : Ref sig .tc := ⟨.hbm, 111, rfl⟩
abbrev main_call2_v9 : Ref sig .tc := ⟨.hbm, 112, rfl⟩
abbrev main_call2_v10 : Ref sig .tc := ⟨.hbm, 113, rfl⟩
abbrev main_call2_v11 : Ref sig .tc := ⟨.hbm, 114, rfl⟩
abbrev main_call2_c_3 : Ref sig .tc := ⟨.hbm, 115, rfl⟩
abbrev main_call2_v12 : Ref sig .tc := ⟨.hbm, 116, rfl⟩
abbrev main_call2_v13 : Ref sig .tc := ⟨.hbm, 117, rfl⟩
abbrev main_call2_v14 : Ref sig .tc := ⟨.hbm, 118, rfl⟩
abbrev main_call2_cst : Ref sig .tc := ⟨.hbm, 119, rfl⟩
abbrev main_call2_v15 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_cst_20 : Ref sig .tc := ⟨.hbm, 124, rfl⟩
abbrev main_call3_v0 : Ref sig .tc := ⟨.hbm, 125, rfl⟩
abbrev main_call3_v1 : Ref sig .tc := ⟨.hbm, 126, rfl⟩
abbrev main_call3_v2 : Ref sig .tc := ⟨.hbm, 127, rfl⟩
abbrev main_v74 : Ref sig .tc := ⟨.hbm, 128, rfl⟩
abbrev main_v75 : Ref sig .tc := ⟨.hbm, 129, rfl⟩
abbrev main_c_21 : Ref sig .tc := ⟨.hbm, 130, rfl⟩
abbrev main_call4_v0 : Ref sig .tc := ⟨.hbm, 131, rfl⟩
abbrev main_call4_v1 : Ref sig .tc := ⟨.hbm, 132, rfl⟩
abbrev main_v76 : Ref sig .tc := ⟨.hbm, 133, rfl⟩
abbrev main_c_22 : Ref sig .tc := ⟨.hbm, 134, rfl⟩
abbrev main_call5_v0 : Ref sig .tc := ⟨.hbm, 135, rfl⟩
abbrev main_call5_v1 : Ref sig .tc := ⟨.hbm, 136, rfl⟩
abbrev main_v77 : Ref sig .tc := ⟨.hbm, 137, rfl⟩
abbrev main_c_23 : Ref sig .tc := ⟨.hbm, 138, rfl⟩
abbrev main_v78 : Ref sig .tc := ⟨.hbm, 139, rfl⟩
abbrev main_v79 : Ref sig .tc := ⟨.hbm, 140, rfl⟩
abbrev main_v80 : Ref sig .tc := ⟨.hbm, 141, rfl⟩
abbrev main_v81 : Ref sig .tc := ⟨.hbm, 142, rfl⟩
abbrev main_c_24 : Ref sig .tc := ⟨.hbm, 143, rfl⟩
abbrev main_v82 : Ref sig .tc := ⟨.hbm, 144, rfl⟩
abbrev main_v83 : Ref sig .tc := ⟨.hbm, 145, rfl⟩
abbrev main_v84 : Ref sig .tc := ⟨.hbm, 146, rfl⟩
abbrev main_v85 : Ref sig .tc := ⟨.hbm, 147, rfl⟩
abbrev main_call6_c : Ref sig .tc := ⟨.hbm, 148, rfl⟩
abbrev main_call6_v0 : Ref sig .tc := ⟨.hbm, 149, rfl⟩
abbrev main_call6_v1 : Ref sig .tc := ⟨.hbm, 150, rfl⟩
abbrev main_call6_c_0 : Ref sig .tc := ⟨.hbm, 151, rfl⟩
abbrev main_call6_v2 : Ref sig .tc := ⟨.hbm, 152, rfl⟩
abbrev main_call6_v3 : Ref sig .tc := ⟨.hbm, 153, rfl⟩
abbrev main_call6_v4 : Ref sig .tc := ⟨.hbm, 154, rfl⟩
abbrev main_call6_v5 : Ref sig .tc := ⟨.hbm, 155, rfl⟩
abbrev main_call6_c_1 : Ref sig .tc := ⟨.hbm, 156, rfl⟩
abbrev main_call6_c_2 : Ref sig .tc := ⟨.hbm, 157, rfl⟩
abbrev main_call6_v6 : Ref sig .tc := ⟨.hbm, 158, rfl⟩
abbrev main_call6_v7 : Ref sig .tc := ⟨.hbm, 159, rfl⟩
abbrev main_call6_v8 : Ref sig .tc := ⟨.hbm, 160, rfl⟩
abbrev main_call6_v9 : Ref sig .tc := ⟨.hbm, 161, rfl⟩
abbrev main_call6_v10 : Ref sig .tc := ⟨.hbm, 162, rfl⟩
abbrev main_call6_v11 : Ref sig .tc := ⟨.hbm, 163, rfl⟩
abbrev main_call6_c_3 : Ref sig .tc := ⟨.hbm, 164, rfl⟩
abbrev main_call6_v12 : Ref sig .tc := ⟨.hbm, 165, rfl⟩
abbrev main_call6_v13 : Ref sig .tc := ⟨.hbm, 166, rfl⟩
abbrev main_call6_v14 : Ref sig .tc := ⟨.hbm, 167, rfl⟩
abbrev main_call6_cst : Ref sig .tc := ⟨.hbm, 168, rfl⟩
abbrev main_call6_v15 : Ref sig .tc := ⟨.hbm, 169, rfl⟩
abbrev main_v86 : Ref sig .tc := ⟨.hbm, 170, rfl⟩
abbrev main_v87 : Ref sig .tc := ⟨.hbm, 171, rfl⟩
abbrev main_v88 : Ref sig .tc := ⟨.hbm, 172, rfl⟩
abbrev main_cst_25 : Ref sig .tc := ⟨.hbm, 173, rfl⟩
abbrev main_call7_v0 : Ref sig .tc := ⟨.hbm, 174, rfl⟩
abbrev main_call7_v1 : Ref sig .tc := ⟨.hbm, 175, rfl⟩
abbrev main_call7_v2 : Ref sig .tc := ⟨.hbm, 176, rfl⟩
abbrev main_v89 : Ref sig .tc := ⟨.hbm, 177, rfl⟩
abbrev main_v90 : Ref sig .tc := ⟨.hbm, 178, rfl⟩
abbrev main_c_26 : Ref sig .tc := ⟨.hbm, 179, rfl⟩
abbrev main_call8_v0 : Ref sig .tc := ⟨.hbm, 180, rfl⟩
abbrev main_call8_v1 : Ref sig .tc := ⟨.hbm, 181, rfl⟩
abbrev main_v91 : Ref sig .tc := ⟨.hbm, 182, rfl⟩
abbrev main_c_27 : Ref sig .tc := ⟨.hbm, 183, rfl⟩
abbrev main_call9_v0 : Ref sig .tc := ⟨.hbm, 184, rfl⟩
abbrev main_call9_v1 : Ref sig .tc := ⟨.hbm, 185, rfl⟩
abbrev main_v92 : Ref sig .tc := ⟨.hbm, 186, rfl⟩
abbrev main_c_28 : Ref sig .tc := ⟨.hbm, 187, rfl⟩
abbrev main_v93 : Ref sig .tc := ⟨.hbm, 188, rfl⟩
abbrev main_v94 : Ref sig .tc := ⟨.hbm, 189, rfl⟩
abbrev main_v95 : Ref sig .tc := ⟨.hbm, 190, rfl⟩
abbrev main_v96 : Ref sig .tc := ⟨.hbm, 191, rfl⟩
abbrev main_c_29 : Ref sig .tc := ⟨.hbm, 192, rfl⟩
abbrev main_v97 : Ref sig .tc := ⟨.hbm, 193, rfl⟩
abbrev main_v98 : Ref sig .tc := ⟨.hbm, 194, rfl⟩
abbrev main_v99 : Ref sig .tc := ⟨.hbm, 195, rfl⟩
abbrev main_v100 : Ref sig .tc := ⟨.hbm, 196, rfl⟩
abbrev main_call10_c : Ref sig .tc := ⟨.hbm, 197, rfl⟩
abbrev main_call10_v0 : Ref sig .tc := ⟨.hbm, 198, rfl⟩
abbrev main_call10_v1 : Ref sig .tc := ⟨.hbm, 199, rfl⟩
abbrev main_call10_c_0 : Ref sig .tc := ⟨.hbm, 200, rfl⟩
abbrev main_call10_v2 : Ref sig .tc := ⟨.hbm, 201, rfl⟩
abbrev main_call10_v3 : Ref sig .tc := ⟨.hbm, 202, rfl⟩
abbrev main_call10_v4 : Ref sig .tc := ⟨.hbm, 203, rfl⟩
abbrev main_call10_v5 : Ref sig .tc := ⟨.hbm, 204, rfl⟩
abbrev main_call10_c_1 : Ref sig .tc := ⟨.hbm, 205, rfl⟩
abbrev main_call10_c_2 : Ref sig .tc := ⟨.hbm, 206, rfl⟩
abbrev main_call10_v6 : Ref sig .tc := ⟨.hbm, 207, rfl⟩
abbrev main_call10_v7 : Ref sig .tc := ⟨.hbm, 208, rfl⟩
abbrev main_call10_v8 : Ref sig .tc := ⟨.hbm, 209, rfl⟩
abbrev main_call10_v9 : Ref sig .tc := ⟨.hbm, 210, rfl⟩
abbrev main_call10_v10 : Ref sig .tc := ⟨.hbm, 211, rfl⟩
abbrev main_call10_v11 : Ref sig .tc := ⟨.hbm, 212, rfl⟩
abbrev main_call10_c_3 : Ref sig .tc := ⟨.hbm, 213, rfl⟩
abbrev main_call10_v12 : Ref sig .tc := ⟨.hbm, 214, rfl⟩
abbrev main_call10_v13 : Ref sig .tc := ⟨.hbm, 215, rfl⟩
abbrev main_call10_v14 : Ref sig .tc := ⟨.hbm, 216, rfl⟩
abbrev main_call10_cst : Ref sig .tc := ⟨.hbm, 217, rfl⟩
abbrev main_call10_v15 : Ref sig .tc := ⟨.hbm, 218, rfl⟩
abbrev main_v101 : Ref sig .tc := ⟨.hbm, 219, rfl⟩
abbrev main_v102 : Ref sig .tc := ⟨.hbm, 220, rfl⟩
abbrev main_v103 : Ref sig .tc := ⟨.hbm, 221, rfl⟩
abbrev main_cst_30 : Ref sig .tc := ⟨.hbm, 222, rfl⟩
abbrev main_call11_v0 : Ref sig .tc := ⟨.hbm, 223, rfl⟩
abbrev main_call11_v1 : Ref sig .tc := ⟨.hbm, 224, rfl⟩
abbrev main_call11_v2 : Ref sig .tc := ⟨.hbm, 225, rfl⟩
abbrev main_v104 : Ref sig .tc := ⟨.hbm, 226, rfl⟩
abbrev main_v105 : Ref sig .tc := ⟨.hbm, 227, rfl⟩
abbrev main_c_31 : Ref sig .tc := ⟨.hbm, 228, rfl⟩
abbrev main_call12_v0 : Ref sig .tc := ⟨.hbm, 229, rfl⟩
abbrev main_call12_v1 : Ref sig .tc := ⟨.hbm, 230, rfl⟩
abbrev main_v106 : Ref sig .tc := ⟨.hbm, 231, rfl⟩
abbrev main_c_32 : Ref sig .tc := ⟨.hbm, 232, rfl⟩
abbrev main_call13_v0 : Ref sig .tc := ⟨.hbm, 233, rfl⟩
abbrev main_call13_v1 : Ref sig .tc := ⟨.hbm, 234, rfl⟩
abbrev main_v107 : Ref sig .tc := ⟨.hbm, 235, rfl⟩
abbrev main_c_33 : Ref sig .tc := ⟨.hbm, 236, rfl⟩
abbrev main_v108 : Ref sig .tc := ⟨.hbm, 237, rfl⟩
abbrev main_v109 : Ref sig .tc := ⟨.hbm, 238, rfl⟩
abbrev main_v110 : Ref sig .tc := ⟨.hbm, 239, rfl⟩
abbrev main_v111 : Ref sig .tc := ⟨.hbm, 240, rfl⟩
abbrev main_c_34 : Ref sig .tc := ⟨.hbm, 241, rfl⟩
abbrev main_v112 : Ref sig .tc := ⟨.hbm, 242, rfl⟩
abbrev main_v113 : Ref sig .tc := ⟨.hbm, 243, rfl⟩
abbrev main_v114 : Ref sig .tc := ⟨.hbm, 244, rfl⟩
abbrev main_v115 : Ref sig .tc := ⟨.hbm, 245, rfl⟩
abbrev main_call14_c : Ref sig .tc := ⟨.hbm, 246, rfl⟩
abbrev main_call14_v0 : Ref sig .tc := ⟨.hbm, 247, rfl⟩
abbrev main_call14_v1 : Ref sig .tc := ⟨.hbm, 248, rfl⟩
abbrev main_call14_c_0 : Ref sig .tc := ⟨.hbm, 249, rfl⟩
abbrev main_call14_v2 : Ref sig .tc := ⟨.hbm, 250, rfl⟩
abbrev main_call14_v3 : Ref sig .tc := ⟨.hbm, 251, rfl⟩
abbrev main_call14_v4 : Ref sig .tc := ⟨.hbm, 252, rfl⟩
abbrev main_call14_v5 : Ref sig .tc := ⟨.hbm, 253, rfl⟩
abbrev main_call14_c_1 : Ref sig .tc := ⟨.hbm, 254, rfl⟩
abbrev main_call14_c_2 : Ref sig .tc := ⟨.hbm, 255, rfl⟩
abbrev main_call14_v6 : Ref sig .tc := ⟨.hbm, 256, rfl⟩
abbrev main_call14_v7 : Ref sig .tc := ⟨.hbm, 257, rfl⟩
abbrev main_call14_v8 : Ref sig .tc := ⟨.hbm, 258, rfl⟩
abbrev main_call14_v9 : Ref sig .tc := ⟨.hbm, 259, rfl⟩
abbrev main_call14_v10 : Ref sig .tc := ⟨.hbm, 260, rfl⟩
abbrev main_call14_v11 : Ref sig .tc := ⟨.hbm, 261, rfl⟩
abbrev main_call14_c_3 : Ref sig .tc := ⟨.hbm, 262, rfl⟩
abbrev main_call14_v12 : Ref sig .tc := ⟨.hbm, 263, rfl⟩
abbrev main_call14_v13 : Ref sig .tc := ⟨.hbm, 264, rfl⟩
abbrev main_call14_v14 : Ref sig .tc := ⟨.hbm, 265, rfl⟩
abbrev main_call14_cst : Ref sig .tc := ⟨.hbm, 266, rfl⟩
abbrev main_call14_v15 : Ref sig .tc := ⟨.hbm, 267, rfl⟩
abbrev main_v116 : Ref sig .tc := ⟨.hbm, 268, rfl⟩
abbrev main_v117 : Ref sig .tc := ⟨.hbm, 269, rfl⟩
abbrev main_v118 : Ref sig .tc := ⟨.hbm, 270, rfl⟩
abbrev main_cst_35 : Ref sig .tc := ⟨.hbm, 271, rfl⟩
abbrev main_call15_v0 : Ref sig .tc := ⟨.hbm, 272, rfl⟩
abbrev main_call15_v1 : Ref sig .tc := ⟨.hbm, 273, rfl⟩
abbrev main_call15_v2 : Ref sig .tc := ⟨.hbm, 274, rfl⟩
abbrev main_v119 : Ref sig .tc := ⟨.hbm, 275, rfl⟩
abbrev main_v120 : Ref sig .tc := ⟨.hbm, 276, rfl⟩
abbrev main_v121 : Ref sig .tc := ⟨.hbm, 277, rfl⟩
abbrev main_v122 : Ref sig .tc := ⟨.hbm, 278, rfl⟩
abbrev main_v123 : Ref sig .tc := ⟨.hbm, 279, rfl⟩
abbrev main_v124 : Ref sig .tc := ⟨.hbm, 280, rfl⟩
abbrev main_v125 : Ref sig .tc := ⟨.hbm, 281, rfl⟩
abbrev main_v126 : Ref sig .tc := ⟨.hbm, 282, rfl⟩
abbrev main_v127 : Ref sig .tc := ⟨.hbm, 283, rfl⟩
abbrev main_v128 : Ref sig .tc := ⟨.hbm, 284, rfl⟩
abbrev main_v129 : Ref sig .tc := ⟨.hbm, 285, rfl⟩
abbrev main_v130 : Ref sig .tc := ⟨.hbm, 286, rfl⟩
abbrev main_v131 : Ref sig .tc := ⟨.hbm, 287, rfl⟩
abbrev main_v132 : Ref sig .tc := ⟨.hbm, 288, rfl⟩
abbrev main_v133 : Ref sig .tc := ⟨.hbm, 289, rfl⟩
abbrev main_v134 : Ref sig .tc := ⟨.hbm, 290, rfl⟩
abbrev main_v135 : Ref sig .tc := ⟨.hbm, 291, rfl⟩

abbrev nD : Nat := 1
abbrev τ : Topo := Topo.v7x

variable {F : FTy → Type} [FloatOps F]

class Facts₀ : Prop where
  shapeCasts_S1x256x256x3_S256x256x3 : S1x256x256x3.ShapeCasts S256x256x3
  bcast_S256x256x3_S176x256x256x3_1_2_3 : S256x256x3.BroadcastsInDim S176x256x256x3 (![1, 2, 3] : Fin 3 → Fin S176x256x256x3.rank)
  shapeCasts_S16x11x256x256x2_S176x256x256x2 : S16x11x256x256x2.ShapeCasts S176x256x256x2
  slices_S176x256x256x2_S176x256x256x1_0_0_0_0 : S176x256x256x2.Slices ![0, 0, 0, 0] S176x256x256x1
  shapeCasts_S176x256x256x1_S176x256x256 : S176x256x256x1.ShapeCasts S176x256x256
  bcast_S_S176x256x256 : S_.BroadcastsInDim S176x256x256 (![] : Fin 0 → Fin S176x256x256.rank)
  slices_S176x256x256x2_S176x256x256x1_0_0_0_1 : S176x256x256x2.Slices ![0, 0, 0, 1] S176x256x256x1
  shapeCasts_S176x256x256x3_S11534336x3 : S176x256x256x3.ShapeCasts S11534336x3
  bcast_S176_S176x1x1_0 : S176.BroadcastsInDim S176x1x1 (![0] : Fin 1 → Fin S176x1x1.rank)
  bcast_S_S176x1x1 : S_.BroadcastsInDim S176x1x1 (![] : Fin 0 → Fin S176x1x1.rank)
  bcast_S176x1x1_S176x256x256_0_1_2 : S176x1x1.BroadcastsInDim S176x256x256 (![0, 1, 2] : Fin 3 → Fin S176x256x256.rank)
  shapeCasts_S176x256x256_S11534336 : S176x256x256.ShapeCasts S11534336
  bcast_S_S11534336 : S_.BroadcastsInDim S11534336 (![] : Fin 0 → Fin S11534336.rank)
  bcast_S11534336_S11534336x1_0 : S11534336.BroadcastsInDim S11534336x1 (![0] : Fin 1 → Fin S11534336x1.rank)
  bcast_S_S11534336x1 : S_.BroadcastsInDim S11534336x1 (![] : Fin 0 → Fin S11534336x1.rank)
  bcast_S1_S1x1_1 : S1.BroadcastsInDim S1x1 (![1] : Fin 1 → Fin S1x1.rank)
  bcast_S1x1_S11534336x1_0_1 : S1x1.BroadcastsInDim S11534336x1 (![0, 1] : Fin 2 → Fin S11534336x1.rank)
  reducesTo_S11534336x1_S11534336_d1 : S11534336x1.ReducesTo [1] S11534336
  h_S_ : 0 < S_.numel
  bcast_S11534336_S11534336x3_0 : S11534336.BroadcastsInDim S11534336x3 (![0] : Fin 1 → Fin S11534336x3.rank)
  bcast_S_S11534336x3 : S_.BroadcastsInDim S11534336x3 (![] : Fin 0 → Fin S11534336x3.rank)
  shapeCasts_S11534336x3_S176x256x256x3 : S11534336x3.ShapeCasts S176x256x256x3
  bcast_S176x256x256_S176x256x256x1_0_1_2 : S176x256x256.BroadcastsInDim S176x256x256x1 (![0, 1, 2] : Fin 3 → Fin S176x256x256x1.rank)
  bcast_S176x256x256x1_S176x256x256x3_0_1_2_3 : S176x256x256x1.BroadcastsInDim S176x256x256x3 (![0, 1, 2, 3] : Fin 4 → Fin S176x256x256x3.rank)
  bcast_S_S176x256x256x3 : S_.BroadcastsInDim S176x256x256x3 (![] : Fin 0 → Fin S176x256x256x3.rank)
  shapeCasts_S176x256x256x3_S16x11x256x256x3 : S176x256x256x3.ShapeCasts S16x11x256x256x3
  gather_S11534336x3_S11534336x1_S11534336x3_1_0_n_n_0_1_13_wf : GatherDims.WF S11534336x3 S11534336x1 S11534336x3 [1] [0] [] [0] [] 1 ![1, 3]

variable [Facts₀]

def gather_S11534336x3_S11534336x1_S11534336x3_1_0_n_n_0_1_13 : GatherDims S11534336x3 S11534336x1 S11534336x3 where
  offsetDims := [1]
  collapsedSliceDims := [0]
  operandBatchingDims := []
  startIndicesBatchingDims := []
  startIndexMap := [0]
  indexVectorDim := 1
  sliceSizes := ![1, 3]
  wf := gather_S11534336x3_S11534336x1_S11534336x3_1_0_n_n_0_1_13_wf

class Facts : Prop extends Facts₀ where

variable [Facts]
-- ==== Proof.FrameKBody.lean ====
/- The frame of the program, first half: the one grid region. The program reshapes and slices its second argument into two
   arrays of coordinates, runs ONE region over a grid of 22 points, and continues with straight lines of host
   operations. At each point the region stages one block (8 x 256 x 256) of each coordinate array and of each of its four
   result arrays; the body reads the two coordinate blocks whole and overwrites each result block whole with a function
   of ONE coordinate block (the integer part and the fractional part of the scaled coordinate). Here: what each
   result block holds after the body, the body's triple, the proof data of the region and the body obligation at every point. -/
import proofs.«115037_j71897752535328_2_alg».proof.Proof.Gen.Kernel.Launch
import proofs.«115037_j71897752535328_2_alg».proof.Proof.Gen.Kernel.Skeleton
import proofs.«115037_j71897752535328_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- The lines after the region, stretch by stretch, in order. -/
abbrev tailOps : List (List (HloOp τ sig (Elt F))) :=
  [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22, hostOps1_23, hostOps1_24, hostOps1_25, hostOps1_26, hostOps1_27, hostOps1_28, hostOps1_29, hostOps1_30, hostOps1_31, hostOps1_32]

/-- Core `c`'s buffer contents when the region is entered, as a valuation: the launch contents after the five lines
    before the region (two slices of the second argument, reshaped). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any proof data
    whose array is `V`'s and whose body leaves the block in place: unfetched, the window's index has not moved. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

/-- The one rectangle the body reads and writes through: the whole block. -/
abbrev r0 : Rect S8x256x256 := Rect.unit (s := S8x256x256) ![0, 0, 0] S8x256x256.size inb_S8x256x256_S8x256x256_0_0_0

/-! ## What the body leaves in each result window's buffer

Each result block is stored once, whole; the stored value is a function of one coordinate block alone. -/

/-- Window 2 (integers): the integer part of the first scaled coordinate. -/
def out0_2 (x0 : Vec F S8x256x256 .f32) : Vec F S8x256x256 .i32 := View.canon [⟨r0, k0_pay7 (View.ld x0 r0)⟩]
/-- Window 3 (integers): the integer part of the second scaled coordinate. -/
def out0_3 (x1 : Vec F S8x256x256 .f32) : Vec F S8x256x256 .i32 := View.canon [⟨r0, k0_pay8 (View.ld x1 r0)⟩]
/-- Window 4: the fractional part of the first scaled coordinate. -/
def out0_4 (x0 : Vec F S8x256x256 .f32) : Vec F S8x256x256 .f32 := View.canon [⟨r0, k0_pay5 (View.ld x0 r0)⟩]
/-- Window 5: the fractional part of the second scaled coordinate. -/
def out0_5 (x1 : Vec F S8x256x256 .f32) : Vec F S8x256x256 .f32 := View.canon [⟨r0, k0_pay6 (View.ld x1 r0)⟩]

/-- One store through the whole-block rectangle covers the block, at either element type. -/
theorem cover_i (p0 : Vec F S8x256x256 .i32) (y : S8x256x256.Idx) :
    ∃ pc ∈ ([⟨r0, p0⟩] : List (View.Piece (Elt F) S8x256x256 .i32)), y ∈ pc.1.set :=
  View.cover_of_tiled [⟨r0, p0⟩] S8x256x256.size (by rfl) y
theorem cover_f (p0 : Vec F S8x256x256 .f32) (y : S8x256x256.Idx) :
    ∃ pc ∈ ([⟨r0, p0⟩] : List (View.Piece (Elt F) S8x256x256 .f32)), y ∈ pc.1.set :=
  View.cover_of_tiled [⟨r0, p0⟩] S8x256x256.size (by rfl) y

/-! ## The body's triple -/

set_option maxHeartbeats 1000000 in
/-- The kernel body on whole staging memrefs, the coordinate blocks' at contents `x0`, `x1` and the result blocks' at
    anything, runs to the continuation holding the coordinate blocks as they were and each result block at `out0_W`
    of its coordinate block. (The body also reads each result block before storing to it; nothing uses what it read.) -/
theorem sound_kernel (c : Dev nD) (E : Set ℕ) (i : grid0.Coords)
    (arg1 : Memref sig .tc .vmem S8x256x256 .f32) (harg1 : arg1.IsWhole) (arg2 : Memref sig .tc .vmem S8x256x256 .f32) (harg2 : arg2.IsWhole)
    (arg3 : Memref sig .tc .vmem S8x256x256 .i32) (harg3 : arg3.IsWhole) (arg4 : Memref sig .tc .vmem S8x256x256 .i32) (harg4 : arg4.IsWhole)
    (arg5 : Memref sig .tc .vmem S8x256x256 .f32) (harg5 : arg5.IsWhole) (arg6 : Memref sig .tc .vmem S8x256x256 .f32) (harg6 : arg6.IsWhole)
    (x0 : Vec F S8x256x256 .f32) (x1 : Vec F S8x256x256 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare (out0_2 x0) ∗ owns (c : Thread nD τ) arg4 fullShare (out0_3 x1)
            ∗ owns (c : Thread nD τ) arg5 fullShare (out0_4 x0) ∗ owns (c : Thread nD τ) arg6 fullShare (out0_5 x1)) -∗ K ⟨⟩))
      ⊢ wp frame (wpE (defs₀ (F := F)) Variants.none c none) E (cc0__coords_kernel i arg1 harg1 arg2 harg2 arg3 harg3 arg4 harg4 arg5 harg5 arg6 harg6) K := by
  simp only [cc0__coords_kernel_eq_skeleton]; unfold cc0__coords_kernel_skel
  unfold owns
  iintro ⟨⟨%f0, %hf0, H0⟩, ⟨%f1, %hf1, H1⟩, ⟨%d2, %f2, -, H2⟩, ⟨%d3, %f3, -, H3⟩, ⟨%d4, %f4, -, H4⟩, ⟨%d5, %f5, -, H5⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover_i _)
  isplitl [H3]
  · iexists _; isplitr
    swap; · iexact H3
    ipureintro
    exact View.read_writes_eq_canon _ _ _ (cover_i _)
  isplitl [H4]
  · iexists _; isplitr
    swap; · iexact H4
    ipureintro
    exact View.read_writes_eq_canon _ _ _ (cover_f _)
  iexists _; isplitr
  swap; · iexact H5
  ipureintro
  exact View.read_writes_eq_canon _ _ _ (cover_f _)

/-! ## The region's proof data -/

/-- The proof data of the region on core `c`: the arrays as the region finds them (`V`); after the body at point `t`
    each coordinate window's buffer at its block and each result window's at `out0_W` of its coordinate block; the
    invariant the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t)
    | ⟨3, _⟩ => out0_3 (iblk m c 1 t)
    | ⟨4, _⟩ => out0_4 (iblk m c 0 t)
    | ⟨5, _⟩ => out0_5 (iblk m c 1 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) := by dsimp only [dats]
theorem after0_3 (c : Dev nD) (t : Fin cfg0.N) : (dats m 0 c).after 3 t = out0_3 (iblk m c 1 t) := by dsimp only [dats]
theorem after0_4 (c : Dev nD) (t : Fin cfg0.N) : (dats m 0 c).after 4 t = out0_4 (iblk m c 0 t) := by dsimp only [dats]
theorem after0_5 (c : Dev nD) (t : Fin cfg0.N) : (dats m 0 c).after 5 t = out0_5 (iblk m c 1 t) := by dsimp only [dats]

/-- Each coordinate window's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the coordinate windows' memrefs hold their blocks, so `sound_kernel` applies; the invariant
    and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Fr

end
-- ==== Proof.FrameKTail.lean ====
/- The frame of the program, second half: the straight lines around the one region. Every line writes exactly one buffer,
   its own result. The lines before the region write buffers of index 2 and up; the lines after it write buffers of
   index 11 and up. The two arguments are buffers 0 and 1 and the region's six arrays are buffers 4, 6, 7, 8, 9, 10: so
   no line writes an argument, and no line after the region writes one of its arrays. Counted once per stretch of lines,
   not once per line and array. -/
import proofs.«115037_j71897752535328_2_alg».proof.Proof.Gen.Kernel.Launch
import Idealize.ShloMosaic.Lib.Pipeline.FrameSuffix

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## A line's one result buffer, by its index -/

/-- The operation writes one buffer only, a TensorCore reference of index at least `n`. -/
def WritesFrom (n : ℕ) (op : HloOp τ sig (Elt F)) : Prop :=
  ∃ y : Ref sig .tc, op.writes = {Proc.devRef .tc y} ∧ n ≤ y.idx.val

/-- Such an operation writes no reference of a smaller index: two references of different indices are different
    buffers. -/
theorem not_mem_writes_of_lt {n : ℕ} {op : HloOp τ sig (Elt F)} (h : WritesFrom n op) (x : Ref sig .tc) (hx : x.idx.val < n) :
    Proc.devRef .tc x ∉ op.writes := by
  obtain ⟨y, hw, hy⟩ := h
  rw [hw, Finset.mem_singleton]
  refine StableHlo.devRef_ne_of_ne fun e => ?_
  have h2 : x.idx.val = y.idx.val := congrArg (fun r : Ref sig .tc => r.idx.val) e
  omega

/-- Through a whole line of such operations. -/
theorem forall_not_mem_writes_of_lt {n : ℕ} {ops : List (HloOp τ sig (Elt F))} (h : ops.Forall (WritesFrom n)) (x : Ref sig .tc)
    (hx : x.idx.val < n) : ∀ op ∈ ops, Proc.devRef .tc x ∉ op.writes :=
  fun op hop => not_mem_writes_of_lt ((List.forall_iff_forall_mem.mp h) op hop) x hx

/-- A property of every line of every stretch, from the stretches one by one. -/
theorem forall_mem_of_forall {α : Type} {p : α → Prop} {L : List (List α)} (h : L.Forall fun l => l.Forall p) :
    ∀ l ∈ L, ∀ a ∈ l, p a :=
  fun l hl a ha => (List.forall_iff_forall_mem.mp ((List.forall_iff_forall_mem.mp h) l hl)) a ha

/-- The region's six arrays are buffers of index below 11. -/
theorem arr_lt : ∀ w : Fin 6, (Pipeline.arrRef spec0 w).idx.val < 11 := by decide

/-! ## The lines before the region -/

/-- They write buffers 2 to 6. -/
theorem high_pre : (hostOps0 : List (HloOp τ sig (Elt F))).Forall (WritesFrom 2) := by
  simp only [hostOps0, List.Forall]
  repeat' apply And.intro
  all_goals exact ⟨_, rfl, by decide⟩

theorem hostOps0_fresh : (hostOps0 : List (HloOp τ sig (Elt F))).Forall fun op => op.fresh = ∅ := by
  simp only [List.Forall]; repeat' constructor

/-! ## The lines after the region, stretch by stretch -/

theorem high_0 : (hostOps1 : List (HloOp τ sig (Elt F))).Forall (WritesFrom 11) := by
  simp only [hostOps1, List.Forall]
  repeat' apply And.intro
  all_goals exact ⟨_, rfl, by decide⟩
theorem fresh_0 : (hostOps1 : List (HloOp τ sig (Elt F))).Forall fun op => op.fresh = ∅ := by
  simp only [List.Forall]; repeat' constructor
theorem high_1 : (hostOps1_1 : List (HloOp τ sig (Elt F))).Forall (WritesFrom 11) := by
  simp only [hostOps1_1, List.Forall]
  repeat' apply And.intro
  all_goals exact ⟨_, rfl, by decide⟩
theorem fresh_1 : (hostOps1_1 : List (HloOp τ sig (Elt F))).Forall fun op => op.fresh = ∅ := by
  simp only [List.Forall]; repeat' constructor
theorem high_2 : (hostOps1_2 : List (HloOp τ sig (Elt F))).Forall (WritesFrom 11) := by
  simp only [hostOps1_2, List.Forall]
  repeat' apply And.intro
  all_goals exact ⟨_, rfl, by decide⟩
theorem fresh_2 : (hostOps1_2 : List (HloOp τ sig (Elt F))).Forall fun op => op.fresh = ∅ := by
  simp only [List.Forall]; repeat' constructor
theorem high_3 : (hostOps1_3 : List (HloOp τ sig (Elt F))).Forall (WritesFrom 11) := by
  simp only [hostOps1_3, List.Forall]
  repeat' apply And.intro
  all_goals exact ⟨_, rfl, by decide⟩
theorem fresh_3 : (hostOps1_3 : List (HloOp τ sig (Elt F))).Forall fun op => op.fresh = ∅ := by
  simp only [List.Forall]; repeat' constructor
theorem high_4 : (hostOps1_4 : List (HloOp τ sig (Elt F))).Forall (WritesFrom 11) := by
  simp only [hostOps1_4, List.Forall]
  repeat' apply And.intro
  all_goals exact ⟨_, rfl, by decide⟩
theorem fresh_4 : (hostOps1_4 : List (HloOp τ sig (Elt F))).Forall fun op => op.fresh = ∅ := by
  simp only [List.Forall]; repeat' constructor
theorem high_5 : (hostOps1_5 : List (HloOp τ sig (Elt F))).Forall (WritesFrom 11) := by
  simp only [hostOps1_5, List.Forall]
  repeat' apply And.intro
  all_goals exact ⟨_, rfl, by decide⟩
theorem fresh_5 : (hostOps1_5 : List (HloOp τ sig (Elt F))).Forall fun op => op.fresh = ∅ := by
  simp only [List.Forall]; repeat' constructor
theorem high_6 : (hostOps1_6 : List (HloOp τ sig (Elt F))).Forall (WritesFrom 11) := by
  simp only [hostOps1_6, List.Forall]
  repeat' apply And.intro
  all_goals exact ⟨_, rfl, by decide⟩
theorem fresh_6 : (hostOps1_6 : List (HloOp τ sig (Elt F))).Forall fun op => op.fresh = ∅ := by
  simp only [List.Forall]; repeat' constructor
theorem high_7 : (hostOps1_7 : List (HloOp τ sig (Elt F))).Forall (WritesFrom 11) := by
  simp only [hostOps1_7, List.Forall]
  repeat' apply And.intro
  all_goals exact ⟨_, rfl, by decide⟩
theorem fresh_7 : (hostOps1_7 : List (HloOp τ sig (Elt F))).Forall fun op => op.fresh = ∅ := by
  simp only [List.Forall]; repeat' constructor
theorem high_8 : (hostOps1_8 : List (HloOp τ sig (Elt F))).Forall (WritesFrom 11) := by
  simp only [hostOps1_8, List.Forall]
  repeat' apply And.intro
  all_goals exact ⟨_, rfl, by decide⟩
theorem fresh_8 : (hostOps1_8 : List (HloOp τ sig (Elt F))).Forall fun op => op.fresh = ∅ := by
  simp only [List.Forall]; repeat' constructor
theorem high_9 : (hostOps1_9 : List (HloOp τ sig (Elt F))).Forall (WritesFrom 11) := by
  simp only [hostOps1_9, List.Forall]
  repeat' apply And.intro
  all_goals exact ⟨_, rfl, by decide⟩
theorem fresh_9 : (hostOps1_9 : List (HloOp τ sig (Elt F))).Forall fun op => op.fresh = ∅ := by
  simp only [List.Forall]; repeat' constructor
theorem high_10 : (hostOps1_10 : List (HloOp τ sig (Elt F))).Forall (WritesFrom 11) := by
  simp only [hostOps1_10, List.Forall]
  repeat' apply And.intro
  all_goals exact ⟨_, rfl, by decide⟩
theorem fresh_10 : (hostOps1_10 : List (HloOp τ sig (Elt F))).Forall fun op => op.fresh = ∅ := by
  simp only [List.Forall]; repeat' constructor
theorem high_11 : (hostOps1_11 : List (HloOp τ sig (Elt F))).Forall (WritesFrom 11) := by
  simp only [hostOps1_11, List.Forall]
  repeat' apply And.intro
  all_goals exact ⟨_, rfl, by decide⟩
theorem fresh_11 : (hostOps1_11 : List (HloOp τ sig (Elt F))).Forall fun op => op.fresh = ∅ := by
  simp only [List.Forall]; repeat' constructor
theorem high_12 : (hostOps1_12 : List (HloOp τ sig (Elt F))).Forall (WritesFrom 11) := by
  simp only [hostOps1_12, List.Forall]
  repeat' apply And.intro
  all_goals exact ⟨_, rfl, by decide⟩
theorem fresh_12 : (hostOps1_12 : List (HloOp τ sig (Elt F))).Forall fun op => op.fresh = ∅ := by
  simp only [List.Forall]; repeat' constructor
theorem high_13 : (hostOps1_13 : List (HloOp τ sig (Elt F))).Forall (WritesFrom 11) := by
  simp only [hostOps1_13, List.Forall]
  repeat' apply And.intro
  all_goals exact ⟨_, rfl, by decide⟩
theorem fresh_13 : (hostOps1_13 : List (HloOp τ sig (Elt F))).Forall fun op => op.fresh = ∅ := by
  simp only [List.Forall]; repeat' constructor
theorem high_14 : (hostOps1_14 : List (HloOp τ sig (Elt F))).Forall (WritesFrom 11) := by
  simp only [hostOps1_14, List.Forall]
  repeat' apply And.intro
  all_goals exact ⟨_, rfl, by decide⟩
theorem fresh_14 : (hostOps1_14 : List (HloOp τ sig (Elt F))).Forall fun op => op.fresh = ∅ := by
  simp only [List.Forall]; repeat' constructor
theorem high_15 : (hostOps1_15 : List (HloOp τ sig (Elt F))).Forall (WritesFrom 11) := by
  simp only [hostOps1_15, List.Forall]
  repeat' apply And.intro
  all_goals exact ⟨_, rfl, by decide⟩
theorem fresh_15 : (hostOps1_15 : List (HloOp τ sig (Elt F))).Forall fun op => op.fresh = ∅ := by
  simp only [List.Forall]; repeat' constructor
theorem high_16 : (hostOps1_16 : List (HloOp τ sig (Elt F))).Forall (WritesFrom 11) := by
  simp only [hostOps1_16, List.Forall]
  repeat' apply And.intro
  all_goals exact ⟨_, rfl, by decide⟩
theorem fresh_16 : (hostOps1_16 : List (HloOp τ sig (Elt F))).Forall fun op => op.fresh = ∅ := by
  simp only [List.Forall]; repeat' constructor
theorem high_17 : (hostOps1_17 : List (HloOp τ sig (Elt F))).Forall (WritesFrom 11) := by
  simp only [hostOps1_17, List.Forall]
  repeat' apply And.intro
  all_goals exact ⟨_, rfl, by decide⟩
theorem fresh_17 : (hostOps1_17 : List (HloOp τ sig (Elt F))).Forall fun op => op.fresh = ∅ := by
  simp only [List.Forall]; repeat' constructor
theorem high_18 : (hostOps1_18 : List (HloOp τ sig (Elt F))).Forall (WritesFrom 11) := by
  simp only [hostOps1_18, List.Forall]
  repeat' apply And.intro
  all_goals exact ⟨_, rfl, by decide⟩
theorem fresh_18 : (hostOps1_18 : List (HloOp τ sig (Elt F))).Forall fun op => op.fresh = ∅ := by
  simp only [List.Forall]; repeat' constructor
theorem high_19 : (hostOps1_19 : List (HloOp τ sig (Elt F))).Forall (WritesFrom 11) := by
  simp only [hostOps1_19, List.Forall]
  repeat' apply And.intro
  all_goals exact ⟨_, rfl, by decide⟩
theorem fresh_19 : (hostOps1_19 : List (HloOp τ sig (Elt F))).Forall fun op => op.fresh = ∅ := by
  simp only [List.Forall]; repeat' constructor
theorem high_20 : (hostOps1_20 : List (HloOp τ sig (Elt F))).Forall (WritesFrom 11) := by
  simp only [hostOps1_20, List.Forall]
  repeat' apply And.intro
  all_goals exact ⟨_, rfl, by decide⟩
theorem fresh_20 : (hostOps1_20 : List (HloOp τ sig (Elt F))).Forall fun op => op.fresh = ∅ := by
  simp only [List.Forall]; repeat' constructor
theorem high_21 : (hostOps1_21 : List (HloOp τ sig (Elt F))).Forall (WritesFrom 11) := by
  simp only [hostOps1_21, List.Forall]
  repeat' apply And.intro
  all_goals exact ⟨_, rfl, by decide⟩
theorem fresh_21 : (hostOps1_21 : List (HloOp τ sig (Elt F))).Forall fun op => op.fresh = ∅ := by
  simp only [List.Forall]; repeat' constructor
theorem high_22 : (hostOps1_22 : List (HloOp τ sig (Elt F))).Forall (WritesFrom 11) := by
  simp only [hostOps1_22, List.Forall]
  repeat' apply And.intro
  all_goals exact ⟨_, rfl, by decide⟩
theorem fresh_22 : (hostOps1_22 : List (HloOp τ sig (Elt F))).Forall fun op => op.fresh = ∅ := by
  simp only [List.Forall]; repeat' constructor
theorem high_23 : (hostOps1_23 : List (HloOp τ sig (Elt F))).Forall (WritesFrom 11) := by
  simp only [hostOps1_23, List.Forall]
  repeat' apply And.intro
  all_goals exact ⟨_, rfl, by decide⟩
theorem fresh_23 : (hostOps1_23 : List (HloOp τ sig (Elt F))).Forall fun op => op.fresh = ∅ := by
  simp only [List.Forall]; repeat' constructor
theorem high_24 : (hostOps1_24 : List (HloOp τ sig (Elt F))).Forall (WritesFrom 11) := by
  simp only [hostOps1_24, List.Forall]
  repeat' apply And.intro
  all_goals exact ⟨_, rfl, by decide⟩
theorem fresh_24 : (hostOps1_24 : List (HloOp τ sig (Elt F))).Forall fun op => op.fresh = ∅ := by
  simp only [List.Forall]; repeat' constructor
theorem high_25 : (hostOps1_25 : List (HloOp τ sig (Elt F))).Forall (WritesFrom 11) := by
  simp only [hostOps1_25, List.Forall]
  repeat' apply And.intro
  all_goals exact ⟨_, rfl, by decide⟩
theorem fresh_25 : (hostOps1_25 : List (HloOp τ sig (Elt F))).Forall fun op => op.fresh = ∅ := by
  simp only [List.Forall]; repeat' constructor
theorem high_26 : (hostOps1_26 : List (HloOp τ sig (Elt F))).Forall (WritesFrom 11) := by
  simp only [hostOps1_26, List.Forall]
  repeat' apply And.intro
  all_goals exact ⟨_, rfl, by decide⟩
theorem fresh_26 : (hostOps1_26 : List (HloOp τ sig (Elt F))).Forall fun op => op.fresh = ∅ := by
  simp only [List.Forall]; repeat' constructor
theorem high_27 : (hostOps1_27 : List (HloOp τ sig (Elt F))).Forall (WritesFrom 11) := by
  simp only [hostOps1_27, List.Forall]
  repeat' apply And.intro
  all_goals exact ⟨_, rfl, by decide⟩
theorem fresh_27 : (hostOps1_27 : List (HloOp τ sig (Elt F))).Forall fun op => op.fresh = ∅ := by
  simp only [List.Forall]; repeat' constructor
theorem high_28 : (hostOps1_28 : List (HloOp τ sig (Elt F))).Forall (WritesFrom 11) := by
  simp only [hostOps1_28, List.Forall]
  repeat' apply And.intro
  all_goals exact ⟨_, rfl, by decide⟩
theorem fresh_28 : (hostOps1_28 : List (HloOp τ sig (Elt F))).Forall fun op => op.fresh = ∅ := by
  simp only [List.Forall]; repeat' constructor
theorem high_29 : (hostOps1_29 : List (HloOp τ sig (Elt F))).Forall (WritesFrom 11) := by
  simp only [hostOps1_29, List.Forall]
  repeat' apply And.intro
  all_goals exact ⟨_, rfl, by decide⟩
theorem fresh_29 : (hostOps1_29 : List (HloOp τ sig (Elt F))).Forall fun op => op.fresh = ∅ := by
  simp only [List.Forall]; repeat' constructor
theorem high_30 : (hostOps1_30 : List (HloOp τ sig (Elt F))).Forall (WritesFrom 11) := by
  simp only [hostOps1_30, List.Forall]
  repeat' apply And.intro
  all_goals exact ⟨_, rfl, by decide⟩
theorem fresh_30 : (hostOps1_30 : List (HloOp τ sig (Elt F))).Forall fun op => op.fresh = ∅ := by
  simp only [List.Forall]; repeat' constructor
theorem high_31 : (hostOps1_31 : List (HloOp τ sig (Elt F))).Forall (WritesFrom 11) := by
  simp only [hostOps1_31, List.Forall]
  repeat' apply And.intro
  all_goals exact ⟨_, rfl, by decide⟩
theorem fresh_31 : (hostOps1_31 : List (HloOp τ sig (Elt F))).Forall fun op => op.fresh = ∅ := by
  simp only [List.Forall]; repeat' constructor
theorem high_32 : (hostOps1_32 : List (HloOp τ sig (Elt F))).Forall (WritesFrom 11) := by
  simp only [hostOps1_32, List.Forall]
  repeat' apply And.intro
  all_goals exact ⟨_, rfl, by decide⟩
theorem fresh_32 : (hostOps1_32 : List (HloOp τ sig (Elt F))).Forall fun op => op.fresh = ∅ := by
  simp only [List.Forall]; repeat' constructor

/-- The stretches after the region, in order. -/
abbrev tailL : List (List (HloOp τ sig (Elt F))) :=
  [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22, hostOps1_23, hostOps1_24, hostOps1_25, hostOps1_26, hostOps1_27, hostOps1_28, hostOps1_29, hostOps1_30, hostOps1_31, hostOps1_32]

/-- Every line after the region writes one buffer of index at least 11. -/
theorem tail_high : (tailL : List (List (HloOp τ sig (Elt F)))).Forall fun ops => ops.Forall (WritesFrom 11) :=
  ⟨high_0, high_1, high_2, high_3, high_4, high_5, high_6, high_7, high_8, high_9, high_10, high_11, high_12, high_13, high_14, high_15, high_16, high_17, high_18, high_19, high_20, high_21, high_22, high_23, high_24, high_25, high_26, high_27, high_28, high_29, high_30, high_31, high_32⟩

/-- They allocate nothing. -/
theorem sfx_fresh : ∀ ops ∈ (tailL : List (List (HloOp τ sig (Elt F)))), ∀ op ∈ ops, op.fresh = ∅ :=
  forall_mem_of_forall
    (⟨fresh_0, fresh_1, fresh_2, fresh_3, fresh_4, fresh_5, fresh_6, fresh_7, fresh_8, fresh_9, fresh_10, fresh_11, fresh_12, fresh_13, fresh_14, fresh_15, fresh_16, fresh_17, fresh_18, fresh_19, fresh_20, fresh_21, fresh_22, fresh_23, fresh_24, fresh_25, fresh_26, fresh_27, fresh_28, fresh_29, fresh_30, fresh_31, fresh_32⟩ : (tailL : List (List (HloOp τ sig (Elt F)))).Forall fun ops => ops.Forall fun op => op.fresh = ∅)

/-- They write no array of the region. -/
theorem sfx_keeps : ∀ ops ∈ (tailL : List (List (HloOp τ sig (Elt F)))), ∀ op ∈ ops,
    ∀ w, Proc.devRef .tc (Pipeline.arrRef spec0 w) ∉ op.writes :=
  fun ops hops op hop w => not_mem_writes_of_lt (forall_mem_of_forall tail_high ops hops op hop) _ (arr_lt w)

/-- They touch the region's arrays and the buffers that bypass it only: each line's buffers are unscoped TensorCore
    references, and with nothing prefetched every such reference is one or the other. -/
theorem sfx_sub : ∀ ops ∈ (tailL : List (List (HloOp τ sig (Elt F)))), ∀ op ∈ ops,
    op.bufs ⊆ Pipeline.tailRefs sig Pipeline.Prefetch.none spec0 := by
  rw [Pipeline.tailRefs_none spec0 launch0.win.arr_unscoped]
  have h : (tailL : List (List (HloOp τ sig (Elt F)))).Forall fun ops => ops.Forall fun op => op.bufs ⊆ StableHlo.tcRefs τ sig :=
    ⟨hostOps1_sub, hostOps1_1_sub, hostOps1_2_sub, hostOps1_3_sub, hostOps1_4_sub, hostOps1_5_sub, hostOps1_6_sub, hostOps1_7_sub, hostOps1_8_sub, hostOps1_9_sub, hostOps1_10_sub, hostOps1_11_sub, hostOps1_12_sub, hostOps1_13_sub, hostOps1_14_sub, hostOps1_15_sub, hostOps1_16_sub, hostOps1_17_sub, hostOps1_18_sub, hostOps1_19_sub, hostOps1_20_sub, hostOps1_21_sub, hostOps1_22_sub, hostOps1_23_sub, hostOps1_24_sub, hostOps1_25_sub, hostOps1_26_sub, hostOps1_27_sub, hostOps1_28_sub, hostOps1_29_sub, hostOps1_30_sub, hostOps1_31_sub, hostOps1_32_sub⟩
  exact fun ops hops op hop => Pipeline.sub_ucRefs op (forall_mem_of_forall h ops hops op hop)

/-- A buffer of index below 11 is written by no line after the region. -/
theorem tail_not_mem_writes (x : Ref sig .tc) (hx : x.idx.val < 11) :
    ∀ op ∈ (tailL : List (List (HloOp τ sig (Elt F)))).flatten, Proc.devRef .tc x ∉ op.writes := fun op hop => by
  obtain ⟨ops, hops, hop'⟩ := List.mem_flatten.mp hop
  exact not_mem_writes_of_lt (forall_mem_of_forall tail_high ops hops op hop') x hx

end Cert.Kernel.Fr

end
-- ==== Proof.FrameK.lean ====
/- The frame of the program: every weakly fair execution terminates, nothing faults, and the two arguments end unchanged.
   The program is host lines, ONE grid region, host lines. The region reads two arrays the first lines compute and
   overwrites four result arrays; the lines after it read those and write fresh buffers. So at the end each array of the
   region holds what the region left, and every other buffer what the lines computed from the region's exit. The two
   arguments are read only: no line writes one and the region stages neither, so each ends as launched. -/
import proofs.«115037_j71897752535328_2_alg».proof.Proof.FrameKBody
import proofs.«115037_j71897752535328_2_alg».proof.Proof.FrameKTail

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- The program reduces to the region continued by the later lines, the region entered at the contents the first
    lines leave (`V`). -/
theorem hmain (𝒱₀ : Variants) : Pipeline.HMainK (Ix := Unit) (Name := ℕ) (U := UR sig nD τ) (Lvl := ℕ) cfgs 0 defs₀ 𝒱₀ m (main (F := F)) (V m)
      (fun _ => Pipeline.chain (tailOps.map StableHlo.seq)) :=
  Pipeline.hmain_around cfgs 0 defs₀ 𝒱₀ m main [hostOps0] tailOps (by simp only [List.Forall]; exact hostOps0_sub)
    (by simp only [List.Forall]; exact hostOps0_fresh) main_chain

/-! ## The run -/

set_option backward.isDefEq.respectTransparency.types false in
/-- From any memory with zero counters, for any values: every weakly fair execution of the program on the TensorCores
    terminates, and every final state has each array of the region at what the library computes from the proof data
    (an input as the region found it, an output overwritten block by block by what the body left) and every other
    unscoped buffer as the lines after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-! ## The arguments end as launched -/

/-- A buffer of index below 2 (an argument) enters the region as launched: the first lines write buffers 2 and up. -/
theorem V0_of_lt (c : Dev nD) (x : Ref sig .tc) (hx : x.idx.val < 2) :
    V0 m c (Proc.devRef .tc x) = m ((c : Thread nD τ).loc x) :=
  StableHlo.after_of_forall_not_mem (b := Proc.devRef .tc x) _ _ fun op hop => by
    obtain ⟨ops, hops, hop'⟩ := List.mem_flatten.mp hop
    obtain rfl : ops = hostOps0 := List.mem_singleton.mp hops
    exact forall_not_mem_writes_of_lt high_pre x hx op hop'

/-- A buffer of index below 11 that is no array of the region ends as it entered the region: the region bypasses it and
    the later lines write buffers 11 and up. -/
theorem afterTail_of_lt (c : Dev nD) (x : Ref sig .tc) (hx : x.idx.val < 11) (hne : ∀ w, Pipeline.arrRef spec0 w ≠ x) :
    Pipeline.afterTail₀ cfgs (dats m) 0 (V0 m) tailOps c x = V0 m c (Proc.devRef .tc x) := by
  unfold Pipeline.afterTail₀
  rw [StableHlo.after_of_forall_not_mem _ _ (tail_not_mem_writes x hx)]
  exact Pipeline.withArrays_of_ne _ c (V0 m c) _ x hne

/-- THE FRAME: the run, read at the two arguments — each bypasses the region (the post's second clause), is written by
    no later line and by no earlier one. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 rfl (by decide))).trans
        ((afterTail_of_lt m c main_arg0 (by decide) (by decide)).trans (V0_of_lt m c main_arg0 (by decide))),
      ((h c).2 main_arg1 (Pipeline.mem_restRefs_of main_arg1 rfl (by decide))).trans
        ((afterTail_of_lt m c main_arg1 (by decide) (by decide)).trans (V0_of_lt m c main_arg1 (by decide)))⟩) (run_main m ρ)

end Cert.Kernel.Fr

end
-- ==== Proof.FrameKIBody.lean ====
/- The frame of the program, first half: the one grid region. The program reshapes and slices its second argument into two
   arrays of coordinates, runs ONE region over a grid of 22 points, and continues with straight lines of host
   operations. At each point the region stages one block (8 x 256 x 256) of each coordinate array and of each of its four
   result arrays; the body reads the two coordinate blocks whole and overwrites each result block whole with a function
   of ONE coordinate block (the integer part and the fractional part of the scaled coordinate). Here: what each
   result block holds after the body, the body's triple, the proof data of the region and the body obligation at every point. -/
import proofs.«115037_j71897752535328_2_alg».proof.Proof.Gen.KernelIdeal.Launch
import proofs.«115037_j71897752535328_2_alg».proof.Proof.Gen.KernelIdeal.Skeleton
import proofs.«115037_j71897752535328_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- The lines after the region, stretch by stretch, in order. -/
abbrev tailOps : List (List (HloOp τ sig (Elt F))) :=
  [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22, hostOps1_23, hostOps1_24, hostOps1_25, hostOps1_26, hostOps1_27, hostOps1_28, hostOps1_29, hostOps1_30, hostOps1_31, hostOps1_32]

/-- Core `c`'s buffer contents when the region is entered, as a valuation: the launch contents after the five lines
    before the region (two slices of the second argument, reshaped). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any proof data
    whose array is `V`'s and whose body leaves the block in place: unfetched, the window's index has not moved. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

/-- The one rectangle the body reads and writes through: the whole block. -/
abbrev r0 : Rect S8x256x256 := Rect.unit (s := S8x256x256) ![0, 0, 0] S8x256x256.size inb_S8x256x256_S8x256x256_0_0_0

/-! ## What the body leaves in each result window's buffer

Each result block is stored once, whole; the stored value is a function of one coordinate block alone. -/

/-- Window 2 (integers): the integer part of the first scaled coordinate. -/
def out0_2 (x0 : Vec F S8x256x256 .f32) : Vec F S8x256x256 .i32 := View.canon [⟨r0, k0_pay7 (View.ld x0 r0)⟩]
/-- Window 3 (integers): the integer part of the second scaled coordinate. -/
def out0_3 (x1 : Vec F S8x256x256 .f32) : Vec F S8x256x256 .i32 := View.canon [⟨r0, k0_pay8 (View.ld x1 r0)⟩]
/-- Window 4: the fractional part of the first scaled coordinate. -/
def out0_4 (x0 : Vec F S8x256x256 .f32) : Vec F S8x256x256 .f32 := View.canon [⟨r0, k0_pay5 (View.ld x0 r0)⟩]
/-- Window 5: the fractional part of the second scaled coordinate. -/
def out0_5 (x1 : Vec F S8x256x256 .f32) : Vec F S8x256x256 .f32 := View.canon [⟨r0, k0_pay6 (View.ld x1 r0)⟩]

/-- One store through the whole-block rectangle covers the block, at either element type. -/
theorem cover_i (p0 : Vec F S8x256x256 .i32) (y : S8x256x256.Idx) :
    ∃ pc ∈ ([⟨r0, p0⟩] : List (View.Piece (Elt F) S8x256x256 .i32)), y ∈ pc.1.set :=
  View.cover_of_tiled [⟨r0, p0⟩] S8x256x256.size (by rfl) y
theorem cover_f (p0 : Vec F S8x256x256 .f32) (y : S8x256x256.Idx) :
    ∃ pc ∈ ([⟨r0, p0⟩] : List (View.Piece (Elt F) S8x256x256 .f32)), y ∈ pc.1.set :=
  View.cover_of_tiled [⟨r0, p0⟩] S8x256x256.size (by rfl) y

/-! ## The body's triple -/

set_option maxHeartbeats 1000000 in
/-- The kernel body on whole staging memrefs, the coordinate blocks' at contents `x0`, `x1` and the result blocks' at
    anything, runs to the continuation holding the coordinate blocks as they were and each result block at `out0_W`
    of its coordinate block. (The body also reads each result block before storing to it; nothing uses what it read.) -/
theorem sound_kernel (c : Dev nD) (E : Set ℕ) (i : grid0.Coords)
    (arg1 : Memref sig .tc .vmem S8x256x256 .f32) (harg1 : arg1.IsWhole) (arg2 : Memref sig .tc .vmem S8x256x256 .f32) (harg2 : arg2.IsWhole)
    (arg3 : Memref sig .tc .vmem S8x256x256 .i32) (harg3 : arg3.IsWhole) (arg4 : Memref sig .tc .vmem S8x256x256 .i32) (harg4 : arg4.IsWhole)
    (arg5 : Memref sig .tc .vmem S8x256x256 .f32) (harg5 : arg5.IsWhole) (arg6 : Memref sig .tc .vmem S8x256x256 .f32) (harg6 : arg6.IsWhole)
    (x0 : Vec F S8x256x256 .f32) (x1 : Vec F S8x256x256 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare (out0_2 x0) ∗ owns (c : Thread nD τ) arg4 fullShare (out0_3 x1)
            ∗ owns (c : Thread nD τ) arg5 fullShare (out0_4 x0) ∗ owns (c : Thread nD τ) arg6 fullShare (out0_5 x1)) -∗ K ⟨⟩))
      ⊢ wp frame (wpE (defs₀ (F := F)) Variants.none c none) E (cc0__coords_kernel i arg1 harg1 arg2 harg2 arg3 harg3 arg4 harg4 arg5 harg5 arg6 harg6) K := by
  simp only [cc0__coords_kernel_eq_skeleton]; unfold cc0__coords_kernel_skel
  unfold owns
  iintro ⟨⟨%f0, %hf0, H0⟩, ⟨%f1, %hf1, H1⟩, ⟨%d2, %f2, -, H2⟩, ⟨%d3, %f3, -, H3⟩, ⟨%d4, %f4, -, H4⟩, ⟨%d5, %f5, -, H5⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover_i _)
  isplitl [H3]
  · iexists _; isplitr
    swap; · iexact H3
    ipureintro
    exact View.read_writes_eq_canon _ _ _ (cover_i _)
  isplitl [H4]
  · iexists _; isplitr
    swap; · iexact H4
    ipureintro
    exact View.read_writes_eq_canon _ _ _ (cover_f _)
  iexists _; isplitr
  swap; · iexact H5
  ipureintro
  exact View.read_writes_eq_canon _ _ _ (cover_f _)

/-! ## The region's proof data -/

/-- The proof data of the region on core `c`: the arrays as the region finds them (`V`); after the body at point `t`
    each coordinate window's buffer at its block and each result window's at `out0_W` of its coordinate block; the
    invariant the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t)
    | ⟨3, _⟩ => out0_3 (iblk m c 1 t)
    | ⟨4, _⟩ => out0_4 (iblk m c 0 t)
    | ⟨5, _⟩ => out0_5 (iblk m c 1 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) := by dsimp only [dats]
theorem after0_3 (c : Dev nD) (t : Fin cfg0.N) : (dats m 0 c).after 3 t = out0_3 (iblk m c 1 t) := by dsimp only [dats]
theorem after0_4 (c : Dev nD) (t : Fin cfg0.N) : (dats m 0 c).after 4 t = out0_4 (iblk m c 0 t) := by dsimp only [dats]
theorem after0_5 (c : Dev nD) (t : Fin cfg0.N) : (dats m 0 c).after 5 t = out0_5 (iblk m c 1 t) := by dsimp only [dats]

/-- Each coordinate window's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the coordinate windows' memrefs hold their blocks, so `sound_kernel` applies; the invariant
    and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Fr

end
-- ==== Proof.FrameKITail.lean ====
/- The frame of the program, second half: the straight lines around the one region. Every line writes exactly one buffer,
   its own result. The lines before the region write buffers of index 2 and up; the lines after it write buffers of
   index 11 and up. The two arguments are buffers 0 and 1 and the region's six arrays are buffers 4, 6, 7, 8, 9, 10: so
   no line writes an argument, and no line after the region writes one of its arrays. Counted once per stretch of lines,
   not once per line and array. -/
import proofs.«115037_j71897752535328_2_alg».proof.Proof.Gen.KernelIdeal.Launch
import Idealize.ShloMosaic.Lib.Pipeline.FrameSuffix

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## A line's one result buffer, by its index -/

/-- The operation writes one buffer only, a TensorCore reference of index at least `n`. -/
def WritesFrom (n : ℕ) (op : HloOp τ sig (Elt F)) : Prop :=
  ∃ y : Ref sig .tc, op.writes = {Proc.devRef .tc y} ∧ n ≤ y.idx.val

/-- Such an operation writes no reference of a smaller index: two references of different indices are different
    buffers. -/
theorem not_mem_writes_of_lt {n : ℕ} {op : HloOp τ sig (Elt F)} (h : WritesFrom n op) (x : Ref sig .tc) (hx : x.idx.val < n) :
    Proc.devRef .tc x ∉ op.writes := by
  obtain ⟨y, hw, hy⟩ := h
  rw [hw, Finset.mem_singleton]
  refine StableHlo.devRef_ne_of_ne fun e => ?_
  have h2 : x.idx.val = y.idx.val := congrArg (fun r : Ref sig .tc => r.idx.val) e
  omega

/-- Through a whole line of such operations. -/
theorem forall_not_mem_writes_of_lt {n : ℕ} {ops : List (HloOp τ sig (Elt F))} (h : ops.Forall (WritesFrom n)) (x : Ref sig .tc)
    (hx : x.idx.val < n) : ∀ op ∈ ops, Proc.devRef .tc x ∉ op.writes :=
  fun op hop => not_mem_writes_of_lt ((List.forall_iff_forall_mem.mp h) op hop) x hx

/-- A property of every line of every stretch, from the stretches one by one. -/
theorem forall_mem_of_forall {α : Type} {p : α → Prop} {L : List (List α)} (h : L.Forall fun l => l.Forall p) :
    ∀ l ∈ L, ∀ a ∈ l, p a :=
  fun l hl a ha => (List.forall_iff_forall_mem.mp ((List.forall_iff_forall_mem.mp h) l hl)) a ha

/-- The region's six arrays are buffers of index below 11. -/
theorem arr_lt : ∀ w : Fin 6, (Pipeline.arrRef spec0 w).idx.val < 11 := by decide

/-! ## The lines before the region -/

/-- They write buffers 2 to 6. -/
theorem high_pre : (hostOps0 : List (HloOp τ sig (Elt F))).Forall (WritesFrom 2) := by
  simp only [hostOps0, List.Forall]
  repeat' apply And.intro
  all_goals exact ⟨_, rfl, by decide⟩

theorem hostOps0_fresh : (hostOps0 : List (HloOp τ sig (Elt F))).Forall fun op => op.fresh = ∅ := by
  simp only [List.Forall]; repeat' constructor

/-! ## The lines after the region, stretch by stretch -/

theorem high_0 : (hostOps1 : List (HloOp τ sig (Elt F))).Forall (WritesFrom 11) := by
  simp only [hostOps1, List.Forall]
  repeat' apply And.intro
  all_goals exact ⟨_, rfl, by decide⟩
theorem fresh_0 : (hostOps1 : List (HloOp τ sig (Elt F))).Forall fun op => op.fresh = ∅ := by
  simp only [List.Forall]; repeat' constructor
theorem high_1 : (hostOps1_1 : List (HloOp τ sig (Elt F))).Forall (WritesFrom 11) := by
  simp only [hostOps1_1, List.Forall]
  repeat' apply And.intro
  all_goals exact ⟨_, rfl, by decide⟩
theorem fresh_1 : (hostOps1_1 : List (HloOp τ sig (Elt F))).Forall fun op => op.fresh = ∅ := by
  simp only [List.Forall]; repeat' constructor
theorem high_2 : (hostOps1_2 : List (HloOp τ sig (Elt F))).Forall (WritesFrom 11) := by
  simp only [hostOps1_2, List.Forall]
  repeat' apply And.intro
  all_goals exact ⟨_, rfl, by decide⟩
theorem fresh_2 : (hostOps1_2 : List (HloOp τ sig (Elt F))).Forall fun op => op.fresh = ∅ := by
  simp only [List.Forall]; repeat' constructor
theorem high_3 : (hostOps1_3 : List (HloOp τ sig (Elt F))).Forall (WritesFrom 11) := by
  simp only [hostOps1_3, List.Forall]
  repeat' apply And.intro
  all_goals exact ⟨_, rfl, by decide⟩
theorem fresh_3 : (hostOps1_3 : List (HloOp τ sig (Elt F))).Forall fun op => op.fresh = ∅ := by
  simp only [List.Forall]; repeat' constructor
theorem high_4 : (hostOps1_4 : List (HloOp τ sig (Elt F))).Forall (WritesFrom 11) := by
  simp only [hostOps1_4, List.Forall]
  repeat' apply And.intro
  all_goals exact ⟨_, rfl, by decide⟩
theorem fresh_4 : (hostOps1_4 : List (HloOp τ sig (Elt F))).Forall fun op => op.fresh = ∅ := by
  simp only [List.Forall]; repeat' constructor
theorem high_5 : (hostOps1_5 : List (HloOp τ sig (Elt F))).Forall (WritesFrom 11) := by
  simp only [hostOps1_5, List.Forall]
  repeat' apply And.intro
  all_goals exact ⟨_, rfl, by decide⟩
theorem fresh_5 : (hostOps1_5 : List (HloOp τ sig (Elt F))).Forall fun op => op.fresh = ∅ := by
  simp only [List.Forall]; repeat' constructor
theorem high_6 : (hostOps1_6 : List (HloOp τ sig (Elt F))).Forall (WritesFrom 11) := by
  simp only [hostOps1_6, List.Forall]
  repeat' apply And.intro
  all_goals exact ⟨_, rfl, by decide⟩
theorem fresh_6 : (hostOps1_6 : List (HloOp τ sig (Elt F))).Forall fun op => op.fresh = ∅ := by
  simp only [List.Forall]; repeat' constructor
theorem high_7 : (hostOps1_7 : List (HloOp τ sig (Elt F))).Forall (WritesFrom 11) := by
  simp only [hostOps1_7, List.Forall]
  repeat' apply And.intro
  all_goals exact ⟨_, rfl, by decide⟩
theorem fresh_7 : (hostOps1_7 : List (HloOp τ sig (Elt F))).Forall fun op => op.fresh = ∅ := by
  simp only [List.Forall]; repeat' constructor
theorem high_8 : (hostOps1_8 : List (HloOp τ sig (Elt F))).Forall (WritesFrom 11) := by
  simp only [hostOps1_8, List.Forall]
  repeat' apply And.intro
  all_goals exact ⟨_, rfl, by decide⟩
theorem fresh_8 : (hostOps1_8 : List (HloOp τ sig (Elt F))).Forall fun op => op.fresh = ∅ := by
  simp only [List.Forall]; repeat' constructor
theorem high_9 : (hostOps1_9 : List (HloOp τ sig (Elt F))).Forall (WritesFrom 11) := by
  simp only [hostOps1_9, List.Forall]
  repeat' apply And.intro
  all_goals exact ⟨_, rfl, by decide⟩
theorem fresh_9 : (hostOps1_9 : List (HloOp τ sig (Elt F))).Forall fun op => op.fresh = ∅ := by
  simp only [List.Forall]; repeat' constructor
theorem high_10 : (hostOps1_10 : List (HloOp τ sig (Elt F))).Forall (WritesFrom 11) := by
  simp only [hostOps1_10, List.Forall]
  repeat' apply And.intro
  all_goals exact ⟨_, rfl, by decide⟩
theorem fresh_10 : (hostOps1_10 : List (HloOp τ sig (Elt F))).Forall fun op => op.fresh = ∅ := by
  simp only [List.Forall]; repeat' constructor
theorem high_11 : (hostOps1_11 : List (HloOp τ sig (Elt F))).Forall (WritesFrom 11) := by
  simp only [hostOps1_11, List.Forall]
  repeat' apply And.intro
  all_goals exact ⟨_, rfl, by decide⟩
theorem fresh_11 : (hostOps1_11 : List (HloOp τ sig (Elt F))).Forall fun op => op.fresh = ∅ := by
  simp only [List.Forall]; repeat' constructor
theorem high_12 : (hostOps1_12 : List (HloOp τ sig (Elt F))).Forall (WritesFrom 11) := by
  simp only [hostOps1_12, List.Forall]
  repeat' apply And.intro
  all_goals exact ⟨_, rfl, by decide⟩
theorem fresh_12 : (hostOps1_12 : List (HloOp τ sig (Elt F))).Forall fun op => op.fresh = ∅ := by
  simp only [List.Forall]; repeat' constructor
theorem high_13 : (hostOps1_13 : List (HloOp τ sig (Elt F))).Forall (WritesFrom 11) := by
  simp only [hostOps1_13, List.Forall]
  repeat' apply And.intro
  all_goals exact ⟨_, rfl, by decide⟩
theorem fresh_13 : (hostOps1_13 : List (HloOp τ sig (Elt F))).Forall fun op => op.fresh = ∅ := by
  simp only [List.Forall]; repeat' constructor
theorem high_14 : (hostOps1_14 : List (HloOp τ sig (Elt F))).Forall (WritesFrom 11) := by
  simp only [hostOps1_14, List.Forall]
  repeat' apply And.intro
  all_goals exact ⟨_, rfl, by decide⟩
theorem fresh_14 : (hostOps1_14 : List (HloOp τ sig (Elt F))).Forall fun op => op.fresh = ∅ := by
  simp only [List.Forall]; repeat' constructor
theorem high_15 : (hostOps1_15 : List (HloOp τ sig (Elt F))).Forall (WritesFrom 11) := by
  simp only [hostOps1_15, List.Forall]
  repeat' apply And.intro
  all_goals exact ⟨_, rfl, by decide⟩
theorem fresh_15 : (hostOps1_15 : List (HloOp τ sig (Elt F))).Forall fun op => op.fresh = ∅ := by
  simp only [List.Forall]; repeat' constructor
theorem high_16 : (hostOps1_16 : List (HloOp τ sig (Elt F))).Forall (WritesFrom 11) := by
  simp only [hostOps1_16, List.Forall]
  repeat' apply And.intro
  all_goals exact ⟨_, rfl, by decide⟩
theorem fresh_16 : (hostOps1_16 : List (HloOp τ sig (Elt F))).Forall fun op => op.fresh = ∅ := by
  simp only [List.Forall]; repeat' constructor
theorem high_17 : (hostOps1_17 : List (HloOp τ sig (Elt F))).Forall (WritesFrom 11) := by
  simp only [hostOps1_17, List.Forall]
  repeat' apply And.intro
  all_goals exact ⟨_, rfl, by decide⟩
theorem fresh_17 : (hostOps1_17 : List (HloOp τ sig (Elt F))).Forall fun op => op.fresh = ∅ := by
  simp only [List.Forall]; repeat' constructor
theorem high_18 : (hostOps1_18 : List (HloOp τ sig (Elt F))).Forall (WritesFrom 11) := by
  simp only [hostOps1_18, List.Forall]
  repeat' apply And.intro
  all_goals exact ⟨_, rfl, by decide⟩
theorem fresh_18 : (hostOps1_18 : List (HloOp τ sig (Elt F))).Forall fun op => op.fresh = ∅ := by
  simp only [List.Forall]; repeat' constructor
theorem high_19 : (hostOps1_19 : List (HloOp τ sig (Elt F))).Forall (WritesFrom 11) := by
  simp only [hostOps1_19, List.Forall]
  repeat' apply And.intro
  all_goals exact ⟨_, rfl, by decide⟩
theorem fresh_19 : (hostOps1_19 : List (HloOp τ sig (Elt F))).Forall fun op => op.fresh = ∅ := by
  simp only [List.Forall]; repeat' constructor
theorem high_20 : (hostOps1_20 : List (HloOp τ sig (Elt F))).Forall (WritesFrom 11) := by
  simp only [hostOps1_20, List.Forall]
  repeat' apply And.intro
  all_goals exact ⟨_, rfl, by decide⟩
theorem fresh_20 : (hostOps1_20 : List (HloOp τ sig (Elt F))).Forall fun op => op.fresh = ∅ := by
  simp only [List.Forall]; repeat' constructor
theorem high_21 : (hostOps1_21 : List (HloOp τ sig (Elt F))).Forall (WritesFrom 11) := by
  simp only [hostOps1_21, List.Forall]
  repeat' apply And.intro
  all_goals exact ⟨_, rfl, by decide⟩
theorem fresh_21 : (hostOps1_21 : List (HloOp τ sig (Elt F))).Forall fun op => op.fresh = ∅ := by
  simp only [List.Forall]; repeat' constructor
theorem high_22 : (hostOps1_22 : List (HloOp τ sig (Elt F))).Forall (WritesFrom 11) := by
  simp only [hostOps1_22, List.Forall]
  repeat' apply And.intro
  all_goals exact ⟨_, rfl, by decide⟩
theorem fresh_22 : (hostOps1_22 : List (HloOp τ sig (Elt F))).Forall fun op => op.fresh = ∅ := by
  simp only [List.Forall]; repeat' constructor
theorem high_23 : (hostOps1_23 : List (HloOp τ sig (Elt F))).Forall (WritesFrom 11) := by
  simp only [hostOps1_23, List.Forall]
  repeat' apply And.intro
  all_goals exact ⟨_, rfl, by decide⟩
theorem fresh_23 : (hostOps1_23 : List (HloOp τ sig (Elt F))).Forall fun op => op.fresh = ∅ := by
  simp only [List.Forall]; repeat' constructor
theorem high_24 : (hostOps1_24 : List (HloOp τ sig (Elt F))).Forall (WritesFrom 11) := by
  simp only [hostOps1_24, List.Forall]
  repeat' apply And.intro
  all_goals exact ⟨_, rfl, by decide⟩
theorem fresh_24 : (hostOps1_24 : List (HloOp τ sig (Elt F))).Forall fun op => op.fresh = ∅ := by
  simp only [List.Forall]; repeat' constructor
theorem high_25 : (hostOps1_25 : List (HloOp τ sig (Elt F))).Forall (WritesFrom 11) := by
  simp only [hostOps1_25, List.Forall]
  repeat' apply And.intro
  all_goals exact ⟨_, rfl, by decide⟩
theorem fresh_25 : (hostOps1_25 : List (HloOp τ sig (Elt F))).Forall fun op => op.fresh = ∅ := by
  simp only [List.Forall]; repeat' constructor
theorem high_26 : (hostOps1_26 : List (HloOp τ sig (Elt F))).Forall (WritesFrom 11) := by
  simp only [hostOps1_26, List.Forall]
  repeat' apply And.intro
  all_goals exact ⟨_, rfl, by decide⟩
theorem fresh_26 : (hostOps1_26 : List (HloOp τ sig (Elt F))).Forall fun op => op.fresh = ∅ := by
  simp only [List.Forall]; repeat' constructor
theorem high_27 : (hostOps1_27 : List (HloOp τ sig (Elt F))).Forall (WritesFrom 11) := by
  simp only [hostOps1_27, List.Forall]
  repeat' apply And.intro
  all_goals exact ⟨_, rfl, by decide⟩
theorem fresh_27 : (hostOps1_27 : List (HloOp τ sig (Elt F))).Forall fun op => op.fresh = ∅ := by
  simp only [List.Forall]; repeat' constructor
theorem high_28 : (hostOps1_28 : List (HloOp τ sig (Elt F))).Forall (WritesFrom 11) := by
  simp only [hostOps1_28, List.Forall]
  repeat' apply And.intro
  all_goals exact ⟨_, rfl, by decide⟩
theorem fresh_28 : (hostOps1_28 : List (HloOp τ sig (Elt F))).Forall fun op => op.fresh = ∅ := by
  simp only [List.Forall]; repeat' constructor
theorem high_29 : (hostOps1_29 : List (HloOp τ sig (Elt F))).Forall (WritesFrom 11) := by
  simp only [hostOps1_29, List.Forall]
  repeat' apply And.intro
  all_goals exact ⟨_, rfl, by decide⟩
theorem fresh_29 : (hostOps1_29 : List (HloOp τ sig (Elt F))).Forall fun op => op.fresh = ∅ := by
  simp only [List.Forall]; repeat' constructor
theorem high_30 : (hostOps1_30 : List (HloOp τ sig (Elt F))).Forall (WritesFrom 11) := by
  simp only [hostOps1_30, List.Forall]
  repeat' apply And.intro
  all_goals exact ⟨_, rfl, by decide⟩
theorem fresh_30 : (hostOps1_30 : List (HloOp τ sig (Elt F))).Forall fun op => op.fresh = ∅ := by
  simp only [List.Forall]; repeat' constructor
theorem high_31 : (hostOps1_31 : List (HloOp τ sig (Elt F))).Forall (WritesFrom 11) := by
  simp only [hostOps1_31, List.Forall]
  repeat' apply And.intro
  all_goals exact ⟨_, rfl, by decide⟩
theorem fresh_31 : (hostOps1_31 : List (HloOp τ sig (Elt F))).Forall fun op => op.fresh = ∅ := by
  simp only [List.Forall]; repeat' constructor
theorem high_32 : (hostOps1_32 : List (HloOp τ sig (Elt F))).Forall (WritesFrom 11) := by
  simp only [hostOps1_32, List.Forall]
  repeat' apply And.intro
  all_goals exact ⟨_, rfl, by decide⟩
theorem fresh_32 : (hostOps1_32 : List (HloOp τ sig (Elt F))).Forall fun op => op.fresh = ∅ := by
  simp only [List.Forall]; repeat' constructor

/-- The stretches after the region, in order. -/
abbrev tailL : List (List (HloOp τ sig (Elt F))) :=
  [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22, hostOps1_23, hostOps1_24, hostOps1_25, hostOps1_26, hostOps1_27, hostOps1_28, hostOps1_29, hostOps1_30, hostOps1_31, hostOps1_32]

/-- Every line after the region writes one buffer of index at least 11. -/
theorem tail_high : (tailL : List (List (HloOp τ sig (Elt F)))).Forall fun ops => ops.Forall (WritesFrom 11) :=
  ⟨high_0, high_1, high_2, high_3, high_4, high_5, high_6, high_7, high_8, high_9, high_10, high_11, high_12, high_13, high_14, high_15, high_16, high_17, high_18, high_19, high_20, high_21, high_22, high_23, high_24, high_25, high_26, high_27, high_28, high_29, high_30, high_31, high_32⟩

/-- They allocate nothing. -/
theorem sfx_fresh : ∀ ops ∈ (tailL : List (List (HloOp τ sig (Elt F)))), ∀ op ∈ ops, op.fresh = ∅ :=
  forall_mem_of_forall
    (⟨fresh_0, fresh_1, fresh_2, fresh_3, fresh_4, fresh_5, fresh_6, fresh_7, fresh_8, fresh_9, fresh_10, fresh_11, fresh_12, fresh_13, fresh_14, fresh_15, fresh_16, fresh_17, fresh_18, fresh_19, fresh_20, fresh_21, fresh_22, fresh_23, fresh_24, fresh_25, fresh_26, fresh_27, fresh_28, fresh_29, fresh_30, fresh_31, fresh_32⟩ : (tailL : List (List (HloOp τ sig (Elt F)))).Forall fun ops => ops.Forall fun op => op.fresh = ∅)

/-- They write no array of the region. -/
theorem sfx_keeps : ∀ ops ∈ (tailL : List (List (HloOp τ sig (Elt F)))), ∀ op ∈ ops,
    ∀ w, Proc.devRef .tc (Pipeline.arrRef spec0 w) ∉ op.writes :=
  fun ops hops op hop w => not_mem_writes_of_lt (forall_mem_of_forall tail_high ops hops op hop) _ (arr_lt w)

/-- They touch the region's arrays and the buffers that bypass it only: each line's buffers are unscoped TensorCore
    references, and with nothing prefetched every such reference is one or the other. -/
theorem sfx_sub : ∀ ops ∈ (tailL : List (List (HloOp τ sig (Elt F)))), ∀ op ∈ ops,
    op.bufs ⊆ Pipeline.tailRefs sig Pipeline.Prefetch.none spec0 := by
  rw [Pipeline.tailRefs_none spec0 launch0.win.arr_unscoped]
  have h : (tailL : List (List (HloOp τ sig (Elt F)))).Forall fun ops => ops.Forall fun op => op.bufs ⊆ StableHlo.tcRefs τ sig :=
    ⟨hostOps1_sub, hostOps1_1_sub, hostOps1_2_sub, hostOps1_3_sub, hostOps1_4_sub, hostOps1_5_sub, hostOps1_6_sub, hostOps1_7_sub, hostOps1_8_sub, hostOps1_9_sub, hostOps1_10_sub, hostOps1_11_sub, hostOps1_12_sub, hostOps1_13_sub, hostOps1_14_sub, hostOps1_15_sub, hostOps1_16_sub, hostOps1_17_sub, hostOps1_18_sub, hostOps1_19_sub, hostOps1_20_sub, hostOps1_21_sub, hostOps1_22_sub, hostOps1_23_sub, hostOps1_24_sub, hostOps1_25_sub, hostOps1_26_sub, hostOps1_27_sub, hostOps1_28_sub, hostOps1_29_sub, hostOps1_30_sub, hostOps1_31_sub, hostOps1_32_sub⟩
  exact fun ops hops op hop => Pipeline.sub_ucRefs op (forall_mem_of_forall h ops hops op hop)

/-- A buffer of index below 11 is written by no line after the region. -/
theorem tail_not_mem_writes (x : Ref sig .tc) (hx : x.idx.val < 11) :
    ∀ op ∈ (tailL : List (List (HloOp τ sig (Elt F)))).flatten, Proc.devRef .tc x ∉ op.writes := fun op hop => by
  obtain ⟨ops, hops, hop'⟩ := List.mem_flatten.mp hop
  exact not_mem_writes_of_lt (forall_mem_of_forall tail_high ops hops op hop') x hx

end Cert.KernelIdeal.Fr

end
-- ==== Proof.FrameKI.lean ====
/- The frame of the program: every weakly fair execution terminates, nothing faults, and the two arguments end unchanged.
   The program is host lines, ONE grid region, host lines. The region reads two arrays the first lines compute and
   overwrites four result arrays; the lines after it read those and write fresh buffers. So at the end each array of the
   region holds what the region left, and every other buffer what the lines computed from the region's exit. The two
   arguments are read only: no line writes one and the region stages neither, so each ends as launched. -/
import proofs.«115037_j71897752535328_2_alg».proof.Proof.FrameKIBody
import proofs.«115037_j71897752535328_2_alg».proof.Proof.FrameKITail

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- The program reduces to the region continued by the later lines, the region entered at the contents the first
    lines leave (`V`). -/
theorem hmain (𝒱₀ : Variants) : Pipeline.HMainK (Ix := Unit) (Name := ℕ) (U := UR sig nD τ) (Lvl := ℕ) cfgs 0 defs₀ 𝒱₀ m (main (F := F)) (V m)
      (fun _ => Pipeline.chain (tailOps.map StableHlo.seq)) :=
  Pipeline.hmain_around cfgs 0 defs₀ 𝒱₀ m main [hostOps0] tailOps (by simp only [List.Forall]; exact hostOps0_sub)
    (by simp only [List.Forall]; exact hostOps0_fresh) main_chain

/-! ## The run -/

set_option backward.isDefEq.respectTransparency.types false in
/-- From any memory with zero counters, for any values: every weakly fair execution of the program on the TensorCores
    terminates, and every final state has each array of the region at what the library computes from the proof data
    (an input as the region found it, an output overwritten block by block by what the body left) and every other
    unscoped buffer as the lines after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-! ## The arguments end as launched -/

/-- A buffer of index below 2 (an argument) enters the region as launched: the first lines write buffers 2 and up. -/
theorem V0_of_lt (c : Dev nD) (x : Ref sig .tc) (hx : x.idx.val < 2) :
    V0 m c (Proc.devRef .tc x) = m ((c : Thread nD τ).loc x) :=
  StableHlo.after_of_forall_not_mem (b := Proc.devRef .tc x) _ _ fun op hop => by
    obtain ⟨ops, hops, hop'⟩ := List.mem_flatten.mp hop
    obtain rfl : ops = hostOps0 := List.mem_singleton.mp hops
    exact forall_not_mem_writes_of_lt high_pre x hx op hop'

/-- A buffer of index below 11 that is no array of the region ends as it entered the region: the region bypasses it and
    the later lines write buffers 11 and up. -/
theorem afterTail_of_lt (c : Dev nD) (x : Ref sig .tc) (hx : x.idx.val < 11) (hne : ∀ w, Pipeline.arrRef spec0 w ≠ x) :
    Pipeline.afterTail₀ cfgs (dats m) 0 (V0 m) tailOps c x = V0 m c (Proc.devRef .tc x) := by
  unfold Pipeline.afterTail₀
  rw [StableHlo.after_of_forall_not_mem _ _ (tail_not_mem_writes x hx)]
  exact Pipeline.withArrays_of_ne _ c (V0 m c) _ x hne

/-- THE FRAME: the run, read at the two arguments — each bypasses the region (the post's second clause), is written by
    no later line and by no earlier one. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 rfl (by decide))).trans
        ((afterTail_of_lt m c main_arg0 (by decide) (by decide)).trans (V0_of_lt m c main_arg0 (by decide))),
      ((h c).2 main_arg1 (Pipeline.mem_restRefs_of main_arg1 rfl (by decide))).trans
        ((afterTail_of_lt m c main_arg1 (by decide) (by decide)).trans (V0_of_lt m c main_arg1 (by decide)))⟩) (run_main m ρ)

end Cert.KernelIdeal.Fr

end
-- ==== Proof.RefOps.lean ====
/-
  The reference program's @main as a list of host operations, in program order: every statement of @main, and in place
  of each call of an outlined function that function's operations over the call's own buffers (the call's record), a
  nested call's operations in place again. The list is cut into stretches: a maximal run of @main's own statements, or
  one call. Nothing is proved here; the stretches are what the reference's run and its value are stated over.
-/
import proofs.«115037_j71897752535328_2_alg».proof.ReferenceIdeal
import proofs.«115037_j71897752535328_2_alg».proof.Proof.Gen.ReferenceIdeal
import Idealize.ShloMosaic.Lib.StableHlo

noncomputable section

namespace Cert.ReferenceIdeal.RefRun

open Cert.ReferenceIdeal Cert.ReferenceIdeal.Gen Idealize.ShloMosaic Idealize.ShloMosaic.TcCoe Idealize.SL.Sem

variable {F : FTy → Type} [FloatOps F]

/-- Stretch 0: 40 operations. -/
abbrev refOps0 : List (HloOp τ sig (Elt F)) :=
  ( StableHlo.reshape main_arg0 main_v0 rfl shapeCasts_S1x256x256x3_S256x256x3
  :: StableHlo.unary main_v0 main_v1 (broadcastInDim S176x256x256x3 ![1, 2, 3] bcast_S256x256x3_S176x256x256x3_1_2_3 : (⟨S256x256x3, .f32⟩ : BufTy).Contents (Elt F) → (⟨S176x256x256x3, .f32⟩ : BufTy).Contents (Elt F))
  :: StableHlo.reshape main_arg1 main_v2 rfl shapeCasts_S16x11x256x256x2_S176x256x256x2
  :: StableHlo.unary main_v2 main_v3 ((extractStridedSlice S176x256x256x1 ![0, 0, 0, 0] · slices_S176x256x256x2_S176x256x256x1_0_0_0_0) : (⟨S176x256x256x2, .f32⟩ : BufTy).Contents (Elt F) → (⟨S176x256x256x1, .f32⟩ : BufTy).Contents (Elt F))
  :: StableHlo.reshape main_v3 main_v4 rfl shapeCasts_S176x256x256x1_S176x256x256
  :: StableHlo.nullary main_cst (constant S_ .f32 0x3F800000#32)
  :: StableHlo.unary main_cst main_v5 (broadcastInDim S176x256x256 ![] bcast_S_S176x256x256 : (⟨S_, .f32⟩ : BufTy).Contents (Elt F) → (⟨S176x256x256, .f32⟩ : BufTy).Contents (Elt F))
  :: StableHlo.binary main_v4 main_v5 main_v6 (addf : (⟨S176x256x256, .f32⟩ : BufTy).Contents (Elt F) → (⟨S176x256x256, .f32⟩ : BufTy).Contents (Elt F) → (⟨S176x256x256, .f32⟩ : BufTy).Contents (Elt F))
  :: StableHlo.nullary main_cst_0 (constant S_ .f32 0x43000000#32)
  :: StableHlo.unary main_cst_0 main_v7 (broadcastInDim S176x256x256 ![] bcast_S_S176x256x256 : (⟨S_, .f32⟩ : BufTy).Contents (Elt F) → (⟨S176x256x256, .f32⟩ : BufTy).Contents (Elt F))
  :: StableHlo.binary main_v6 main_v7 main_v8 (mulf : (⟨S176x256x256, .f32⟩ : BufTy).Contents (Elt F) → (⟨S176x256x256, .f32⟩ : BufTy).Contents (Elt F) → (⟨S176x256x256, .f32⟩ : BufTy).Contents (Elt F))
  :: StableHlo.nullary main_cst_1 (constant S_ .f32 0x3F000000#32)
  :: StableHlo.unary main_cst_1 main_v9 (broadcastInDim S176x256x256 ![] bcast_S_S176x256x256 : (⟨S_, .f32⟩ : BufTy).Contents (Elt F) → (⟨S176x256x256, .f32⟩ : BufTy).Contents (Elt F))
  :: StableHlo.binary main_v8 main_v9 main_v10 (subf : (⟨S176x256x256, .f32⟩ : BufTy).Contents (Elt F) → (⟨S176x256x256, .f32⟩ : BufTy).Contents (Elt F) → (⟨S176x256x256, .f32⟩ : BufTy).Contents (Elt F))
  :: StableHlo.unary main_v2 main_v11 ((extractStridedSlice S176x256x256x1 ![0, 0, 0, 1] · slices_S176x256x256x2_S176x256x256x1_0_0_0_1) : (⟨S176x256x256x2, .f32⟩ : BufTy).Contents (Elt F) → (⟨S176x256x256x1, .f32⟩ : BufTy).Contents (Elt F))
  :: StableHlo.reshape main_v11 main_v12 rfl shapeCasts_S176x256x256x1_S176x256x256
  :: StableHlo.nullary main_cst_2 (constant S_ .f32 0x3F800000#32)
  :: StableHlo.unary main_cst_2 main_v13 (broadcastInDim S176x256x256 ![] bcast_S_S176x256x256 : (⟨S_, .f32⟩ : BufTy).Contents (Elt F) → (⟨S176x256x256, .f32⟩ : BufTy).Contents (Elt F))
  :: StableHlo.binary main_v12 main_v13 main_v14 (addf : (⟨S176x256x256, .f32⟩ : BufTy).Contents (Elt F) → (⟨S176x256x256, .f32⟩ : BufTy).Contents (Elt F) → (⟨S176x256x256, .f32⟩ : BufTy).Contents (Elt F))
  :: StableHlo.nullary main_cst_3 (constant S_ .f32 0x43000000#32)
  :: StableHlo.unary main_cst_3 main_v15 (broadcastInDim S176x256x256 ![] bcast_S_S176x256x256 : (⟨S_, .f32⟩ : BufTy).Contents (Elt F) → (⟨S176x256x256, .f32⟩ : BufTy).Contents (Elt F))
  :: StableHlo.binary main_v14 main_v15 main_v16 (mulf : (⟨S176x256x256, .f32⟩ : BufTy).Contents (Elt F) → (⟨S176x256x256, .f32⟩ : BufTy).Contents (Elt F) → (⟨S176x256x256, .f32⟩ : BufTy).Contents (Elt F))
  :: StableHlo.nullary main_cst_4 (constant S_ .f32 0x3F000000#32)
  :: StableHlo.unary main_cst_4 main_v17 (broadcastInDim S176x256x256 ![] bcast_S_S176x256x256 : (⟨S_, .f32⟩ : BufTy).Contents (Elt F) → (⟨S176x256x256, .f32⟩ : BufTy).Contents (Elt F))
  :: StableHlo.binary main_v16 main_v17 main_v18 (subf : (⟨S176x256x256, .f32⟩ : BufTy).Contents (Elt F) → (⟨S176x256x256, .f32⟩ : BufTy).Contents (Elt F) → (⟨S176x256x256, .f32⟩ : BufTy).Contents (Elt F))
  :: StableHlo.unary main_v10 main_v19 (Host.floor : (⟨S176x256x256, .f32⟩ : BufTy).Contents (Elt F) → (⟨S176x256x256, .f32⟩ : BufTy).Contents (Elt F))
  :: StableHlo.unary main_v18 main_v20 (Host.floor : (⟨S176x256x256, .f32⟩ : BufTy).Contents (Elt F) → (⟨S176x256x256, .f32⟩ : BufTy).Contents (Elt F))
  :: StableHlo.binary main_v10 main_v19 main_v21 (subf : (⟨S176x256x256, .f32⟩ : BufTy).Contents (Elt F) → (⟨S176x256x256, .f32⟩ : BufTy).Contents (Elt F) → (⟨S176x256x256, .f32⟩ : BufTy).Contents (Elt F))
  :: StableHlo.binary main_v18 main_v20 main_v22 (subf : (⟨S176x256x256, .f32⟩ : BufTy).Contents (Elt F) → (⟨S176x256x256, .f32⟩ : BufTy).Contents (Elt F) → (⟨S176x256x256, .f32⟩ : BufTy).Contents (Elt F))
  :: StableHlo.nullary main_cst_5 (constant S_ .f32 0x3F800000#32)
  :: StableHlo.unary main_cst_5 main_v23 (broadcastInDim S176x256x256 ![] bcast_S_S176x256x256 : (⟨S_, .f32⟩ : BufTy).Contents (Elt F) → (⟨S176x256x256, .f32⟩ : BufTy).Contents (Elt F))
  :: StableHlo.binary main_v23 main_v21 main_v24 (subf : (⟨S176x256x256, .f32⟩ : BufTy).Contents (Elt F) → (⟨S176x256x256, .f32⟩ : BufTy).Contents (Elt F) → (⟨S176x256x256, .f32⟩ : BufTy).Contents (Elt F))
  :: StableHlo.nullary main_cst_6 (constant S_ .f32 0x3F800000#32)
  :: StableHlo.unary main_cst_6 main_v25 (broadcastInDim S176x256x256 ![] bcast_S_S176x256x256 : (⟨S_, .f32⟩ : BufTy).Contents (Elt F) → (⟨S176x256x256, .f32⟩ : BufTy).Contents (Elt F))
  :: StableHlo.binary main_v25 main_v22 main_v26 (subf : (⟨S176x256x256, .f32⟩ : BufTy).Contents (Elt F) → (⟨S176x256x256, .f32⟩ : BufTy).Contents (Elt F) → (⟨S176x256x256, .f32⟩ : BufTy).Contents (Elt F))
  :: StableHlo.binary main_v26 main_v24 main_v27 (mulf : (⟨S176x256x256, .f32⟩ : BufTy).Contents (Elt F) → (⟨S176x256x256, .f32⟩ : BufTy).Contents (Elt F) → (⟨S176x256x256, .f32⟩ : BufTy).Contents (Elt F))
  :: StableHlo.binary main_v26 main_v21 main_v28 (mulf : (⟨S176x256x256, .f32⟩ : BufTy).Contents (Elt F) → (⟨S176x256x256, .f32⟩ : BufTy).Contents (Elt F) → (⟨S176x256x256, .f32⟩ : BufTy).Contents (Elt F))
  :: StableHlo.binary main_v22 main_v24 main_v29 (mulf : (⟨S176x256x256, .f32⟩ : BufTy).Contents (Elt F) → (⟨S176x256x256, .f32⟩ : BufTy).Contents (Elt F) → (⟨S176x256x256, .f32⟩ : BufTy).Contents (Elt F))
  :: StableHlo.binary main_v22 main_v21 main_v30 (mulf : (⟨S176x256x256, .f32⟩ : BufTy).Contents (Elt F) → (⟨S176x256x256, .f32⟩ : BufTy).Contents (Elt F) → (⟨S176x256x256, .f32⟩ : BufTy).Contents (Elt F))
  :: StableHlo.unary main_v19 main_v31 (fptosi 32 : (⟨S176x256x256, .f32⟩ : BufTy).Contents (Elt F) → (⟨S176x256x256, .i32⟩ : BufTy).Contents (Elt F))
  :: [] )

/-- Stretch 1: 40 operations. -/
abbrev refOps1 : List (HloOp τ sig (Elt F)) :=
  ( StableHlo.unary main_v20 main_v32 (fptosi 32 : (⟨S176x256x256, .f32⟩ : BufTy).Contents (Elt F) → (⟨S176x256x256, .i32⟩ : BufTy).Contents (Elt F))
  :: StableHlo.nullary main_c (constantI S_ 32 1#32)
  :: StableHlo.unary main_c main_v33 (broadcastInDim S176x256x256 ![] bcast_S_S176x256x256 : (⟨S_, .i32⟩ : BufTy).Contents (Elt F) → (⟨S176x256x256, .i32⟩ : BufTy).Contents (Elt F))
  :: StableHlo.binary main_v31 main_v33 main_v34 (addi : (⟨S176x256x256, .i32⟩ : BufTy).Contents (Elt F) → (⟨S176x256x256, .i32⟩ : BufTy).Contents (Elt F) → (⟨S176x256x256, .i32⟩ : BufTy).Contents (Elt F))
  :: StableHlo.nullary main_c_7 (constantI S_ 32 1#32)
  :: StableHlo.unary main_c_7 main_v35 (broadcastInDim S176x256x256 ![] bcast_S_S176x256x256 : (⟨S_, .i32⟩ : BufTy).Contents (Elt F) → (⟨S176x256x256, .i32⟩ : BufTy).Contents (Elt F))
  :: StableHlo.binary main_v32 main_v35 main_v36 (addi : (⟨S176x256x256, .i32⟩ : BufTy).Contents (Elt F) → (⟨S176x256x256, .i32⟩ : BufTy).Contents (Elt F) → (⟨S176x256x256, .i32⟩ : BufTy).Contents (Elt F))
  :: StableHlo.nullary main_c_8 (constantI S_ 32 4294967295#32)
  :: StableHlo.unary main_c_8 main_v37 (broadcastInDim S176x256x256 ![] bcast_S_S176x256x256 : (⟨S_, .i32⟩ : BufTy).Contents (Elt F) → (⟨S176x256x256, .i32⟩ : BufTy).Contents (Elt F))
  :: StableHlo.binary main_v31 main_v37 main_v38 (cmpi .sgt : (⟨S176x256x256, .i32⟩ : BufTy).Contents (Elt F) → (⟨S176x256x256, .i32⟩ : BufTy).Contents (Elt F) → (⟨S176x256x256, .i1⟩ : BufTy).Contents (Elt F))
  :: StableHlo.nullary main_c_9 (constantI S_ 32 256#32)
  :: StableHlo.unary main_c_9 main_v39 (broadcastInDim S176x256x256 ![] bcast_S_S176x256x256 : (⟨S_, .i32⟩ : BufTy).Contents (Elt F) → (⟨S176x256x256, .i32⟩ : BufTy).Contents (Elt F))
  :: StableHlo.binary main_v31 main_v39 main_v40 (cmpi .slt : (⟨S176x256x256, .i32⟩ : BufTy).Contents (Elt F) → (⟨S176x256x256, .i32⟩ : BufTy).Contents (Elt F) → (⟨S176x256x256, .i1⟩ : BufTy).Contents (Elt F))
  :: StableHlo.binary main_v38 main_v40 main_v41 (andi : (⟨S176x256x256, .i1⟩ : BufTy).Contents (Elt F) → (⟨S176x256x256, .i1⟩ : BufTy).Contents (Elt F) → (⟨S176x256x256, .i1⟩ : BufTy).Contents (Elt F))
  :: StableHlo.nullary main_c_10 (constantI S_ 32 4294967295#32)
  :: StableHlo.unary main_c_10 main_v42 (broadcastInDim S176x256x256 ![] bcast_S_S176x256x256 : (⟨S_, .i32⟩ : BufTy).Contents (Elt F) → (⟨S176x256x256, .i32⟩ : BufTy).Contents (Elt F))
  :: StableHlo.binary main_v32 main_v42 main_v43 (cmpi .sgt : (⟨S176x256x256, .i32⟩ : BufTy).Contents (Elt F) → (⟨S176x256x256, .i32⟩ : BufTy).Contents (Elt F) → (⟨S176x256x256, .i1⟩ : BufTy).Contents (Elt F))
  :: StableHlo.nullary main_c_11 (constantI S_ 32 256#32)
  :: StableHlo.unary main_c_11 main_v44 (broadcastInDim S176x256x256 ![] bcast_S_S176x256x256 : (⟨S_, .i32⟩ : BufTy).Contents (Elt F) → (⟨S176x256x256, .i32⟩ : BufTy).Contents (Elt F))
  :: StableHlo.binary main_v32 main_v44 main_v45 (cmpi .slt : (⟨S176x256x256, .i32⟩ : BufTy).Contents (Elt F) → (⟨S176x256x256, .i32⟩ : BufTy).Contents (Elt F) → (⟨S176x256x256, .i1⟩ : BufTy).Contents (Elt F))
  :: StableHlo.binary main_v43 main_v45 main_v46 (andi : (⟨S176x256x256, .i1⟩ : BufTy).Contents (Elt F) → (⟨S176x256x256, .i1⟩ : BufTy).Contents (Elt F) → (⟨S176x256x256, .i1⟩ : BufTy).Contents (Elt F))
  :: StableHlo.nullary main_c_12 (constantI S_ 32 4294967295#32)
  :: StableHlo.unary main_c_12 main_v47 (broadcastInDim S176x256x256 ![] bcast_S_S176x256x256 : (⟨S_, .i32⟩ : BufTy).Contents (Elt F) → (⟨S176x256x256, .i32⟩ : BufTy).Contents (Elt F))
  :: StableHlo.binary main_v34 main_v47 main_v48 (cmpi .sgt : (⟨S176x256x256, .i32⟩ : BufTy).Contents (Elt F) → (⟨S176x256x256, .i32⟩ : BufTy).Contents (Elt F) → (⟨S176x256x256, .i1⟩ : BufTy).Contents (Elt F))
  :: StableHlo.nullary main_c_13 (constantI S_ 32 256#32)
  :: StableHlo.unary main_c_13 main_v49 (broadcastInDim S176x256x256 ![] bcast_S_S176x256x256 : (⟨S_, .i32⟩ : BufTy).Contents (Elt F) → (⟨S176x256x256, .i32⟩ : BufTy).Contents (Elt F))
  :: StableHlo.binary main_v34 main_v49 main_v50 (cmpi .slt : (⟨S176x256x256, .i32⟩ : BufTy).Contents (Elt F) → (⟨S176x256x256, .i32⟩ : BufTy).Contents (Elt F) → (⟨S176x256x256, .i1⟩ : BufTy).Contents (Elt F))
  :: StableHlo.binary main_v48 main_v50 main_v51 (andi : (⟨S176x256x256, .i1⟩ : BufTy).Contents (Elt F) → (⟨S176x256x256, .i1⟩ : BufTy).Contents (Elt F) → (⟨S176x256x256, .i1⟩ : BufTy).Contents (Elt F))
  :: StableHlo.nullary main_c_14 (constantI S_ 32 4294967295#32)
  :: StableHlo.unary main_c_14 main_v52 (broadcastInDim S176x256x256 ![] bcast_S_S176x256x256 : (⟨S_, .i32⟩ : BufTy).Contents (Elt F) → (⟨S176x256x256, .i32⟩ : BufTy).Contents (Elt F))
  :: StableHlo.binary main_v36 main_v52 main_v53 (cmpi .sgt : (⟨S176x256x256, .i32⟩ : BufTy).Contents (Elt F) → (⟨S176x256x256, .i32⟩ : BufTy).Contents (Elt F) → (⟨S176x256x256, .i1⟩ : BufTy).Contents (Elt F))
  :: StableHlo.nullary main_c_15 (constantI S_ 32 256#32)
  :: StableHlo.unary main_c_15 main_v54 (broadcastInDim S176x256x256 ![] bcast_S_S176x256x256 : (⟨S_, .i32⟩ : BufTy).Contents (Elt F) → (⟨S176x256x256, .i32⟩ : BufTy).Contents (Elt F))
  :: StableHlo.binary main_v36 main_v54 main_v55 (cmpi .slt : (⟨S176x256x256, .i32⟩ : BufTy).Contents (Elt F) → (⟨S176x256x256, .i32⟩ : BufTy).Contents (Elt F) → (⟨S176x256x256, .i1⟩ : BufTy).Contents (Elt F))
  :: StableHlo.binary main_v53 main_v55 main_v56 (andi : (⟨S176x256x256, .i1⟩ : BufTy).Contents (Elt F) → (⟨S176x256x256, .i1⟩ : BufTy).Contents (Elt F) → (⟨S176x256x256, .i1⟩ : BufTy).Contents (Elt F))
  :: StableHlo.reshape main_v1 main_v57 rfl shapeCasts_S176x256x256x3_S11534336x3
  :: StableHlo.nullary main_v58 (iotaInDim S176 32 0)
  :: StableHlo.unary main_v58 main_v59 (broadcastInDim S176x1x1 ![0] bcast_S176_S176x1x1_0 : (⟨S176, .i32⟩ : BufTy).Contents (Elt F) → (⟨S176x1x1, .i32⟩ : BufTy).Contents (Elt F))
  :: StableHlo.binary main_v41 main_v46 main_v60 (andi : (⟨S176x256x256, .i1⟩ : BufTy).Contents (Elt F) → (⟨S176x256x256, .i1⟩ : BufTy).Contents (Elt F) → (⟨S176x256x256, .i1⟩ : BufTy).Contents (Elt F))
  :: StableHlo.nullary main_c_16 (constantI S_ 32 0#32)
  :: [] )

/-- Stretch 2: 3 operations. -/
abbrev refOps2 : List (HloOp τ sig (Elt F)) :=
  ( StableHlo.TRef.unary (.of main_c_16 : StableHlo.TRef sig ⟨S_, .i32⟩) (.of main_call0_v0 : StableHlo.TRef sig ⟨S_, .i32⟩) id
  :: StableHlo.TRef.unary (.of main_call0_v0 : StableHlo.TRef sig ⟨S_, .i32⟩) (.of main_call0_v1 : StableHlo.TRef sig ⟨S176x256x256, .i32⟩) (broadcastInDim S176x256x256 ![] bcast_S_S176x256x256)
  :: StableHlo.TRef.ternary (.of main_v60 : StableHlo.TRef sig ⟨S176x256x256, .i1⟩) (.of main_v32 : StableHlo.TRef sig ⟨S176x256x256, .i32⟩) (.of main_call0_v1 : StableHlo.TRef sig ⟨S176x256x256, .i32⟩) (.of main_v61 : StableHlo.TRef sig ⟨S176x256x256, .i32⟩) select
  :: [] )

/-- Stretch 3: 1 operation. -/
abbrev refOps3 : List (HloOp τ sig (Elt F)) :=
  ( StableHlo.nullary main_c_17 (constantI S_ 32 0#32)
  :: [] )

/-- Stretch 4: 3 operations. -/
abbrev refOps4 : List (HloOp τ sig (Elt F)) :=
  ( StableHlo.TRef.unary (.of main_c_17 : StableHlo.TRef sig ⟨S_, .i32⟩) (.of main_call1_v0 : StableHlo.TRef sig ⟨S_, .i32⟩) id
  :: StableHlo.TRef.unary (.of main_call1_v0 : StableHlo.TRef sig ⟨S_, .i32⟩) (.of main_call1_v1 : StableHlo.TRef sig ⟨S176x256x256, .i32⟩) (broadcastInDim S176x256x256 ![] bcast_S_S176x256x256)
  :: StableHlo.TRef.ternary (.of main_v60 : StableHlo.TRef sig ⟨S176x256x256, .i1⟩) (.of main_v31 : StableHlo.TRef sig ⟨S176x256x256, .i32⟩) (.of main_call1_v1 : StableHlo.TRef sig ⟨S176x256x256, .i32⟩) (.of main_v62 : StableHlo.TRef sig ⟨S176x256x256, .i32⟩) select
  :: [] )

/-- Stretch 5: 10 operations. -/
abbrev refOps5 : List (HloOp τ sig (Elt F)) :=
  ( StableHlo.nullary main_c_18 (constantI S_ 32 256#32)
  :: StableHlo.unary main_c_18 main_v63 (broadcastInDim S176x1x1 ![] bcast_S_S176x1x1 : (⟨S_, .i32⟩ : BufTy).Contents (Elt F) → (⟨S176x1x1, .i32⟩ : BufTy).Contents (Elt F))
  :: StableHlo.binary main_v59 main_v63 main_v64 (muli : (⟨S176x1x1, .i32⟩ : BufTy).Contents (Elt F) → (⟨S176x1x1, .i32⟩ : BufTy).Contents (Elt F) → (⟨S176x1x1, .i32⟩ : BufTy).Contents (Elt F))
  :: StableHlo.unary main_v64 main_v65 (broadcastInDim S176x256x256 ![0, 1, 2] bcast_S176x1x1_S176x256x256_0_1_2 : (⟨S176x1x1, .i32⟩ : BufTy).Contents (Elt F) → (⟨S176x256x256, .i32⟩ : BufTy).Contents (Elt F))
  :: StableHlo.binary main_v65 main_v61 main_v66 (addi : (⟨S176x256x256, .i32⟩ : BufTy).Contents (Elt F) → (⟨S176x256x256, .i32⟩ : BufTy).Contents (Elt F) → (⟨S176x256x256, .i32⟩ : BufTy).Contents (Elt F))
  :: StableHlo.nullary main_c_19 (constantI S_ 32 256#32)
  :: StableHlo.unary main_c_19 main_v67 (broadcastInDim S176x256x256 ![] bcast_S_S176x256x256 : (⟨S_, .i32⟩ : BufTy).Contents (Elt F) → (⟨S176x256x256, .i32⟩ : BufTy).Contents (Elt F))
  :: StableHlo.binary main_v66 main_v67 main_v68 (muli : (⟨S176x256x256, .i32⟩ : BufTy).Contents (Elt F) → (⟨S176x256x256, .i32⟩ : BufTy).Contents (Elt F) → (⟨S176x256x256, .i32⟩ : BufTy).Contents (Elt F))
  :: StableHlo.binary main_v68 main_v62 main_v69 (addi : (⟨S176x256x256, .i32⟩ : BufTy).Contents (Elt F) → (⟨S176x256x256, .i32⟩ : BufTy).Contents (Elt F) → (⟨S176x256x256, .i32⟩ : BufTy).Contents (Elt F))
  :: StableHlo.reshape main_v69 main_v70 rfl shapeCasts_S176x256x256_S11534336
  :: [] )

/-- Stretch 6: 23 operations. -/
abbrev refOps6 : List (HloOp τ sig (Elt F)) :=
  ( StableHlo.TRef.nullary (.of main_call2_c : StableHlo.TRef sig ⟨S_, .i32⟩) (constantI S_ 32 0#32)
  :: StableHlo.TRef.unary (.of main_call2_c : StableHlo.TRef sig ⟨S_, .i32⟩) (.of main_call2_v0 : StableHlo.TRef sig ⟨S11534336, .i32⟩) (broadcastInDim S11534336 ![] bcast_S_S11534336)
  :: StableHlo.TRef.binary (.of main_v70 : StableHlo.TRef sig ⟨S11534336, .i32⟩) (.of main_call2_v0 : StableHlo.TRef sig ⟨S11534336, .i32⟩) (.of main_call2_v1 : StableHlo.TRef sig ⟨S11534336, .i1⟩) (cmpi .slt)
  :: StableHlo.TRef.nullary (.of main_call2_c_0 : StableHlo.TRef sig ⟨S_, .i32⟩) (constantI S_ 32 11534336#32)
  :: StableHlo.TRef.unary (.of main_call2_c_0 : StableHlo.TRef sig ⟨S_, .i32⟩) (.of main_call2_v2 : StableHlo.TRef sig ⟨S11534336, .i32⟩) (broadcastInDim S11534336 ![] bcast_S_S11534336)
  :: StableHlo.TRef.binary (.of main_v70 : StableHlo.TRef sig ⟨S11534336, .i32⟩) (.of main_call2_v2 : StableHlo.TRef sig ⟨S11534336, .i32⟩) (.of main_call2_v3 : StableHlo.TRef sig ⟨S11534336, .i32⟩) addi
  :: StableHlo.TRef.ternary (.of main_call2_v1 : StableHlo.TRef sig ⟨S11534336, .i1⟩) (.of main_call2_v3 : StableHlo.TRef sig ⟨S11534336, .i32⟩) (.of main_v70 : StableHlo.TRef sig ⟨S11534336, .i32⟩) (.of main_call2_v4 : StableHlo.TRef sig ⟨S11534336, .i32⟩) select
  :: StableHlo.TRef.unary (.of main_call2_v4 : StableHlo.TRef sig ⟨S11534336, .i32⟩) (.of main_call2_v5 : StableHlo.TRef sig ⟨S11534336x1, .i32⟩) (broadcastInDim S11534336x1 ![0] bcast_S11534336_S11534336x1_0)
  :: StableHlo.TRef.nullary (.of main_call2_c_1 : StableHlo.TRef sig ⟨S1, .i32⟩) (constantI S1 32 11534335#32)
  :: StableHlo.TRef.nullary (.of main_call2_c_2 : StableHlo.TRef sig ⟨S_, .i32⟩) (constantI S_ 32 0#32)
  :: StableHlo.TRef.unary (.of main_call2_c_2 : StableHlo.TRef sig ⟨S_, .i32⟩) (.of main_call2_v6 : StableHlo.TRef sig ⟨S11534336x1, .i32⟩) (broadcastInDim S11534336x1 ![] bcast_S_S11534336x1)
  :: StableHlo.TRef.binary (.of main_call2_v5 : StableHlo.TRef sig ⟨S11534336x1, .i32⟩) (.of main_call2_v6 : StableHlo.TRef sig ⟨S11534336x1, .i32⟩) (.of main_call2_v7 : StableHlo.TRef sig ⟨S11534336x1, .i1⟩) (cmpi .sge)
  :: StableHlo.TRef.unary (.of main_call2_c_1 : StableHlo.TRef sig ⟨S1, .i32⟩) (.of main_call2_v8 : StableHlo.TRef sig ⟨S1x1, .i32⟩) (broadcastInDim S1x1 ![1] bcast_S1_S1x1_1)
  :: StableHlo.TRef.unary (.of main_call2_v8 : StableHlo.TRef sig ⟨S1x1, .i32⟩) (.of main_call2_v9 : StableHlo.TRef sig ⟨S11534336x1, .i32⟩) (broadcastInDim S11534336x1 ![0, 1] bcast_S1x1_S11534336x1_0_1)
  :: StableHlo.TRef.binary (.of main_call2_v5 : StableHlo.TRef sig ⟨S11534336x1, .i32⟩) (.of main_call2_v9 : StableHlo.TRef sig ⟨S11534336x1, .i32⟩) (.of main_call2_v10 : StableHlo.TRef sig ⟨S11534336x1, .i1⟩) (cmpi .sle)
  :: StableHlo.TRef.binary (.of main_call2_v7 : StableHlo.TRef sig ⟨S11534336x1, .i1⟩) (.of main_call2_v10 : StableHlo.TRef sig ⟨S11534336x1, .i1⟩) (.of main_call2_v11 : StableHlo.TRef sig ⟨S11534336x1, .i1⟩) andi
  :: StableHlo.TRef.nullary (.of main_call2_c_3 : StableHlo.TRef sig ⟨S_, .i1⟩) (constantI S_ 1 1#1)
  :: StableHlo.TRef.binary (.of main_call2_v11 : StableHlo.TRef sig ⟨S11534336x1, .i1⟩) (.of main_call2_c_3 : StableHlo.TRef sig ⟨S_, .i1⟩) (.of main_call2_v12 : StableHlo.TRef sig ⟨S11534336, .i1⟩) (fun x v => Host.reduce IntOp.andi x v reducesTo_S11534336x1_S11534336_d1 h_S_)
  :: StableHlo.TRef.binary (.of main_v57 : StableHlo.TRef sig ⟨S11534336x3, .f32⟩) (.of main_call2_v5 : StableHlo.TRef sig ⟨S11534336x1, .i32⟩) (.of main_call2_v13 : StableHlo.TRef sig ⟨S11534336x3, .f32⟩) (fun x i => Host.gather gather_S11534336x3_S11534336x1_S11534336x3_1_0_n_n_0_1_13 x i)
  :: StableHlo.TRef.unary (.of main_call2_v12 : StableHlo.TRef sig ⟨S11534336, .i1⟩) (.of main_call2_v14 : StableHlo.TRef sig ⟨S11534336x3, .i1⟩) (broadcastInDim S11534336x3 ![0] bcast_S11534336_S11534336x3_0)
  :: StableHlo.TRef.nullary (.of main_call2_cst : StableHlo.TRef sig ⟨S_, .f32⟩) (constant S_ .f32 0x7FC00000#32)
  :: StableHlo.TRef.unary (.of main_call2_cst : StableHlo.TRef sig ⟨S_, .f32⟩) (.of main_call2_v15 : StableHlo.TRef sig ⟨S11534336x3, .f32⟩) (broadcastInDim S11534336x3 ![] bcast_S_S11534336x3)
  :: StableHlo.TRef.ternary (.of main_call2_v14 : StableHlo.TRef sig ⟨S11534336x3, .i1⟩) (.of main_call2_v13 : StableHlo.TRef sig ⟨S11534336x3, .f32⟩) (.of main_call2_v15 : StableHlo.TRef sig ⟨S11534336x3, .f32⟩) (.of main_v71 : StableHlo.TRef sig ⟨S11534336x3, .f32⟩) select
  :: [] )

/-- Stretch 7: 3 operations. -/
abbrev refOps7 : List (HloOp τ sig (Elt F)) :=
  ( StableHlo.reshape main_v71 main_v72 rfl shapeCasts_S11534336x3_S176x256x256x3
  :: StableHlo.unary main_v60 main_v73 (broadcastInDim S176x256x256x1 ![0, 1, 2] bcast_S176x256x256_S176x256x256x1_0_1_2 : (⟨S176x256x256, .i1⟩ : BufTy).Contents (Elt F) → (⟨S176x256x256x1, .i1⟩ : BufTy).Contents (Elt F))
  :: StableHlo.nullary main_cst_20 (constant S_ .f32 0x00000000#32)
  :: [] )

/-- Stretch 8: 4 operations. -/
abbrev refOps8 : List (HloOp τ sig (Elt F)) :=
  ( StableHlo.TRef.unary (.of main_cst_20 : StableHlo.TRef sig ⟨S_, .f32⟩) (.of main_call3_v0 : StableHlo.TRef sig ⟨S_, .f32⟩) id
  :: StableHlo.TRef.unary (.of main_v73 : StableHlo.TRef sig ⟨S176x256x256x1, .i1⟩) (.of main_call3_v1 : StableHlo.TRef sig ⟨S176x256x256x3, .i1⟩) (broadcastInDim S176x256x256x3 ![0, 1, 2, 3] bcast_S176x256x256x1_S176x256x256x3_0_1_2_3)
  :: StableHlo.TRef.unary (.of main_call3_v0 : StableHlo.TRef sig ⟨S_, .f32⟩) (.of main_call3_v2 : StableHlo.TRef sig ⟨S176x256x256x3, .f32⟩) (broadcastInDim S176x256x256x3 ![] bcast_S_S176x256x256x3)
  :: StableHlo.TRef.ternary (.of main_call3_v1 : StableHlo.TRef sig ⟨S176x256x256x3, .i1⟩) (.of main_v72 : StableHlo.TRef sig ⟨S176x256x256x3, .f32⟩) (.of main_call3_v2 : StableHlo.TRef sig ⟨S176x256x256x3, .f32⟩) (.of main_v74 : StableHlo.TRef sig ⟨S176x256x256x3, .f32⟩) select
  :: [] )

/-- Stretch 9: 2 operations. -/
abbrev refOps9 : List (HloOp τ sig (Elt F)) :=
  ( StableHlo.binary main_v51 main_v46 main_v75 (andi : (⟨S176x256x256, .i1⟩ : BufTy).Contents (Elt F) → (⟨S176x256x256, .i1⟩ : BufTy).Contents (Elt F) → (⟨S176x256x256, .i1⟩ : BufTy).Contents (Elt F))
  :: StableHlo.nullary main_c_21 (constantI S_ 32 0#32)
  :: [] )

/-- Stretch 10: 3 operations. -/
abbrev refOps10 : List (HloOp τ sig (Elt F)) :=
  ( StableHlo.TRef.unary (.of main_c_21 : StableHlo.TRef sig ⟨S_, .i32⟩) (.of main_call4_v0 : StableHlo.TRef sig ⟨S_, .i32⟩) id
  :: StableHlo.TRef.unary (.of main_call4_v0 : StableHlo.TRef sig ⟨S_, .i32⟩) (.of main_call4_v1 : StableHlo.TRef sig ⟨S176x256x256, .i32⟩) (broadcastInDim S176x256x256 ![] bcast_S_S176x256x256)
  :: StableHlo.TRef.ternary (.of main_v75 : StableHlo.TRef sig ⟨S176x256x256, .i1⟩) (.of main_v32 : StableHlo.TRef sig ⟨S176x256x256, .i32⟩) (.of main_call4_v1 : StableHlo.TRef sig ⟨S176x256x256, .i32⟩) (.of main_v76 : StableHlo.TRef sig ⟨S176x256x256, .i32⟩) select
  :: [] )

/-- Stretch 11: 1 operation. -/
abbrev refOps11 : List (HloOp τ sig (Elt F)) :=
  ( StableHlo.nullary main_c_22 (constantI S_ 32 0#32)
  :: [] )

/-- Stretch 12: 3 operations. -/
abbrev refOps12 : List (HloOp τ sig (Elt F)) :=
  ( StableHlo.TRef.unary (.of main_c_22 : StableHlo.TRef sig ⟨S_, .i32⟩) (.of main_call5_v0 : StableHlo.TRef sig ⟨S_, .i32⟩) id
  :: StableHlo.TRef.unary (.of main_call5_v0 : StableHlo.TRef sig ⟨S_, .i32⟩) (.of main_call5_v1 : StableHlo.TRef sig ⟨S176x256x256, .i32⟩) (broadcastInDim S176x256x256 ![] bcast_S_S176x256x256)
  :: StableHlo.TRef.ternary (.of main_v75 : StableHlo.TRef sig ⟨S176x256x256, .i1⟩) (.of main_v34 : StableHlo.TRef sig ⟨S176x256x256, .i32⟩) (.of main_call5_v1 : StableHlo.TRef sig ⟨S176x256x256, .i32⟩) (.of main_v77 : StableHlo.TRef sig ⟨S176x256x256, .i32⟩) select
  :: [] )

/-- Stretch 13: 10 operations. -/
abbrev refOps13 : List (HloOp τ sig (Elt F)) :=
  ( StableHlo.nullary main_c_23 (constantI S_ 32 256#32)
  :: StableHlo.unary main_c_23 main_v78 (broadcastInDim S176x1x1 ![] bcast_S_S176x1x1 : (⟨S_, .i32⟩ : BufTy).Contents (Elt F) → (⟨S176x1x1, .i32⟩ : BufTy).Contents (Elt F))
  :: StableHlo.binary main_v59 main_v78 main_v79 (muli : (⟨S176x1x1, .i32⟩ : BufTy).Contents (Elt F) → (⟨S176x1x1, .i32⟩ : BufTy).Contents (Elt F) → (⟨S176x1x1, .i32⟩ : BufTy).Contents (Elt F))
  :: StableHlo.unary main_v79 main_v80 (broadcastInDim S176x256x256 ![0, 1, 2] bcast_S176x1x1_S176x256x256_0_1_2 : (⟨S176x1x1, .i32⟩ : BufTy).Contents (Elt F) → (⟨S176x256x256, .i32⟩ : BufTy).Contents (Elt F))
  :: StableHlo.binary main_v80 main_v76 main_v81 (addi : (⟨S176x256x256, .i32⟩ : BufTy).Contents (Elt F) → (⟨S176x256x256, .i32⟩ : BufTy).Contents (Elt F) → (⟨S176x256x256, .i32⟩ : BufTy).Contents (Elt F))
  :: StableHlo.nullary main_c_24 (constantI S_ 32 256#32)
  :: StableHlo.unary main_c_24 main_v82 (broadcastInDim S176x256x256 ![] bcast_S_S176x256x256 : (⟨S_, .i32⟩ : BufTy).Contents (Elt F) → (⟨S176x256x256, .i32⟩ : BufTy).Contents (Elt F))
  :: StableHlo.binary main_v81 main_v82 main_v83 (muli : (⟨S176x256x256, .i32⟩ : BufTy).Contents (Elt F) → (⟨S176x256x256, .i32⟩ : BufTy).Contents (Elt F) → (⟨S176x256x256, .i32⟩ : BufTy).Contents (Elt F))
  :: StableHlo.binary main_v83 main_v77 main_v84 (addi : (⟨S176x256x256, .i32⟩ : BufTy).Contents (Elt F) → (⟨S176x256x256, .i32⟩ : BufTy).Contents (Elt F) → (⟨S176x256x256, .i32⟩ : BufTy).Contents (Elt F))
  :: StableHlo.reshape main_v84 main_v85 rfl shapeCasts_S176x256x256_S11534336
  :: [] )

/-- Stretch 14: 23 operations. -/
abbrev refOps14 : List (HloOp τ sig (Elt F)) :=
  ( StableHlo.TRef.nullary (.of main_call6_c : StableHlo.TRef sig ⟨S_, .i32⟩) (constantI S_ 32 0#32)
  :: StableHlo.TRef.unary (.of main_call6_c : StableHlo.TRef sig ⟨S_, .i32⟩) (.of main_call6_v0 : StableHlo.TRef sig ⟨S11534336, .i32⟩) (broadcastInDim S11534336 ![] bcast_S_S11534336)
  :: StableHlo.TRef.binary (.of main_v85 : StableHlo.TRef sig ⟨S11534336, .i32⟩) (.of main_call6_v0 : StableHlo.TRef sig ⟨S11534336, .i32⟩) (.of main_call6_v1 : StableHlo.TRef sig ⟨S11534336, .i1⟩) (cmpi .slt)
  :: StableHlo.TRef.nullary (.of main_call6_c_0 : StableHlo.TRef sig ⟨S_, .i32⟩) (constantI S_ 32 11534336#32)
  :: StableHlo.TRef.unary (.of main_call6_c_0 : StableHlo.TRef sig ⟨S_, .i32⟩) (.of main_call6_v2 : StableHlo.TRef sig ⟨S11534336, .i32⟩) (broadcastInDim S11534336 ![] bcast_S_S11534336)
  :: StableHlo.TRef.binary (.of main_v85 : StableHlo.TRef sig ⟨S11534336, .i32⟩) (.of main_call6_v2 : StableHlo.TRef sig ⟨S11534336, .i32⟩) (.of main_call6_v3 : StableHlo.TRef sig ⟨S11534336, .i32⟩) addi
  :: StableHlo.TRef.ternary (.of main_call6_v1 : StableHlo.TRef sig ⟨S11534336, .i1⟩) (.of main_call6_v3 : StableHlo.TRef sig ⟨S11534336, .i32⟩) (.of main_v85 : StableHlo.TRef sig ⟨S11534336, .i32⟩) (.of main_call6_v4 : StableHlo.TRef sig ⟨S11534336, .i32⟩) select
  :: StableHlo.TRef.unary (.of main_call6_v4 : StableHlo.TRef sig ⟨S11534336, .i32⟩) (.of main_call6_v5 : StableHlo.TRef sig ⟨S11534336x1, .i32⟩) (broadcastInDim S11534336x1 ![0] bcast_S11534336_S11534336x1_0)
  :: StableHlo.TRef.nullary (.of main_call6_c_1 : StableHlo.TRef sig ⟨S1, .i32⟩) (constantI S1 32 11534335#32)
  :: StableHlo.TRef.nullary (.of main_call6_c_2 : StableHlo.TRef sig ⟨S_, .i32⟩) (constantI S_ 32 0#32)
  :: StableHlo.TRef.unary (.of main_call6_c_2 : StableHlo.TRef sig ⟨S_, .i32⟩) (.of main_call6_v6 : StableHlo.TRef sig ⟨S11534336x1, .i32⟩) (broadcastInDim S11534336x1 ![] bcast_S_S11534336x1)
  :: StableHlo.TRef.binary (.of main_call6_v5 : StableHlo.TRef sig ⟨S11534336x1, .i32⟩) (.of main_call6_v6 : StableHlo.TRef sig ⟨S11534336x1, .i32⟩) (.of main_call6_v7 : StableHlo.TRef sig ⟨S11534336x1, .i1⟩) (cmpi .sge)
  :: StableHlo.TRef.unary (.of main_call6_c_1 : StableHlo.TRef sig ⟨S1, .i32⟩) (.of main_call6_v8 : StableHlo.TRef sig ⟨S1x1, .i32⟩) (broadcastInDim S1x1 ![1] bcast_S1_S1x1_1)
  :: StableHlo.TRef.unary (.of main_call6_v8 : StableHlo.TRef sig ⟨S1x1, .i32⟩) (.of main_call6_v9 : StableHlo.TRef sig ⟨S11534336x1, .i32⟩) (broadcastInDim S11534336x1 ![0, 1] bcast_S1x1_S11534336x1_0_1)
  :: StableHlo.TRef.binary (.of main_call6_v5 : StableHlo.TRef sig ⟨S11534336x1, .i32⟩) (.of main_call6_v9 : StableHlo.TRef sig ⟨S11534336x1, .i32⟩) (.of main_call6_v10 : StableHlo.TRef sig ⟨S11534336x1, .i1⟩) (cmpi .sle)
  :: StableHlo.TRef.binary (.of main_call6_v7 : StableHlo.TRef sig ⟨S11534336x1, .i1⟩) (.of main_call6_v10 : StableHlo.TRef sig ⟨S11534336x1, .i1⟩) (.of main_call6_v11 : StableHlo.TRef sig ⟨S11534336x1, .i1⟩) andi
  :: StableHlo.TRef.nullary (.of main_call6_c_3 : StableHlo.TRef sig ⟨S_, .i1⟩) (constantI S_ 1 1#1)
  :: StableHlo.TRef.binary (.of main_call6_v11 : StableHlo.TRef sig ⟨S11534336x1, .i1⟩) (.of main_call6_c_3 : StableHlo.TRef sig ⟨S_, .i1⟩) (.of main_call6_v12 : StableHlo.TRef sig ⟨S11534336, .i1⟩) (fun x v => Host.reduce IntOp.andi x v reducesTo_S11534336x1_S11534336_d1 h_S_)
  :: StableHlo.TRef.binary (.of main_v57 : StableHlo.TRef sig ⟨S11534336x3, .f32⟩) (.of main_call6_v5 : StableHlo.TRef sig ⟨S11534336x1, .i32⟩) (.of main_call6_v13 : StableHlo.TRef sig ⟨S11534336x3, .f32⟩) (fun x i => Host.gather gather_S11534336x3_S11534336x1_S11534336x3_1_0_n_n_0_1_13 x i)
  :: StableHlo.TRef.unary (.of main_call6_v12 : StableHlo.TRef sig ⟨S11534336, .i1⟩) (.of main_call6_v14 : StableHlo.TRef sig ⟨S11534336x3, .i1⟩) (broadcastInDim S11534336x3 ![0] bcast_S11534336_S11534336x3_0)
  :: StableHlo.TRef.nullary (.of main_call6_cst : StableHlo.TRef sig ⟨S_, .f32⟩) (constant S_ .f32 0x7FC00000#32)
  :: StableHlo.TRef.unary (.of main_call6_cst : StableHlo.TRef sig ⟨S_, .f32⟩) (.of main_call6_v15 : StableHlo.TRef sig ⟨S11534336x3, .f32⟩) (broadcastInDim S11534336x3 ![] bcast_S_S11534336x3)
  :: StableHlo.TRef.ternary (.of main_call6_v14 : StableHlo.TRef sig ⟨S11534336x3, .i1⟩) (.of main_call6_v13 : StableHlo.TRef sig ⟨S11534336x3, .f32⟩) (.of main_call6_v15 : StableHlo.TRef sig ⟨S11534336x3, .f32⟩) (.of main_v86 : StableHlo.TRef sig ⟨S11534336x3, .f32⟩) select
  :: [] )

/-- Stretch 15: 3 operations. -/
abbrev refOps15 : List (HloOp τ sig (Elt F)) :=
  ( StableHlo.reshape main_v86 main_v87 rfl shapeCasts_S11534336x3_S176x256x256x3
  :: StableHlo.unary main_v75 main_v88 (broadcastInDim S176x256x256x1 ![0, 1, 2] bcast_S176x256x256_S176x256x256x1_0_1_2 : (⟨S176x256x256, .i1⟩ : BufTy).Contents (Elt F) → (⟨S176x256x256x1, .i1⟩ : BufTy).Contents (Elt F))
  :: StableHlo.nullary main_cst_25 (constant S_ .f32 0x00000000#32)
  :: [] )

/-- Stretch 16: 4 operations. -/
abbrev refOps16 : List (HloOp τ sig (Elt F)) :=
  ( StableHlo.TRef.unary (.of main_cst_25 : StableHlo.TRef sig ⟨S_, .f32⟩) (.of main_call7_v0 : StableHlo.TRef sig ⟨S_, .f32⟩) id
  :: StableHlo.TRef.unary (.of main_v88 : StableHlo.TRef sig ⟨S176x256x256x1, .i1⟩) (.of main_call7_v1 : StableHlo.TRef sig ⟨S176x256x256x3, .i1⟩) (broadcastInDim S176x256x256x3 ![0, 1, 2, 3] bcast_S176x256x256x1_S176x256x256x3_0_1_2_3)
  :: StableHlo.TRef.unary (.of main_call7_v0 : StableHlo.TRef sig ⟨S_, .f32⟩) (.of main_call7_v2 : StableHlo.TRef sig ⟨S176x256x256x3, .f32⟩) (broadcastInDim S176x256x256x3 ![] bcast_S_S176x256x256x3)
  :: StableHlo.TRef.ternary (.of main_call7_v1 : StableHlo.TRef sig ⟨S176x256x256x3, .i1⟩) (.of main_v87 : StableHlo.TRef sig ⟨S176x256x256x3, .f32⟩) (.of main_call7_v2 : StableHlo.TRef sig ⟨S176x256x256x3, .f32⟩) (.of main_v89 : StableHlo.TRef sig ⟨S176x256x256x3, .f32⟩) select
  :: [] )

/-- Stretch 17: 2 operations. -/
abbrev refOps17 : List (HloOp τ sig (Elt F)) :=
  ( StableHlo.binary main_v56 main_v41 main_v90 (andi : (⟨S176x256x256, .i1⟩ : BufTy).Contents (Elt F) → (⟨S176x256x256, .i1⟩ : BufTy).Contents (Elt F) → (⟨S176x256x256, .i1⟩ : BufTy).Contents (Elt F))
  :: StableHlo.nullary main_c_26 (constantI S_ 32 0#32)
  :: [] )

/-- Stretch 18: 3 operations. -/
abbrev refOps18 : List (HloOp τ sig (Elt F)) :=
  ( StableHlo.TRef.unary (.of main_c_26 : StableHlo.TRef sig ⟨S_, .i32⟩) (.of main_call8_v0 : StableHlo.TRef sig ⟨S_, .i32⟩) id
  :: StableHlo.TRef.unary (.of main_call8_v0 : StableHlo.TRef sig ⟨S_, .i32⟩) (.of main_call8_v1 : StableHlo.TRef sig ⟨S176x256x256, .i32⟩) (broadcastInDim S176x256x256 ![] bcast_S_S176x256x256)
  :: StableHlo.TRef.ternary (.of main_v90 : StableHlo.TRef sig ⟨S176x256x256, .i1⟩) (.of main_v36 : StableHlo.TRef sig ⟨S176x256x256, .i32⟩) (.of main_call8_v1 : StableHlo.TRef sig ⟨S176x256x256, .i32⟩) (.of main_v91 : StableHlo.TRef sig ⟨S176x256x256, .i32⟩) select
  :: [] )

/-- Stretch 19: 1 operation. -/
abbrev refOps19 : List (HloOp τ sig (Elt F)) :=
  ( StableHlo.nullary main_c_27 (constantI S_ 32 0#32)
  :: [] )

/-- Stretch 20: 3 operations. -/
abbrev refOps20 : List (HloOp τ sig (Elt F)) :=
  ( StableHlo.TRef.unary (.of main_c_27 : StableHlo.TRef sig ⟨S_, .i32⟩) (.of main_call9_v0 : StableHlo.TRef sig ⟨S_, .i32⟩) id
  :: StableHlo.TRef.unary (.of main_call9_v0 : StableHlo.TRef sig ⟨S_, .i32⟩) (.of main_call9_v1 : StableHlo.TRef sig ⟨S176x256x256, .i32⟩) (broadcastInDim S176x256x256 ![] bcast_S_S176x256x256)
  :: StableHlo.TRef.ternary (.of main_v90 : StableHlo.TRef sig ⟨S176x256x256, .i1⟩) (.of main_v31 : StableHlo.TRef sig ⟨S176x256x256, .i32⟩) (.of main_call9_v1 : StableHlo.TRef sig ⟨S176x256x256, .i32⟩) (.of main_v92 : StableHlo.TRef sig ⟨S176x256x256, .i32⟩) select
  :: [] )

/-- Stretch 21: 10 operations. -/
abbrev refOps21 : List (HloOp τ sig (Elt F)) :=
  ( StableHlo.nullary main_c_28 (constantI S_ 32 256#32)
  :: StableHlo.unary main_c_28 main_v93 (broadcastInDim S176x1x1 ![] bcast_S_S176x1x1 : (⟨S_, .i32⟩ : BufTy).Contents (Elt F) → (⟨S176x1x1, .i32⟩ : BufTy).Contents (Elt F))
  :: StableHlo.binary main_v59 main_v93 main_v94 (muli : (⟨S176x1x1, .i32⟩ : BufTy).Contents (Elt F) → (⟨S176x1x1, .i32⟩ : BufTy).Contents (Elt F) → (⟨S176x1x1, .i32⟩ : BufTy).Contents (Elt F))
  :: StableHlo.unary main_v94 main_v95 (broadcastInDim S176x256x256 ![0, 1, 2] bcast_S176x1x1_S176x256x256_0_1_2 : (⟨S176x1x1, .i32⟩ : BufTy).Contents (Elt F) → (⟨S176x256x256, .i32⟩ : BufTy).Contents (Elt F))
  :: StableHlo.binary main_v95 main_v91 main_v96 (addi : (⟨S176x256x256, .i32⟩ : BufTy).Contents (Elt F) → (⟨S176x256x256, .i32⟩ : BufTy).Contents (Elt F) → (⟨S176x256x256, .i32⟩ : BufTy).Contents (Elt F))
  :: StableHlo.nullary main_c_29 (constantI S_ 32 256#32)
  :: StableHlo.unary main_c_29 main_v97 (broadcastInDim S176x256x256 ![] bcast_S_S176x256x256 : (⟨S_, .i32⟩ : BufTy).Contents (Elt F) → (⟨S176x256x256, .i32⟩ : BufTy).Contents (Elt F))
  :: StableHlo.binary main_v96 main_v97 main_v98 (muli : (⟨S176x256x256, .i32⟩ : BufTy).Contents (Elt F) → (⟨S176x256x256, .i32⟩ : BufTy).Contents (Elt F) → (⟨S176x256x256, .i32⟩ : BufTy).Contents (Elt F))
  :: StableHlo.binary main_v98 main_v92 main_v99 (addi : (⟨S176x256x256, .i32⟩ : BufTy).Contents (Elt F) → (⟨S176x256x256, .i32⟩ : BufTy).Contents (Elt F) → (⟨S176x256x256, .i32⟩ : BufTy).Contents (Elt F))
  :: StableHlo.reshape main_v99 main_v100 rfl shapeCasts_S176x256x256_S11534336
  :: [] )

/-- Stretch 22: 23 operations. -/
abbrev refOps22 : List (HloOp τ sig (Elt F)) :=
  ( StableHlo.TRef.nullary (.of main_call10_c : StableHlo.TRef sig ⟨S_, .i32⟩) (constantI S_ 32 0#32)
  :: StableHlo.TRef.unary (.of main_call10_c : StableHlo.TRef sig ⟨S_, .i32⟩) (.of main_call10_v0 : StableHlo.TRef sig ⟨S11534336, .i32⟩) (broadcastInDim S11534336 ![] bcast_S_S11534336)
  :: StableHlo.TRef.binary (.of main_v100 : StableHlo.TRef sig ⟨S11534336, .i32⟩) (.of main_call10_v0 : StableHlo.TRef sig ⟨S11534336, .i32⟩) (.of main_call10_v1 : StableHlo.TRef sig ⟨S11534336, .i1⟩) (cmpi .slt)
  :: StableHlo.TRef.nullary (.of main_call10_c_0 : StableHlo.TRef sig ⟨S_, .i32⟩) (constantI S_ 32 11534336#32)
  :: StableHlo.TRef.unary (.of main_call10_c_0 : StableHlo.TRef sig ⟨S_, .i32⟩) (.of main_call10_v2 : StableHlo.TRef sig ⟨S11534336, .i32⟩) (broadcastInDim S11534336 ![] bcast_S_S11534336)
  :: StableHlo.TRef.binary (.of main_v100 : StableHlo.TRef sig ⟨S11534336, .i32⟩) (.of main_call10_v2 : StableHlo.TRef sig ⟨S11534336, .i32⟩) (.of main_call10_v3 : StableHlo.TRef sig ⟨S11534336, .i32⟩) addi
  :: StableHlo.TRef.ternary (.of main_call10_v1 : StableHlo.TRef sig ⟨S11534336, .i1⟩) (.of main_call10_v3 : StableHlo.TRef sig ⟨S11534336, .i32⟩) (.of main_v100 : StableHlo.TRef sig ⟨S11534336, .i32⟩) (.of main_call10_v4 : StableHlo.TRef sig ⟨S11534336, .i32⟩) select
  :: StableHlo.TRef.unary (.of main_call10_v4 : StableHlo.TRef sig ⟨S11534336, .i32⟩) (.of main_call10_v5 : StableHlo.TRef sig ⟨S11534336x1, .i32⟩) (broadcastInDim S11534336x1 ![0] bcast_S11534336_S11534336x1_0)
  :: StableHlo.TRef.nullary (.of main_call10_c_1 : StableHlo.TRef sig ⟨S1, .i32⟩) (constantI S1 32 11534335#32)
  :: StableHlo.TRef.nullary (.of main_call10_c_2 : StableHlo.TRef sig ⟨S_, .i32⟩) (constantI S_ 32 0#32)
  :: StableHlo.TRef.unary (.of main_call10_c_2 : StableHlo.TRef sig ⟨S_, .i32⟩) (.of main_call10_v6 : StableHlo.TRef sig ⟨S11534336x1, .i32⟩) (broadcastInDim S11534336x1 ![] bcast_S_S11534336x1)
  :: StableHlo.TRef.binary (.of main_call10_v5 : StableHlo.TRef sig ⟨S11534336x1, .i32⟩) (.of main_call10_v6 : StableHlo.TRef sig ⟨S11534336x1, .i32⟩) (.of main_call10_v7 : StableHlo.TRef sig ⟨S11534336x1, .i1⟩) (cmpi .sge)
  :: StableHlo.TRef.unary (.of main_call10_c_1 : StableHlo.TRef sig ⟨S1, .i32⟩) (.of main_call10_v8 : StableHlo.TRef sig ⟨S1x1, .i32⟩) (broadcastInDim S1x1 ![1] bcast_S1_S1x1_1)
  :: StableHlo.TRef.unary (.of main_call10_v8 : StableHlo.TRef sig ⟨S1x1, .i32⟩) (.of main_call10_v9 : StableHlo.TRef sig ⟨S11534336x1, .i32⟩) (broadcastInDim S11534336x1 ![0, 1] bcast_S1x1_S11534336x1_0_1)
  :: StableHlo.TRef.binary (.of main_call10_v5 : StableHlo.TRef sig ⟨S11534336x1, .i32⟩) (.of main_call10_v9 : StableHlo.TRef sig ⟨S11534336x1, .i32⟩) (.of main_call10_v10 : StableHlo.TRef sig ⟨S11534336x1, .i1⟩) (cmpi .sle)
  :: StableHlo.TRef.binary (.of main_call10_v7 : StableHlo.TRef sig ⟨S11534336x1, .i1⟩) (.of main_call10_v10 : StableHlo.TRef sig ⟨S11534336x1, .i1⟩) (.of main_call10_v11 : StableHlo.TRef sig ⟨S11534336x1, .i1⟩) andi
  :: StableHlo.TRef.nullary (.of main_call10_c_3 : StableHlo.TRef sig ⟨S_, .i1⟩) (constantI S_ 1 1#1)
  :: StableHlo.TRef.binary (.of main_call10_v11 : StableHlo.TRef sig ⟨S11534336x1, .i1⟩) (.of main_call10_c_3 : StableHlo.TRef sig ⟨S_, .i1⟩) (.of main_call10_v12 : StableHlo.TRef sig ⟨S11534336, .i1⟩) (fun x v => Host.reduce IntOp.andi x v reducesTo_S11534336x1_S11534336_d1 h_S_)
  :: StableHlo.TRef.binary (.of main_v57 : StableHlo.TRef sig ⟨S11534336x3, .f32⟩) (.of main_call10_v5 : StableHlo.TRef sig ⟨S11534336x1, .i32⟩) (.of main_call10_v13 : StableHlo.TRef sig ⟨S11534336x3, .f32⟩) (fun x i => Host.gather gather_S11534336x3_S11534336x1_S11534336x3_1_0_n_n_0_1_13 x i)
  :: StableHlo.TRef.unary (.of main_call10_v12 : StableHlo.TRef sig ⟨S11534336, .i1⟩) (.of main_call10_v14 : StableHlo.TRef sig ⟨S11534336x3, .i1⟩) (broadcastInDim S11534336x3 ![0] bcast_S11534336_S11534336x3_0)
  :: StableHlo.TRef.nullary (.of main_call10_cst : StableHlo.TRef sig ⟨S_, .f32⟩) (constant S_ .f32 0x7FC00000#32)
  :: StableHlo.TRef.unary (.of main_call10_cst : StableHlo.TRef sig ⟨S_, .f32⟩) (.of main_call10_v15 : StableHlo.TRef sig ⟨S11534336x3, .f32⟩) (broadcastInDim S11534336x3 ![] bcast_S_S11534336x3)
  :: StableHlo.TRef.ternary (.of main_call10_v14 : StableHlo.TRef sig ⟨S11534336x3, .i1⟩) (.of main_call10_v13 : StableHlo.TRef sig ⟨S11534336x3, .f32⟩) (.of main_call10_v15 : StableHlo.TRef sig ⟨S11534336x3, .f32⟩) (.of main_v101 : StableHlo.TRef sig ⟨S11534336x3, .f32⟩) select
  :: [] )

/-- Stretch 23: 3 operations. -/
abbrev refOps23 : List (HloOp τ sig (Elt F)) :=
  ( StableHlo.reshape main_v101 main_v102 rfl shapeCasts_S11534336x3_S176x256x256x3
  :: StableHlo.unary main_v90 main_v103 (broadcastInDim S176x256x256x1 ![0, 1, 2] bcast_S176x256x256_S176x256x256x1_0_1_2 : (⟨S176x256x256, .i1⟩ : BufTy).Contents (Elt F) → (⟨S176x256x256x1, .i1⟩ : BufTy).Contents (Elt F))
  :: StableHlo.nullary main_cst_30 (constant S_ .f32 0x00000000#32)
  :: [] )

/-- Stretch 24: 4 operations. -/
abbrev refOps24 : List (HloOp τ sig (Elt F)) :=
  ( StableHlo.TRef.unary (.of main_cst_30 : StableHlo.TRef sig ⟨S_, .f32⟩) (.of main_call11_v0 : StableHlo.TRef sig ⟨S_, .f32⟩) id
  :: StableHlo.TRef.unary (.of main_v103 : StableHlo.TRef sig ⟨S176x256x256x1, .i1⟩) (.of main_call11_v1 : StableHlo.TRef sig ⟨S176x256x256x3, .i1⟩) (broadcastInDim S176x256x256x3 ![0, 1, 2, 3] bcast_S176x256x256x1_S176x256x256x3_0_1_2_3)
  :: StableHlo.TRef.unary (.of main_call11_v0 : StableHlo.TRef sig ⟨S_, .f32⟩) (.of main_call11_v2 : StableHlo.TRef sig ⟨S176x256x256x3, .f32⟩) (broadcastInDim S176x256x256x3 ![] bcast_S_S176x256x256x3)
  :: StableHlo.TRef.ternary (.of main_call11_v1 : StableHlo.TRef sig ⟨S176x256x256x3, .i1⟩) (.of main_v102 : StableHlo.TRef sig ⟨S176x256x256x3, .f32⟩) (.of main_call11_v2 : StableHlo.TRef sig ⟨S176x256x256x3, .f32⟩) (.of main_v104 : StableHlo.TRef sig ⟨S176x256x256x3, .f32⟩) select
  :: [] )

/-- Stretch 25: 2 operations. -/
abbrev refOps25 : List (HloOp τ sig (Elt F)) :=
  ( StableHlo.binary main_v51 main_v56 main_v105 (andi : (⟨S176x256x256, .i1⟩ : BufTy).Contents (Elt F) → (⟨S176x256x256, .i1⟩ : BufTy).Contents (Elt F) → (⟨S176x256x256, .i1⟩ : BufTy).Contents (Elt F))
  :: StableHlo.nullary main_c_31 (constantI S_ 32 0#32)
  :: [] )

/-- Stretch 26: 3 operations. -/
abbrev refOps26 : List (HloOp τ sig (Elt F)) :=
  ( StableHlo.TRef.unary (.of main_c_31 : StableHlo.TRef sig ⟨S_, .i32⟩) (.of main_call12_v0 : StableHlo.TRef sig ⟨S_, .i32⟩) id
  :: StableHlo.TRef.unary (.of main_call12_v0 : StableHlo.TRef sig ⟨S_, .i32⟩) (.of main_call12_v1 : StableHlo.TRef sig ⟨S176x256x256, .i32⟩) (broadcastInDim S176x256x256 ![] bcast_S_S176x256x256)
  :: StableHlo.TRef.ternary (.of main_v105 : StableHlo.TRef sig ⟨S176x256x256, .i1⟩) (.of main_v36 : StableHlo.TRef sig ⟨S176x256x256, .i32⟩) (.of main_call12_v1 : StableHlo.TRef sig ⟨S176x256x256, .i32⟩) (.of main_v106 : StableHlo.TRef sig ⟨S176x256x256, .i32⟩) select
  :: [] )

/-- Stretch 27: 1 operation. -/
abbrev refOps27 : List (HloOp τ sig (Elt F)) :=
  ( StableHlo.nullary main_c_32 (constantI S_ 32 0#32)
  :: [] )

/-- Stretch 28: 3 operations. -/
abbrev refOps28 : List (HloOp τ sig (Elt F)) :=
  ( StableHlo.TRef.unary (.of main_c_32 : StableHlo.TRef sig ⟨S_, .i32⟩) (.of main_call13_v0 : StableHlo.TRef sig ⟨S_, .i32⟩) id
  :: StableHlo.TRef.unary (.of main_call13_v0 : StableHlo.TRef sig ⟨S_, .i32⟩) (.of main_call13_v1 : StableHlo.TRef sig ⟨S176x256x256, .i32⟩) (broadcastInDim S176x256x256 ![] bcast_S_S176x256x256)
  :: StableHlo.TRef.ternary (.of main_v105 : StableHlo.TRef sig ⟨S176x256x256, .i1⟩) (.of main_v34 : StableHlo.TRef sig ⟨S176x256x256, .i32⟩) (.of main_call13_v1 : StableHlo.TRef sig ⟨S176x256x256, .i32⟩) (.of main_v107 : StableHlo.TRef sig ⟨S176x256x256, .i32⟩) select
  :: [] )

/-- Stretch 29: 10 operations. -/
abbrev refOps29 : List (HloOp τ sig (Elt F)) :=
  ( StableHlo.nullary main_c_33 (constantI S_ 32 256#32)
  :: StableHlo.unary main_c_33 main_v108 (broadcastInDim S176x1x1 ![] bcast_S_S176x1x1 : (⟨S_, .i32⟩ : BufTy).Contents (Elt F) → (⟨S176x1x1, .i32⟩ : BufTy).Contents (Elt F))
  :: StableHlo.binary main_v59 main_v108 main_v109 (muli : (⟨S176x1x1, .i32⟩ : BufTy).Contents (Elt F) → (⟨S176x1x1, .i32⟩ : BufTy).Contents (Elt F) → (⟨S176x1x1, .i32⟩ : BufTy).Contents (Elt F))
  :: StableHlo.unary main_v109 main_v110 (broadcastInDim S176x256x256 ![0, 1, 2] bcast_S176x1x1_S176x256x256_0_1_2 : (⟨S176x1x1, .i32⟩ : BufTy).Contents (Elt F) → (⟨S176x256x256, .i32⟩ : BufTy).Contents (Elt F))
  :: StableHlo.binary main_v110 main_v106 main_v111 (addi : (⟨S176x256x256, .i32⟩ : BufTy).Contents (Elt F) → (⟨S176x256x256, .i32⟩ : BufTy).Contents (Elt F) → (⟨S176x256x256, .i32⟩ : BufTy).Contents (Elt F))
  :: StableHlo.nullary main_c_34 (constantI S_ 32 256#32)
  :: StableHlo.unary main_c_34 main_v112 (broadcastInDim S176x256x256 ![] bcast_S_S176x256x256 : (⟨S_, .i32⟩ : BufTy).Contents (Elt F) → (⟨S176x256x256, .i32⟩ : BufTy).Contents (Elt F))
  :: StableHlo.binary main_v111 main_v112 main_v113 (muli : (⟨S176x256x256, .i32⟩ : BufTy).Contents (Elt F) → (⟨S176x256x256, .i32⟩ : BufTy).Contents (Elt F) → (⟨S176x256x256, .i32⟩ : BufTy).Contents (Elt F))
  :: StableHlo.binary main_v113 main_v107 main_v114 (addi : (⟨S176x256x256, .i32⟩ : BufTy).Contents (Elt F) → (⟨S176x256x256, .i32⟩ : BufTy).Contents (Elt F) → (⟨S176x256x256, .i32⟩ : BufTy).Contents (Elt F))
  :: StableHlo.reshape main_v114 main_v115 rfl shapeCasts_S176x256x256_S11534336
  :: [] )

/-- Stretch 30: 23 operations. -/
abbrev refOps30 : List (HloOp τ sig (Elt F)) :=
  ( StableHlo.TRef.nullary (.of main_call14_c : StableHlo.TRef sig ⟨S_, .i32⟩) (constantI S_ 32 0#32)
  :: StableHlo.TRef.unary (.of main_call14_c : StableHlo.TRef sig ⟨S_, .i32⟩) (.of main_call14_v0 : StableHlo.TRef sig ⟨S11534336, .i32⟩) (broadcastInDim S11534336 ![] bcast_S_S11534336)
  :: StableHlo.TRef.binary (.of main_v115 : StableHlo.TRef sig ⟨S11534336, .i32⟩) (.of main_call14_v0 : StableHlo.TRef sig ⟨S11534336, .i32⟩) (.of main_call14_v1 : StableHlo.TRef sig ⟨S11534336, .i1⟩) (cmpi .slt)
  :: StableHlo.TRef.nullary (.of main_call14_c_0 : StableHlo.TRef sig ⟨S_, .i32⟩) (constantI S_ 32 11534336#32)
  :: StableHlo.TRef.unary (.of main_call14_c_0 : StableHlo.TRef sig ⟨S_, .i32⟩) (.of main_call14_v2 : StableHlo.TRef sig ⟨S11534336, .i32⟩) (broadcastInDim S11534336 ![] bcast_S_S11534336)
  :: StableHlo.TRef.binary (.of main_v115 : StableHlo.TRef sig ⟨S11534336, .i32⟩) (.of main_call14_v2 : StableHlo.TRef sig ⟨S11534336, .i32⟩) (.of main_call14_v3 : StableHlo.TRef sig ⟨S11534336, .i32⟩) addi
  :: StableHlo.TRef.ternary (.of main_call14_v1 : StableHlo.TRef sig ⟨S11534336, .i1⟩) (.of main_call14_v3 : StableHlo.TRef sig ⟨S11534336, .i32⟩) (.of main_v115 : StableHlo.TRef sig ⟨S11534336, .i32⟩) (.of main_call14_v4 : StableHlo.TRef sig ⟨S11534336, .i32⟩) select
  :: StableHlo.TRef.unary (.of main_call14_v4 : StableHlo.TRef sig ⟨S11534336, .i32⟩) (.of main_call14_v5 : StableHlo.TRef sig ⟨S11534336x1, .i32⟩) (broadcastInDim S11534336x1 ![0] bcast_S11534336_S11534336x1_0)
  :: StableHlo.TRef.nullary (.of main_call14_c_1 : StableHlo.TRef sig ⟨S1, .i32⟩) (constantI S1 32 11534335#32)
  :: StableHlo.TRef.nullary (.of main_call14_c_2 : StableHlo.TRef sig ⟨S_, .i32⟩) (constantI S_ 32 0#32)
  :: StableHlo.TRef.unary (.of main_call14_c_2 : StableHlo.TRef sig ⟨S_, .i32⟩) (.of main_call14_v6 : StableHlo.TRef sig ⟨S11534336x1, .i32⟩) (broadcastInDim S11534336x1 ![] bcast_S_S11534336x1)
  :: StableHlo.TRef.binary (.of main_call14_v5 : StableHlo.TRef sig ⟨S11534336x1, .i32⟩) (.of main_call14_v6 : StableHlo.TRef sig ⟨S11534336x1, .i32⟩) (.of main_call14_v7 : StableHlo.TRef sig ⟨S11534336x1, .i1⟩) (cmpi .sge)
  :: StableHlo.TRef.unary (.of main_call14_c_1 : StableHlo.TRef sig ⟨S1, .i32⟩) (.of main_call14_v8 : StableHlo.TRef sig ⟨S1x1, .i32⟩) (broadcastInDim S1x1 ![1] bcast_S1_S1x1_1)
  :: StableHlo.TRef.unary (.of main_call14_v8 : StableHlo.TRef sig ⟨S1x1, .i32⟩) (.of main_call14_v9 : StableHlo.TRef sig ⟨S11534336x1, .i32⟩) (broadcastInDim S11534336x1 ![0, 1] bcast_S1x1_S11534336x1_0_1)
  :: StableHlo.TRef.binary (.of main_call14_v5 : StableHlo.TRef sig ⟨S11534336x1, .i32⟩) (.of main_call14_v9 : StableHlo.TRef sig ⟨S11534336x1, .i32⟩) (.of main_call14_v10 : StableHlo.TRef sig ⟨S11534336x1, .i1⟩) (cmpi .sle)
  :: StableHlo.TRef.binary (.of main_call14_v7 : StableHlo.TRef sig ⟨S11534336x1, .i1⟩) (.of main_call14_v10 : StableHlo.TRef sig ⟨S11534336x1, .i1⟩) (.of main_call14_v11 : StableHlo.TRef sig ⟨S11534336x1, .i1⟩) andi
  :: StableHlo.TRef.nullary (.of main_call14_c_3 : StableHlo.TRef sig ⟨S_, .i1⟩) (constantI S_ 1 1#1)
  :: StableHlo.TRef.binary (.of main_call14_v11 : StableHlo.TRef sig ⟨S11534336x1, .i1⟩) (.of main_call14_c_3 : StableHlo.TRef sig ⟨S_, .i1⟩) (.of main_call14_v12 : StableHlo.TRef sig ⟨S11534336, .i1⟩) (fun x v => Host.reduce IntOp.andi x v reducesTo_S11534336x1_S11534336_d1 h_S_)
  :: StableHlo.TRef.binary (.of main_v57 : StableHlo.TRef sig ⟨S11534336x3, .f32⟩) (.of main_call14_v5 : StableHlo.TRef sig ⟨S11534336x1, .i32⟩) (.of main_call14_v13 : StableHlo.TRef sig ⟨S11534336x3, .f32⟩) (fun x i => Host.gather gather_S11534336x3_S11534336x1_S11534336x3_1_0_n_n_0_1_13 x i)
  :: StableHlo.TRef.unary (.of main_call14_v12 : StableHlo.TRef sig ⟨S11534336, .i1⟩) (.of main_call14_v14 : StableHlo.TRef sig ⟨S11534336x3, .i1⟩) (broadcastInDim S11534336x3 ![0] bcast_S11534336_S11534336x3_0)
  :: StableHlo.TRef.nullary (.of main_call14_cst : StableHlo.TRef sig ⟨S_, .f32⟩) (constant S_ .f32 0x7FC00000#32)
  :: StableHlo.TRef.unary (.of main_call14_cst : StableHlo.TRef sig ⟨S_, .f32⟩) (.of main_call14_v15 : StableHlo.TRef sig ⟨S11534336x3, .f32⟩) (broadcastInDim S11534336x3 ![] bcast_S_S11534336x3)
  :: StableHlo.TRef.ternary (.of main_call14_v14 : StableHlo.TRef sig ⟨S11534336x3, .i1⟩) (.of main_call14_v13 : StableHlo.TRef sig ⟨S11534336x3, .f32⟩) (.of main_call14_v15 : StableHlo.TRef sig ⟨S11534336x3, .f32⟩) (.of main_v116 : StableHlo.TRef sig ⟨S11534336x3, .f32⟩) select
  :: [] )

/-- Stretch 31: 3 operations. -/
abbrev refOps31 : List (HloOp τ sig (Elt F)) :=
  ( StableHlo.reshape main_v116 main_v117 rfl shapeCasts_S11534336x3_S176x256x256x3
  :: StableHlo.unary main_v105 main_v118 (broadcastInDim S176x256x256x1 ![0, 1, 2] bcast_S176x256x256_S176x256x256x1_0_1_2 : (⟨S176x256x256, .i1⟩ : BufTy).Contents (Elt F) → (⟨S176x256x256x1, .i1⟩ : BufTy).Contents (Elt F))
  :: StableHlo.nullary main_cst_35 (constant S_ .f32 0x00000000#32)
  :: [] )

/-- Stretch 32: 4 operations. -/
abbrev refOps32 : List (HloOp τ sig (Elt F)) :=
  ( StableHlo.TRef.unary (.of main_cst_35 : StableHlo.TRef sig ⟨S_, .f32⟩) (.of main_call15_v0 : StableHlo.TRef sig ⟨S_, .f32⟩) id
  :: StableHlo.TRef.unary (.of main_v118 : StableHlo.TRef sig ⟨S176x256x256x1, .i1⟩) (.of main_call15_v1 : StableHlo.TRef sig ⟨S176x256x256x3, .i1⟩) (broadcastInDim S176x256x256x3 ![0, 1, 2, 3] bcast_S176x256x256x1_S176x256x256x3_0_1_2_3)
  :: StableHlo.TRef.unary (.of main_call15_v0 : StableHlo.TRef sig ⟨S_, .f32⟩) (.of main_call15_v2 : StableHlo.TRef sig ⟨S176x256x256x3, .f32⟩) (broadcastInDim S176x256x256x3 ![] bcast_S_S176x256x256x3)
  :: StableHlo.TRef.ternary (.of main_call15_v1 : StableHlo.TRef sig ⟨S176x256x256x3, .i1⟩) (.of main_v117 : StableHlo.TRef sig ⟨S176x256x256x3, .f32⟩) (.of main_call15_v2 : StableHlo.TRef sig ⟨S176x256x256x3, .f32⟩) (.of main_v119 : StableHlo.TRef sig ⟨S176x256x256x3, .f32⟩) select
  :: [] )

/-- Stretch 33: 16 operations. -/
abbrev refOps33 : List (HloOp τ sig (Elt F)) :=
  ( StableHlo.unary main_v27 main_v120 (broadcastInDim S176x256x256x1 ![0, 1, 2] bcast_S176x256x256_S176x256x256x1_0_1_2 : (⟨S176x256x256, .f32⟩ : BufTy).Contents (Elt F) → (⟨S176x256x256x1, .f32⟩ : BufTy).Contents (Elt F))
  :: StableHlo.unary main_v120 main_v121 (broadcastInDim S176x256x256x3 ![0, 1, 2, 3] bcast_S176x256x256x1_S176x256x256x3_0_1_2_3 : (⟨S176x256x256x1, .f32⟩ : BufTy).Contents (Elt F) → (⟨S176x256x256x3, .f32⟩ : BufTy).Contents (Elt F))
  :: StableHlo.binary main_v121 main_v74 main_v122 (mulf : (⟨S176x256x256x3, .f32⟩ : BufTy).Contents (Elt F) → (⟨S176x256x256x3, .f32⟩ : BufTy).Contents (Elt F) → (⟨S176x256x256x3, .f32⟩ : BufTy).Contents (Elt F))
  :: StableHlo.unary main_v29 main_v123 (broadcastInDim S176x256x256x1 ![0, 1, 2] bcast_S176x256x256_S176x256x256x1_0_1_2 : (⟨S176x256x256, .f32⟩ : BufTy).Contents (Elt F) → (⟨S176x256x256x1, .f32⟩ : BufTy).Contents (Elt F))
  :: StableHlo.unary main_v123 main_v124 (broadcastInDim S176x256x256x3 ![0, 1, 2, 3] bcast_S176x256x256x1_S176x256x256x3_0_1_2_3 : (⟨S176x256x256x1, .f32⟩ : BufTy).Contents (Elt F) → (⟨S176x256x256x3, .f32⟩ : BufTy).Contents (Elt F))
  :: StableHlo.binary main_v124 main_v104 main_v125 (mulf : (⟨S176x256x256x3, .f32⟩ : BufTy).Contents (Elt F) → (⟨S176x256x256x3, .f32⟩ : BufTy).Contents (Elt F) → (⟨S176x256x256x3, .f32⟩ : BufTy).Contents (Elt F))
  :: StableHlo.binary main_v122 main_v125 main_v126 (addf : (⟨S176x256x256x3, .f32⟩ : BufTy).Contents (Elt F) → (⟨S176x256x256x3, .f32⟩ : BufTy).Contents (Elt F) → (⟨S176x256x256x3, .f32⟩ : BufTy).Contents (Elt F))
  :: StableHlo.unary main_v28 main_v127 (broadcastInDim S176x256x256x1 ![0, 1, 2] bcast_S176x256x256_S176x256x256x1_0_1_2 : (⟨S176x256x256, .f32⟩ : BufTy).Contents (Elt F) → (⟨S176x256x256x1, .f32⟩ : BufTy).Contents (Elt F))
  :: StableHlo.unary main_v127 main_v128 (broadcastInDim S176x256x256x3 ![0, 1, 2, 3] bcast_S176x256x256x1_S176x256x256x3_0_1_2_3 : (⟨S176x256x256x1, .f32⟩ : BufTy).Contents (Elt F) → (⟨S176x256x256x3, .f32⟩ : BufTy).Contents (Elt F))
  :: StableHlo.binary main_v128 main_v89 main_v129 (mulf : (⟨S176x256x256x3, .f32⟩ : BufTy).Contents (Elt F) → (⟨S176x256x256x3, .f32⟩ : BufTy).Contents (Elt F) → (⟨S176x256x256x3, .f32⟩ : BufTy).Contents (Elt F))
  :: StableHlo.binary main_v126 main_v129 main_v130 (addf : (⟨S176x256x256x3, .f32⟩ : BufTy).Contents (Elt F) → (⟨S176x256x256x3, .f32⟩ : BufTy).Contents (Elt F) → (⟨S176x256x256x3, .f32⟩ : BufTy).Contents (Elt F))
  :: StableHlo.unary main_v30 main_v131 (broadcastInDim S176x256x256x1 ![0, 1, 2] bcast_S176x256x256_S176x256x256x1_0_1_2 : (⟨S176x256x256, .f32⟩ : BufTy).Contents (Elt F) → (⟨S176x256x256x1, .f32⟩ : BufTy).Contents (Elt F))
  :: StableHlo.unary main_v131 main_v132 (broadcastInDim S176x256x256x3 ![0, 1, 2, 3] bcast_S176x256x256x1_S176x256x256x3_0_1_2_3 : (⟨S176x256x256x1, .f32⟩ : BufTy).Contents (Elt F) → (⟨S176x256x256x3, .f32⟩ : BufTy).Contents (Elt F))
  :: StableHlo.binary main_v132 main_v119 main_v133 (mulf : (⟨S176x256x256x3, .f32⟩ : BufTy).Contents (Elt F) → (⟨S176x256x256x3, .f32⟩ : BufTy).Contents (Elt F) → (⟨S176x256x256x3, .f32⟩ : BufTy).Contents (Elt F))
  :: StableHlo.binary main_v130 main_v133 main_v134 (addf : (⟨S176x256x256x3, .f32⟩ : BufTy).Contents (Elt F) → (⟨S176x256x256x3, .f32⟩ : BufTy).Contents (Elt F) → (⟨S176x256x256x3, .f32⟩ : BufTy).Contents (Elt F))
  :: StableHlo.reshape main_v134 main_v135 rfl shapeCasts_S176x256x256x3_S16x11x256x256x3
  :: [] )

/-- The stretches in order. -/
abbrev refStretches : List (List (HloOp τ sig (Elt F))) :=
  [ refOps0, refOps1, refOps2, refOps3, refOps4, refOps5, refOps6, refOps7, refOps8, refOps9, refOps10, refOps11, refOps12, refOps13, refOps14, refOps15, refOps16, refOps17, refOps18, refOps19, refOps20, refOps21, refOps22, refOps23, refOps24, refOps25, refOps26, refOps27, refOps28, refOps29, refOps30, refOps31, refOps32, refOps33 ]

/-- @main's operations, in order. -/
abbrev ops : List (HloOp τ sig (Elt F)) := List.flatten refStretches

end Cert.ReferenceIdeal.RefRun

end
-- ==== Proof.RefRunFacts.lean ====
/-
  Three facts about each stretch of the reference's operations, one operation at a time: every buffer an operation
  touches is a TensorCore reference; an operation determines all it writes; no operation writes either argument of
  @main. Each operation writes exactly its result buffer, and which reference is which is decided on the references.
  A fact of every operation of every stretch is a fact of every operation of the concatenation.
-/
import proofs.«115037_j71897752535328_2_alg».proof.Proof.RefOps
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## From the stretches to their concatenation -/

/-- What holds of every element of every list holds of every element of their concatenation. -/
theorem forall_flatten {α : Type} {P : α → Prop} {L : List (List α)} (h : L.Forall fun l => l.Forall P) :
    L.flatten.Forall P := by
  rw [List.forall_iff_forall_mem] at h ⊢
  intro a ha
  obtain ⟨l, hl, hal⟩ := List.mem_flatten.mp ha
  exact List.forall_iff_forall_mem.mp (h l hl) a hal

/-! ## A reference other than an operation's result is not among what it writes

Each builder's operation writes the one buffer of its result, so a reference `r` is written only if it is that
result; distinct references are distinct device buffers. -/

section NotWritten

variable {r x a b c y : Ref sig .tc}

theorem nullary_not_writes {v : y.ty.Contents (Elt F)} {hy} (h : r ≠ y) :
    Proc.devRef (τ := τ) .tc r ∉ (nullary (τ := τ) y v hy).writes := by
  rw [nullary_writes, Finset.mem_singleton]; exact devRef_ne_of_ne h
theorem unary_not_writes {f : x.ty.Contents (Elt F) → y.ty.Contents (Elt F)} {hx hy} (h : r ≠ y) :
    Proc.devRef (τ := τ) .tc r ∉ (unary (τ := τ) x y f hx hy).writes := by
  rw [unary_writes, Finset.mem_singleton]; exact devRef_ne_of_ne h
theorem binary_not_writes {f : a.ty.Contents (Elt F) → b.ty.Contents (Elt F) → y.ty.Contents (Elt F)} {ha hb hy} (h : r ≠ y) :
    Proc.devRef (τ := τ) .tc r ∉ (binary (τ := τ) a b y f ha hb hy).writes := by
  rw [binary_writes, Finset.mem_singleton]; exact devRef_ne_of_ne h
theorem ternary_not_writes {f : c.ty.Contents (Elt F) → a.ty.Contents (Elt F) → b.ty.Contents (Elt F) → y.ty.Contents (Elt F)}
    {hc ha hb hy} (h : r ≠ y) :
    Proc.devRef (τ := τ) .tc r ∉ (ternary (τ := τ) c a b y f hc ha hb hy).writes := by
  rw [ternary_writes, Finset.mem_singleton]; exact devRef_ne_of_ne h
theorem reshape_not_writes {he hn hx hy} (h : r ≠ y) :
    Proc.devRef (τ := τ) .tc r ∉ (reshape (τ := τ) (Val := Elt F) x y he hn hx hy).writes := by
  rw [reshape_writes, Finset.mem_singleton]; exact devRef_ne_of_ne h

end NotWritten

/-! ## The stretches, one operation at a time -/

/-- Stretch 0: every operation touches TensorCore references only. -/
theorem refOps0_sub : (refOps0 : List (HloOp τ sig (Elt F))).Forall fun op => op.bufs ⊆ tcRefs τ sig :=
  ⟨reshape_bufs_sub .., unary_bufs_sub .., reshape_bufs_sub .., unary_bufs_sub .., reshape_bufs_sub .., nullary_bufs_sub .., unary_bufs_sub ..,
     binary_bufs_sub .., nullary_bufs_sub .., unary_bufs_sub .., binary_bufs_sub .., nullary_bufs_sub .., unary_bufs_sub .., binary_bufs_sub ..,
     unary_bufs_sub .., reshape_bufs_sub .., nullary_bufs_sub .., unary_bufs_sub .., binary_bufs_sub .., nullary_bufs_sub .., unary_bufs_sub ..,
     binary_bufs_sub .., nullary_bufs_sub .., unary_bufs_sub .., binary_bufs_sub .., unary_bufs_sub .., unary_bufs_sub .., binary_bufs_sub ..,
     binary_bufs_sub .., nullary_bufs_sub .., unary_bufs_sub .., binary_bufs_sub .., nullary_bufs_sub .., unary_bufs_sub .., binary_bufs_sub ..,
     binary_bufs_sub .., binary_bufs_sub .., binary_bufs_sub .., binary_bufs_sub .., unary_bufs_sub ..⟩
/-- Stretch 0: every operation determines all it writes. -/
theorem refOps0_fresh : (refOps0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl,
     rfl, rfl, rfl, rfl, rfl, rfl, rfl, rfl, rfl, rfl, rfl⟩
/-- Stretch 0: no operation writes @main's first argument. -/
theorem refOps0_arg0 : (refOps0 : List (HloOp τ sig (Elt F))).Forall fun op => Proc.devRef (τ := τ) .tc main_arg0 ∉ op.writes :=
  ⟨reshape_not_writes (by decide), unary_not_writes (by decide), reshape_not_writes (by decide), unary_not_writes (by decide),
     reshape_not_writes (by decide), nullary_not_writes (by decide), unary_not_writes (by decide), binary_not_writes (by decide),
     nullary_not_writes (by decide), unary_not_writes (by decide), binary_not_writes (by decide), nullary_not_writes (by decide),
     unary_not_writes (by decide), binary_not_writes (by decide), unary_not_writes (by decide), reshape_not_writes (by decide),
     nullary_not_writes (by decide), unary_not_writes (by decide), binary_not_writes (by decide), nullary_not_writes (by decide),
     unary_not_writes (by decide), binary_not_writes (by decide), nullary_not_writes (by decide), unary_not_writes (by decide),
     binary_not_writes (by decide), unary_not_writes (by decide), unary_not_writes (by decide), binary_not_writes (by decide),
     binary_not_writes (by decide), nullary_not_writes (by decide), unary_not_writes (by decide), binary_not_writes (by decide),
     nullary_not_writes (by decide), unary_not_writes (by decide), binary_not_writes (by decide), binary_not_writes (by decide),
     binary_not_writes (by decide), binary_not_writes (by decide), binary_not_writes (by decide), unary_not_writes (by decide)⟩
/-- Stretch 0: no operation writes @main's second argument. -/
theorem refOps0_arg1 : (refOps0 : List (HloOp τ sig (Elt F))).Forall fun op => Proc.devRef (τ := τ) .tc main_arg1 ∉ op.writes :=
  ⟨reshape_not_writes (by decide), unary_not_writes (by decide), reshape_not_writes (by decide), unary_not_writes (by decide),
     reshape_not_writes (by decide), nullary_not_writes (by decide), unary_not_writes (by decide), binary_not_writes (by decide),
     nullary_not_writes (by decide), unary_not_writes (by decide), binary_not_writes (by decide), nullary_not_writes (by decide),
     unary_not_writes (by decide), binary_not_writes (by decide), unary_not_writes (by decide), reshape_not_writes (by decide),
     nullary_not_writes (by decide), unary_not_writes (by decide), binary_not_writes (by decide), nullary_not_writes (by decide),
     unary_not_writes (by decide), binary_not_writes (by decide), nullary_not_writes (by decide), unary_not_writes (by decide),
     binary_not_writes (by decide), unary_not_writes (by decide), unary_not_writes (by decide), binary_not_writes (by decide),
     binary_not_writes (by decide), nullary_not_writes (by decide), unary_not_writes (by decide), binary_not_writes (by decide),
     nullary_not_writes (by decide), unary_not_writes (by decide), binary_not_writes (by decide), binary_not_writes (by decide),
     binary_not_writes (by decide), binary_not_writes (by decide), binary_not_writes (by decide), unary_not_writes (by decide)⟩

/-- Stretch 1: every operation touches TensorCore references only. -/
theorem refOps1_sub : (refOps1 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub ..,
     nullary_bufs_sub .., unary_bufs_sub .., binary_bufs_sub .., nullary_bufs_sub .., unary_bufs_sub .., binary_bufs_sub .., binary_bufs_sub ..,
     nullary_bufs_sub .., unary_bufs_sub .., binary_bufs_sub .., nullary_bufs_sub .., unary_bufs_sub .., binary_bufs_sub .., binary_bufs_sub ..,
     nullary_bufs_sub .., unary_bufs_sub .., binary_bufs_sub .., nullary_bufs_sub .., unary_bufs_sub .., binary_bufs_sub .., binary_bufs_sub ..,
     nullary_bufs_sub .., unary_bufs_sub .., binary_bufs_sub .., nullary_bufs_sub .., unary_bufs_sub .., binary_bufs_sub .., binary_bufs_sub ..,
     reshape_bufs_sub .., nullary_bufs_sub .., unary_bufs_sub .., binary_bufs_sub .., nullary_bufs_sub ..⟩
/-- Stretch 1: every operation determines all it writes. -/
theorem refOps1_fresh : (refOps1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl,
     rfl, rfl, rfl, rfl, rfl, rfl, rfl, rfl, rfl, rfl, rfl⟩
/-- Stretch 1: no operation writes @main's first argument. -/
theorem refOps1_arg0 : (refOps1 : List (HloOp τ sig (Elt F))).Forall fun op => Proc.devRef (τ := τ) .tc main_arg0 ∉ op.writes :=
  ⟨unary_not_writes (by decide), nullary_not_writes (by decide), unary_not_writes (by decide), binary_not_writes (by decide),
     nullary_not_writes (by decide), unary_not_writes (by decide), binary_not_writes (by decide), nullary_not_writes (by decide),
     unary_not_writes (by decide), binary_not_writes (by decide), nullary_not_writes (by decide), unary_not_writes (by decide),
     binary_not_writes (by decide), binary_not_writes (by decide), nullary_not_writes (by decide), unary_not_writes (by decide),
     binary_not_writes (by decide), nullary_not_writes (by decide), unary_not_writes (by decide), binary_not_writes (by decide),
     binary_not_writes (by decide), nullary_not_writes (by decide), unary_not_writes (by decide), binary_not_writes (by decide),
     nullary_not_writes (by decide), unary_not_writes (by decide), binary_not_writes (by decide), binary_not_writes (by decide),
     nullary_not_writes (by decide), unary_not_writes (by decide), binary_not_writes (by decide), nullary_not_writes (by decide),
     unary_not_writes (by decide), binary_not_writes (by decide), binary_not_writes (by decide), reshape_not_writes (by decide),
     nullary_not_writes (by decide), unary_not_writes (by decide), binary_not_writes (by decide), nullary_not_writes (by decide)⟩
/-- Stretch 1: no operation writes @main's second argument. -/
theorem refOps1_arg1 : (refOps1 : List (HloOp τ sig (Elt F))).Forall fun op => Proc.devRef (τ := τ) .tc main_arg1 ∉ op.writes :=
  ⟨unary_not_writes (by decide), nullary_not_writes (by decide), unary_not_writes (by decide), binary_not_writes (by decide),
     nullary_not_writes (by decide), unary_not_writes (by decide), binary_not_writes (by decide), nullary_not_writes (by decide),
     unary_not_writes (by decide), binary_not_writes (by decide), nullary_not_writes (by decide), unary_not_writes (by decide),
     binary_not_writes (by decide), binary_not_writes (by decide), nullary_not_writes (by decide), unary_not_writes (by decide),
     binary_not_writes (by decide), nullary_not_writes (by decide), unary_not_writes (by decide), binary_not_writes (by decide),
     binary_not_writes (by decide), nullary_not_writes (by decide), unary_not_writes (by decide), binary_not_writes (by decide),
     nullary_not_writes (by decide), unary_not_writes (by decide), binary_not_writes (by decide), binary_not_writes (by decide),
     nullary_not_writes (by decide), unary_not_writes (by decide), binary_not_writes (by decide), nullary_not_writes (by decide),
     unary_not_writes (by decide), binary_not_writes (by decide), binary_not_writes (by decide), reshape_not_writes (by decide),
     nullary_not_writes (by decide), unary_not_writes (by decide), binary_not_writes (by decide), nullary_not_writes (by decide)⟩

/-- Stretch 2: every operation touches TensorCore references only. -/
theorem refOps2_sub : (refOps2 : List (HloOp τ sig (Elt F))).Forall fun op => op.bufs ⊆ tcRefs τ sig :=
  ⟨unary_bufs_sub .., unary_bufs_sub .., ternary_bufs_sub ..⟩
/-- Stretch 2: every operation determines all it writes. -/
theorem refOps2_fresh : (refOps2 : List (HloOp τ sig (Elt F))).Forall fun op => op.fresh = ∅ :=
  ⟨rfl, rfl, rfl⟩
/-- Stretch 2: no operation writes @main's first argument. -/
theorem refOps2_arg0 : (refOps2 : List (HloOp τ sig (Elt F))).Forall fun op => Proc.devRef (τ := τ) .tc main_arg0 ∉ op.writes :=
  ⟨unary_not_writes (by decide), unary_not_writes (by decide), ternary_not_writes (by decide)⟩
/-- Stretch 2: no operation writes @main's second argument. -/
theorem refOps2_arg1 : (refOps2 : List (HloOp τ sig (Elt F))).Forall fun op => Proc.devRef (τ := τ) .tc main_arg1 ∉ op.writes :=
  ⟨unary_not_writes (by decide), unary_not_writes (by decide), ternary_not_writes (by decide)⟩

/-- Stretch 3: every operation touches TensorCore references only. -/
theorem refOps3_sub : (refOps3 : List (HloOp τ sig (Elt F))).Forall fun op => op.bufs ⊆ tcRefs τ sig :=
  nullary_bufs_sub ..
/-- Stretch 3: every operation determines all it writes. -/
theorem refOps3_fresh : (refOps3 : List (HloOp τ sig (Elt F))).Forall fun op => op.fresh = ∅ :=
  rfl
/-- Stretch 3: no operation writes @main's first argument. -/
theorem refOps3_arg0 : (refOps3 : List (HloOp τ sig (Elt F))).Forall fun op => Proc.devRef (τ := τ) .tc main_arg0 ∉ op.writes :=
  nullary_not_writes (by decide)
/-- Stretch 3: no operation writes @main's second argument. -/
theorem refOps3_arg1 : (refOps3 : List (HloOp τ sig (Elt F))).Forall fun op => Proc.devRef (τ := τ) .tc main_arg1 ∉ op.writes :=
  nullary_not_writes (by decide)

/-- Stretch 4: every operation touches TensorCore references only. -/
theorem refOps4_sub : (refOps4 : List (HloOp τ sig (Elt F))).Forall fun op => op.bufs ⊆ tcRefs τ sig :=
  ⟨unary_bufs_sub .., unary_bufs_sub .., ternary_bufs_sub ..⟩
/-- Stretch 4: every operation determines all it writes. -/
theorem refOps4_fresh : (refOps4 : List (HloOp τ sig (Elt F))).Forall fun op => op.fresh = ∅ :=
  ⟨rfl, rfl, rfl⟩
/-- Stretch 4: no operation writes @main's first argument. -/
theorem refOps4_arg0 : (refOps4 : List (HloOp τ sig (Elt F))).Forall fun op => Proc.devRef (τ := τ) .tc main_arg0 ∉ op.writes :=
  ⟨unary_not_writes (by decide), unary_not_writes (by decide), ternary_not_writes (by decide)⟩
/-- Stretch 4: no operation writes @main's second argument. -/
theorem refOps4_arg1 : (refOps4 : List (HloOp τ sig (Elt F))).Forall fun op => Proc.devRef (τ := τ) .tc main_arg1 ∉ op.writes :=
  ⟨unary_not_writes (by decide), unary_not_writes (by decide), ternary_not_writes (by decide)⟩

/-- Stretch 5: every operation touches TensorCore references only. -/
theorem refOps5_sub : (refOps5 : List (HloOp τ sig (Elt F))).Forall fun op => op.bufs ⊆ tcRefs τ sig :=
  ⟨nullary_bufs_sub .., unary_bufs_sub .., binary_bufs_sub .., unary_bufs_sub .., binary_bufs_sub .., nullary_bufs_sub .., unary_bufs_sub ..,
     binary_bufs_sub .., binary_bufs_sub .., reshape_bufs_sub ..⟩
/-- Stretch 5: every operation determines all it writes. -/
theorem refOps5_fresh : (refOps5 : List (HloOp τ sig (Elt F))).Forall fun op => op.fresh = ∅ :=
  ⟨rfl, rfl, rfl, rfl, rfl, rfl, rfl, rfl, rfl, rfl⟩
/-- Stretch 5: no operation writes @main's first argument. -/
theorem refOps5_arg0 : (refOps5 : List (HloOp τ sig (Elt F))).Forall fun op => Proc.devRef (τ := τ) .tc main_arg0 ∉ op.writes :=
  ⟨nullary_not_writes (by decide), unary_not_writes (by decide), binary_not_writes (by decide), unary_not_writes (by decide),
     binary_not_writes (by decide), nullary_not_writes (by decide), unary_not_writes (by decide), binary_not_writes (by decide),
     binary_not_writes (by decide), reshape_not_writes (by decide)⟩
/-- Stretch 5: no operation writes @main's second argument. -/
theorem refOps5_arg1 : (refOps5 : List (HloOp τ sig (Elt F))).Forall fun op => Proc.devRef (τ := τ) .tc main_arg1 ∉ op.writes :=
  ⟨nullary_not_writes (by decide), unary_not_writes (by decide), binary_not_writes (by decide), unary_not_writes (by decide),
     binary_not_writes (by decide), nullary_not_writes (by decide), unary_not_writes (by decide), binary_not_writes (by decide),
     binary_not_writes (by decide), reshape_not_writes (by decide)⟩

/-- Stretch 6: every operation touches TensorCore references only. -/
theorem refOps6_sub : (refOps6 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub ..,
     unary_bufs_sub .., nullary_bufs_sub .., nullary_bufs_sub .., unary_bufs_sub .., binary_bufs_sub .., unary_bufs_sub .., unary_bufs_sub ..,
     binary_bufs_sub .., binary_bufs_sub .., nullary_bufs_sub .., binary_bufs_sub .., binary_bufs_sub .., unary_bufs_sub .., nullary_bufs_sub ..,
     unary_bufs_sub .., ternary_bufs_sub ..⟩
/-- Stretch 6: every operation determines all it writes. -/
theorem refOps6_fresh : (refOps6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩
/-- Stretch 6: no operation writes @main's first argument. -/
theorem refOps6_arg0 : (refOps6 : List (HloOp τ sig (Elt F))).Forall fun op => Proc.devRef (τ := τ) .tc main_arg0 ∉ op.writes :=
  ⟨nullary_not_writes (by decide), unary_not_writes (by decide), binary_not_writes (by decide), nullary_not_writes (by decide),
     unary_not_writes (by decide), binary_not_writes (by decide), ternary_not_writes (by decide), unary_not_writes (by decide),
     nullary_not_writes (by decide), nullary_not_writes (by decide), unary_not_writes (by decide), binary_not_writes (by decide),
     unary_not_writes (by decide), unary_not_writes (by decide), binary_not_writes (by decide), binary_not_writes (by decide),
     nullary_not_writes (by decide), binary_not_writes (by decide), binary_not_writes (by decide), unary_not_writes (by decide),
     nullary_not_writes (by decide), unary_not_writes (by decide), ternary_not_writes (by decide)⟩
/-- Stretch 6: no operation writes @main's second argument. -/
theorem refOps6_arg1 : (refOps6 : List (HloOp τ sig (Elt F))).Forall fun op => Proc.devRef (τ := τ) .tc main_arg1 ∉ op.writes :=
  ⟨nullary_not_writes (by decide), unary_not_writes (by decide), binary_not_writes (by decide), nullary_not_writes (by decide),
     unary_not_writes (by decide), binary_not_writes (by decide), ternary_not_writes (by decide), unary_not_writes (by decide),
     nullary_not_writes (by decide), nullary_not_writes (by decide), unary_not_writes (by decide), binary_not_writes (by decide),
     unary_not_writes (by decide), unary_not_writes (by decide), binary_not_writes (by decide), binary_not_writes (by decide),
     nullary_not_writes (by decide), binary_not_writes (by decide), binary_not_writes (by decide), unary_not_writes (by decide),
     nullary_not_writes (by decide), unary_not_writes (by decide), ternary_not_writes (by decide)⟩

/-- Stretch 7: every operation touches TensorCore references only. -/
theorem refOps7_sub : (refOps7 : List (HloOp τ sig (Elt F))).Forall fun op => op.bufs ⊆ tcRefs τ sig :=
  ⟨reshape_bufs_sub .., unary_bufs_sub .., nullary_bufs_sub ..⟩
/-- Stretch 7: every operation determines all it writes. -/
theorem refOps7_fresh : (refOps7 : List (HloOp τ sig (Elt F))).Forall fun op => op.fresh = ∅ :=
  ⟨rfl, rfl, rfl⟩
/-- Stretch 7: no operation writes @main's first argument. -/
theorem refOps7_arg0 : (refOps7 : List (HloOp τ sig (Elt F))).Forall fun op => Proc.devRef (τ := τ) .tc main_arg0 ∉ op.writes :=
  ⟨reshape_not_writes (by decide), unary_not_writes (by decide), nullary_not_writes (by decide)⟩
/-- Stretch 7: no operation writes @main's second argument. -/
theorem refOps7_arg1 : (refOps7 : List (HloOp τ sig (Elt F))).Forall fun op => Proc.devRef (τ := τ) .tc main_arg1 ∉ op.writes :=
  ⟨reshape_not_writes (by decide), unary_not_writes (by decide), nullary_not_writes (by decide)⟩

/-- Stretch 8: every operation touches TensorCore references only. -/
theorem refOps8_sub : (refOps8 : List (HloOp τ sig (Elt F))).Forall fun op => op.bufs ⊆ tcRefs τ sig :=
  ⟨unary_bufs_sub .., unary_bufs_sub .., unary_bufs_sub .., ternary_bufs_sub ..⟩
/-- Stretch 8: every operation determines all it writes. -/
theorem refOps8_fresh : (refOps8 : List (HloOp τ sig (Elt F))).Forall fun op => op.fresh = ∅ :=
  ⟨rfl, rfl, rfl, rfl⟩
/-- Stretch 8: no operation writes @main's first argument. -/
theorem refOps8_arg0 : (refOps8 : List (HloOp τ sig (Elt F))).Forall fun op => Proc.devRef (τ := τ) .tc main_arg0 ∉ op.writes :=
  ⟨unary_not_writes (by decide), unary_not_writes (by decide), unary_not_writes (by decide), ternary_not_writes (by decide)⟩
/-- Stretch 8: no operation writes @main's second argument. -/
theorem refOps8_arg1 : (refOps8 : List (HloOp τ sig (Elt F))).Forall fun op => Proc.devRef (τ := τ) .tc main_arg1 ∉ op.writes :=
  ⟨unary_not_writes (by decide), unary_not_writes (by decide), unary_not_writes (by decide), ternary_not_writes (by decide)⟩

/-- Stretch 9: every operation touches TensorCore references only. -/
theorem refOps9_sub : (refOps9 : List (HloOp τ sig (Elt F))).Forall fun op => op.bufs ⊆ tcRefs τ sig :=
  ⟨binary_bufs_sub .., nullary_bufs_sub ..⟩
/-- Stretch 9: every operation determines all it writes. -/
theorem refOps9_fresh : (refOps9 : List (HloOp τ sig (Elt F))).Forall fun op => op.fresh = ∅ :=
  ⟨rfl, rfl⟩
/-- Stretch 9: no operation writes @main's first argument. -/
theorem refOps9_arg0 : (refOps9 : List (HloOp τ sig (Elt F))).Forall fun op => Proc.devRef (τ := τ) .tc main_arg0 ∉ op.writes :=
  ⟨binary_not_writes (by decide), nullary_not_writes (by decide)⟩
/-- Stretch 9: no operation writes @main's second argument. -/
theorem refOps9_arg1 : (refOps9 : List (HloOp τ sig (Elt F))).Forall fun op => Proc.devRef (τ := τ) .tc main_arg1 ∉ op.writes :=
  ⟨binary_not_writes (by decide), nullary_not_writes (by decide)⟩

/-- Stretch 10: every operation touches TensorCore references only. -/
theorem refOps10_sub : (refOps10 : List (HloOp τ sig (Elt F))).Forall fun op => op.bufs ⊆ tcRefs τ sig :=
  ⟨unary_bufs_sub .., unary_bufs_sub .., ternary_bufs_sub ..⟩
/-- Stretch 10: every operation determines all it writes. -/
theorem refOps10_fresh : (refOps10 : List (HloOp τ sig (Elt F))).Forall fun op => op.fresh = ∅ :=
  ⟨rfl, rfl, rfl⟩
/-- Stretch 10: no operation writes @main's first argument. -/
theorem refOps10_arg0 : (refOps10 : List (HloOp τ sig (Elt F))).Forall fun op => Proc.devRef (τ := τ) .tc main_arg0 ∉ op.writes :=
  ⟨unary_not_writes (by decide), unary_not_writes (by decide), ternary_not_writes (by decide)⟩
/-- Stretch 10: no operation writes @main's second argument. -/
theorem refOps10_arg1 : (refOps10 : List (HloOp τ sig (Elt F))).Forall fun op => Proc.devRef (τ := τ) .tc main_arg1 ∉ op.writes :=
  ⟨unary_not_writes (by decide), unary_not_writes (by decide), ternary_not_writes (by decide)⟩

/-- Stretch 11: every operation touches TensorCore references only. -/
theorem refOps11_sub : (refOps11 : List (HloOp τ sig (Elt F))).Forall fun op => op.bufs ⊆ tcRefs τ sig :=
  nullary_bufs_sub ..
/-- Stretch 11: every operation determines all it writes. -/
theorem refOps11_fresh : (refOps11 : List (HloOp τ sig (Elt F))).Forall fun op => op.fresh = ∅ :=
  rfl
/-- Stretch 11: no operation writes @main's first argument. -/
theorem refOps11_arg0 : (refOps11 : List (HloOp τ sig (Elt F))).Forall fun op => Proc.devRef (τ := τ) .tc main_arg0 ∉ op.writes :=
  nullary_not_writes (by decide)
/-- Stretch 11: no operation writes @main's second argument. -/
theorem refOps11_arg1 : (refOps11 : List (HloOp τ sig (Elt F))).Forall fun op => Proc.devRef (τ := τ) .tc main_arg1 ∉ op.writes :=
  nullary_not_writes (by decide)

/-- Stretch 12: every operation touches TensorCore references only. -/
theorem refOps12_sub : (refOps12 : List (HloOp τ sig (Elt F))).Forall fun op => op.bufs ⊆ tcRefs τ sig :=
  ⟨unary_bufs_sub .., unary_bufs_sub .., ternary_bufs_sub ..⟩
/-- Stretch 12: every operation determines all it writes. -/
theorem refOps12_fresh : (refOps12 : List (HloOp τ sig (Elt F))).Forall fun op => op.fresh = ∅ :=
  ⟨rfl, rfl, rfl⟩
/-- Stretch 12: no operation writes @main's first argument. -/
theorem refOps12_arg0 : (refOps12 : List (HloOp τ sig (Elt F))).Forall fun op => Proc.devRef (τ := τ) .tc main_arg0 ∉ op.writes :=
  ⟨unary_not_writes (by decide), unary_not_writes (by decide), ternary_not_writes (by decide)⟩
/-- Stretch 12: no operation writes @main's second argument. -/
theorem refOps12_arg1 : (refOps12 : List (HloOp τ sig (Elt F))).Forall fun op => Proc.devRef (τ := τ) .tc main_arg1 ∉ op.writes :=
  ⟨unary_not_writes (by decide), unary_not_writes (by decide), ternary_not_writes (by decide)⟩

/-- Stretch 13: every operation touches TensorCore references only. -/
theorem refOps13_sub : (refOps13 : List (HloOp τ sig (Elt F))).Forall fun op => op.bufs ⊆ tcRefs τ sig :=
  ⟨nullary_bufs_sub .., unary_bufs_sub .., binary_bufs_sub .., unary_bufs_sub .., binary_bufs_sub .., nullary_bufs_sub .., unary_bufs_sub ..,
     binary_bufs_sub .., binary_bufs_sub .., reshape_bufs_sub ..⟩
/-- Stretch 13: every operation determines all it writes. -/
theorem refOps13_fresh : (refOps13 : List (HloOp τ sig (Elt F))).Forall fun op => op.fresh = ∅ :=
  ⟨rfl, rfl, rfl, rfl, rfl, rfl, rfl, rfl, rfl, rfl⟩
/-- Stretch 13: no operation writes @main's first argument. -/
theorem refOps13_arg0 : (refOps13 : List (HloOp τ sig (Elt F))).Forall fun op => Proc.devRef (τ := τ) .tc main_arg0 ∉ op.writes :=
  ⟨nullary_not_writes (by decide), unary_not_writes (by decide), binary_not_writes (by decide), unary_not_writes (by decide),
     binary_not_writes (by decide), nullary_not_writes (by decide), unary_not_writes (by decide), binary_not_writes (by decide),
     binary_not_writes (by decide), reshape_not_writes (by decide)⟩
/-- Stretch 13: no operation writes @main's second argument. -/
theorem refOps13_arg1 : (refOps13 : List (HloOp τ sig (Elt F))).Forall fun op => Proc.devRef (τ := τ) .tc main_arg1 ∉ op.writes :=
  ⟨nullary_not_writes (by decide), unary_not_writes (by decide), binary_not_writes (by decide), unary_not_writes (by decide),
     binary_not_writes (by decide), nullary_not_writes (by decide), unary_not_writes (by decide), binary_not_writes (by decide),
     binary_not_writes (by decide), reshape_not_writes (by decide)⟩

/-- Stretch 14: every operation touches TensorCore references only. -/
theorem refOps14_sub : (refOps14 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub ..,
     unary_bufs_sub .., nullary_bufs_sub .., nullary_bufs_sub .., unary_bufs_sub .., binary_bufs_sub .., unary_bufs_sub .., unary_bufs_sub ..,
     binary_bufs_sub .., binary_bufs_sub .., nullary_bufs_sub .., binary_bufs_sub .., binary_bufs_sub .., unary_bufs_sub .., nullary_bufs_sub ..,
     unary_bufs_sub .., ternary_bufs_sub ..⟩
/-- Stretch 14: every operation determines all it writes. -/
theorem refOps14_fresh : (refOps14 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩
/-- Stretch 14: no operation writes @main's first argument. -/
theorem refOps14_arg0 : (refOps14 : List (HloOp τ sig (Elt F))).Forall fun op => Proc.devRef (τ := τ) .tc main_arg0 ∉ op.writes :=
  ⟨nullary_not_writes (by decide), unary_not_writes (by decide), binary_not_writes (by decide), nullary_not_writes (by decide),
     unary_not_writes (by decide), binary_not_writes (by decide), ternary_not_writes (by decide), unary_not_writes (by decide),
     nullary_not_writes (by decide), nullary_not_writes (by decide), unary_not_writes (by decide), binary_not_writes (by decide),
     unary_not_writes (by decide), unary_not_writes (by decide), binary_not_writes (by decide), binary_not_writes (by decide),
     nullary_not_writes (by decide), binary_not_writes (by decide), binary_not_writes (by decide), unary_not_writes (by decide),
     nullary_not_writes (by decide), unary_not_writes (by decide), ternary_not_writes (by decide)⟩
/-- Stretch 14: no operation writes @main's second argument. -/
theorem refOps14_arg1 : (refOps14 : List (HloOp τ sig (Elt F))).Forall fun op => Proc.devRef (τ := τ) .tc main_arg1 ∉ op.writes :=
  ⟨nullary_not_writes (by decide), unary_not_writes (by decide), binary_not_writes (by decide), nullary_not_writes (by decide),
     unary_not_writes (by decide), binary_not_writes (by decide), ternary_not_writes (by decide), unary_not_writes (by decide),
     nullary_not_writes (by decide), nullary_not_writes (by decide), unary_not_writes (by decide), binary_not_writes (by decide),
     unary_not_writes (by decide), unary_not_writes (by decide), binary_not_writes (by decide), binary_not_writes (by decide),
     nullary_not_writes (by decide), binary_not_writes (by decide), binary_not_writes (by decide), unary_not_writes (by decide),
     nullary_not_writes (by decide), unary_not_writes (by decide), ternary_not_writes (by decide)⟩

/-- Stretch 15: every operation touches TensorCore references only. -/
theorem refOps15_sub : (refOps15 : List (HloOp τ sig (Elt F))).Forall fun op => op.bufs ⊆ tcRefs τ sig :=
  ⟨reshape_bufs_sub .., unary_bufs_sub .., nullary_bufs_sub ..⟩
/-- Stretch 15: every operation determines all it writes. -/
theorem refOps15_fresh : (refOps15 : List (HloOp τ sig (Elt F))).Forall fun op => op.fresh = ∅ :=
  ⟨rfl, rfl, rfl⟩
/-- Stretch 15: no operation writes @main's first argument. -/
theorem refOps15_arg0 : (refOps15 : List (HloOp τ sig (Elt F))).Forall fun op => Proc.devRef (τ := τ) .tc main_arg0 ∉ op.writes :=
  ⟨reshape_not_writes (by decide), unary_not_writes (by decide), nullary_not_writes (by decide)⟩
/-- Stretch 15: no operation writes @main's second argument. -/
theorem refOps15_arg1 : (refOps15 : List (HloOp τ sig (Elt F))).Forall fun op => Proc.devRef (τ := τ) .tc main_arg1 ∉ op.writes :=
  ⟨reshape_not_writes (by decide), unary_not_writes (by decide), nullary_not_writes (by decide)⟩

/-- Stretch 16: every operation touches TensorCore references only. -/
theorem refOps16_sub : (refOps16 : List (HloOp τ sig (Elt F))).Forall fun op => op.bufs ⊆ tcRefs τ sig :=
  ⟨unary_bufs_sub .., unary_bufs_sub .., unary_bufs_sub .., ternary_bufs_sub ..⟩
/-- Stretch 16: every operation determines all it writes. -/
theorem refOps16_fresh : (refOps16 : List (HloOp τ sig (Elt F))).Forall fun op => op.fresh = ∅ :=
  ⟨rfl, rfl, rfl, rfl⟩
/-- Stretch 16: no operation writes @main's first argument. -/
theorem refOps16_arg0 : (refOps16 : List (HloOp τ sig (Elt F))).Forall fun op => Proc.devRef (τ := τ) .tc main_arg0 ∉ op.writes :=
  ⟨unary_not_writes (by decide), unary_not_writes (by decide), unary_not_writes (by decide), ternary_not_writes (by decide)⟩
/-- Stretch 16: no operation writes @main's second argument. -/
theorem refOps16_arg1 : (refOps16 : List (HloOp τ sig (Elt F))).Forall fun op => Proc.devRef (τ := τ) .tc main_arg1 ∉ op.writes :=
  ⟨unary_not_writes (by decide), unary_not_writes (by decide), unary_not_writes (by decide), ternary_not_writes (by decide)⟩

/-- Stretch 17: every operation touches TensorCore references only. -/
theorem refOps17_sub : (refOps17 : List (HloOp τ sig (Elt F))).Forall fun op => op.bufs ⊆ tcRefs τ sig :=
  ⟨binary_bufs_sub .., nullary_bufs_sub ..⟩
/-- Stretch 17: every operation determines all it writes. -/
theorem refOps17_fresh : (refOps17 : List (HloOp τ sig (Elt F))).Forall fun op => op.fresh = ∅ :=
  ⟨rfl, rfl⟩
/-- Stretch 17: no operation writes @main's first argument. -/
theorem refOps17_arg0 : (refOps17 : List (HloOp τ sig (Elt F))).Forall fun op => Proc.devRef (τ := τ) .tc main_arg0 ∉ op.writes :=
  ⟨binary_not_writes (by decide), nullary_not_writes (by decide)⟩
/-- Stretch 17: no operation writes @main's second argument. -/
theorem refOps17_arg1 : (refOps17 : List (HloOp τ sig (Elt F))).Forall fun op => Proc.devRef (τ := τ) .tc main_arg1 ∉ op.writes :=
  ⟨binary_not_writes (by decide), nullary_not_writes (by decide)⟩

/-- Stretch 18: every operation touches TensorCore references only. -/
theorem refOps18_sub : (refOps18 : List (HloOp τ sig (Elt F))).Forall fun op => op.bufs ⊆ tcRefs τ sig :=
  ⟨unary_bufs_sub .., unary_bufs_sub .., ternary_bufs_sub ..⟩
/-- Stretch 18: every operation determines all it writes. -/
theorem refOps18_fresh : (refOps18 : List (HloOp τ sig (Elt F))).Forall fun op => op.fresh = ∅ :=
  ⟨rfl, rfl, rfl⟩
/-- Stretch 18: no operation writes @main's first argument. -/
theorem refOps18_arg0 : (refOps18 : List (HloOp τ sig (Elt F))).Forall fun op => Proc.devRef (τ := τ) .tc main_arg0 ∉ op.writes :=
  ⟨unary_not_writes (by decide), unary_not_writes (by decide), ternary_not_writes (by decide)⟩
/-- Stretch 18: no operation writes @main's second argument. -/
theorem refOps18_arg1 : (refOps18 : List (HloOp τ sig (Elt F))).Forall fun op => Proc.devRef (τ := τ) .tc main_arg1 ∉ op.writes :=
  ⟨unary_not_writes (by decide), unary_not_writes (by decide), ternary_not_writes (by decide)⟩

/-- Stretch 19: every operation touches TensorCore references only. -/
theorem refOps19_sub : (refOps19 : List (HloOp τ sig (Elt F))).Forall fun op => op.bufs ⊆ tcRefs τ sig :=
  nullary_bufs_sub ..
/-- Stretch 19: every operation determines all it writes. -/
theorem refOps19_fresh : (refOps19 : List (HloOp τ sig (Elt F))).Forall fun op => op.fresh = ∅ :=
  rfl
/-- Stretch 19: no operation writes @main's first argument. -/
theorem refOps19_arg0 : (refOps19 : List (HloOp τ sig (Elt F))).Forall fun op => Proc.devRef (τ := τ) .tc main_arg0 ∉ op.writes :=
  nullary_not_writes (by decide)
/-- Stretch 19: no operation writes @main's second argument. -/
theorem refOps19_arg1 : (refOps19 : List (HloOp τ sig (Elt F))).Forall fun op => Proc.devRef (τ := τ) .tc main_arg1 ∉ op.writes :=
  nullary_not_writes (by decide)

/-- Stretch 20: every operation touches TensorCore references only. -/
theorem refOps20_sub : (refOps20 : List (HloOp τ sig (Elt F))).Forall fun op => op.bufs ⊆ tcRefs τ sig :=
  ⟨unary_bufs_sub .., unary_bufs_sub .., ternary_bufs_sub ..⟩
/-- Stretch 20: every operation determines all it writes. -/
theorem refOps20_fresh : (refOps20 : List (HloOp τ sig (Elt F))).Forall fun op => op.fresh = ∅ :=
  ⟨rfl, rfl, rfl⟩
/-- Stretch 20: no operation writes @main's first argument. -/
theorem refOps20_arg0 : (refOps20 : List (HloOp τ sig (Elt F))).Forall fun op => Proc.devRef (τ := τ) .tc main_arg0 ∉ op.writes :=
  ⟨unary_not_writes (by decide), unary_not_writes (by decide), ternary_not_writes (by decide)⟩
/-- Stretch 20: no operation writes @main's second argument. -/
theorem refOps20_arg1 : (refOps20 : List (HloOp τ sig (Elt F))).Forall fun op => Proc.devRef (τ := τ) .tc main_arg1 ∉ op.writes :=
  ⟨unary_not_writes (by decide), unary_not_writes (by decide), ternary_not_writes (by decide)⟩

/-- Stretch 21: every operation touches TensorCore references only. -/
theorem refOps21_sub : (refOps21 : List (HloOp τ sig (Elt F))).Forall fun op => op.bufs ⊆ tcRefs τ sig :=
  ⟨nullary_bufs_sub .., unary_bufs_sub .., binary_bufs_sub .., unary_bufs_sub .., binary_bufs_sub .., nullary_bufs_sub .., unary_bufs_sub ..,
     binary_bufs_sub .., binary_bufs_sub .., reshape_bufs_sub ..⟩
/-- Stretch 21: every operation determines all it writes. -/
theorem refOps21_fresh : (refOps21 : List (HloOp τ sig (Elt F))).Forall fun op => op.fresh = ∅ :=
  ⟨rfl, rfl, rfl, rfl, rfl, rfl, rfl, rfl, rfl, rfl⟩
/-- Stretch 21: no operation writes @main's first argument. -/
theorem refOps21_arg0 : (refOps21 : List (HloOp τ sig (Elt F))).Forall fun op => Proc.devRef (τ := τ) .tc main_arg0 ∉ op.writes :=
  ⟨nullary_not_writes (by decide), unary_not_writes (by decide), binary_not_writes (by decide), unary_not_writes (by decide),
     binary_not_writes (by decide), nullary_not_writes (by decide), unary_not_writes (by decide), binary_not_writes (by decide),
     binary_not_writes (by decide), reshape_not_writes (by decide)⟩
/-- Stretch 21: no operation writes @main's second argument. -/
theorem refOps21_arg1 : (refOps21 : List (HloOp τ sig (Elt F))).Forall fun op => Proc.devRef (τ := τ) .tc main_arg1 ∉ op.writes :=
  ⟨nullary_not_writes (by decide), unary_not_writes (by decide), binary_not_writes (by decide), unary_not_writes (by decide),
     binary_not_writes (by decide), nullary_not_writes (by decide), unary_not_writes (by decide), binary_not_writes (by decide),
     binary_not_writes (by decide), reshape_not_writes (by decide)⟩

/-- Stretch 22: every operation touches TensorCore references only. -/
theorem refOps22_sub : (refOps22 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub ..,
     unary_bufs_sub .., nullary_bufs_sub .., nullary_bufs_sub .., unary_bufs_sub .., binary_bufs_sub .., unary_bufs_sub .., unary_bufs_sub ..,
     binary_bufs_sub .., binary_bufs_sub .., nullary_bufs_sub .., binary_bufs_sub .., binary_bufs_sub .., unary_bufs_sub .., nullary_bufs_sub ..,
     unary_bufs_sub .., ternary_bufs_sub ..⟩
/-- Stretch 22: every operation determines all it writes. -/
theorem refOps22_fresh : (refOps22 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩
/-- Stretch 22: no operation writes @main's first argument. -/
theorem refOps22_arg0 : (refOps22 : List (HloOp τ sig (Elt F))).Forall fun op => Proc.devRef (τ := τ) .tc main_arg0 ∉ op.writes :=
  ⟨nullary_not_writes (by decide), unary_not_writes (by decide), binary_not_writes (by decide), nullary_not_writes (by decide),
     unary_not_writes (by decide), binary_not_writes (by decide), ternary_not_writes (by decide), unary_not_writes (by decide),
     nullary_not_writes (by decide), nullary_not_writes (by decide), unary_not_writes (by decide), binary_not_writes (by decide),
     unary_not_writes (by decide), unary_not_writes (by decide), binary_not_writes (by decide), binary_not_writes (by decide),
     nullary_not_writes (by decide), binary_not_writes (by decide), binary_not_writes (by decide), unary_not_writes (by decide),
     nullary_not_writes (by decide), unary_not_writes (by decide), ternary_not_writes (by decide)⟩
/-- Stretch 22: no operation writes @main's second argument. -/
theorem refOps22_arg1 : (refOps22 : List (HloOp τ sig (Elt F))).Forall fun op => Proc.devRef (τ := τ) .tc main_arg1 ∉ op.writes :=
  ⟨nullary_not_writes (by decide), unary_not_writes (by decide), binary_not_writes (by decide), nullary_not_writes (by decide),
     unary_not_writes (by decide), binary_not_writes (by decide), ternary_not_writes (by decide), unary_not_writes (by decide),
     nullary_not_writes (by decide), nullary_not_writes (by decide), unary_not_writes (by decide), binary_not_writes (by decide),
     unary_not_writes (by decide), unary_not_writes (by decide), binary_not_writes (by decide), binary_not_writes (by decide),
     nullary_not_writes (by decide), binary_not_writes (by decide), binary_not_writes (by decide), unary_not_writes (by decide),
     nullary_not_writes (by decide), unary_not_writes (by decide), ternary_not_writes (by decide)⟩

/-- Stretch 23: every operation touches TensorCore references only. -/
theorem refOps23_sub : (refOps23 : List (HloOp τ sig (Elt F))).Forall fun op => op.bufs ⊆ tcRefs τ sig :=
  ⟨reshape_bufs_sub .., unary_bufs_sub .., nullary_bufs_sub ..⟩
/-- Stretch 23: every operation determines all it writes. -/
theorem refOps23_fresh : (refOps23 : List (HloOp τ sig (Elt F))).Forall fun op => op.fresh = ∅ :=
  ⟨rfl, rfl, rfl⟩
/-- Stretch 23: no operation writes @main's first argument. -/
theorem refOps23_arg0 : (refOps23 : List (HloOp τ sig (Elt F))).Forall fun op => Proc.devRef (τ := τ) .tc main_arg0 ∉ op.writes :=
  ⟨reshape_not_writes (by decide), unary_not_writes (by decide), nullary_not_writes (by decide)⟩
/-- Stretch 23: no operation writes @main's second argument. -/
theorem refOps23_arg1 : (refOps23 : List (HloOp τ sig (Elt F))).Forall fun op => Proc.devRef (τ := τ) .tc main_arg1 ∉ op.writes :=
  ⟨reshape_not_writes (by decide), unary_not_writes (by decide), nullary_not_writes (by decide)⟩

/-- Stretch 24: every operation touches TensorCore references only. -/
theorem refOps24_sub : (refOps24 : List (HloOp τ sig (Elt F))).Forall fun op => op.bufs ⊆ tcRefs τ sig :=
  ⟨unary_bufs_sub .., unary_bufs_sub .., unary_bufs_sub .., ternary_bufs_sub ..⟩
/-- Stretch 24: every operation determines all it writes. -/
theorem refOps24_fresh : (refOps24 : List (HloOp τ sig (Elt F))).Forall fun op => op.fresh = ∅ :=
  ⟨rfl, rfl, rfl, rfl⟩
/-- Stretch 24: no operation writes @main's first argument. -/
theorem refOps24_arg0 : (refOps24 : List (HloOp τ sig (Elt F))).Forall fun op => Proc.devRef (τ := τ) .tc main_arg0 ∉ op.writes :=
  ⟨unary_not_writes (by decide), unary_not_writes (by decide), unary_not_writes (by decide), ternary_not_writes (by decide)⟩
/-- Stretch 24: no operation writes @main's second argument. -/
theorem refOps24_arg1 : (refOps24 : List (HloOp τ sig (Elt F))).Forall fun op => Proc.devRef (τ := τ) .tc main_arg1 ∉ op.writes :=
  ⟨unary_not_writes (by decide), unary_not_writes (by decide), unary_not_writes (by decide), ternary_not_writes (by decide)⟩

/-- Stretch 25: every operation touches TensorCore references only. -/
theorem refOps25_sub : (refOps25 : List (HloOp τ sig (Elt F))).Forall fun op => op.bufs ⊆ tcRefs τ sig :=
  ⟨binary_bufs_sub .., nullary_bufs_sub ..⟩
/-- Stretch 25: every operation determines all it writes. -/
theorem refOps25_fresh : (refOps25 : List (HloOp τ sig (Elt F))).Forall fun op => op.fresh = ∅ :=
  ⟨rfl, rfl⟩
/-- Stretch 25: no operation writes @main's first argument. -/
theorem refOps25_arg0 : (refOps25 : List (HloOp τ sig (Elt F))).Forall fun op => Proc.devRef (τ := τ) .tc main_arg0 ∉ op.writes :=
  ⟨binary_not_writes (by decide), nullary_not_writes (by decide)⟩
/-- Stretch 25: no operation writes @main's second argument. -/
theorem refOps25_arg1 : (refOps25 : List (HloOp τ sig (Elt F))).Forall fun op => Proc.devRef (τ := τ) .tc main_arg1 ∉ op.writes :=
  ⟨binary_not_writes (by decide), nullary_not_writes (by decide)⟩

/-- Stretch 26: every operation touches TensorCore references only. -/
theorem refOps26_sub : (refOps26 : List (HloOp τ sig (Elt F))).Forall fun op => op.bufs ⊆ tcRefs τ sig :=
  ⟨unary_bufs_sub .., unary_bufs_sub .., ternary_bufs_sub ..⟩
/-- Stretch 26: every operation determines all it writes. -/
theorem refOps26_fresh : (refOps26 : List (HloOp τ sig (Elt F))).Forall fun op => op.fresh = ∅ :=
  ⟨rfl, rfl, rfl⟩
/-- Stretch 26: no operation writes @main's first argument. -/
theorem refOps26_arg0 : (refOps26 : List (HloOp τ sig (Elt F))).Forall fun op => Proc.devRef (τ := τ) .tc main_arg0 ∉ op.writes :=
  ⟨unary_not_writes (by decide), unary_not_writes (by decide), ternary_not_writes (by decide)⟩
/-- Stretch 26: no operation writes @main's second argument. -/
theorem refOps26_arg1 : (refOps26 : List (HloOp τ sig (Elt F))).Forall fun op => Proc.devRef (τ := τ) .tc main_arg1 ∉ op.writes :=
  ⟨unary_not_writes (by decide), unary_not_writes (by decide), ternary_not_writes (by decide)⟩

/-- Stretch 27: every operation touches TensorCore references only. -/
theorem refOps27_sub : (refOps27 : List (HloOp τ sig (Elt F))).Forall fun op => op.bufs ⊆ tcRefs τ sig :=
  nullary_bufs_sub ..
/-- Stretch 27: every operation determines all it writes. -/
theorem refOps27_fresh : (refOps27 : List (HloOp τ sig (Elt F))).Forall fun op => op.fresh = ∅ :=
  rfl
/-- Stretch 27: no operation writes @main's first argument. -/
theorem refOps27_arg0 : (refOps27 : List (HloOp τ sig (Elt F))).Forall fun op => Proc.devRef (τ := τ) .tc main_arg0 ∉ op.writes :=
  nullary_not_writes (by decide)
/-- Stretch 27: no operation writes @main's second argument. -/
theorem refOps27_arg1 : (refOps27 : List (HloOp τ sig (Elt F))).Forall fun op => Proc.devRef (τ := τ) .tc main_arg1 ∉ op.writes :=
  nullary_not_writes (by decide)

/-- Stretch 28: every operation touches TensorCore references only. -/
theorem refOps28_sub : (refOps28 : List (HloOp τ sig (Elt F))).Forall fun op => op.bufs ⊆ tcRefs τ sig :=
  ⟨unary_bufs_sub .., unary_bufs_sub .., ternary_bufs_sub ..⟩
/-- Stretch 28: every operation determines all it writes. -/
theorem refOps28_fresh : (refOps28 : List (HloOp τ sig (Elt F))).Forall fun op => op.fresh = ∅ :=
  ⟨rfl, rfl, rfl⟩
/-- Stretch 28: no operation writes @main's first argument. -/
theorem refOps28_arg0 : (refOps28 : List (HloOp τ sig (Elt F))).Forall fun op => Proc.devRef (τ := τ) .tc main_arg0 ∉ op.writes :=
  ⟨unary_not_writes (by decide), unary_not_writes (by decide), ternary_not_writes (by decide)⟩
/-- Stretch 28: no operation writes @main's second argument. -/
theorem refOps28_arg1 : (refOps28 : List (HloOp τ sig (Elt F))).Forall fun op => Proc.devRef (τ := τ) .tc main_arg1 ∉ op.writes :=
  ⟨unary_not_writes (by decide), unary_not_writes (by decide), ternary_not_writes (by decide)⟩

/-- Stretch 29: every operation touches TensorCore references only. -/
theorem refOps29_sub : (refOps29 : List (HloOp τ sig (Elt F))).Forall fun op => op.bufs ⊆ tcRefs τ sig :=
  ⟨nullary_bufs_sub .., unary_bufs_sub .., binary_bufs_sub .., unary_bufs_sub .., binary_bufs_sub .., nullary_bufs_sub .., unary_bufs_sub ..,
     binary_bufs_sub .., binary_bufs_sub .., reshape_bufs_sub ..⟩
/-- Stretch 29: every operation determines all it writes. -/
theorem refOps29_fresh : (refOps29 : List (HloOp τ sig (Elt F))).Forall fun op => op.fresh = ∅ :=
  ⟨rfl, rfl, rfl, rfl, rfl, rfl, rfl, rfl, rfl, rfl⟩
/-- Stretch 29: no operation writes @main's first argument. -/
theorem refOps29_arg0 : (refOps29 : List (HloOp τ sig (Elt F))).Forall fun op => Proc.devRef (τ := τ) .tc main_arg0 ∉ op.writes :=
  ⟨nullary_not_writes (by decide), unary_not_writes (by decide), binary_not_writes (by decide), unary_not_writes (by decide),
     binary_not_writes (by decide), nullary_not_writes (by decide), unary_not_writes (by decide), binary_not_writes (by decide),
     binary_not_writes (by decide), reshape_not_writes (by decide)⟩
/-- Stretch 29: no operation writes @main's second argument. -/
theorem refOps29_arg1 : (refOps29 : List (HloOp τ sig (Elt F))).Forall fun op => Proc.devRef (τ := τ) .tc main_arg1 ∉ op.writes :=
  ⟨nullary_not_writes (by decide), unary_not_writes (by decide), binary_not_writes (by decide), unary_not_writes (by decide),
     binary_not_writes (by decide), nullary_not_writes (by decide), unary_not_writes (by decide), binary_not_writes (by decide),
     binary_not_writes (by decide), reshape_not_writes (by decide)⟩

/-- Stretch 30: every operation touches TensorCore references only. -/
theorem refOps30_sub : (refOps30 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub ..,
     unary_bufs_sub .., nullary_bufs_sub .., nullary_bufs_sub .., unary_bufs_sub .., binary_bufs_sub .., unary_bufs_sub .., unary_bufs_sub ..,
     binary_bufs_sub .., binary_bufs_sub .., nullary_bufs_sub .., binary_bufs_sub .., binary_bufs_sub .., unary_bufs_sub .., nullary_bufs_sub ..,
     unary_bufs_sub .., ternary_bufs_sub ..⟩
/-- Stretch 30: every operation determines all it writes. -/
theorem refOps30_fresh : (refOps30 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩
/-- Stretch 30: no operation writes @main's first argument. -/
theorem refOps30_arg0 : (refOps30 : List (HloOp τ sig (Elt F))).Forall fun op => Proc.devRef (τ := τ) .tc main_arg0 ∉ op.writes :=
  ⟨nullary_not_writes (by decide), unary_not_writes (by decide), binary_not_writes (by decide), nullary_not_writes (by decide),
     unary_not_writes (by decide), binary_not_writes (by decide), ternary_not_writes (by decide), unary_not_writes (by decide),
     nullary_not_writes (by decide), nullary_not_writes (by decide), unary_not_writes (by decide), binary_not_writes (by decide),
     unary_not_writes (by decide), unary_not_writes (by decide), binary_not_writes (by decide), binary_not_writes (by decide),
     nullary_not_writes (by decide), binary_not_writes (by decide), binary_not_writes (by decide), unary_not_writes (by decide),
     nullary_not_writes (by decide), unary_not_writes (by decide), ternary_not_writes (by decide)⟩
/-- Stretch 30: no operation writes @main's second argument. -/
theorem refOps30_arg1 : (refOps30 : List (HloOp τ sig (Elt F))).Forall fun op => Proc.devRef (τ := τ) .tc main_arg1 ∉ op.writes :=
  ⟨nullary_not_writes (by decide), unary_not_writes (by decide), binary_not_writes (by decide), nullary_not_writes (by decide),
     unary_not_writes (by decide), binary_not_writes (by decide), ternary_not_writes (by decide), unary_not_writes (by decide),
     nullary_not_writes (by decide), nullary_not_writes (by decide), unary_not_writes (by decide), binary_not_writes (by decide),
     unary_not_writes (by decide), unary_not_writes (by decide), binary_not_writes (by decide), binary_not_writes (by decide),
     nullary_not_writes (by decide), binary_not_writes (by decide), binary_not_writes (by decide), unary_not_writes (by decide),
     nullary_not_writes (by decide), unary_not_writes (by decide), ternary_not_writes (by decide)⟩

/-- Stretch 31: every operation touches TensorCore references only. -/
theorem refOps31_sub : (refOps31 : List (HloOp τ sig (Elt F))).Forall fun op => op.bufs ⊆ tcRefs τ sig :=
  ⟨reshape_bufs_sub .., unary_bufs_sub .., nullary_bufs_sub ..⟩
/-- Stretch 31: every operation determines all it writes. -/
theorem refOps31_fresh : (refOps31 : List (HloOp τ sig (Elt F))).Forall fun op => op.fresh = ∅ :=
  ⟨rfl, rfl, rfl⟩
/-- Stretch 31: no operation writes @main's first argument. -/
theorem refOps31_arg0 : (refOps31 : List (HloOp τ sig (Elt F))).Forall fun op => Proc.devRef (τ := τ) .tc main_arg0 ∉ op.writes :=
  ⟨reshape_not_writes (by decide), unary_not_writes (by decide), nullary_not_writes (by decide)⟩
/-- Stretch 31: no operation writes @main's second argument. -/
theorem refOps31_arg1 : (refOps31 : List (HloOp τ sig (Elt F))).Forall fun op => Proc.devRef (τ := τ) .tc main_arg1 ∉ op.writes :=
  ⟨reshape_not_writes (by decide), unary_not_writes (by decide), nullary_not_writes (by decide)⟩

/-- Stretch 32: every operation touches TensorCore references only. -/
theorem refOps32_sub : (refOps32 : List (HloOp τ sig (Elt F))).Forall fun op => op.bufs ⊆ tcRefs τ sig :=
  ⟨unary_bufs_sub .., unary_bufs_sub .., unary_bufs_sub .., ternary_bufs_sub ..⟩
/-- Stretch 32: every operation determines all it writes. -/
theorem refOps32_fresh : (refOps32 : List (HloOp τ sig (Elt F))).Forall fun op => op.fresh = ∅ :=
  ⟨rfl, rfl, rfl, rfl⟩
/-- Stretch 32: no operation writes @main's first argument. -/
theorem refOps32_arg0 : (refOps32 : List (HloOp τ sig (Elt F))).Forall fun op => Proc.devRef (τ := τ) .tc main_arg0 ∉ op.writes :=
  ⟨unary_not_writes (by decide), unary_not_writes (by decide), unary_not_writes (by decide), ternary_not_writes (by decide)⟩
/-- Stretch 32: no operation writes @main's second argument. -/
theorem refOps32_arg1 : (refOps32 : List (HloOp τ sig (Elt F))).Forall fun op => Proc.devRef (τ := τ) .tc main_arg1 ∉ op.writes :=
  ⟨unary_not_writes (by decide), unary_not_writes (by decide), unary_not_writes (by decide), ternary_not_writes (by decide)⟩

/-- Stretch 33: every operation touches TensorCore references only. -/
theorem refOps33_sub : (refOps33 : List (HloOp τ sig (Elt F))).Forall fun op => op.bufs ⊆ tcRefs τ sig :=
  ⟨unary_bufs_sub .., unary_bufs_sub .., binary_bufs_sub .., unary_bufs_sub .., unary_bufs_sub .., binary_bufs_sub .., binary_bufs_sub ..,
     unary_bufs_sub .., unary_bufs_sub .., binary_bufs_sub .., binary_bufs_sub .., unary_bufs_sub .., unary_bufs_sub .., binary_bufs_sub ..,
     binary_bufs_sub .., reshape_bufs_sub ..⟩
/-- Stretch 33: every operation determines all it writes. -/
theorem refOps33_fresh : (refOps33 : List (HloOp τ sig (Elt F))).Forall fun op => op.fresh = ∅ :=
  ⟨rfl, rfl, rfl, rfl, rfl, rfl, rfl, rfl, rfl, rfl, rfl, rfl, rfl, rfl, rfl, rfl⟩
/-- Stretch 33: no operation writes @main's first argument. -/
theorem refOps33_arg0 : (refOps33 : List (HloOp τ sig (Elt F))).Forall fun op => Proc.devRef (τ := τ) .tc main_arg0 ∉ op.writes :=
  ⟨unary_not_writes (by decide), unary_not_writes (by decide), binary_not_writes (by decide), unary_not_writes (by decide),
     unary_not_writes (by decide), binary_not_writes (by decide), binary_not_writes (by decide), unary_not_writes (by decide),
     unary_not_writes (by decide), binary_not_writes (by decide), binary_not_writes (by decide), unary_not_writes (by decide),
     unary_not_writes (by decide), binary_not_writes (by decide), binary_not_writes (by decide), reshape_not_writes (by decide)⟩
/-- Stretch 33: no operation writes @main's second argument. -/
theorem refOps33_arg1 : (refOps33 : List (HloOp τ sig (Elt F))).Forall fun op => Proc.devRef (τ := τ) .tc main_arg1 ∉ op.writes :=
  ⟨unary_not_writes (by decide), unary_not_writes (by decide), binary_not_writes (by decide), unary_not_writes (by decide),
     unary_not_writes (by decide), binary_not_writes (by decide), binary_not_writes (by decide), unary_not_writes (by decide),
     unary_not_writes (by decide), binary_not_writes (by decide), binary_not_writes (by decide), unary_not_writes (by decide),
     unary_not_writes (by decide), binary_not_writes (by decide), binary_not_writes (by decide), reshape_not_writes (by decide)⟩

end Cert.ReferenceIdeal.RefRun

end
-- ==== Proof.RefRun.lean ====
/-
  The run of the reference program's @main. @main is the line of its 290 host operations (its own statements, and at
  each call the callee's operations over the call's buffers); the signature scopes no buffer and no semaphore; every
  operation touches TensorCore references only and determines what it writes. So from any memory with zero counters
  every weakly fair execution of @main terminates with each TensorCore buffer at the fold of the operations' results
  over the launch contents, and the two arguments, which no operation writes, as they were at launch.
-/
import proofs.«115037_j71897752535328_2_alg».proof.Proof.RefOps
import proofs.«115037_j71897752535328_2_alg».proof.Proof.RefRunFacts
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## @main is the line of its operations

@main runs its three windows in order. The first window is sixty of @main's own statements: the first stretch and
the first twenty operations of the second. The second window is the other twenty, then stretches 2 … 17; the third
is stretches 18 … 33. Each window is the line (`seq`) of its operations by computation: a call unfolds to the callee's
operations over the call's record, a record's field to the buffer it names, and sequencing re-associates. -/

/-- The first window's operations: @main's statements 1 … 60. -/
abbrev win0 : List (HloOp τ sig (Elt F)) := refOps0 ++ refOps1.take 20
/-- The second window's operations: @main's statements 61 … 120, the calls among them inlined. -/
abbrev win1 : List (HloOp τ sig (Elt F)) :=
  refOps1.drop 20 ++ List.flatten [refOps2, refOps3, refOps4, refOps5, refOps6, refOps7, refOps8, refOps9, refOps10, refOps11, refOps12, refOps13, refOps14, refOps15, refOps16, refOps17]
/-- The third window's operations: @main's statements 121 … 175 (the last is the return, no operation), the calls among them inlined. -/
abbrev win2 : List (HloOp τ sig (Elt F)) :=
  List.flatten [refOps18, refOps19, refOps20, refOps21, refOps22, refOps23, refOps24, refOps25, refOps26, refOps27, refOps28, refOps29, refOps30, refOps31, refOps32, refOps33]

theorem main_part0_eq (c : Dev nD) : main_part0 (F := F) c = seq win0 := rfl
theorem main_part1_eq (c : Dev nD) : main_part1 (F := F) c = seq win1 := rfl
theorem main_part2_eq (c : Dev nD) : main_part2 (F := F) c = seq win2 := rfl

/-- The operations regrouped by window: the same list (the second stretch is its first twenty operations followed by
    the rest, and a concatenation of concatenations is one). -/
theorem ops_eq_windows : (ops : List (HloOp τ sig (Elt F))) = win0 ++ (win1 ++ win2) := rfl

/-- @main is the line of its 290 operations: window by window, and two lines in a row are their concatenation's. -/
theorem main_eq (c : Dev nD) : main (F := F) c = seq (ops (F := F)) :=
  calc main (F := F) c
      = (seq win0 >>= fun _ => seq win1 >>= fun _ => seq win2) := by
        show (main_part0 c >>= fun _ => main_part1 c >>= fun _ => main_part2 c) = _
        rw [main_part0_eq c, main_part1_eq c, main_part2_eq c]
    _ = seq (win0 ++ (win1 ++ win2)) := by rw [seq_append win0 (win1 ++ win2), seq_append win1 win2]
    _ = seq ops := by rw [ops_eq_windows]

/-! ## The signature scopes nothing; the operations stay on the TensorCore and determine their results -/

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only: stretch by stretch. -/
theorem ops_sub : (ops : List (HloOp τ sig (Elt F))).Forall fun op => op.bufs ⊆ tcRefs τ sig :=
  forall_flatten
    ⟨refOps0_sub, refOps1_sub, refOps2_sub, refOps3_sub, refOps4_sub, refOps5_sub, refOps6_sub, refOps7_sub, refOps8_sub, refOps9_sub, refOps10_sub,
      refOps11_sub, refOps12_sub, refOps13_sub, refOps14_sub, refOps15_sub, refOps16_sub, refOps17_sub, refOps18_sub, refOps19_sub, refOps20_sub,
      refOps21_sub, refOps22_sub, refOps23_sub, refOps24_sub, refOps25_sub, refOps26_sub, refOps27_sub, refOps28_sub, refOps29_sub, refOps30_sub,
      refOps31_sub, refOps32_sub, refOps33_sub⟩

/-- Every operation determines all it writes: stretch by stretch. -/
theorem ops_fresh : ∀ op ∈ (ops : List (HloOp τ sig (Elt F))), op.fresh = ∅ :=
  List.forall_iff_forall_mem.mp (forall_flatten
    ⟨refOps0_fresh, refOps1_fresh, refOps2_fresh, refOps3_fresh, refOps4_fresh, refOps5_fresh, refOps6_fresh, refOps7_fresh, refOps8_fresh,
      refOps9_fresh, refOps10_fresh, refOps11_fresh, refOps12_fresh, refOps13_fresh, refOps14_fresh, refOps15_fresh, refOps16_fresh, refOps17_fresh,
      refOps18_fresh, refOps19_fresh, refOps20_fresh, refOps21_fresh, refOps22_fresh, refOps23_fresh, refOps24_fresh, refOps25_fresh, refOps26_fresh,
      refOps27_fresh, refOps28_fresh, refOps29_fresh, refOps30_fresh, refOps31_fresh, refOps32_fresh, refOps33_fresh⟩)

/-! ## The run -/

/-- On every device, for any float values, from any memory with zero counters: every weakly fair execution of @main
    terminates, and every final state has each TensorCore buffer at the fold of the operations' results over the
    device's launch contents. -/
theorem run (m : (ℓ : Loc nD τ sig) → Buf (Elt F) ℓ) (ρ : Dev nD → PrngReg) :
    θ_run defs (onTc (τ := τ) (main (F := F))) ⟨m, fun _ => 0, ρ⟩ fun r => ∀ (d : Dev nD) (b : Ref sig .tc),
      r.2.mem ((d.tc : Thread nD τ).loc b) = after (ops (F := F)) (launchContents m d) (Proc.devRef .tc b) :=
  run_seq scopedRefs_eq scopedSems_eq defs main (fun _ => ops) main_eq (fun _ => ops_sub) m ρ (fun _ => ops_fresh)

/-! ## The arguments are kept -/

/-- No operation writes @main's first argument: after the line it holds its launch contents. -/
theorem kept_arg0 (m : (ℓ : Loc nD τ sig) → Buf (Elt F) ℓ) (d : Dev nD) :
    after (ops (F := F)) (launchContents m d) (Proc.devRef .tc main_arg0) = m ((d.tc : Thread nD τ).loc main_arg0) :=
  after_of_forall_not_mem ops (launchContents m d) (List.forall_iff_forall_mem.mp (forall_flatten
    ⟨refOps0_arg0, refOps1_arg0, refOps2_arg0, refOps3_arg0, refOps4_arg0, refOps5_arg0, refOps6_arg0, refOps7_arg0, refOps8_arg0, refOps9_arg0,
      refOps10_arg0, refOps11_arg0, refOps12_arg0, refOps13_arg0, refOps14_arg0, refOps15_arg0, refOps16_arg0, refOps17_arg0, refOps18_arg0,
      refOps19_arg0, refOps20_arg0, refOps21_arg0, refOps22_arg0, refOps23_arg0, refOps24_arg0, refOps25_arg0, refOps26_arg0, refOps27_arg0,
      refOps28_arg0, refOps29_arg0, refOps30_arg0, refOps31_arg0, refOps32_arg0, refOps33_arg0⟩))

/-- No operation writes @main's second argument: after the line it holds its launch contents. -/
theorem kept_arg1 (m : (ℓ : Loc nD τ sig) → Buf (Elt F) ℓ) (d : Dev nD) :
    after (ops (F := F)) (launchContents m d) (Proc.devRef .tc main_arg1) = m ((d.tc : Thread nD τ).loc main_arg1) :=
  after_of_forall_not_mem ops (launchContents m d) (List.forall_iff_forall_mem.mp (forall_flatten
    ⟨refOps0_arg1, refOps1_arg1, refOps2_arg1, refOps3_arg1, refOps4_arg1, refOps5_arg1, refOps6_arg1, refOps7_arg1, refOps8_arg1, refOps9_arg1,
      refOps10_arg1, refOps11_arg1, refOps12_arg1, refOps13_arg1, refOps14_arg1, refOps15_arg1, refOps16_arg1, refOps17_arg1, refOps18_arg1,
      refOps19_arg1, refOps20_arg1, refOps21_arg1, refOps22_arg1, refOps23_arg1, refOps24_arg1, refOps25_arg1, refOps26_arg1, refOps27_arg1,
      refOps28_arg1, refOps29_arg1, refOps30_arg1, refOps31_arg1, refOps32_arg1, refOps33_arg1⟩))

end Cert.ReferenceIdeal.RefRun

end
-- ==== Proof.Spec.lean ====
/-
  The common shape of the two programs' results.

  Both programs sample a 256 x 256 image of 3 channels at 176 * 256 * 256 points. From a point's two coordinates they form
  the cell corner (xw, yn) (two 32-bit integers) and the fractional parts (fx, fy); the four neighbours of the cell are
  (yn, xw), (yn, xw + 1), (yn + 1, xw), (yn + 1, xw + 1). A neighbour counts only if both its coordinates lie in
  [0, 256) (`inImg`, `both`); where it does not, its coordinates are replaced by 0 before the image is read (`keep`), and
  the value read is replaced by 0 afterwards (`tapVal`). The four values are weighted by the bilinear weights
  (1-fy)(1-fx), (1-fy)fx, fy(1-fx), fy fx and added (`Comb`).

  Reading the image is a row lookup in a table with 3 columns (`takeRows`): row numbers below 0 are first moved up by the
  number of rows, a row number still outside the table yields a not-a-number row, and the lookup itself clamps the row
  number into the table. The two programs differ only in the table and the row number they use: one looks up row
  y * 256 + x of the image laid out as 65536 rows (`rowsK`, `tblK`); the other looks up row (b * 256 + y) * 256 + x of 176
  copies of the image laid out as 176 * 65536 rows (`rowsR`, `tblR`), b the number of the sampling grid the point
  belongs to.
-/
import proofs.«115037_j71897752535328_2_alg».proof.KernelIdeal
import proofs.«115037_j71897752535328_2_alg».proof.ReferenceIdeal
import proofs.«115037_j71897752535328_2_alg».proof.Proof.Gen.KernelIdeal
import proofs.«115037_j71897752535328_2_alg».proof.Proof.Gen.ReferenceIdeal

noncomputable section

namespace Cert.Bridge

open Cert.KernelIdeal Cert.KernelIdeal.Gen Idealize.ShloMosaic

variable {F : FTy → Type} [FloatOps F]

/-- A 32-bit integer spread over the sampling points. -/
def cI (k : BitVec 32) : IVec S176x256x256 32 :=
  broadcastInDim S176x256x256 ![] bcast_S_S176x256x256 (constantI S_ 32 k)

/-- A float spread over the sampling points. -/
def cF (b : BitVec 32) : FVec F S176x256x256 .f32 :=
  broadcastInDim S176x256x256 ![] bcast_S_S176x256x256 (constant S_ .f32 b)

/-- The coordinate lies in the image: -1 < a and a < 256, as signed integers. -/
def inImg (a : IVec S176x256x256 32) : IVec S176x256x256 1 :=
  andi (cmpi .sgt a (cI 4294967295#32)) (cmpi .slt a (cI 256#32))

/-- Both coordinates lie in the image. -/
def both (a b : IVec S176x256x256 32) : IVec S176x256x256 1 := andi (inImg a) (inImg b)

/-- The coordinate where the neighbour counts, 0 elsewhere. -/
def keep (m : IVec S176x256x256 1) (a : IVec S176x256x256 32) : IVec S176x256x256 32 := select m a (cI 0#32)

/-- Rows of a table of `M` rows and 3 columns looked up at the row numbers `idx`, one per sampling point: a negative row
    number is moved up by `cM` (the number of rows), a row number outside `[0, cM1]` (`cM1` the last row) yields the
    not-a-number row, and the lookup clamps. -/
def takeRows {M : Nat} (dims : GatherDims ⟨2, ![M, 3]⟩ S11534336x1 S11534336x3) (cM cM1 : BitVec 32)
    (tbl : FVec F ⟨2, ![M, 3]⟩ .f32) (idx : IVec S11534336 32) : FVec F S11534336x3 .f32 :=
  select
    (broadcastInDim S11534336x3 ![0] bcast_S11534336_S11534336x3_0
      (Host.reduce IntOp.andi
        (andi
          (cmpi .sge
            (broadcastInDim S11534336x1 ![0] bcast_S11534336_S11534336x1_0
              (select (cmpi .slt idx (broadcastInDim S11534336 ![] bcast_S_S11534336 (constantI S_ 32 0#32)))
                (addi idx (broadcastInDim S11534336 ![] bcast_S_S11534336 (constantI S_ 32 cM))) idx))
            (broadcastInDim S11534336x1 ![] bcast_S_S11534336x1 (constantI S_ 32 0#32)))
          (cmpi .sle
            (broadcastInDim S11534336x1 ![0] bcast_S11534336_S11534336x1_0
              (select (cmpi .slt idx (broadcastInDim S11534336 ![] bcast_S_S11534336 (constantI S_ 32 0#32)))
                (addi idx (broadcastInDim S11534336 ![] bcast_S_S11534336 (constantI S_ 32 cM))) idx))
            (broadcastInDim S11534336x1 ![0, 1] bcast_S1x1_S11534336x1_0_1
              (broadcastInDim S1x1 ![1] bcast_S1_S1x1_1 (constantI S1 32 cM1)))))
        (constantI S_ 1 1#1) reducesTo_S11534336x1_S11534336_d1 h_S_))
    (Host.gather dims tbl
      (broadcastInDim S11534336x1 ![0] bcast_S11534336_S11534336x1_0
        (select (cmpi .slt idx (broadcastInDim S11534336 ![] bcast_S_S11534336 (constantI S_ 32 0#32)))
          (addi idx (broadcastInDim S11534336 ![] bcast_S_S11534336 (constantI S_ 32 cM))) idx)))
    (broadcastInDim S11534336x3 ![] bcast_S_S11534336x3 (constant S_ .f32 0x7FC00000#32))

/-- The image as a table of 65536 rows. -/
def tblK (src : FVec F S1x256x256x3 .f32) : FVec F S65536x3 .f32 :=
  shapeCast S65536x3 (shapeCast S256x256x3 src shapeCasts_S1x256x256x3_S256x256x3) shapeCasts_S256x256x3_S65536x3

/-- Row y * 256 + x, per sampling point. -/
def rowsK (m : IVec S176x256x256 1) (yi xi : IVec S176x256x256 32) : IVec S11534336 32 :=
  shapeCast S11534336 (addi (muli (keep m yi) (cI 256#32)) (keep m xi)) shapeCasts_S176x256x256_S11534336

/-- 176 copies of the image as a table of 176 * 65536 rows. -/
def tblR (src : FVec F S1x256x256x3 .f32) : FVec F S11534336x3 .f32 :=
  shapeCast S11534336x3
    (broadcastInDim S176x256x256x3 ![1, 2, 3] Cert.ReferenceIdeal.Gen.bcast_S256x256x3_S176x256x256x3_1_2_3
      (shapeCast S256x256x3 src shapeCasts_S1x256x256x3_S256x256x3))
    Cert.ReferenceIdeal.Gen.shapeCasts_S176x256x256x3_S11534336x3

/-- 256 times the number of the sampling grid a point belongs to. -/
def gridBase : IVec S176x256x256 32 :=
  broadcastInDim S176x256x256 ![0, 1, 2] Cert.ReferenceIdeal.Gen.bcast_S176x1x1_S176x256x256_0_1_2
    (muli
      (broadcastInDim Cert.ReferenceIdeal.S176x1x1 ![0] Cert.ReferenceIdeal.Gen.bcast_S176_S176x1x1_0
        (iotaInDim Cert.ReferenceIdeal.S176 32 0))
      (broadcastInDim Cert.ReferenceIdeal.S176x1x1 ![] Cert.ReferenceIdeal.Gen.bcast_S_S176x1x1 (constantI S_ 32 256#32)))

/-- Row (b * 256 + y) * 256 + x, per sampling point. -/
def rowsR (m : IVec S176x256x256 1) (yi xi : IVec S176x256x256 32) : IVec S11534336 32 :=
  shapeCast S11534336 (addi (muli (addi gridBase (keep m yi)) (cI 256#32)) (keep m xi)) shapeCasts_S176x256x256_S11534336

/-- A neighbour's value per sampling point and channel: the looked-up row where the neighbour counts, 0 elsewhere. -/
def tapVal (m : IVec S176x256x256 1) (g : FVec F S11534336x3 .f32) : FVec F S176x256x256x3 .f32 :=
  select
    (broadcastInDim S176x256x256x3 ![0, 1, 2, 3] bcast_S176x256x256x1_S176x256x256x3_0_1_2_3
      (broadcastInDim S176x256x256x1 ![0, 1, 2] bcast_S176x256x256_S176x256x256x1_0_1_2 m))
    (shapeCast S176x256x256x3 g shapeCasts_S11534336x3_S176x256x256x3)
    (broadcastInDim S176x256x256x3 ![] bcast_S_S176x256x256x3 (constant S_ .f32 0x00000000#32))

/-- A weight per sampling point, repeated over the 3 channels. -/
def wgt (a : FVec F S176x256x256 .f32) : FVec F S176x256x256x3 .f32 :=
  broadcastInDim S176x256x256x3 ![0, 1, 2, 3] bcast_S176x256x256x1_S176x256x256x3_0_1_2_3
    (broadcastInDim S176x256x256x1 ![0, 1, 2] bcast_S176x256x256_S176x256x256x1_0_1_2 a)

/-- The bilinear combination of the four neighbours' values `g1 … g4` (north-west, north-east, south-west, south-east),
    as the array of 16 x 11 grids. -/
def Comb (xw yn : IVec S176x256x256 32) (fx fy : FVec F S176x256x256 .f32)
    (g1 g2 g3 g4 : FVec F S11534336x3 .f32) : FVec F S16x11x256x256x3 .f32 :=
  shapeCast S16x11x256x256x3
    (addf
      (addf
        (addf
          (mulf (wgt (mulf (subf (cF 0x3F800000#32) fy) (subf (cF 0x3F800000#32) fx))) (tapVal (both xw yn) g1))
          (mulf (wgt (mulf fy (subf (cF 0x3F800000#32) fx))) (tapVal (both (addi yn (cI 1#32)) xw) g3)))
        (mulf (wgt (mulf (subf (cF 0x3F800000#32) fy) fx)) (tapVal (both (addi xw (cI 1#32)) yn) g2)))
      (mulf (wgt (mulf fy fx)) (tapVal (both (addi xw (cI 1#32)) (addi yn (cI 1#32))) g4)))
    shapeCasts_S176x256x256x3_S16x11x256x256x3

end Cert.Bridge

end
-- ==== Proof.Spec2.lean ====
/-
  The quantities both programs compute before sampling, and the two results as functions of the inputs.

  A sampling point's coordinate g in [-1, 1] becomes the pixel coordinate (g + 1) * 128 - 1/2 (`coord`); its floor, as a
  32-bit integer, is the cell corner (`cellOf`) and what is left the fractional part (`fracOf`). The x and y coordinates
  are the two channels of the motion field laid out as 176 grids (`gxOf`, `gyOf`). `CombK` is the bilinear combination
  with every neighbour read from the image's 65536 rows, `CombR` the same with every neighbour read from the rows of the
  176 copies.
-/
import proofs.«115037_j71897752535328_2_alg».proof.Proof.Spec

-- the shapes' literal extents (11534336 rows) are compared by unfolding when the lookups' types are matched
set_option maxRecDepth 200000

noncomputable section

namespace Cert.Bridge

open Cert.KernelIdeal Cert.KernelIdeal.Gen Idealize.ShloMosaic

variable {F : FTy → Type} [FloatOps F]

/-- The x coordinates: channel 0 of the motion field, as 176 grids of 256 x 256 points. -/
def gxOf (mot : FVec F S16x11x256x256x2 .f32) : FVec F S176x256x256 .f32 :=
  shapeCast S176x256x256
    (extractStridedSlice S176x256x256x1 ![0, 0, 0, 0]
      (shapeCast S176x256x256x2 mot shapeCasts_S16x11x256x256x2_S176x256x256x2) slices_S176x256x256x2_S176x256x256x1_0_0_0_0)
    shapeCasts_S176x256x256x1_S176x256x256

/-- The y coordinates: channel 1. -/
def gyOf (mot : FVec F S16x11x256x256x2 .f32) : FVec F S176x256x256 .f32 :=
  shapeCast S176x256x256
    (extractStridedSlice S176x256x256x1 ![0, 0, 0, 1]
      (shapeCast S176x256x256x2 mot shapeCasts_S16x11x256x256x2_S176x256x256x2) slices_S176x256x256x2_S176x256x256x1_0_0_0_1)
    shapeCasts_S176x256x256x1_S176x256x256

/-- The pixel coordinate (g + 1) * 128 - 1/2. -/
def coord (g : FVec F S176x256x256 .f32) : FVec F S176x256x256 .f32 :=
  subf (mulf (addf g (cF 0x3F800000#32)) (cF 0x43000000#32)) (cF 0x3F000000#32)

/-- The cell corner: the floor of the pixel coordinate, as a 32-bit integer. -/
def cellOf (g : FVec F S176x256x256 .f32) : IVec S176x256x256 32 := fptosi 32 (Host.floor (coord g))

/-- The fractional part of the pixel coordinate. -/
def fracOf (g : FVec F S176x256x256 .f32) : FVec F S176x256x256 .f32 := subf (coord g) (Host.floor (coord g))

/-- A neighbour's rows read from the image's 65536 rows. -/
def gK (src : FVec F S1x256x256x3 .f32) (m : IVec S176x256x256 1) (yi xi : IVec S176x256x256 32) : FVec F S11534336x3 .f32 :=
  takeRows (M := 65536) gather_S65536x3_S11534336x1_S11534336x3_1_0_n_n_0_1_13 65536#32 65535#32 (tblK src) (rowsK m yi xi)

/-- A neighbour's rows read from the rows of the 176 copies. -/
def gR (src : FVec F S1x256x256x3 .f32) (m : IVec S176x256x256 1) (yi xi : IVec S176x256x256 32) : FVec F S11534336x3 .f32 :=
  takeRows (M := 11534336) Cert.ReferenceIdeal.gather_S11534336x3_S11534336x1_S11534336x3_1_0_n_n_0_1_13 11534336#32 11534335#32
    (tblR src) (rowsR m yi xi)

/-- The result with the neighbours read from the image's 65536 rows. -/
def CombK (xw yn : IVec S176x256x256 32) (fx fy : FVec F S176x256x256 .f32) (src : FVec F S1x256x256x3 .f32) :
    FVec F S16x11x256x256x3 .f32 :=
  Comb xw yn fx fy
    (gK src (both xw yn) yn xw)
    (gK src (both (addi xw (cI 1#32)) yn) yn (addi xw (cI 1#32)))
    (gK src (both (addi yn (cI 1#32)) xw) (addi yn (cI 1#32)) xw)
    (gK src (both (addi xw (cI 1#32)) (addi yn (cI 1#32))) (addi yn (cI 1#32)) (addi xw (cI 1#32)))

/-- The result with the neighbours read from the rows of the 176 copies. -/
def CombR (xw yn : IVec S176x256x256 32) (fx fy : FVec F S176x256x256 .f32) (src : FVec F S1x256x256x3 .f32) :
    FVec F S16x11x256x256x3 .f32 :=
  Comb xw yn fx fy
    (gR src (both xw yn) yn xw)
    (gR src (both (addi xw (cI 1#32)) yn) yn (addi xw (cI 1#32)))
    (gR src (both (addi yn (cI 1#32)) xw) (addi yn (cI 1#32)) xw)
    (gR src (both (addi xw (cI 1#32)) (addi yn (cI 1#32))) (addi yn (cI 1#32)) (addi xw (cI 1#32)))

end Cert.Bridge

end
-- ==== Proof.KValue.lean ====
/- The values the region leaves, at the ideal instance (a float an extended real, every operation exact).

   The region walks the 176 sampling grids eight at a time: at grid point t every window's block is rows [8t, 8t + 8) of its
   array, whole in the other two axes, and each result block is the body's function of ONE coordinate block applied
   element by element. So each result array ends as that one function applied to the whole coordinate array, element by
   element: the cell corner (the floor of the pixel coordinate, as a 32-bit integer) and the fractional part (the pixel
   coordinate less its floor), of the x coordinates and of the y coordinates. The coordinate arrays themselves are the two
   channels of the second argument, sliced and reshaped by the five lines before the region. -/
import proofs.«115037_j71897752535328_2_alg».proof.Proof.FrameKI
import proofs.«115037_j71897752535328_2_alg».proof.Proof.Spec2
import Idealize.ShloMosaic.Lib.Pipeline.Value
import Idealize.ShloMosaic.Lib.ValueIdx
import Idealize.ShloMosaic.Lib.Tactic

set_option maxRecDepth 16384

noncomputable section

namespace Cert.KernelIdeal.KVal

open Cert.KernelIdeal Cert.KernelIdeal.Gen Cert.KernelIdeal.Fr Cert.Bridge
open Idealize.ShloMosaic Idealize.ShloMosaic.TcCoe Idealize.SL.Sem
open Idealize.ShloMosaic.Pipeline (Dat)

variable (m : (ℓ : Loc nD τ sig) → Buf (Elt Ideal) ℓ)

/-! ## One sampling point -/

/-- The pixel coordinate (g + 1) * 128 - 1/2 of a coordinate g. -/
def coordPt (g : Ideal .f32) : Ideal .f32 :=
  FloatOps.subf (FloatOps.mulf (FloatOps.addf g (FloatOps.ofBits .f32 0x3F800000#32)) (FloatOps.ofBits .f32 0x43000000#32))
    (FloatOps.ofBits .f32 0x3F000000#32)
/-- Its floor, as a 32-bit integer. -/
def cellPt (g : Ideal .f32) : BitVec 32 := FloatOps.fptosi 32 (FloatOps.floor (coordPt g))
/-- What the floor leaves. -/
def fracPt (g : Ideal .f32) : Ideal .f32 := FloatOps.subf (coordPt g) (FloatOps.floor (coordPt g))

/-- The whole-array functions read at an index: at the ideal instance the host's floor and the vector unit's are one
    function, and a constant spread over the points reads its value everywhere. -/
theorem coord_apply (G : FVec Ideal S176x256x256 .f32) (i : S176x256x256.Idx) : coord G i = coordPt (G i) := rfl
theorem cellOf_apply (G : FVec Ideal S176x256x256 .f32) (i : S176x256x256.Idx) : cellOf G i = cellPt (G i) := rfl
theorem fracOf_apply (G : FVec Ideal S176x256x256 .f32) (i : S176x256x256.Idx) : fracOf G i = fracPt (G i) := rfl

/-- The body's values read at an index of the block: the same functions of the block's element there (the body's change
    of shape is to the same shape, the identity). -/
theorem k0_pay1_apply (x0 : Vec Ideal S8x256x256 .f32) (j : S8x256x256.Idx) : k0_pay1 x0 j = coordPt (x0 j) := by
  unfold k0_pay1; rw [shapeCast_self]; rfl
theorem k0_pay2_apply (x1 : Vec Ideal S8x256x256 .f32) (j : S8x256x256.Idx) : k0_pay2 x1 j = coordPt (x1 j) := by
  unfold k0_pay2; rw [shapeCast_self]; rfl
theorem k0_pay7_apply (x0 : Vec Ideal S8x256x256 .f32) (j : S8x256x256.Idx) : k0_pay7 x0 j = cellPt (x0 j) := by
  show FloatOps.fptosi 32 (FloatOps.floor (k0_pay1 x0 j)) = _
  rw [k0_pay1_apply]; rfl
theorem k0_pay8_apply (x1 : Vec Ideal S8x256x256 .f32) (j : S8x256x256.Idx) : k0_pay8 x1 j = cellPt (x1 j) := by
  show FloatOps.fptosi 32 (FloatOps.floor (k0_pay2 x1 j)) = _
  rw [k0_pay2_apply]; rfl
theorem k0_pay5_apply (x0 : Vec Ideal S8x256x256 .f32) (j : S8x256x256.Idx) : k0_pay5 x0 j = fracPt (x0 j) := by
  show FloatOps.subf (k0_pay1 x0 j) (FloatOps.floor (k0_pay1 x0 j)) = _
  rw [k0_pay1_apply]; rfl
theorem k0_pay6_apply (x1 : Vec Ideal S8x256x256 .f32) (j : S8x256x256.Idx) : k0_pay6 x1 j = fracPt (x1 j) := by
  show FloatOps.subf (k0_pay2 x1 j) (FloatOps.floor (k0_pay2 x1 j)) = _
  rw [k0_pay2_apply]; rfl

/-! ## The blocks -/

theorem zero3 : (![0, 0, 0] : Fin 3 → Nat) = fun _ => 0 := funext fun a => by fin_cases a <;> rfl

/-- At grid point t every window's block is block (t, 0, 0) of its array: rows [8t, 8t + 8), whole in the other axes.
    Decided over the 22 points. -/
theorem rows_at : ∀ t : Fin cfg0.N, win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0
    ∧ win0_5.index t (0 : Fin 3) = t.val ∧ win0_5.index t (1 : Fin 3) = 0 ∧ win0_5.index t (2 : Fin 3) = 0 :=
  (by decide +kernel : ∀ t : Fin grid0.N, _)

/-! ## Window 2: the cell corner of the x coordinates -/

/-- At a point, coordinate window 0's block and result window 2's block are the same rows of their arrays. -/
theorem emb0_2 (t : Fin cfg0.N) (j : S8x256x256.Idx) :
    (((cfg0.win 0).blk t).view.emb j : S176x256x256.Idx) = ((cfg0.win 2).blk t).view.emb j := by
  obtain ⟨a0, a1, a2, b0, b1, b2, c0, c1, c2, d0, d1, d2, e0, e1, e2, f0, f1, f2⟩ := rows_at t
  funext a; apply Fin.ext
  match a with
  | ⟨0, _⟩ => show win0_0.index t (0 : Fin 3) * 8 + 1 * (j 0).val = win0_2.index t (0 : Fin 3) * 8 + 1 * (j 0).val; omega
  | ⟨1, _⟩ => show win0_0.index t (1 : Fin 3) * 256 + 1 * (j 1).val = win0_2.index t (1 : Fin 3) * 256 + 1 * (j 1).val; omega
  | ⟨2, _⟩ => show win0_0.index t (2 : Fin 3) * 256 + 1 * (j 2).val = win0_2.index t (2 : Fin 3) * 256 + 1 * (j 2).val; omega

/-- What point `t` writes back is block `t` of the whole-array function of the coordinate array as the region finds it. -/
theorem flushed2_eq (c : Dev nD) (t : Fin cfg0.N) :
    (dats (F := Ideal) m 0 c).flushed 2 t = ((cfg0.win 2).blk t).view.read (Elt Ideal) (cellOf (F := Ideal) (V m c main_v2)) := by
  show (cfg0.win 2).cut (grid0.coords t) ((dats (F := Ideal) m 0 c).after 2 t) = _
  rw [after0_2]
  unfold out0_2
  rw [View.canon_unit_zero zero3]
  simp only [View.ld_unit_zero (S := S8x256x256) zero3]
  funext j
  show k0_pay7 (iblk m c 0 t) j = cellOf (F := Ideal) (V m c main_v2) (((cfg0.win 2).blk t).view.emb j)
  rw [k0_pay7_apply, cellOf_apply, ← emb0_2 t j]
  rfl

/-- An index of the array is in point `t`'s block iff each coordinate is in the block's range on its axis. -/
theorem mem_blk2 (t : Fin cfg0.N) (i : S176x256x256.Idx) :
    i ∈ ((cfg0.win 2).blk t).view.set ↔ ∀ a : Fin 3, win0_2.index t a * S8x256x256.size a ≤ (i a).val ∧ (i a).val < win0_2.index t a * S8x256x256.size a + S8x256x256.size a := by
  show i ∈ ((View.whole main_v5_0).slice (win0_2.rect t)).set ↔ _
  rw [View.set_slice_whole, Rect.mem_set_unit]
  exact Iff.rfl

/-- Every index of the array is in the block of the point its row falls to: row r to point r / 8. -/
theorem cover2 (i : S176x256x256.Idx) :
    ∃ t : Fin cfg0.N, (cfg0.win 2).flush t = true ∧ i ∈ ((cfg0.win 2).blk t).view.set := by
  have h0 : (i 0).val < 176 := (i 0).isLt
  have h1 : (i 1).val < 256 := (i 1).isLt
  have h2 : (i 2).val < 256 := (i 2).isLt
  have hN : cfg0.N = 22 := N_0
  let t : Fin cfg0.N := ⟨(i 0).val / 8, by omega⟩
  have ht : t.val = (i 0).val / 8 := rfl
  obtain ⟨a0, a1, a2, b0, b1, b2, c0, c1, c2, d0, d1, d2, e0, e1, e2, f0, f1, f2⟩ := rows_at t
  refine ⟨t, flush0_2 t, ?_⟩
  rw [mem_blk2]
  intro a
  match a with
  | ⟨0, _⟩ => show win0_2.index t (0 : Fin 3) * 8 ≤ (i 0).val ∧ (i 0).val < win0_2.index t (0 : Fin 3) * 8 + 8; omega
  | ⟨1, _⟩ => show win0_2.index t (1 : Fin 3) * 256 ≤ (i 1).val ∧ (i 1).val < win0_2.index t (1 : Fin 3) * 256 + 256; omega
  | ⟨2, _⟩ => show win0_2.index t (2 : Fin 3) * 256 ≤ (i 2).val ∧ (i 2).val < win0_2.index t (2 : Fin 3) * 256 + 256; omega

/-- The array after the region: the whole-array function of the coordinate array. -/
theorem final2 (c : Dev nD) : (dats (F := Ideal) m 0 c).arrAt 2 cfg0.N = cellOf (F := Ideal) (V m c main_v2) :=
  (dats (F := Ideal) m 0 c).arrAt_eq_of_cover 2 (cellOf (F := Ideal) (V m c main_v2)) (fun t _ => flushed2_eq m c t) cover2

/-! ## Window 3: the cell corner of the y coordinates -/

/-- At a point, coordinate window 1's block and result window 3's block are the same rows of their arrays. -/
theorem emb1_3 (t : Fin cfg0.N) (j : S8x256x256.Idx) :
    (((cfg0.win 1).blk t).view.emb j : S176x256x256.Idx) = ((cfg0.win 3).blk t).view.emb j := by
  obtain ⟨a0, a1, a2, b0, b1, b2, c0, c1, c2, d0, d1, d2, e0, e1, e2, f0, f1, f2⟩ := rows_at t
  funext a; apply Fin.ext
  match a with
  | ⟨0, _⟩ => show win0_1.index t (0 : Fin 3) * 8 + 1 * (j 0).val = win0_3.index t (0 : Fin 3) * 8 + 1 * (j 0).val; omega
  | ⟨1, _⟩ => show win0_1.index t (1 : Fin 3) * 256 + 1 * (j 1).val = win0_3.index t (1 : Fin 3) * 256 + 1 * (j 1).val; omega
  | ⟨2, _⟩ => show win0_1.index t (2 : Fin 3) * 256 + 1 * (j 2).val = win0_3.index t (2 : Fin 3) * 256 + 1 * (j 2).val; omega

/-- What point `t` writes back is block `t` of the whole-array function of the coordinate array as the region finds it. -/
theorem flushed3_eq (c : Dev nD) (t : Fin cfg0.N) :
    (dats (F := Ideal) m 0 c).flushed 3 t = ((cfg0.win 3).blk t).view.read (Elt Ideal) (cellOf (F := Ideal) (V m c main_v4)) := by
  show (cfg0.win 3).cut (grid0.coords t) ((dats (F := Ideal) m 0 c).after 3 t) = _
  rw [after0_3]
  unfold out0_3
  rw [View.canon_unit_zero zero3]
  simp only [View.ld_unit_zero (S := S8x256x256) zero3]
  funext j
  show k0_pay8 (iblk m c 1 t) j = cellOf (F := Ideal) (V m c main_v4) (((cfg0.win 3).blk t).view.emb j)
  rw [k0_pay8_apply, cellOf_apply, ← emb1_3 t j]
  rfl

/-- An index of the array is in point `t`'s block iff each coordinate is in the block's range on its axis. -/
theorem mem_blk3 (t : Fin cfg0.N) (i : S176x256x256.Idx) :
    i ∈ ((cfg0.win 3).blk t).view.set ↔ ∀ a : Fin 3, win0_3.index t a * S8x256x256.size a ≤ (i a).val ∧ (i a).val < win0_3.index t a * S8x256x256.size a + S8x256x256.size a := by
  show i ∈ ((View.whole main_v5_1).slice (win0_3.rect t)).set ↔ _
  rw [View.set_slice_whole, Rect.mem_set_unit]
  exact Iff.rfl

/-- Every index of the array is in the block of the point its row falls to: row r to point r / 8. -/
theorem cover3 (i : S176x256x256.Idx) :
    ∃ t : Fin cfg0.N, (cfg0.win 3).flush t = true ∧ i ∈ ((cfg0.win 3).blk t).view.set := by
  have h0 : (i 0).val < 176 := (i 0).isLt
  have h1 : (i 1).val < 256 := (i 1).isLt
  have h2 : (i 2).val < 256 := (i 2).isLt
  have hN : cfg0.N = 22 := N_0
  let t : Fin cfg0.N := ⟨(i 0).val / 8, by omega⟩
  have ht : t.val = (i 0).val / 8 := rfl
  obtain ⟨a0, a1, a2, b0, b1, b2, c0, c1, c2, d0, d1, d2, e0, e1, e2, f0, f1, f2⟩ := rows_at t
  refine ⟨t, flush0_3 t, ?_⟩
  rw [mem_blk3]
  intro a
  match a with
  | ⟨0, _⟩ => show win0_3.index t (0 : Fin 3) * 8 ≤ (i 0).val ∧ (i 0).val < win0_3.index t (0 : Fin 3) * 8 + 8; omega
  | ⟨1, _⟩ => show win0_3.index t (1 : Fin 3) * 256 ≤ (i 1).val ∧ (i 1).val < win0_3.index t (1 : Fin 3) * 256 + 256; omega
  | ⟨2, _⟩ => show win0_3.index t (2 : Fin 3) * 256 ≤ (i 2).val ∧ (i 2).val < win0_3.index t (2 : Fin 3) * 256 + 256; omega

/-- The array after the region: the whole-array function of the coordinate array. -/
theorem final3 (c : Dev nD) : (dats (F := Ideal) m 0 c).arrAt 3 cfg0.N = cellOf (F := Ideal) (V m c main_v4) :=
  (dats (F := Ideal) m 0 c).arrAt_eq_of_cover 3 (cellOf (F := Ideal) (V m c main_v4)) (fun t _ => flushed3_eq m c t) cover3

/-! ## Window 4: the fractional part of the x coordinates -/

/-- At a point, coordinate window 0's block and result window 4's block are the same rows of their arrays. -/
theorem emb0_4 (t : Fin cfg0.N) (j : S8x256x256.Idx) :
    (((cfg0.win 0).blk t).view.emb j : S176x256x256.Idx) = ((cfg0.win 4).blk t).view.emb j := by
  obtain ⟨a0, a1, a2, b0, b1, b2, c0, c1, c2, d0, d1, d2, e0, e1, e2, f0, f1, f2⟩ := rows_at t
  funext a; apply Fin.ext
  match a with
  | ⟨0, _⟩ => show win0_0.index t (0 : Fin 3) * 8 + 1 * (j 0).val = win0_4.index t (0 : Fin 3) * 8 + 1 * (j 0).val; omega
  | ⟨1, _⟩ => show win0_0.index t (1 : Fin 3) * 256 + 1 * (j 1).val = win0_4.index t (1 : Fin 3) * 256 + 1 * (j 1).val; omega
  | ⟨2, _⟩ => show win0_0.index t (2 : Fin 3) * 256 + 1 * (j 2).val = win0_4.index t (2 : Fin 3) * 256 + 1 * (j 2).val; omega

/-- What point `t` writes back is block `t` of the whole-array function of the coordinate array as the region finds it. -/
theorem flushed4_eq (c : Dev nD) (t : Fin cfg0.N) :
    (dats (F := Ideal) m 0 c).flushed 4 t = ((cfg0.win 4).blk t).view.read (Elt Ideal) (fracOf (F := Ideal) (V m c main_v2)) := by
  show (cfg0.win 4).cut (grid0.coords t) ((dats (F := Ideal) m 0 c).after 4 t) = _
  rw [after0_4]
  unfold out0_4
  rw [View.canon_unit_zero zero3]
  simp only [View.ld_unit_zero (S := S8x256x256) zero3]
  funext j
  show k0_pay5 (iblk m c 0 t) j = fracOf (F := Ideal) (V m c main_v2) (((cfg0.win 4).blk t).view.emb j)
  rw [k0_pay5_apply, fracOf_apply, ← emb0_4 t j]
  rfl

/-- An index of the array is in point `t`'s block iff each coordinate is in the block's range on its axis. -/
theorem mem_blk4 (t : Fin cfg0.N) (i : S176x256x256.Idx) :
    i ∈ ((cfg0.win 4).blk t).view.set ↔ ∀ a : Fin 3, win0_4.index t a * S8x256x256.size a ≤ (i a).val ∧ (i a).val < win0_4.index t a * S8x256x256.size a + S8x256x256.size a := by
  show i ∈ ((View.whole main_v5_2).slice (win0_4.rect t)).set ↔ _
  rw [View.set_slice_whole, Rect.mem_set_unit]
  exact Iff.rfl

/-- Every index of the array is in the block of the point its row falls to: row r to point r / 8. -/
theorem cover4 (i : S176x256x256.Idx) :
    ∃ t : Fin cfg0.N, (cfg0.win 4).flush t = true ∧ i ∈ ((cfg0.win 4).blk t).view.set := by
  have h0 : (i 0).val < 176 := (i 0).isLt
  have h1 : (i 1).val < 256 := (i 1).isLt
  have h2 : (i 2).val < 256 := (i 2).isLt
  have hN : cfg0.N = 22 := N_0
  let t : Fin cfg0.N := ⟨(i 0).val / 8, by omega⟩
  have ht : t.val = (i 0).val / 8 := rfl
  obtain ⟨a0, a1, a2, b0, b1, b2, c0, c1, c2, d0, d1, d2, e0, e1, e2, f0, f1, f2⟩ := rows_at t
  refine ⟨t, flush0_4 t, ?_⟩
  rw [mem_blk4]
  intro a
  match a with
  | ⟨0, _⟩ => show win0_4.index t (0 : Fin 3) * 8 ≤ (i 0).val ∧ (i 0).val < win0_4.index t (0 : Fin 3) * 8 + 8; omega
  | ⟨1, _⟩ => show win0_4.index t (1 : Fin 3) * 256 ≤ (i 1).val ∧ (i 1).val < win0_4.index t (1 : Fin 3) * 256 + 256; omega
  | ⟨2, _⟩ => show win0_4.index t (2 : Fin 3) * 256 ≤ (i 2).val ∧ (i 2).val < win0_4.index t (2 : Fin 3) * 256 + 256; omega

/-- The array after the region: the whole-array function of the coordinate array. -/
theorem final4 (c : Dev nD) : (dats (F := Ideal) m 0 c).arrAt 4 cfg0.N = fracOf (F := Ideal) (V m c main_v2) :=
  (dats (F := Ideal) m 0 c).arrAt_eq_of_cover 4 (fracOf (F := Ideal) (V m c main_v2)) (fun t _ => flushed4_eq m c t) cover4

/-! ## Window 5: the fractional part of the y coordinates -/

/-- At a point, coordinate window 1's block and result window 5's block are the same rows of their arrays. -/
theorem emb1_5 (t : Fin cfg0.N) (j : S8x256x256.Idx) :
    (((cfg0.win 1).blk t).view.emb j : S176x256x256.Idx) = ((cfg0.win 5).blk t).view.emb j := by
  obtain ⟨a0, a1, a2, b0, b1, b2, c0, c1, c2, d0, d1, d2, e0, e1, e2, f0, f1, f2⟩ := rows_at t
  funext a; apply Fin.ext
  match a with
  | ⟨0, _⟩ => show win0_1.index t (0 : Fin 3) * 8 + 1 * (j 0).val = win0_5.index t (0 : Fin 3) * 8 + 1 * (j 0).val; omega
  | ⟨1, _⟩ => show win0_1.index t (1 : Fin 3) * 256 + 1 * (j 1).val = win0_5.index t (1 : Fin 3) * 256 + 1 * (j 1).val; omega
  | ⟨2, _⟩ => show win0_1.index t (2 : Fin 3) * 256 + 1 * (j 2).val = win0_5.index t (2 : Fin 3) * 256 + 1 * (j 2).val; omega

/-- What point `t` writes back is block `t` of the whole-array function of the coordinate array as the region finds it. -/
theorem flushed5_eq (c : Dev nD) (t : Fin cfg0.N) :
    (dats (F := Ideal) m 0 c).flushed 5 t = ((cfg0.win 5).blk t).view.read (Elt Ideal) (fracOf (F := Ideal) (V m c main_v4)) := by
  show (cfg0.win 5).cut (grid0.coords t) ((dats (F := Ideal) m 0 c).after 5 t) = _
  rw [after0_5]
  unfold out0_5
  rw [View.canon_unit_zero zero3]
  simp only [View.ld_unit_zero (S := S8x256x256) zero3]
  funext j
  show k0_pay6 (iblk m c 1 t) j = fracOf (F := Ideal) (V m c main_v4) (((cfg0.win 5).blk t).view.emb j)
  rw [k0_pay6_apply, fracOf_apply, ← emb1_5 t j]
  rfl

/-- An index of the array is in point `t`'s block iff each coordinate is in the block's range on its axis. -/
theorem mem_blk5 (t : Fin cfg0.N) (i : S176x256x256.Idx) :
    i ∈ ((cfg0.win 5).blk t).view.set ↔ ∀ a : Fin 3, win0_5.index t a * S8x256x256.size a ≤ (i a).val ∧ (i a).val < win0_5.index t a * S8x256x256.size a + S8x256x256.size a := by
  show i ∈ ((View.whole main_v5_3).slice (win0_5.rect t)).set ↔ _
  rw [View.set_slice_whole, Rect.mem_set_unit]
  exact Iff.rfl

/-- Every index of the array is in the block of the point its row falls to: row r to point r / 8. -/
theorem cover5 (i : S176x256x256.Idx) :
    ∃ t : Fin cfg0.N, (cfg0.win 5).flush t = true ∧ i ∈ ((cfg0.win 5).blk t).view.set := by
  have h0 : (i 0).val < 176 := (i 0).isLt
  have h1 : (i 1).val < 256 := (i 1).isLt
  have h2 : (i 2).val < 256 := (i 2).isLt
  have hN : cfg0.N = 22 := N_0
  let t : Fin cfg0.N := ⟨(i 0).val / 8, by omega⟩
  have ht : t.val = (i 0).val / 8 := rfl
  obtain ⟨a0, a1, a2, b0, b1, b2, c0, c1, c2, d0, d1, d2, e0, e1, e2, f0, f1, f2⟩ := rows_at t
  refine ⟨t, flush0_5 t, ?_⟩
  rw [mem_blk5]
  intro a
  match a with
  | ⟨0, _⟩ => show win0_5.index t (0 : Fin 3) * 8 ≤ (i 0).val ∧ (i 0).val < win0_5.index t (0 : Fin 3) * 8 + 8; omega
  | ⟨1, _⟩ => show win0_5.index t (1 : Fin 3) * 256 ≤ (i 1).val ∧ (i 1).val < win0_5.index t (1 : Fin 3) * 256 + 256; omega
  | ⟨2, _⟩ => show win0_5.index t (2 : Fin 3) * 256 ≤ (i 2).val ∧ (i 2).val < win0_5.index t (2 : Fin 3) * 256 + 256; omega

/-- The array after the region: the whole-array function of the coordinate array. -/
theorem final5 (c : Dev nD) : (dats (F := Ideal) m 0 c).arrAt 5 cfg0.N = fracOf (F := Ideal) (V m c main_v4) :=
  (dats (F := Ideal) m 0 c).arrAt_eq_of_cover 5 (fracOf (F := Ideal) (V m c main_v4)) (fun t _ => flushed5_eq m c t) cover5

/-! ## The coordinate arrays, and the first argument, as the region finds them -/

/-- The x coordinates the region reads are channel 0 of the second argument, sliced and reshaped. -/
theorem V_v2 (c : Dev nD) : V (F := Ideal) m c main_v2 = gxOf (F := Ideal) (m ((c.tc : Thread nD τ).loc main_arg1)) := by
  show StableHlo.after hostOps0 (fun b => m (c, b)) (Proc.devRef .tc main_v2) = _
  after_results
  rfl
/-- The y coordinates are channel 1. -/
theorem V_v4 (c : Dev nD) : V (F := Ideal) m c main_v4 = gyOf (F := Ideal) (m ((c.tc : Thread nD τ).loc main_arg1)) := by
  show StableHlo.after hostOps0 (fun b => m (c, b)) (Proc.devRef .tc main_v4) = _
  after_results
  rfl
/-- The first argument enters the region as launched: the lines before the region write other buffers. -/
theorem V_arg0 (c : Dev nD) : V0 (F := Ideal) m c (Proc.devRef .tc main_arg0) = m ((c.tc : Thread nD τ).loc main_arg0) :=
  V0_of_lt m c main_arg0 (by decide)

end Cert.KernelIdeal.KVal

end
-- ==== Proof.LibAfter.lean ====
/-
  The contents after two lines of host operations run one after the other: the second line's fold over the first's.

  General in the topology, the signature and the element values; imports Lib/StableHlo/Run only.
-/
import Idealize.ShloMosaic.Lib.StableHlo.Run

namespace Cert.After

open Idealize.ShloMosaic

/-- Folding a concatenation is folding the second list over the first list's fold. -/
theorem after_append {τ : Topo} {sig : RefSig} {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => exact ih _

end Cert.After
-- ==== Proof.LibTypedRef.lean ====
/-
  Typed references of an inlined function call: contents carried along a type equation and back.

  A value of a called function lives in a buffer whose declared type equals the value's type by an equation
  (`StableHlo.TRef.ty_eq`); the builders of a called function's operations carry contents across that equation in both
  directions (`toBuf`, `ofBuf`: a `cast`). Three facts, none of which looks inside the contents:
    * `ofBuf_toBuf`: to the buffer's type and back is the identity, for any typed reference;
    * `toBuf_of`, `ofBuf_of`: at a literal reference taken at its own type each direction is the identity.
  With them the result of a line of a called function's operations is read free of casts, whatever the contents are.
  Imports Lib/StableHlo only; general in the signature and the element values.
-/
import Idealize.ShloMosaic.Lib.StableHlo

namespace Cert.TypedRef

open Idealize.ShloMosaic

/-- Contents carried to a typed reference's buffer type and back are unchanged. -/
theorem ofBuf_toBuf {sg : RefSig} {Val : EltTy → Type} {T : BufTy} (x : StableHlo.TRef sg T) (v : T.Contents Val) :
    x.ofBuf (x.toBuf v) = v := by
  obtain ⟨r, h, h2, h3⟩ := x
  subst h
  rfl

/-- At a reference taken at its own type, carrying contents to the buffer's type is the identity. -/
theorem toBuf_of {sg : RefSig} {Val : EltTy → Type} (r : Ref sg .tc) (h1 : r.ty = r.ty) (h2 : r.space ≠ .host)
    (h3 : r.isScoped = false) (v : r.ty.Contents Val) : (StableHlo.TRef.of (T := r.ty) r h1 h2 h3).toBuf v = v := rfl

/-- And carrying them back is the identity. -/
theorem ofBuf_of {sg : RefSig} {Val : EltTy → Type} (r : Ref sg .tc) (h1 : r.ty = r.ty) (h2 : r.space ≠ .host)
    (h3 : r.isScoped = false) (v : r.ty.Contents Val) : (StableHlo.TRef.of (T := r.ty) r h1 h2 h3).ofBuf v = v := rfl

end Cert.TypedRef
-- ==== Proof.KStageP.lean ====
/-
  The operations after the kernel, the prelude: from the kernel's four arrays and the image, the first 48 operations
  compute the bilinear weights, the four one-axis masks, the coordinates moved by one, the image as 65536 rows, the mask
  of the north-west neighbour and the integer zero its coordinates are sanitised with. Every later stage reads only these.
-/
import proofs.«115037_j71897752535328_2_alg».proof.Proof.Gen.KernelIdeal.Launch
import Idealize.ShloMosaic.Lib.StableHlo.Run
import proofs.«115037_j71897752535328_2_alg».proof.Proof.LibTypedRef
import proofs.«115037_j71897752535328_2_alg».proof.Proof.Spec2

-- one declaration at a time: each folds a line of operations over full-size arrays
set_option Elab.async false
set_option maxRecDepth 200000

noncomputable section

namespace Cert.KernelIdeal.KTail

open Cert.KernelIdeal Cert.KernelIdeal.Gen Idealize.ShloMosaic Idealize.ShloMosaic.TcCoe Idealize.SL.Sem Idealize.ShloMosaic.StableHlo Cert.Bridge

variable {F : FTy → Type} [FloatOps F]

-- the and-reduction and the row lookup are compared as they stand, never opened over their 11534336 entries
attribute [local irreducible] Host.reduce Host.gather

/-- The prelude's operations. -/
def stP : List (HloOp τ sig (Elt F)) := hostOps1

section
variable (W : Valuation τ sig (Elt F))

/-- The weight (1 - fy)(1 - fx). -/
theorem P_v14 : after (stP (F := F)) W (Proc.devRef .tc main_v14) = mulf (subf (cF 0x3F800000#32) (W (Proc.devRef .tc main_v5_3))) (subf (cF 0x3F800000#32) (W (Proc.devRef .tc main_v5_2))) := by
  unfold stP
  simp only [hostOps1]
  after_results_simp
  all_goals try rfl

/-- The weight (1 - fy) fx. -/
theorem P_v15 : after (stP (F := F)) W (Proc.devRef .tc main_v15) = mulf (subf (cF 0x3F800000#32) (W (Proc.devRef .tc main_v5_3))) (W (Proc.devRef .tc main_v5_2)) := by
  unfold stP
  simp only [hostOps1]
  after_results_simp
  all_goals try rfl

/-- The weight fy (1 - fx). -/
theorem P_v16 : after (stP (F := F)) W (Proc.devRef .tc main_v16) = mulf (W (Proc.devRef .tc main_v5_3)) (subf (cF 0x3F800000#32) (W (Proc.devRef .tc main_v5_2))) := by
  unfold stP
  simp only [hostOps1]
  after_results_simp
  all_goals try rfl

/-- The weight fy fx. -/
theorem P_v17 : after (stP (F := F)) W (Proc.devRef .tc main_v17) = mulf (W (Proc.devRef .tc main_v5_3)) (W (Proc.devRef .tc main_v5_2)) := by
  unfold stP
  simp only [hostOps1]
  after_results_simp
  all_goals try rfl

/-- xw lies in the image. -/
theorem P_v22 : after (stP (F := F)) W (Proc.devRef .tc main_v22) = inImg (W (Proc.devRef .tc main_v5_0)) := by
  unfold stP
  simp only [hostOps1]
  after_results_simp
  all_goals try rfl

/-- yn lies in the image. -/
theorem P_v27 : after (stP (F := F)) W (Proc.devRef .tc main_v27) = inImg (W (Proc.devRef .tc main_v5_1)) := by
  unfold stP
  simp only [hostOps1]
  after_results_simp
  all_goals try rfl

/-- xw + 1 lies in the image. -/
theorem P_v32 : after (stP (F := F)) W (Proc.devRef .tc main_v32) = inImg (addi (W (Proc.devRef .tc main_v5_0)) (cI 1#32)) := by
  unfold stP
  simp only [hostOps1]
  after_results_simp
  all_goals try rfl

/-- yn + 1 lies in the image. -/
theorem P_v37 : after (stP (F := F)) W (Proc.devRef .tc main_v37) = inImg (addi (W (Proc.devRef .tc main_v5_1)) (cI 1#32)) := by
  unfold stP
  simp only [hostOps1]
  after_results_simp
  all_goals try rfl

/-- xw + 1. -/
theorem P_v7 : after (stP (F := F)) W (Proc.devRef .tc main_v7) = addi (W (Proc.devRef .tc main_v5_0)) (cI 1#32) := by
  unfold stP
  simp only [hostOps1]
  after_results_simp
  all_goals try rfl

/-- yn + 1. -/
theorem P_v9 : after (stP (F := F)) W (Proc.devRef .tc main_v9) = addi (W (Proc.devRef .tc main_v5_1)) (cI 1#32) := by
  unfold stP
  simp only [hostOps1]
  after_results_simp
  all_goals try rfl

/-- The image as 65536 rows. -/
theorem P_v39 : after (stP (F := F)) W (Proc.devRef .tc main_v39) = tblK (W (Proc.devRef .tc main_arg0)) := by
  unfold stP
  simp only [hostOps1]
  after_results_simp
  all_goals try rfl

/-- The cell corners' x are left alone. -/
theorem P_v5_0 : after (stP (F := F)) W (Proc.devRef .tc main_v5_0) = (W (Proc.devRef .tc main_v5_0)) := by
  unfold stP
  simp only [hostOps1]
  after_results_simp
  all_goals try rfl

/-- The cell corners' y are left alone. -/
theorem P_v5_1 : after (stP (F := F)) W (Proc.devRef .tc main_v5_1) = (W (Proc.devRef .tc main_v5_1)) := by
  unfold stP
  simp only [hostOps1]
  after_results_simp
  all_goals try rfl

/-- Both xw and yn lie in the image. -/
theorem P_v40 : after (stP (F := F)) W (Proc.devRef .tc main_v40) = both (W (Proc.devRef .tc main_v5_0)) (W (Proc.devRef .tc main_v5_1)) := by
  unfold stP
  simp only [hostOps1]
  after_results_simp
  all_goals try rfl

/-- The integer zero. -/
theorem P_c10 : after (stP (F := F)) W (Proc.devRef .tc main_c_10) = constantI S_ 32 0#32 := by
  unfold stP
  simp only [hostOps1]
  after_results_simp
  all_goals try rfl

end

end Cert.KernelIdeal.KTail

end
-- ==== Proof.KStageA.lean ====
/-
  The operations after the kernel, first neighbour: the north-west neighbour (row yn, column xw) is read where both lie
  in the image (the mask and the sanitising zero are the prelude's), and masked: its row numbers are formed, the rows looked
  up, the looked-up rows masked. The stage leaves the weights and what the later stages read as they were.
-/
import proofs.«115037_j71897752535328_2_alg».proof.Proof.Gen.KernelIdeal.Launch
import Idealize.ShloMosaic.Lib.StableHlo.Run
import proofs.«115037_j71897752535328_2_alg».proof.Proof.LibTypedRef
import proofs.«115037_j71897752535328_2_alg».proof.Proof.Spec2
import proofs.«115037_j71897752535328_2_alg».proof.Proof.LibAfter
-- one declaration at a time: each folds a line of operations over full-size arrays
set_option Elab.async false
set_option maxRecDepth 200000

noncomputable section

namespace Cert.KernelIdeal.KTail

open Cert.KernelIdeal Cert.KernelIdeal.Gen Idealize.ShloMosaic Idealize.ShloMosaic.TcCoe Idealize.SL.Sem Idealize.ShloMosaic.StableHlo Cert.Bridge

variable {F : FTy → Type} [FloatOps F]

-- the and-reduction and the row lookup are compared as they stand, never opened over their 11534336 entries
attribute [local irreducible] Host.reduce Host.gather

/-- The operations forming the neighbour's row numbers. -/
def stA1 : List (HloOp τ sig (Elt F)) := List.flatten [hostOps1_1 (F := F), hostOps1_2, hostOps1_3, hostOps1_4]
/-- The row lookup. -/
def stA2 : List (HloOp τ sig (Elt F)) := List.flatten [hostOps1_5 (F := F)]
/-- The masking of the looked-up rows. -/
def stA3 : List (HloOp τ sig (Elt F)) := List.flatten [hostOps1_6 (F := F), hostOps1_7]
/-- This stage's operations. -/
def stA : List (HloOp τ sig (Elt F)) := stA1 ++ (stA2 ++ stA3)

section
variable (U : Valuation τ sig (Elt F))

set_option maxHeartbeats 4000000 in
/-- The neighbour's row numbers. -/
theorem A1_rows : after (stA1 (F := F)) U (Proc.devRef .tc main_v46)
    = shapeCast S11534336
        (addi (muli (select (U (Proc.devRef .tc main_v40)) (U (Proc.devRef .tc main_v5_1)) (broadcastInDim S176x256x256 ![] bcast_S_S176x256x256 (U (Proc.devRef .tc main_c_10)))) (cI 256#32))
          (keep (U (Proc.devRef .tc main_v40)) (U (Proc.devRef .tc main_v5_0))))
        shapeCasts_S176x256x256_S11534336 := by
  unfold stA1
  simp only [hostOps1_1, hostOps1_2, hostOps1_3, hostOps1_4, List.flatten_cons, List.flatten_nil, List.append_nil, List.cons_append, List.nil_append]
  after_results_simp
  all_goals try simp only [Cert.TypedRef.ofBuf_toBuf, Cert.TypedRef.toBuf_of, Cert.TypedRef.ofBuf_of]
  all_goals try rfl

/-- The neighbour's mask is left as it was. -/
theorem A1_mask : after (stA1 (F := F)) U (Proc.devRef .tc main_v40) = U (Proc.devRef .tc main_v40) := by
  unfold stA1
  simp only [hostOps1_1, hostOps1_2, hostOps1_3, hostOps1_4, List.flatten_cons, List.flatten_nil, List.append_nil, List.cons_append, List.nil_append]
  after_results_simp

/-- The image's rows are left as they were. -/
theorem A1_keep_v39 : after (stA1 (F := F)) U (Proc.devRef .tc main_v39) = U (Proc.devRef .tc main_v39) := by
  unfold stA1
  simp only [hostOps1_1, hostOps1_2, hostOps1_3, hostOps1_4, List.flatten_cons, List.flatten_nil, List.append_nil, List.cons_append, List.nil_append]
  after_results_simp

set_option maxHeartbeats 4000000 in
/-- The looked-up rows. -/
theorem A2_take : after (stA2 (F := F)) U (Proc.devRef .tc main_v47)
    = takeRows (M := 65536) gather_S65536x3_S11534336x1_S11534336x3_1_0_n_n_0_1_13 65536#32 65535#32 (U (Proc.devRef .tc main_v39)) (U (Proc.devRef .tc main_v46)) := by
  unfold stA2
  simp only [hostOps1_5, List.flatten_cons, List.flatten_nil, List.append_nil, List.cons_append, List.nil_append]
  after_results_simp
  all_goals try simp only [Cert.TypedRef.ofBuf_toBuf, Cert.TypedRef.toBuf_of, Cert.TypedRef.ofBuf_of]
  all_goals try rfl

/-- The lookup leaves the mask as it was. -/
theorem A2_keep_mask : after (stA2 (F := F)) U (Proc.devRef .tc main_v40) = U (Proc.devRef .tc main_v40) := by
  unfold stA2
  simp only [hostOps1_5, List.flatten_cons, List.flatten_nil, List.append_nil, List.cons_append, List.nil_append]
  after_results_simp

set_option maxHeartbeats 4000000 in
/-- The looked-up rows, masked. -/
theorem A3_out : after (stA3 (F := F)) U (Proc.devRef .tc main_v50) = tapVal (U (Proc.devRef .tc main_v40)) (U (Proc.devRef .tc main_v47)) := by
  unfold stA3
  simp only [hostOps1_6, hostOps1_7, List.flatten_cons, List.flatten_nil, List.append_nil, List.cons_append, List.nil_append]
  after_results_simp
  all_goals try simp only [Cert.TypedRef.ofBuf_toBuf, Cert.TypedRef.toBuf_of, Cert.TypedRef.ofBuf_of]
  all_goals try rfl

/-- The north-west neighbour's masked value. -/
theorem A_tap : after (stA (F := F)) U (Proc.devRef .tc main_v50)
    = tapVal (U (Proc.devRef .tc main_v40))
        (takeRows (M := 65536) gather_S65536x3_S11534336x1_S11534336x3_1_0_n_n_0_1_13 65536#32 65535#32 (U (Proc.devRef .tc main_v39))
          (shapeCast S11534336
        (addi (muli (select (U (Proc.devRef .tc main_v40)) (U (Proc.devRef .tc main_v5_1)) (broadcastInDim S176x256x256 ![] bcast_S_S176x256x256 (U (Proc.devRef .tc main_c_10)))) (cI 256#32))
          (keep (U (Proc.devRef .tc main_v40)) (U (Proc.devRef .tc main_v5_0))))
        shapeCasts_S176x256x256_S11534336)) := by
  unfold stA
  rw [Cert.After.after_append, Cert.After.after_append, A3_out, A2_take, A2_keep_mask, A1_rows, A1_mask, A1_keep_v39]

/-- The stage leaves `main_v14` as it was. -/
theorem A_keep_v14 : after (stA (F := F)) U (Proc.devRef .tc main_v14) = U (Proc.devRef .tc main_v14) := by
  unfold stA stA1 stA2 stA3
  simp only [hostOps1_1, hostOps1_2, hostOps1_3, hostOps1_4, hostOps1_5, hostOps1_6, hostOps1_7, List.flatten_cons, List.flatten_nil, List.append_nil, List.cons_append, List.nil_append]
  after_results_simp

/-- The stage leaves `main_v15` as it was. -/
theorem A_keep_v15 : after (stA (F := F)) U (Proc.devRef .tc main_v15) = U (Proc.devRef .tc main_v15) := by
  unfold stA stA1 stA2 stA3
  simp only [hostOps1_1, hostOps1_2, hostOps1_3, hostOps1_4, hostOps1_5, hostOps1_6, hostOps1_7, List.flatten_cons, List.flatten_nil, List.append_nil, List.cons_append, List.nil_append]
  after_results_simp

/-- The stage leaves `main_v16` as it was. -/
theorem A_keep_v16 : after (stA (F := F)) U (Proc.devRef .tc main_v16) = U (Proc.devRef .tc main_v16) := by
  unfold stA stA1 stA2 stA3
  simp only [hostOps1_1, hostOps1_2, hostOps1_3, hostOps1_4, hostOps1_5, hostOps1_6, hostOps1_7, List.flatten_cons, List.flatten_nil, List.append_nil, List.cons_append, List.nil_append]
  after_results_simp

/-- The stage leaves `main_v17` as it was. -/
theorem A_keep_v17 : after (stA (F := F)) U (Proc.devRef .tc main_v17) = U (Proc.devRef .tc main_v17) := by
  unfold stA stA1 stA2 stA3
  simp only [hostOps1_1, hostOps1_2, hostOps1_3, hostOps1_4, hostOps1_5, hostOps1_6, hostOps1_7, List.flatten_cons, List.flatten_nil, List.append_nil, List.cons_append, List.nil_append]
  after_results_simp

/-- The stage leaves `main_v32` as it was. -/
theorem A_keep_v32 : after (stA (F := F)) U (Proc.devRef .tc main_v32) = U (Proc.devRef .tc main_v32) := by
  unfold stA stA1 stA2 stA3
  simp only [hostOps1_1, hostOps1_2, hostOps1_3, hostOps1_4, hostOps1_5, hostOps1_6, hostOps1_7, List.flatten_cons, List.flatten_nil, List.append_nil, List.cons_append, List.nil_append]
  after_results_simp

/-- The stage leaves `main_v37` as it was. -/
theorem A_keep_v37 : after (stA (F := F)) U (Proc.devRef .tc main_v37) = U (Proc.devRef .tc main_v37) := by
  unfold stA stA1 stA2 stA3
  simp only [hostOps1_1, hostOps1_2, hostOps1_3, hostOps1_4, hostOps1_5, hostOps1_6, hostOps1_7, List.flatten_cons, List.flatten_nil, List.append_nil, List.cons_append, List.nil_append]
  after_results_simp

/-- The stage leaves `main_v22` as it was. -/
theorem A_keep_v22 : after (stA (F := F)) U (Proc.devRef .tc main_v22) = U (Proc.devRef .tc main_v22) := by
  unfold stA stA1 stA2 stA3
  simp only [hostOps1_1, hostOps1_2, hostOps1_3, hostOps1_4, hostOps1_5, hostOps1_6, hostOps1_7, List.flatten_cons, List.flatten_nil, List.append_nil, List.cons_append, List.nil_append]
  after_results_simp

/-- The stage leaves `main_v27` as it was. -/
theorem A_keep_v27 : after (stA (F := F)) U (Proc.devRef .tc main_v27) = U (Proc.devRef .tc main_v27) := by
  unfold stA stA1 stA2 stA3
  simp only [hostOps1_1, hostOps1_2, hostOps1_3, hostOps1_4, hostOps1_5, hostOps1_6, hostOps1_7, List.flatten_cons, List.flatten_nil, List.append_nil, List.cons_append, List.nil_append]
  after_results_simp

/-- The stage leaves `main_v9` as it was. -/
theorem A_keep_v9 : after (stA (F := F)) U (Proc.devRef .tc main_v9) = U (Proc.devRef .tc main_v9) := by
  unfold stA stA1 stA2 stA3
  simp only [hostOps1_1, hostOps1_2, hostOps1_3, hostOps1_4, hostOps1_5, hostOps1_6, hostOps1_7, List.flatten_cons, List.flatten_nil, List.append_nil, List.cons_append, List.nil_append]
  after_results_simp

/-- The stage leaves `main_v7` as it was. -/
theorem A_keep_v7 : after (stA (F := F)) U (Proc.devRef .tc main_v7) = U (Proc.devRef .tc main_v7) := by
  unfold stA stA1 stA2 stA3
  simp only [hostOps1_1, hostOps1_2, hostOps1_3, hostOps1_4, hostOps1_5, hostOps1_6, hostOps1_7, List.flatten_cons, List.flatten_nil, List.append_nil, List.cons_append, List.nil_append]
  after_results_simp

/-- The stage leaves `main_v39` as it was. -/
theorem A_keep_v39 : after (stA (F := F)) U (Proc.devRef .tc main_v39) = U (Proc.devRef .tc main_v39) := by
  unfold stA stA1 stA2 stA3
  simp only [hostOps1_1, hostOps1_2, hostOps1_3, hostOps1_4, hostOps1_5, hostOps1_6, hostOps1_7, List.flatten_cons, List.flatten_nil, List.append_nil, List.cons_append, List.nil_append]
  after_results_simp

/-- The stage leaves `main_v5_0` as it was. -/
theorem A_keep_v5_0 : after (stA (F := F)) U (Proc.devRef .tc main_v5_0) = U (Proc.devRef .tc main_v5_0) := by
  unfold stA stA1 stA2 stA3
  simp only [hostOps1_1, hostOps1_2, hostOps1_3, hostOps1_4, hostOps1_5, hostOps1_6, hostOps1_7, List.flatten_cons, List.flatten_nil, List.append_nil, List.cons_append, List.nil_append]
  after_results_simp

/-- The stage leaves `main_v5_1` as it was. -/
theorem A_keep_v5_1 : after (stA (F := F)) U (Proc.devRef .tc main_v5_1) = U (Proc.devRef .tc main_v5_1) := by
  unfold stA stA1 stA2 stA3
  simp only [hostOps1_1, hostOps1_2, hostOps1_3, hostOps1_4, hostOps1_5, hostOps1_6, hostOps1_7, List.flatten_cons, List.flatten_nil, List.append_nil, List.cons_append, List.nil_append]
  after_results_simp

end

end Cert.KernelIdeal.KTail

end
-- ==== Proof.KStageB.lean ====
/-
  The operations after the kernel, second neighbour: the north-east neighbour (row yn, column xw + 1) is read where
  xw + 1 and yn lie in the image, and masked: its row numbers are formed, the rows looked up, the looked-up rows masked. The
  stage leaves the weights, the first neighbour's value and what the later stages read as they were.
-/
import proofs.«115037_j71897752535328_2_alg».proof.Proof.Gen.KernelIdeal.Launch
import Idealize.ShloMosaic.Lib.StableHlo.Run
import proofs.«115037_j71897752535328_2_alg».proof.Proof.LibTypedRef
import proofs.«115037_j71897752535328_2_alg».proof.Proof.Spec2
import proofs.«115037_j71897752535328_2_alg».proof.Proof.LibAfter
-- one declaration at a time: each folds a line of operations over full-size arrays
set_option Elab.async false
set_option maxRecDepth 200000

noncomputable section

namespace Cert.KernelIdeal.KTail

open Cert.KernelIdeal Cert.KernelIdeal.Gen Idealize.ShloMosaic Idealize.ShloMosaic.TcCoe Idealize.SL.Sem Idealize.ShloMosaic.StableHlo Cert.Bridge

variable {F : FTy → Type} [FloatOps F]

-- the and-reduction and the row lookup are compared as they stand, never opened over their 11534336 entries
attribute [local irreducible] Host.reduce Host.gather

/-- The operations forming the neighbour's row numbers. -/
def stB1 : List (HloOp τ sig (Elt F)) := List.flatten [hostOps1_8 (F := F), hostOps1_9, hostOps1_10, hostOps1_11, hostOps1_12]
/-- The row lookup. -/
def stB2 : List (HloOp τ sig (Elt F)) := List.flatten [hostOps1_13 (F := F)]
/-- The masking of the looked-up rows. -/
def stB3 : List (HloOp τ sig (Elt F)) := List.flatten [hostOps1_14 (F := F), hostOps1_15]
/-- This stage's operations. -/
def stB : List (HloOp τ sig (Elt F)) := stB1 ++ (stB2 ++ stB3)

section
variable (U : Valuation τ sig (Elt F))

set_option maxHeartbeats 4000000 in
/-- The neighbour's row numbers. -/
theorem B1_rows : after (stB1 (F := F)) U (Proc.devRef .tc main_v57)
    = rowsK (andi (U (Proc.devRef .tc main_v32)) (U (Proc.devRef .tc main_v27))) (U (Proc.devRef .tc main_v5_1)) (U (Proc.devRef .tc main_v7)) := by
  unfold stB1
  simp only [hostOps1_8, hostOps1_9, hostOps1_10, hostOps1_11, hostOps1_12, List.flatten_cons, List.flatten_nil, List.append_nil, List.cons_append, List.nil_append]
  after_results_simp
  all_goals try simp only [Cert.TypedRef.ofBuf_toBuf, Cert.TypedRef.toBuf_of, Cert.TypedRef.ofBuf_of]
  all_goals try rfl

/-- The neighbour's mask. -/
theorem B1_mask : after (stB1 (F := F)) U (Proc.devRef .tc main_v51) = andi (U (Proc.devRef .tc main_v32)) (U (Proc.devRef .tc main_v27)) := by
  unfold stB1
  simp only [hostOps1_8, hostOps1_9, hostOps1_10, hostOps1_11, hostOps1_12, List.flatten_cons, List.flatten_nil, List.append_nil, List.cons_append, List.nil_append]
  after_results_simp
  all_goals try simp only [Cert.TypedRef.ofBuf_toBuf, Cert.TypedRef.toBuf_of, Cert.TypedRef.ofBuf_of]
  all_goals try rfl

/-- The image's rows are left as they were. -/
theorem B1_keep_v39 : after (stB1 (F := F)) U (Proc.devRef .tc main_v39) = U (Proc.devRef .tc main_v39) := by
  unfold stB1
  simp only [hostOps1_8, hostOps1_9, hostOps1_10, hostOps1_11, hostOps1_12, List.flatten_cons, List.flatten_nil, List.append_nil, List.cons_append, List.nil_append]
  after_results_simp

set_option maxHeartbeats 4000000 in
/-- The looked-up rows. -/
theorem B2_take : after (stB2 (F := F)) U (Proc.devRef .tc main_v58)
    = takeRows (M := 65536) gather_S65536x3_S11534336x1_S11534336x3_1_0_n_n_0_1_13 65536#32 65535#32 (U (Proc.devRef .tc main_v39)) (U (Proc.devRef .tc main_v57)) := by
  unfold stB2
  simp only [hostOps1_13, List.flatten_cons, List.flatten_nil, List.append_nil, List.cons_append, List.nil_append]
  after_results_simp
  all_goals try simp only [Cert.TypedRef.ofBuf_toBuf, Cert.TypedRef.toBuf_of, Cert.TypedRef.ofBuf_of]
  all_goals try rfl

/-- The lookup leaves the mask as it was. -/
theorem B2_keep_mask : after (stB2 (F := F)) U (Proc.devRef .tc main_v51) = U (Proc.devRef .tc main_v51) := by
  unfold stB2
  simp only [hostOps1_13, List.flatten_cons, List.flatten_nil, List.append_nil, List.cons_append, List.nil_append]
  after_results_simp

set_option maxHeartbeats 4000000 in
/-- The looked-up rows, masked. -/
theorem B3_out : after (stB3 (F := F)) U (Proc.devRef .tc main_v61) = tapVal (U (Proc.devRef .tc main_v51)) (U (Proc.devRef .tc main_v58)) := by
  unfold stB3
  simp only [hostOps1_14, hostOps1_15, List.flatten_cons, List.flatten_nil, List.append_nil, List.cons_append, List.nil_append]
  after_results_simp
  all_goals try simp only [Cert.TypedRef.ofBuf_toBuf, Cert.TypedRef.toBuf_of, Cert.TypedRef.ofBuf_of]
  all_goals try rfl

/-- The north-east neighbour's masked value. -/
theorem B_tap : after (stB (F := F)) U (Proc.devRef .tc main_v61)
    = tapVal (andi (U (Proc.devRef .tc main_v32)) (U (Proc.devRef .tc main_v27)))
        (takeRows (M := 65536) gather_S65536x3_S11534336x1_S11534336x3_1_0_n_n_0_1_13 65536#32 65535#32 (U (Proc.devRef .tc main_v39))
          (rowsK (andi (U (Proc.devRef .tc main_v32)) (U (Proc.devRef .tc main_v27))) (U (Proc.devRef .tc main_v5_1)) (U (Proc.devRef .tc main_v7)))) := by
  unfold stB
  rw [Cert.After.after_append, Cert.After.after_append, B3_out, B2_take, B2_keep_mask, B1_rows, B1_mask, B1_keep_v39]

/-- The stage leaves `main_v14` as it was. -/
theorem B_keep_v14 : after (stB (F := F)) U (Proc.devRef .tc main_v14) = U (Proc.devRef .tc main_v14) := by
  unfold stB stB1 stB2 stB3
  simp only [hostOps1_8, hostOps1_9, hostOps1_10, hostOps1_11, hostOps1_12, hostOps1_13, hostOps1_14, hostOps1_15, List.flatten_cons, List.flatten_nil, List.append_nil, List.cons_append, List.nil_append]
  after_results_simp

/-- The stage leaves `main_v15` as it was. -/
theorem B_keep_v15 : after (stB (F := F)) U (Proc.devRef .tc main_v15) = U (Proc.devRef .tc main_v15) := by
  unfold stB stB1 stB2 stB3
  simp only [hostOps1_8, hostOps1_9, hostOps1_10, hostOps1_11, hostOps1_12, hostOps1_13, hostOps1_14, hostOps1_15, List.flatten_cons, List.flatten_nil, List.append_nil, List.cons_append, List.nil_append]
  after_results_simp

/-- The stage leaves `main_v16` as it was. -/
theorem B_keep_v16 : after (stB (F := F)) U (Proc.devRef .tc main_v16) = U (Proc.devRef .tc main_v16) := by
  unfold stB stB1 stB2 stB3
  simp only [hostOps1_8, hostOps1_9, hostOps1_10, hostOps1_11, hostOps1_12, hostOps1_13, hostOps1_14, hostOps1_15, List.flatten_cons, List.flatten_nil, List.append_nil, List.cons_append, List.nil_append]
  after_results_simp

/-- The stage leaves `main_v17` as it was. -/
theorem B_keep_v17 : after (stB (F := F)) U (Proc.devRef .tc main_v17) = U (Proc.devRef .tc main_v17) := by
  unfold stB stB1 stB2 stB3
  simp only [hostOps1_8, hostOps1_9, hostOps1_10, hostOps1_11, hostOps1_12, hostOps1_13, hostOps1_14, hostOps1_15, List.flatten_cons, List.flatten_nil, List.append_nil, List.cons_append, List.nil_append]
  after_results_simp

/-- The stage leaves `main_v50` as it was. -/
theorem B_keep_v50 : after (stB (F := F)) U (Proc.devRef .tc main_v50) = U (Proc.devRef .tc main_v50) := by
  unfold stB stB1 stB2 stB3
  simp only [hostOps1_8, hostOps1_9, hostOps1_10, hostOps1_11, hostOps1_12, hostOps1_13, hostOps1_14, hostOps1_15, List.flatten_cons, List.flatten_nil, List.append_nil, List.cons_append, List.nil_append]
  after_results_simp

/-- The stage leaves `main_v37` as it was. -/
theorem B_keep_v37 : after (stB (F := F)) U (Proc.devRef .tc main_v37) = U (Proc.devRef .tc main_v37) := by
  unfold stB stB1 stB2 stB3
  simp only [hostOps1_8, hostOps1_9, hostOps1_10, hostOps1_11, hostOps1_12, hostOps1_13, hostOps1_14, hostOps1_15, List.flatten_cons, List.flatten_nil, List.append_nil, List.cons_append, List.nil_append]
  after_results_simp

/-- The stage leaves `main_v22` as it was. -/
theorem B_keep_v22 : after (stB (F := F)) U (Proc.devRef .tc main_v22) = U (Proc.devRef .tc main_v22) := by
  unfold stB stB1 stB2 stB3
  simp only [hostOps1_8, hostOps1_9, hostOps1_10, hostOps1_11, hostOps1_12, hostOps1_13, hostOps1_14, hostOps1_15, List.flatten_cons, List.flatten_nil, List.append_nil, List.cons_append, List.nil_append]
  after_results_simp

/-- The stage leaves `main_v9` as it was. -/
theorem B_keep_v9 : after (stB (F := F)) U (Proc.devRef .tc main_v9) = U (Proc.devRef .tc main_v9) := by
  unfold stB stB1 stB2 stB3
  simp only [hostOps1_8, hostOps1_9, hostOps1_10, hostOps1_11, hostOps1_12, hostOps1_13, hostOps1_14, hostOps1_15, List.flatten_cons, List.flatten_nil, List.append_nil, List.cons_append, List.nil_append]
  after_results_simp

/-- The stage leaves `main_v5_0` as it was. -/
theorem B_keep_v5_0 : after (stB (F := F)) U (Proc.devRef .tc main_v5_0) = U (Proc.devRef .tc main_v5_0) := by
  unfold stB stB1 stB2 stB3
  simp only [hostOps1_8, hostOps1_9, hostOps1_10, hostOps1_11, hostOps1_12, hostOps1_13, hostOps1_14, hostOps1_15, List.flatten_cons, List.flatten_nil, List.append_nil, List.cons_append, List.nil_append]
  after_results_simp

/-- The stage leaves `main_v39` as it was. -/
theorem B_keep_v39 : after (stB (F := F)) U (Proc.devRef .tc main_v39) = U (Proc.devRef .tc main_v39) := by
  unfold stB stB1 stB2 stB3
  simp only [hostOps1_8, hostOps1_9, hostOps1_10, hostOps1_11, hostOps1_12, hostOps1_13, hostOps1_14, hostOps1_15, List.flatten_cons, List.flatten_nil, List.append_nil, List.cons_append, List.nil_append]
  after_results_simp

/-- The stage leaves `main_v32` as it was. -/
theorem B_keep_v32 : after (stB (F := F)) U (Proc.devRef .tc main_v32) = U (Proc.devRef .tc main_v32) := by
  unfold stB stB1 stB2 stB3
  simp only [hostOps1_8, hostOps1_9, hostOps1_10, hostOps1_11, hostOps1_12, hostOps1_13, hostOps1_14, hostOps1_15, List.flatten_cons, List.flatten_nil, List.append_nil, List.cons_append, List.nil_append]
  after_results_simp

/-- The stage leaves `main_v7` as it was. -/
theorem B_keep_v7 : after (stB (F := F)) U (Proc.devRef .tc main_v7) = U (Proc.devRef .tc main_v7) := by
  unfold stB stB1 stB2 stB3
  simp only [hostOps1_8, hostOps1_9, hostOps1_10, hostOps1_11, hostOps1_12, hostOps1_13, hostOps1_14, hostOps1_15, List.flatten_cons, List.flatten_nil, List.append_nil, List.cons_append, List.nil_append]
  after_results_simp

end

end Cert.KernelIdeal.KTail

end
-- ==== Proof.KStageC.lean ====
/-
  The operations after the kernel, third neighbour: the south-west neighbour (row yn + 1, column xw) is read where
  yn + 1 and xw lie in the image, and masked: its row numbers are formed, the rows looked up, the looked-up rows masked. The
  stage leaves the weights, the earlier neighbours' values and what the last stage reads as they were.
-/
import proofs.«115037_j71897752535328_2_alg».proof.Proof.Gen.KernelIdeal.Launch
import Idealize.ShloMosaic.Lib.StableHlo.Run
import proofs.«115037_j71897752535328_2_alg».proof.Proof.LibTypedRef
import proofs.«115037_j71897752535328_2_alg».proof.Proof.Spec2
import proofs.«115037_j71897752535328_2_alg».proof.Proof.LibAfter
-- one declaration at a time: each folds a line of operations over full-size arrays
set_option Elab.async false
set_option maxRecDepth 200000

noncomputable section

namespace Cert.KernelIdeal.KTail

open Cert.KernelIdeal Cert.KernelIdeal.Gen Idealize.ShloMosaic Idealize.ShloMosaic.TcCoe Idealize.SL.Sem Idealize.ShloMosaic.StableHlo Cert.Bridge

variable {F : FTy → Type} [FloatOps F]

-- the and-reduction and the row lookup are compared as they stand, never opened over their 11534336 entries
attribute [local irreducible] Host.reduce Host.gather

/-- The operations forming the neighbour's row numbers. -/
def stC1 : List (HloOp τ sig (Elt F)) := List.flatten [hostOps1_16 (F := F), hostOps1_17, hostOps1_18, hostOps1_19, hostOps1_20]
/-- The row lookup. -/
def stC2 : List (HloOp τ sig (Elt F)) := List.flatten [hostOps1_21 (F := F)]
/-- The masking of the looked-up rows. -/
def stC3 : List (HloOp τ sig (Elt F)) := List.flatten [hostOps1_22 (F := F), hostOps1_23]
/-- This stage's operations. -/
def stC : List (HloOp τ sig (Elt F)) := stC1 ++ (stC2 ++ stC3)

section
variable (U : Valuation τ sig (Elt F))

set_option maxHeartbeats 4000000 in
/-- The neighbour's row numbers. -/
theorem C1_rows : after (stC1 (F := F)) U (Proc.devRef .tc main_v68)
    = rowsK (andi (U (Proc.devRef .tc main_v37)) (U (Proc.devRef .tc main_v22))) (U (Proc.devRef .tc main_v9)) (U (Proc.devRef .tc main_v5_0)) := by
  unfold stC1
  simp only [hostOps1_16, hostOps1_17, hostOps1_18, hostOps1_19, hostOps1_20, List.flatten_cons, List.flatten_nil, List.append_nil, List.cons_append, List.nil_append]
  after_results_simp
  all_goals try simp only [Cert.TypedRef.ofBuf_toBuf, Cert.TypedRef.toBuf_of, Cert.TypedRef.ofBuf_of]
  all_goals try rfl

/-- The neighbour's mask. -/
theorem C1_mask : after (stC1 (F := F)) U (Proc.devRef .tc main_v62) = andi (U (Proc.devRef .tc main_v37)) (U (Proc.devRef .tc main_v22)) := by
  unfold stC1
  simp only [hostOps1_16, hostOps1_17, hostOps1_18, hostOps1_19, hostOps1_20, List.flatten_cons, List.flatten_nil, List.append_nil, List.cons_append, List.nil_append]
  after_results_simp
  all_goals try simp only [Cert.TypedRef.ofBuf_toBuf, Cert.TypedRef.toBuf_of, Cert.TypedRef.ofBuf_of]
  all_goals try rfl

/-- The image's rows are left as they were. -/
theorem C1_keep_v39 : after (stC1 (F := F)) U (Proc.devRef .tc main_v39) = U (Proc.devRef .tc main_v39) := by
  unfold stC1
  simp only [hostOps1_16, hostOps1_17, hostOps1_18, hostOps1_19, hostOps1_20, List.flatten_cons, List.flatten_nil, List.append_nil, List.cons_append, List.nil_append]
  after_results_simp

set_option maxHeartbeats 4000000 in
/-- The looked-up rows. -/
theorem C2_take : after (stC2 (F := F)) U (Proc.devRef .tc main_v69)
    = takeRows (M := 65536) gather_S65536x3_S11534336x1_S11534336x3_1_0_n_n_0_1_13 65536#32 65535#32 (U (Proc.devRef .tc main_v39)) (U (Proc.devRef .tc main_v68)) := by
  unfold stC2
  simp only [hostOps1_21, List.flatten_cons, List.flatten_nil, List.append_nil, List.cons_append, List.nil_append]
  after_results_simp
  all_goals try simp only [Cert.TypedRef.ofBuf_toBuf, Cert.TypedRef.toBuf_of, Cert.TypedRef.ofBuf_of]
  all_goals try rfl

/-- The lookup leaves the mask as it was. -/
theorem C2_keep_mask : after (stC2 (F := F)) U (Proc.devRef .tc main_v62) = U (Proc.devRef .tc main_v62) := by
  unfold stC2
  simp only [hostOps1_21, List.flatten_cons, List.flatten_nil, List.append_nil, List.cons_append, List.nil_append]
  after_results_simp

set_option maxHeartbeats 4000000 in
/-- The looked-up rows, masked. -/
theorem C3_out : after (stC3 (F := F)) U (Proc.devRef .tc main_v72) = tapVal (U (Proc.devRef .tc main_v62)) (U (Proc.devRef .tc main_v69)) := by
  unfold stC3
  simp only [hostOps1_22, hostOps1_23, List.flatten_cons, List.flatten_nil, List.append_nil, List.cons_append, List.nil_append]
  after_results_simp
  all_goals try simp only [Cert.TypedRef.ofBuf_toBuf, Cert.TypedRef.toBuf_of, Cert.TypedRef.ofBuf_of]
  all_goals try rfl

/-- The south-west neighbour's masked value. -/
theorem C_tap : after (stC (F := F)) U (Proc.devRef .tc main_v72)
    = tapVal (andi (U (Proc.devRef .tc main_v37)) (U (Proc.devRef .tc main_v22)))
        (takeRows (M := 65536) gather_S65536x3_S11534336x1_S11534336x3_1_0_n_n_0_1_13 65536#32 65535#32 (U (Proc.devRef .tc main_v39))
          (rowsK (andi (U (Proc.devRef .tc main_v37)) (U (Proc.devRef .tc main_v22))) (U (Proc.devRef .tc main_v9)) (U (Proc.devRef .tc main_v5_0)))) := by
  unfold stC
  rw [Cert.After.after_append, Cert.After.after_append, C3_out, C2_take, C2_keep_mask, C1_rows, C1_mask, C1_keep_v39]

/-- The stage leaves `main_v14` as it was. -/
theorem C_keep_v14 : after (stC (F := F)) U (Proc.devRef .tc main_v14) = U (Proc.devRef .tc main_v14) := by
  unfold stC stC1 stC2 stC3
  simp only [hostOps1_16, hostOps1_17, hostOps1_18, hostOps1_19, hostOps1_20, hostOps1_21, hostOps1_22, hostOps1_23, List.flatten_cons, List.flatten_nil, List.append_nil, List.cons_append, List.nil_append]
  after_results_simp

/-- The stage leaves `main_v15` as it was. -/
theorem C_keep_v15 : after (stC (F := F)) U (Proc.devRef .tc main_v15) = U (Proc.devRef .tc main_v15) := by
  unfold stC stC1 stC2 stC3
  simp only [hostOps1_16, hostOps1_17, hostOps1_18, hostOps1_19, hostOps1_20, hostOps1_21, hostOps1_22, hostOps1_23, List.flatten_cons, List.flatten_nil, List.append_nil, List.cons_append, List.nil_append]
  after_results_simp

/-- The stage leaves `main_v16` as it was. -/
theorem C_keep_v16 : after (stC (F := F)) U (Proc.devRef .tc main_v16) = U (Proc.devRef .tc main_v16) := by
  unfold stC stC1 stC2 stC3
  simp only [hostOps1_16, hostOps1_17, hostOps1_18, hostOps1_19, hostOps1_20, hostOps1_21, hostOps1_22, hostOps1_23, List.flatten_cons, List.flatten_nil, List.append_nil, List.cons_append, List.nil_append]
  after_results_simp

/-- The stage leaves `main_v17` as it was. -/
theorem C_keep_v17 : after (stC (F := F)) U (Proc.devRef .tc main_v17) = U (Proc.devRef .tc main_v17) := by
  unfold stC stC1 stC2 stC3
  simp only [hostOps1_16, hostOps1_17, hostOps1_18, hostOps1_19, hostOps1_20, hostOps1_21, hostOps1_22, hostOps1_23, List.flatten_cons, List.flatten_nil, List.append_nil, List.cons_append, List.nil_append]
  after_results_simp

/-- The stage leaves `main_v50` as it was. -/
theorem C_keep_v50 : after (stC (F := F)) U (Proc.devRef .tc main_v50) = U (Proc.devRef .tc main_v50) := by
  unfold stC stC1 stC2 stC3
  simp only [hostOps1_16, hostOps1_17, hostOps1_18, hostOps1_19, hostOps1_20, hostOps1_21, hostOps1_22, hostOps1_23, List.flatten_cons, List.flatten_nil, List.append_nil, List.cons_append, List.nil_append]
  after_results_simp

/-- The stage leaves `main_v61` as it was. -/
theorem C_keep_v61 : after (stC (F := F)) U (Proc.devRef .tc main_v61) = U (Proc.devRef .tc main_v61) := by
  unfold stC stC1 stC2 stC3
  simp only [hostOps1_16, hostOps1_17, hostOps1_18, hostOps1_19, hostOps1_20, hostOps1_21, hostOps1_22, hostOps1_23, List.flatten_cons, List.flatten_nil, List.append_nil, List.cons_append, List.nil_append]
  after_results_simp

/-- The stage leaves `main_v32` as it was. -/
theorem C_keep_v32 : after (stC (F := F)) U (Proc.devRef .tc main_v32) = U (Proc.devRef .tc main_v32) := by
  unfold stC stC1 stC2 stC3
  simp only [hostOps1_16, hostOps1_17, hostOps1_18, hostOps1_19, hostOps1_20, hostOps1_21, hostOps1_22, hostOps1_23, List.flatten_cons, List.flatten_nil, List.append_nil, List.cons_append, List.nil_append]
  after_results_simp

/-- The stage leaves `main_v37` as it was. -/
theorem C_keep_v37 : after (stC (F := F)) U (Proc.devRef .tc main_v37) = U (Proc.devRef .tc main_v37) := by
  unfold stC stC1 stC2 stC3
  simp only [hostOps1_16, hostOps1_17, hostOps1_18, hostOps1_19, hostOps1_20, hostOps1_21, hostOps1_22, hostOps1_23, List.flatten_cons, List.flatten_nil, List.append_nil, List.cons_append, List.nil_append]
  after_results_simp

/-- The stage leaves `main_v9` as it was. -/
theorem C_keep_v9 : after (stC (F := F)) U (Proc.devRef .tc main_v9) = U (Proc.devRef .tc main_v9) := by
  unfold stC stC1 stC2 stC3
  simp only [hostOps1_16, hostOps1_17, hostOps1_18, hostOps1_19, hostOps1_20, hostOps1_21, hostOps1_22, hostOps1_23, List.flatten_cons, List.flatten_nil, List.append_nil, List.cons_append, List.nil_append]
  after_results_simp

/-- The stage leaves `main_v7` as it was. -/
theorem C_keep_v7 : after (stC (F := F)) U (Proc.devRef .tc main_v7) = U (Proc.devRef .tc main_v7) := by
  unfold stC stC1 stC2 stC3
  simp only [hostOps1_16, hostOps1_17, hostOps1_18, hostOps1_19, hostOps1_20, hostOps1_21, hostOps1_22, hostOps1_23, List.flatten_cons, List.flatten_nil, List.append_nil, List.cons_append, List.nil_append]
  after_results_simp

/-- The stage leaves `main_v39` as it was. -/
theorem C_keep_v39 : after (stC (F := F)) U (Proc.devRef .tc main_v39) = U (Proc.devRef .tc main_v39) := by
  unfold stC stC1 stC2 stC3
  simp only [hostOps1_16, hostOps1_17, hostOps1_18, hostOps1_19, hostOps1_20, hostOps1_21, hostOps1_22, hostOps1_23, List.flatten_cons, List.flatten_nil, List.append_nil, List.cons_append, List.nil_append]
  after_results_simp

end

end Cert.KernelIdeal.KTail

end
-- ==== Proof.KStageD.lean ====
/-
  The operations after the kernel, fourth neighbour: the south-east neighbour (row yn + 1, column xw + 1) is read where
  xw + 1 and yn + 1 lie in the image, and masked: its row numbers are formed, the rows looked up, the looked-up rows masked.
  The stage leaves the weights and the earlier neighbours' values as they were.
-/
import proofs.«115037_j71897752535328_2_alg».proof.Proof.Gen.KernelIdeal.Launch
import Idealize.ShloMosaic.Lib.StableHlo.Run
import proofs.«115037_j71897752535328_2_alg».proof.Proof.LibTypedRef
import proofs.«115037_j71897752535328_2_alg».proof.Proof.Spec2
import proofs.«115037_j71897752535328_2_alg».proof.Proof.LibAfter
-- one declaration at a time: each folds a line of operations over full-size arrays
set_option Elab.async false
set_option maxRecDepth 200000

noncomputable section

namespace Cert.KernelIdeal.KTail

open Cert.KernelIdeal Cert.KernelIdeal.Gen Idealize.ShloMosaic Idealize.ShloMosaic.TcCoe Idealize.SL.Sem Idealize.ShloMosaic.StableHlo Cert.Bridge

variable {F : FTy → Type} [FloatOps F]

-- the and-reduction and the row lookup are compared as they stand, never opened over their 11534336 entries
attribute [local irreducible] Host.reduce Host.gather

/-- The operations forming the neighbour's row numbers. -/
def stD1 : List (HloOp τ sig (Elt F)) := List.flatten [hostOps1_24 (F := F), hostOps1_25, hostOps1_26, hostOps1_27, hostOps1_28]
/-- The row lookup. -/
def stD2 : List (HloOp τ sig (Elt F)) := List.flatten [hostOps1_29 (F := F)]
/-- The masking of the looked-up rows. -/
def stD3 : List (HloOp τ sig (Elt F)) := List.flatten [hostOps1_30 (F := F), hostOps1_31]
/-- This stage's operations. -/
def stD : List (HloOp τ sig (Elt F)) := stD1 ++ (stD2 ++ stD3)

section
variable (U : Valuation τ sig (Elt F))

set_option maxHeartbeats 4000000 in
/-- The neighbour's row numbers. -/
theorem D1_rows : after (stD1 (F := F)) U (Proc.devRef .tc main_v79)
    = rowsK (andi (U (Proc.devRef .tc main_v32)) (U (Proc.devRef .tc main_v37))) (U (Proc.devRef .tc main_v9)) (U (Proc.devRef .tc main_v7)) := by
  unfold stD1
  simp only [hostOps1_24, hostOps1_25, hostOps1_26, hostOps1_27, hostOps1_28, List.flatten_cons, List.flatten_nil, List.append_nil, List.cons_append, List.nil_append]
  after_results_simp
  all_goals try simp only [Cert.TypedRef.ofBuf_toBuf, Cert.TypedRef.toBuf_of, Cert.TypedRef.ofBuf_of]
  all_goals try rfl

/-- The neighbour's mask. -/
theorem D1_mask : after (stD1 (F := F)) U (Proc.devRef .tc main_v73) = andi (U (Proc.devRef .tc main_v32)) (U (Proc.devRef .tc main_v37)) := by
  unfold stD1
  simp only [hostOps1_24, hostOps1_25, hostOps1_26, hostOps1_27, hostOps1_28, List.flatten_cons, List.flatten_nil, List.append_nil, List.cons_append, List.nil_append]
  after_results_simp
  all_goals try simp only [Cert.TypedRef.ofBuf_toBuf, Cert.TypedRef.toBuf_of, Cert.TypedRef.ofBuf_of]
  all_goals try rfl

/-- The image's rows are left as they were. -/
theorem D1_keep_v39 : after (stD1 (F := F)) U (Proc.devRef .tc main_v39) = U (Proc.devRef .tc main_v39) := by
  unfold stD1
  simp only [hostOps1_24, hostOps1_25, hostOps1_26, hostOps1_27, hostOps1_28, List.flatten_cons, List.flatten_nil, List.append_nil, List.cons_append, List.nil_append]
  after_results_simp

set_option maxHeartbeats 4000000 in
/-- The looked-up rows. -/
theorem D2_take : after (stD2 (F := F)) U (Proc.devRef .tc main_v80)
    = takeRows (M := 65536) gather_S65536x3_S11534336x1_S11534336x3_1_0_n_n_0_1_13 65536#32 65535#32 (U (Proc.devRef .tc main_v39)) (U (Proc.devRef .tc main_v79)) := by
  unfold stD2
  simp only [hostOps1_29, List.flatten_cons, List.flatten_nil, List.append_nil, List.cons_append, List.nil_append]
  after_results_simp
  all_goals try simp only [Cert.TypedRef.ofBuf_toBuf, Cert.TypedRef.toBuf_of, Cert.TypedRef.ofBuf_of]
  all_goals try rfl

/-- The lookup leaves the mask as it was. -/
theorem D2_keep_mask : after (stD2 (F := F)) U (Proc.devRef .tc main_v73) = U (Proc.devRef .tc main_v73) := by
  unfold stD2
  simp only [hostOps1_29, List.flatten_cons, List.flatten_nil, List.append_nil, List.cons_append, List.nil_append]
  after_results_simp

set_option maxHeartbeats 4000000 in
/-- The looked-up rows, masked. -/
theorem D3_out : after (stD3 (F := F)) U (Proc.devRef .tc main_v83) = tapVal (U (Proc.devRef .tc main_v73)) (U (Proc.devRef .tc main_v80)) := by
  unfold stD3
  simp only [hostOps1_30, hostOps1_31, List.flatten_cons, List.flatten_nil, List.append_nil, List.cons_append, List.nil_append]
  after_results_simp
  all_goals try simp only [Cert.TypedRef.ofBuf_toBuf, Cert.TypedRef.toBuf_of, Cert.TypedRef.ofBuf_of]
  all_goals try rfl

/-- The south-east neighbour's masked value. -/
theorem D_tap : after (stD (F := F)) U (Proc.devRef .tc main_v83)
    = tapVal (andi (U (Proc.devRef .tc main_v32)) (U (Proc.devRef .tc main_v37)))
        (takeRows (M := 65536) gather_S65536x3_S11534336x1_S11534336x3_1_0_n_n_0_1_13 65536#32 65535#32 (U (Proc.devRef .tc main_v39))
          (rowsK (andi (U (Proc.devRef .tc main_v32)) (U (Proc.devRef .tc main_v37))) (U (Proc.devRef .tc main_v9)) (U (Proc.devRef .tc main_v7)))) := by
  unfold stD
  rw [Cert.After.after_append, Cert.After.after_append, D3_out, D2_take, D2_keep_mask, D1_rows, D1_mask, D1_keep_v39]

/-- The stage leaves `main_v14` as it was. -/
theorem D_keep_v14 : after (stD (F := F)) U (Proc.devRef .tc main_v14) = U (Proc.devRef .tc main_v14) := by
  unfold stD stD1 stD2 stD3
  simp only [hostOps1_24, hostOps1_25, hostOps1_26, hostOps1_27, hostOps1_28, hostOps1_29, hostOps1_30, hostOps1_31, List.flatten_cons, List.flatten_nil, List.append_nil, List.cons_append, List.nil_append]
  after_results_simp

/-- The stage leaves `main_v15` as it was. -/
theorem D_keep_v15 : after (stD (F := F)) U (Proc.devRef .tc main_v15) = U (Proc.devRef .tc main_v15) := by
  unfold stD stD1 stD2 stD3
  simp only [hostOps1_24, hostOps1_25, hostOps1_26, hostOps1_27, hostOps1_28, hostOps1_29, hostOps1_30, hostOps1_31, List.flatten_cons, List.flatten_nil, List.append_nil, List.cons_append, List.nil_append]
  after_results_simp

/-- The stage leaves `main_v16` as it was. -/
theorem D_keep_v16 : after (stD (F := F)) U (Proc.devRef .tc main_v16) = U (Proc.devRef .tc main_v16) := by
  unfold stD stD1 stD2 stD3
  simp only [hostOps1_24, hostOps1_25, hostOps1_26, hostOps1_27, hostOps1_28, hostOps1_29, hostOps1_30, hostOps1_31, List.flatten_cons, List.flatten_nil, List.append_nil, List.cons_append, List.nil_append]
  after_results_simp

/-- The stage leaves `main_v17` as it was. -/
theorem D_keep_v17 : after (stD (F := F)) U (Proc.devRef .tc main_v17) = U (Proc.devRef .tc main_v17) := by
  unfold stD stD1 stD2 stD3
  simp only [hostOps1_24, hostOps1_25, hostOps1_26, hostOps1_27, hostOps1_28, hostOps1_29, hostOps1_30, hostOps1_31, List.flatten_cons, List.flatten_nil, List.append_nil, List.cons_append, List.nil_append]
  after_results_simp

/-- The stage leaves `main_v50` as it was. -/
theorem D_keep_v50 : after (stD (F := F)) U (Proc.devRef .tc main_v50) = U (Proc.devRef .tc main_v50) := by
  unfold stD stD1 stD2 stD3
  simp only [hostOps1_24, hostOps1_25, hostOps1_26, hostOps1_27, hostOps1_28, hostOps1_29, hostOps1_30, hostOps1_31, List.flatten_cons, List.flatten_nil, List.append_nil, List.cons_append, List.nil_append]
  after_results_simp

/-- The stage leaves `main_v61` as it was. -/
theorem D_keep_v61 : after (stD (F := F)) U (Proc.devRef .tc main_v61) = U (Proc.devRef .tc main_v61) := by
  unfold stD stD1 stD2 stD3
  simp only [hostOps1_24, hostOps1_25, hostOps1_26, hostOps1_27, hostOps1_28, hostOps1_29, hostOps1_30, hostOps1_31, List.flatten_cons, List.flatten_nil, List.append_nil, List.cons_append, List.nil_append]
  after_results_simp

/-- The stage leaves `main_v72` as it was. -/
theorem D_keep_v72 : after (stD (F := F)) U (Proc.devRef .tc main_v72) = U (Proc.devRef .tc main_v72) := by
  unfold stD stD1 stD2 stD3
  simp only [hostOps1_24, hostOps1_25, hostOps1_26, hostOps1_27, hostOps1_28, hostOps1_29, hostOps1_30, hostOps1_31, List.flatten_cons, List.flatten_nil, List.append_nil, List.cons_append, List.nil_append]
  after_results_simp

end

end Cert.KernelIdeal.KTail

end
-- ==== Proof.KStageE.lean ====
/-
  The operations after the kernel, last stage: each neighbour's value is weighted, the four products are added
  (north-west + south-west, + north-east, + south-east) and the sum is laid out as 16 x 11 grids.
-/
import proofs.«115037_j71897752535328_2_alg».proof.Proof.Gen.KernelIdeal.Launch
import Idealize.ShloMosaic.Lib.StableHlo.Run
import proofs.«115037_j71897752535328_2_alg».proof.Proof.LibTypedRef
import proofs.«115037_j71897752535328_2_alg».proof.Proof.Spec2

set_option maxRecDepth 200000

noncomputable section

namespace Cert.KernelIdeal.KTail

open Cert.KernelIdeal Cert.KernelIdeal.Gen Idealize.ShloMosaic Idealize.ShloMosaic.TcCoe Idealize.SL.Sem Idealize.ShloMosaic.StableHlo Cert.Bridge

variable {F : FTy → Type} [FloatOps F]

-- the and-reduction and the row lookup are compared as they stand, never opened over their 11534336 entries
attribute [local irreducible] Host.reduce Host.gather

/-- The last stage's operations. -/
def stE : List (HloOp τ sig (Elt F)) := hostOps1_32

set_option maxHeartbeats 4000000 in
/-- The weighted sum of the four neighbours' values. -/
theorem E_out (U : Valuation τ sig (Elt F)) : after (stE (F := F)) U (Proc.devRef .tc main_v99)
    = shapeCast S16x11x256x256x3
        (addf (addf (addf (mulf (wgt (U (Proc.devRef .tc main_v14))) (U (Proc.devRef .tc main_v50))) (mulf (wgt (U (Proc.devRef .tc main_v16))) (U (Proc.devRef .tc main_v72))))
          (mulf (wgt (U (Proc.devRef .tc main_v15))) (U (Proc.devRef .tc main_v61)))) (mulf (wgt (U (Proc.devRef .tc main_v17))) (U (Proc.devRef .tc main_v83))))
        shapeCasts_S176x256x256x3_S16x11x256x256x3 := by
  unfold stE
  simp only [hostOps1_32]
  after_results_simp
  rfl

end Cert.KernelIdeal.KTail

end
-- ==== Proof.KTail.lean ====
/-
  What the host operations after the kernel compute: from the four arrays the kernel leaves (cell corners xw, yn and
  fractional parts fx, fy) and the image, the 238 operations that follow produce the bilinear combination of the four
  neighbours read from the image's 65536 rows (`Cert.Bridge.CombK`), whatever else the buffers hold.

  The operations are taken in six stages (the prelude of weights and masks, one stage per neighbour, the weighted sum).
  The last stage's result reads the four neighbours' values and the four weights; each of these is carried back, through
  the stages that leave it alone, to the stage that computes it, and the prelude's values are terms of the kernel's four
  arrays and the image. What results is `CombK` with its definitions unfolded.
-/
import proofs.«115037_j71897752535328_2_alg».proof.Proof.LibAfter
import proofs.«115037_j71897752535328_2_alg».proof.Proof.KStageP
import proofs.«115037_j71897752535328_2_alg».proof.Proof.KStageA
import proofs.«115037_j71897752535328_2_alg».proof.Proof.KStageB
import proofs.«115037_j71897752535328_2_alg».proof.Proof.KStageC
import proofs.«115037_j71897752535328_2_alg».proof.Proof.KStageD
import proofs.«115037_j71897752535328_2_alg».proof.Proof.KStageE

set_option maxRecDepth 200000

noncomputable section

namespace Cert.KernelIdeal.KTail

open Cert.KernelIdeal Cert.KernelIdeal.Gen Idealize.ShloMosaic Idealize.ShloMosaic.TcCoe Idealize.SL.Sem Idealize.ShloMosaic.StableHlo Cert.Bridge

variable {F : FTy → Type} [FloatOps F]

attribute [local irreducible] Host.reduce Host.gather

/-- The 33 stretches of operations after the kernel are the six stages in order. -/
theorem tail_split :
    List.flatten [hostOps1 (F := F), hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22, hostOps1_23, hostOps1_24, hostOps1_25, hostOps1_26, hostOps1_27, hostOps1_28, hostOps1_29, hostOps1_30, hostOps1_31, hostOps1_32]
      = stP ++ (stA ++ (stB ++ (stC ++ (stD ++ stE)))) := by
  unfold stP stA stA1 stA2 stA3 stB stB1 stB2 stB3 stC stC1 stC2 stC3 stD stD1 stD2 stD3 stE
  simp only [List.flatten_cons, List.flatten_nil, List.append_nil, List.append_assoc]

set_option maxHeartbeats 4000000 in
/-- The result buffer after the 238 operations, from any contents `W` of the buffers: the bilinear combination of the
    four neighbours, each read from the image's 65536 rows. -/
theorem tail_eq (W : Valuation τ sig (Elt F)) :
    after (List.flatten [hostOps1 (F := F), hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22, hostOps1_23, hostOps1_24, hostOps1_25, hostOps1_26, hostOps1_27, hostOps1_28, hostOps1_29, hostOps1_30, hostOps1_31, hostOps1_32]) W (Proc.devRef .tc main_v99)
      = CombK (W (Proc.devRef .tc main_v5_0)) (W (Proc.devRef .tc main_v5_1)) (W (Proc.devRef .tc main_v5_2)) (W (Proc.devRef .tc main_v5_3))
          (W (Proc.devRef .tc main_arg0)) := by
  rw [tail_split, Cert.After.after_append, Cert.After.after_append, Cert.After.after_append, Cert.After.after_append,
    Cert.After.after_append]
  rw [E_out]
  rw [D_tap, D_keep_v14, D_keep_v15, D_keep_v16, D_keep_v17, D_keep_v50, D_keep_v61, D_keep_v72]
  rw [C_tap, C_keep_v14, C_keep_v15, C_keep_v16, C_keep_v17, C_keep_v50, C_keep_v61, C_keep_v32, C_keep_v37, C_keep_v9, C_keep_v7, C_keep_v39]
  rw [B_tap, B_keep_v14, B_keep_v15, B_keep_v16, B_keep_v17, B_keep_v50, B_keep_v37, B_keep_v22, B_keep_v9, B_keep_v5_0, B_keep_v39, B_keep_v32, B_keep_v7]
  rw [A_tap, A_keep_v14, A_keep_v15, A_keep_v16, A_keep_v17, A_keep_v32, A_keep_v37, A_keep_v22, A_keep_v27, A_keep_v9, A_keep_v7, A_keep_v39, A_keep_v5_0, A_keep_v5_1]
  rw [P_v14, P_v15, P_v16, P_v17, P_v22, P_v27, P_v32, P_v37, P_v7, P_v9, P_v39, P_v40, P_c10, P_v5_0, P_v5_1]
  unfold CombK Comb gK rowsK keep both cI
  rfl

end Cert.KernelIdeal.KTail

end
-- ==== Proof.LibRowGather.lean ====
/-
  Whole rows of a table gathered at integer start indices, read at an entry.

  `x[idx]` of a table `x : [N, C]` at an integer array lowers to a gather that collapses the row axis, takes a slice of
  one row and all `C` columns, and reads the row's start off the index array. Result entry `(r, k)` — or `(r, e, k)`
  when the index array has two axes — is the table at column `k` of the row named by the start index, read as a signed
  integer and brought into `[0, N - 1]`: the gather clamps every start so that the slice fits. Stated for an index array
  laid out `[R, 1]` (one start per result row) and `[R, J, 1]` (a `J`-tuple of starts per result row), general in every
  extent and in the integers' width.
-/
import Idealize.ShloMosaic.PureOps.ShapeOps
import Idealize.ShloMosaic.PureOps.Dims
import Idealize.ShloMosaic.Lib.ValueIdx

noncomputable section

namespace Cert.RowGather

open Idealize.ShloMosaic Idealize.ShloMosaic.ValueIdx

variable {α : Type}

/-- The dimension numbers of a row gather at starts laid out `[R, 1]`. -/
abbrev dims2 (N C R : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- Entry `(r, k)` of the gathered rows is the table at column `k` of the clamped row `idx[r, 0]`. -/
theorem rows2_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (k : Fin C) :
    Host.gather (dims2 N C R wf) x idx (ix2 r k)
      = x (ix2 (⟨min (idx (ix2 r (0 : Fin 1))).toInt.toNat (N - 1), by omega⟩ : Fin N) k) := by
  unfold Host.gather
  refine congrArg x (funext fun a => Fin.ext ?_)
  match a with
  | ⟨0, _⟩ =>
    show (dims2 N C R wf).start (ix2 r k) idx 0 + (dims2 N C R wf).batchCoord (ix2 r k) 0 + (dims2 N C R wf).offCoord (ix2 r k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (dims2 N C R wf).startIndexMap from List.mem_singleton.mpr rfl)]
    have hsi : (dims2 N C R wf).siIdx (ix2 r k) ⟨List.idxOf (0 : Fin 2) (dims2 N C R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (dims2 N C R wf).start (ix2 r k) idx 1 + (dims2 N C R wf).batchCoord (ix2 r k) 1 + (dims2 N C R wf).offCoord (ix2 r k) 1 = _
    rw [GatherDims.batchCoord_eq_zero _ _ _ List.not_mem_nil]
    unfold GatherDims.start
    rw [dif_neg (show ¬ (1 : Fin 2) ∈ ([0] : List (Fin 2)) by decide)]
    unfold GatherDims.offCoord
    rw [dif_pos ((GatherDims.mem_sKept _ _).mpr ⟨(show ¬ (1 : Fin 2) ∈ ([0] : List (Fin 2)) by decide), List.not_mem_nil⟩)]
    simp only [Nat.zero_add]
    rfl

/-- The dimension numbers of a row gather at starts laid out `[R, J, 1]`. -/
abbrev dims3 (N C R J : Nat) (wf : GatherDims.WF ⟨2, ![N, C]⟩ ⟨3, ![R, J, 1]⟩ ⟨3, ![R, J, C]⟩ [2] [0] [] [0] [] 2 ![1, C]) :
    GatherDims ⟨2, ![N, C]⟩ ⟨3, ![R, J, 1]⟩ ⟨3, ![R, J, C]⟩ where
  offsetDims := [2]
  collapsedSliceDims := [0]
  operandBatchingDims := []
  startIndicesBatchingDims := []
  startIndexMap := [0]
  indexVectorDim := 2
  sliceSizes := ![1, C]
  wf := wf

/-- Entry `(r, e, k)` of the gathered rows is the table at column `k` of the clamped row `idx[r, e, 0]`. -/
theorem rows3_apply {N C R J w : Nat} (hN : 0 < N)
    (wf : GatherDims.WF ⟨2, ![N, C]⟩ ⟨3, ![R, J, 1]⟩ ⟨3, ![R, J, C]⟩ [2] [0] [] [0] [] 2 ![1, C])
    (x : (⟨2, ![N, C]⟩ : Shape).Idx → α) (idx : IVec ⟨3, ![R, J, 1]⟩ w) (r : Fin R) (e : Fin J) (k : Fin C) :
    Host.gather (dims3 N C R J wf) x idx (ix3 r e k)
      = x (ix2 (⟨min (idx (ix3 r e (0 : Fin 1))).toInt.toNat (N - 1), by omega⟩ : Fin N) k) := by
  unfold Host.gather
  refine congrArg x (funext fun a => Fin.ext ?_)
  match a with
  | ⟨0, _⟩ =>
    show (dims3 N C R J wf).start (ix3 r e k) idx 0 + (dims3 N C R J wf).batchCoord (ix3 r e k) 0 + (dims3 N C R J wf).offCoord (ix3 r e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (dims3 N C R J wf).startIndexMap from List.mem_singleton.mpr rfl)]
    have hsi : (dims3 N C R J wf).siIdx (ix3 r e k) ⟨List.idxOf (0 : Fin 2) (dims3 N C R J wf).startIndexMap,
        List.idxOf_lt_length_iff.2 (List.mem_singleton.mpr rfl)⟩ = ix3 r e (0 : Fin 1) := by
      funext b; refine Fin.ext ?_
      match b with
      | ⟨0, _⟩ => rfl
      | ⟨1, _⟩ => rfl
      | ⟨2, _⟩ => rfl
    rw [hsi]
    rfl
  | ⟨1, _⟩ =>
    show (dims3 N C R J wf).start (ix3 r e k) idx 1 + (dims3 N C R J wf).batchCoord (ix3 r e k) 1 + (dims3 N C R J wf).offCoord (ix3 r e k) 1 = _
    rw [GatherDims.batchCoord_eq_zero _ _ _ List.not_mem_nil]
    unfold GatherDims.start
    rw [dif_neg (show ¬ (1 : Fin 2) ∈ ([0] : List (Fin 2)) by decide)]
    unfold GatherDims.offCoord
    rw [dif_pos ((GatherDims.mem_sKept _ _).mpr ⟨(show ¬ (1 : Fin 2) ∈ ([0] : List (Fin 2)) by decide), List.not_mem_nil⟩)]
    simp only [Nat.zero_add]
    rfl

end Cert.RowGather

end
-- ==== Proof.LibReshape.lean ====
/-
  Re-laying an array in row-major order twice is re-laying it once.
-/
import Idealize.ShloMosaic.Lib.Pipeline.Value

namespace Cert.Reshape

open Idealize.ShloMosaic

variable {α : Type}

/-- A reshape of a reshape is the reshape to the last shape: every step keeps the row-major position. General in the
    three shapes and the element type. -/
theorem shapeCast_comp {s t u : Shape} (v : s.Idx → α) (h : s.ShapeCasts t) (h' : t.ShapeCasts u) (h'' : s.ShapeCasts u) :
    shapeCast u (shapeCast t v h) h' = shapeCast u v h'' :=
  funext fun i => congrArg v (by
    show Shape.reshapeEquiv _ (Shape.reshapeEquiv _ i) = Shape.reshapeEquiv _ i
    rw [Shape.reshapeEquiv_reshapeEquiv])

/-- The same with the composed fact built from the two given ones, so that it rewrites without an extra argument. -/
theorem shapeCast_comp' {s t u : Shape} (v : s.Idx → α) (h : s.ShapeCasts t) (h' : t.ShapeCasts u) :
    shapeCast u (shapeCast t v h) h' = shapeCast u v (h'.trans h) :=
  shapeCast_comp v h h' (h'.trans h)

/-- Two reshapes of one array agree at indices with the same row-major position. -/
theorem shapeCast_eq_of_pos {s t u : Shape} (v : s.Idx → α) (h : s.ShapeCasts t) (h' : s.ShapeCasts u) (i : t.Idx) (j : u.Idx)
    (e : (t.rowMajor i).val = (u.rowMajor j).val) : shapeCast t v h i = shapeCast u v h' j :=
  congrArg v (Shape.reshapeEquiv_eq_of_rowMajor h ((Shape.rowMajor_reshapeEquiv h' j).trans e.symm))

end Cert.Reshape
-- ==== Proof.GatherWord.lean ====
/-
  Words: the 32-bit arithmetic of the row numbers, and the row lookup's guards on a row number inside the table.

  A 32-bit word whose unsigned reading is below 2^31 reads the same signed and unsigned. For y, x below 256 the word
  y * 256 + x has no overflow and reads y * 256 + x < 65536; with b below 176 the word ((b * 256) + y) * 256 + x reads
  (b * 256 + y) * 256 + x < 176 * 65536. On a row number that is not negative the shift of negative row numbers is the
  identity, and on one between 0 and the last row the range test passes.
-/
import Idealize.ShloMosaic.Lib.Affine
import Idealize.ShloMosaic.Lib.ValueIdx

namespace Cert.Bridge.Word

open Idealize.ShloMosaic

/-- Below 2^31 the signed reading is the unsigned one. -/
theorem toInt_of_lt {v : BitVec 32} (h : v.toNat < 2147483648) : v.toInt = (v.toNat : Int) :=
  BitVec.toInt_eq_toNat_of_lt (by omega)

/-- A word whose signed reading lies in [0, 256) reads below 256 unsigned. -/
theorem toNat_lt_of_toInt {v : BitVec 32} (h0 : 0 ≤ v.toInt) (h1 : v.toInt < 256) : v.toNat < 256 := by
  rw [BitVec.toInt_eq_toNat_cond] at h0 h1
  have := v.isLt
  split at h0 <;> omega

/-- The selected coordinate: the coordinate where the condition holds, 0 elsewhere; it reads below 256 when the
    coordinate does wherever the condition holds. -/
theorem keep_lt (c : BitVec 1) (a : BitVec 32) (h : c = 1#1 → 0 ≤ a.toInt ∧ a.toInt < 256) :
    (Scalar.select c a 0#32).toNat < 256 := by
  rcases BitVec.eq_zero_or_eq_one c with hc | hc
  · subst hc; rw [ValueIdx.select_zero]; decide
  · subst hc; rw [ValueIdx.select_one]; exact toNat_lt_of_toInt (h rfl).1 (h rfl).2

/-- y * 256 + x without overflow. -/
theorem row_small (y x : BitVec 32) (hy : y.toNat < 256) (hx : x.toNat < 256) :
    (IntOp.addi (IntOp.muli y 256#32) x).toNat = y.toNat * 256 + x.toNat := by
  show ((y.toNat * 256) % 2 ^ 32 + x.toNat) % 2 ^ 32 = _
  omega

/-- (b * 256 + y) * 256 + x without overflow, b the word of a number below 176. -/
theorem row_big (b : Nat) (y x : BitVec 32) (hb : b < 176) (hy : y.toNat < 256) (hx : x.toNat < 256) :
    (IntOp.addi (IntOp.muli (IntOp.addi (IntOp.muli (BitVec.ofNat 32 b) 256#32) y) 256#32) x).toNat
      = (b * 256 + y.toNat) * 256 + x.toNat := by
  show ((((b % 2 ^ 32 * 256) % 2 ^ 32 + y.toNat) % 2 ^ 32 * 256) % 2 ^ 32 + x.toNat) % 2 ^ 32 = _
  omega

/-- On a row number that is not negative the shift of negative row numbers does nothing. -/
theorem shift_of_nonneg (v c : BitVec 32) (h : v.toNat < 2147483648) :
    Scalar.select (IntOp.cmpi .slt v 0#32) (IntOp.addi v c) v = v := by
  have hn : ¬ IntOp.cmpi .slt v 0#32 = 1#1 := by
    rw [IntOp.cmpi_slt, toInt_of_lt h, BitVec.toInt_zero]; omega
  exact if_neg hn

/-- A row number between 0 and the last row passes the range test. -/
theorem guard_of_le (v c1 : BitVec 32) (h1 : c1.toNat < 2147483648) (h : v.toNat ≤ c1.toNat) :
    IntOp.andi (IntOp.cmpi .sge v 0#32) (IntOp.cmpi .sle v c1) = 1#1 := by
  have hv : v.toNat < 2147483648 := by omega
  refine IntOp.andi_eq_one.2 ⟨IntOp.cmpi_sge.2 ?_, IntOp.cmpi_sle.2 ?_⟩
  · rw [toInt_of_lt hv, BitVec.toInt_zero]; omega
  · rw [toInt_of_lt hv, toInt_of_lt h1]; omega

end Cert.Bridge.Word
-- ==== Proof.GatherTake.lean ====
/-
  The row lookup read at an entry.

  The lookup of a table of M rows and 3 columns at one row number per sampling point: where the row number lies in
  [0, M) the shift of negative row numbers does nothing, the range test over the row number's single column passes
  (an and over one element), the clamp does nothing, and entry (n, k) of the result is the table's entry (r, k), r the
  row number at point n.
-/
import proofs.«115037_j71897752535328_2_alg».proof.Proof.Spec
import proofs.«115037_j71897752535328_2_alg».proof.Proof.LibRowGather
import proofs.«115037_j71897752535328_2_alg».proof.Proof.GatherWord
import Idealize.ShloMosaic.Lib.ValueIdx
import Idealize.ShloMosaic.Lib.Pipeline.Value
import Idealize.ShloMosaic.Lib.ReduceAll

noncomputable section

namespace Cert.Bridge

open Cert.KernelIdeal Cert.KernelIdeal.Gen Idealize.ShloMosaic Idealize.ShloMosaic.ValueIdx

variable {F : FTy → Type} [FloatOps F]

/-- The row numbers with the negative ones moved up by `cM`. -/
def shifted (cM : BitVec 32) (idx : IVec S11534336 32) : IVec S11534336 32 :=
  select (cmpi .slt idx (broadcastInDim S11534336 ![] bcast_S_S11534336 (constantI S_ 32 0#32)))
    (addi idx (broadcastInDim S11534336 ![] bcast_S_S11534336 (constantI S_ 32 cM))) idx

/-- One row number per point as a column of width 1. -/
def col (s : IVec S11534336 32) : IVec S11534336x1 32 :=
  broadcastInDim S11534336x1 ![0] bcast_S11534336_S11534336x1_0 s

/-- The range test 0 ≤ row number ≤ `cM1` on the column. -/
def inRange (cM1 : BitVec 32) (c : IVec S11534336x1 32) : IVec S11534336x1 1 :=
  andi
    (cmpi .sge c (broadcastInDim S11534336x1 ![] bcast_S_S11534336x1 (constantI S_ 32 0#32)))
    (cmpi .sle c
      (broadcastInDim S11534336x1 ![0, 1] bcast_S1x1_S11534336x1_0_1
        (broadcastInDim S1x1 ![1] bcast_S1_S1x1_1 (constantI S1 32 cM1))))

/-- The range test and-ed over the column's one entry, repeated over the 3 channels. -/
def guard (cM1 : BitVec 32) (c : IVec S11534336x1 32) : IVec S11534336x3 1 :=
  broadcastInDim S11534336x3 ![0] bcast_S11534336_S11534336x3_0
    (Host.reduce IntOp.andi (inRange cM1 c) (constantI S_ 1 1#1) reducesTo_S11534336x1_S11534336_d1 h_S_)

/-- The lookup in these words. -/
theorem takeRows_eq {M : Nat} (dims : GatherDims ⟨2, ![M, 3]⟩ S11534336x1 S11534336x3) (cM cM1 : BitVec 32)
    (tbl : FVec F ⟨2, ![M, 3]⟩ .f32) (idx : IVec S11534336 32) :
    takeRows dims cM cM1 tbl idx
      = select (guard cM1 (col (shifted cM idx))) (Host.gather dims tbl (col (shifted cM idx)))
          (broadcastInDim S11534336x3 ![] bcast_S_S11534336x3 (constant S_ .f32 0x7FC00000#32)) := rfl

/-- The shifted row number at a point. -/
theorem shifted_apply (cM : BitVec 32) (idx : IVec S11534336 32) (n : Fin 11534336) :
    shifted cM idx (ix1 n)
      = Scalar.select (IntOp.cmpi .slt (idx (ix1 n)) 0#32) (IntOp.addi (idx (ix1 n)) cM) (idx (ix1 n)) := rfl

/-- The column's entry is the point's row number. -/
theorem col_apply (s : IVec S11534336 32) (n : Fin 11534336) (e : Fin 1) : col s (ix2 n e) = s (ix1 n) := by
  unfold col
  refine broadcastInDim_apply _ _ s (ix2 n e) (ix1 n) fun a => ?_
  match a with
  | ⟨0, _⟩ => rfl

/-- The range test at an entry of the column. -/
theorem inRange_apply (cM1 : BitVec 32) (c : IVec S11534336x1 32) (n : Fin 11534336) (e : Fin 1) :
    inRange cM1 c (ix2 n e)
      = IntOp.andi (IntOp.cmpi .sge (c (ix2 n e)) 0#32) (IntOp.cmpi .sle (c (ix2 n e)) cM1) := rfl

/-- An and-reduction of a column of width 1 along its row is the column's entry. -/
theorem reduce_unit (x : IVec S11534336x1 1) (n : Fin 11534336) :
    Host.reduce IntOp.andi x (constantI S_ 1 1#1) reducesTo_S11534336x1_S11534336_d1 h_S_ (ix1 n) = x (ix2 n (0 : Fin 1)) := by
  rw [Host.reduce_eq_fold]
  have hs : (Finset.univ.filter fun i : S11534336x1.Idx => reducesTo_S11534336x1_S11534336_d1.drop i = ix1 n)
      = {ix2 n (0 : Fin 1)} := by
    ext i
    simp only [Finset.mem_filter, Finset.mem_univ, true_and, Finset.mem_singleton]
    obtain ⟨a, e, rfl⟩ : ∃ (a : Fin 11534336) (e : Fin 1), i = ix2 a e := ⟨i 0, i 1, eq_ix2 i⟩
    have he : e = 0 := Fin.ext (by omega)
    subst he
    have hd : (reducesTo_S11534336x1_S11534336_d1.drop (ix2 a (0 : Fin 1)) 0 : Nat) = a.val :=
      Shape.ReducesTo.drop_apply_val_of_eq reducesTo_S11534336x1_S11534336_d1 (ix2 a (0 : Fin 1)) 0 0
    constructor
    · intro h
      have h0 : (reducesTo_S11534336x1_S11534336_d1.drop (ix2 a (0 : Fin 1)) 0 : Nat) = n.val := by rw [h]
      have : a = n := Fin.ext (hd.symm.trans h0)
      rw [this]
    · intro h
      have : a = n := by
        have := congrFun h 0
        exact this
      subst this
      funext b
      match b with
      | ⟨0, _⟩ => exact Fin.ext hd
  rw [hs, Finset.fold_singleton]
  show IntOp.andi (x (ix2 n 0)) 1#1 = x (ix2 n 0)
  rcases BitVec.eq_zero_or_eq_one (x (ix2 n 0)) with h | h <;> rw [h] <;> decide

/-- The guard passes at a point whose column entry lies between 0 and the last row. -/
theorem guard_apply (cM1 : BitVec 32) (c : IVec S11534336x1 32) (n : Fin 11534336) (k : Fin 3)
    (h1 : cM1.toNat < 2147483648) (h : (c (ix2 n (0 : Fin 1))).toNat ≤ cM1.toNat) : guard cM1 c (ix2 n k) = 1#1 := by
  unfold guard
  refine (broadcastInDim_apply _ _ _ (ix2 n k) (ix1 n) fun a => ?_).trans ?_
  · match a with
    | ⟨0, _⟩ => rfl
  · rw [reduce_unit, inRange_apply]
    exact Word.guard_of_le _ _ h1 h

/-- The not-a-number row is never read and the clamp never acts where the row number lies in the table: entry (n, k) of
    the lookup is the table's entry (r, k), r the row number at point n. -/
theorem takeRows_apply {M : Nat}
    (wf : GatherDims.WF ⟨2, ![M, 3]⟩ ⟨2, ![11534336, 1]⟩ ⟨2, ![11534336, 3]⟩ [1] [0] [] [0] [] 1 ![1, 3])
    (cM cM1 : BitVec 32) (hM : M ≤ 2147483648) (hcM1 : cM1.toNat = M - 1)
    (tbl : FVec F ⟨2, ![M, 3]⟩ .f32) (idx : IVec S11534336 32) (n : Fin 11534336) (k : Fin 3) (r : Fin M)
    (hr : (idx (ix1 n)).toNat = r.val) :
    takeRows (Cert.RowGather.dims2 M 3 11534336 wf) cM cM1 tbl idx (ix2 n k) = tbl (ix2 r k) := by
  have hrM := r.isLt
  have hv : (idx (ix1 n)).toNat < 2147483648 := by omega
  have hc : col (shifted cM idx) (ix2 n (0 : Fin 1)) = idx (ix1 n) := by
    rw [col_apply, shifted_apply]; exact Word.shift_of_nonneg _ _ hv
  rw [takeRows_eq, select_apply, guard_apply cM1 _ n k (by omega) (by rw [hc]; omega), select_one,
    Cert.RowGather.rows2_apply (by omega) wf tbl _ n k]
  refine congrArg tbl (congrArg (fun q => ix2 q k) (Fin.ext ?_))
  show min (col (shifted cM idx) (ix2 n (0 : Fin 1))).toInt.toNat (M - 1) = r.val
  rw [hc, Word.toInt_of_lt hv]
  omega

end Cert.Bridge

end
-- ==== Proof.GatherIdx.lean ====
/-
  Row numbers and tables at a point.

  The sampling point (b, i, j) has row-major position (b * 256 + i) * 256 + j among the 176 * 256 * 256 points. At that
  position the first program's row number is the word y * 256 + x and the second's the word ((b * 256) + y) * 256 + x,
  y and x the selected coordinates at the point. Row y * 256 + x of the image as 65536 rows and row
  (b * 256 + y) * 256 + x of the 176 copies as 176 * 65536 rows are both pixel (y, x) of the image.
-/
import proofs.«115037_j71897752535328_2_alg».proof.Proof.Spec
import Idealize.ShloMosaic.Lib.ValueIdx
import Idealize.ShloMosaic.Lib.Pipeline.Value
import Idealize.ShloMosaic.Lib.IdealHost

noncomputable section

namespace Cert.Bridge

open Cert.KernelIdeal Cert.KernelIdeal.Gen Idealize.ShloMosaic Idealize.ShloMosaic.ValueIdx

variable {F : FTy → Type} [FloatOps F]

/-- The selected coordinate at a point. -/
theorem keep_apply (m : IVec S176x256x256 1) (a : IVec S176x256x256 32) (p : S176x256x256.Idx) :
    keep m a p = Scalar.select (m p) (a p) 0#32 := rfl

/-- 256 times the grid number, at a point of grid b. -/
theorem gridBase_apply (b : Fin 176) (i j : Fin 256) :
    gridBase (ix3 b i j) = IntOp.muli (BitVec.ofNat 32 b.val) 256#32 := by
  unfold gridBase
  refine (broadcastInDim_apply _ _ _ (ix3 b i j) (ix3 b (0 : Fin 1) (0 : Fin 1)) fun a => ?_).trans ?_
  · match a with
    | ⟨0, _⟩ => rfl
    | ⟨1, _⟩ => rfl
    | ⟨2, _⟩ => rfl
  · show IntOp.muli
        (broadcastInDim Cert.ReferenceIdeal.S176x1x1 ![0] Cert.ReferenceIdeal.Gen.bcast_S176_S176x1x1_0
          (iotaInDim Cert.ReferenceIdeal.S176 32 0) (ix3 b (0 : Fin 1) (0 : Fin 1))) 256#32 = _
    refine congrArg (fun w => IntOp.muli w 256#32) ?_
    refine (broadcastInDim_apply _ _ _ (ix3 b (0 : Fin 1) (0 : Fin 1)) (ix1 b) fun a => ?_).trans ?_
    · match a with
      | ⟨0, _⟩ => rfl
    · rfl

/-- The first program's row number at the point with row-major position n. -/
theorem rowsK_apply (m : IVec S176x256x256 1) (yi xi : IVec S176x256x256 32) (b : Fin 176) (i j : Fin 256)
    (n : Fin 11534336) (hn : n.val = (b.val * 256 + i.val) * 256 + j.val) :
    rowsK m yi xi (ix1 n)
      = IntOp.addi (IntOp.muli (keep m yi (ix3 b i j)) 256#32) (keep m xi (ix3 b i j)) := by
  unfold rowsK
  refine (shapeCast_apply _ _ (ix1 n) (ix3 b i j) ?_).trans rfl
  rw [Shape.rowMajor_val_three, Shape.rowMajor_val_one]
  show (b.val * 256 + i.val) * 256 + j.val = n.val
  omega

/-- The second program's row number at the point with row-major position n. -/
theorem rowsR_apply (m : IVec S176x256x256 1) (yi xi : IVec S176x256x256 32) (b : Fin 176) (i j : Fin 256)
    (n : Fin 11534336) (hn : n.val = (b.val * 256 + i.val) * 256 + j.val) :
    rowsR m yi xi (ix1 n)
      = IntOp.addi (IntOp.muli (IntOp.addi (IntOp.muli (BitVec.ofNat 32 b.val) 256#32) (keep m yi (ix3 b i j))) 256#32)
          (keep m xi (ix3 b i j)) := by
  unfold rowsR
  refine (shapeCast_apply _ _ (ix1 n) (ix3 b i j) ?_).trans ?_
  · rw [Shape.rowMajor_val_three, Shape.rowMajor_val_one]
    show (b.val * 256 + i.val) * 256 + j.val = n.val
    omega
  · show IntOp.addi (IntOp.muli (IntOp.addi (gridBase (ix3 b i j)) (keep m yi (ix3 b i j))) 256#32)
        (keep m xi (ix3 b i j)) = _
    rw [gridBase_apply]

/-- Row y * 256 + x of the image as 65536 rows is pixel (y, x). -/
theorem tblK_apply (src : FVec F S1x256x256x3 .f32) (y x : Fin 256) (k : Fin 3) (r : Fin 65536)
    (hr : r.val = y.val * 256 + x.val) : tblK src (ix2 r k) = src (ix4 (0 : Fin 1) y x k) := by
  unfold tblK
  refine (shapeCast_apply _ _ (ix2 r k) (ix3 y x k) ?_).trans ?_
  · rw [Shape.rowMajor_val_three, Shape.rowMajor_val_two]
    show (y.val * 256 + x.val) * 3 + k.val = r.val * 3 + k.val
    omega
  · refine shapeCast_apply _ _ (ix3 y x k) (ix4 (0 : Fin 1) y x k) ?_
    rw [Shape.rowMajor_val_four, Shape.rowMajor_val_three]
    show (((0 : Nat) * 256 + y.val) * 256 + x.val) * 3 + k.val = (y.val * 256 + x.val) * 3 + k.val
    omega

/-- Row (b * 256 + y) * 256 + x of the 176 copies as 176 * 65536 rows is pixel (y, x). -/
theorem tblR_apply (src : FVec F S1x256x256x3 .f32) (b : Fin 176) (y x : Fin 256) (k : Fin 3) (r : Fin 11534336)
    (hr : r.val = (b.val * 256 + y.val) * 256 + x.val) : tblR src (ix2 r k) = src (ix4 (0 : Fin 1) y x k) := by
  unfold tblR
  refine (shapeCast_apply _ _ (ix2 r k) (ix4 b y x k) ?_).trans ?_
  · rw [Shape.rowMajor_val_four, Shape.rowMajor_val_two]
    show ((b.val * 256 + y.val) * 256 + x.val) * 3 + k.val = r.val * 3 + k.val
    omega
  · refine (broadcastInDim_apply _ _ _ (ix4 b y x k) (ix3 y x k) fun a => ?_).trans ?_
    · match a with
      | ⟨0, _⟩ => rfl
      | ⟨1, _⟩ => rfl
      | ⟨2, _⟩ => rfl
    · refine shapeCast_apply _ _ (ix3 y x k) (ix4 (0 : Fin 1) y x k) ?_
      rw [Shape.rowMajor_val_four, Shape.rowMajor_val_three]
      show (((0 : Nat) * 256 + y.val) * 256 + x.val) * 3 + k.val = (y.val * 256 + x.val) * 3 + k.val
      omega

end Cert.Bridge

end
-- ==== Proof.Gather.lean ====
/-
  The two row lookups return the same array.

  A sampling point p = (b, i, j) of the 176 x 256 x 256 points has row-major position n = (b * 256 + i) * 256 + j. With
  y, x the two sanitised coordinates at p (each in [0, 256)), one program looks up row y * 256 + x of the image laid out
  as 65536 rows of 3 channels, the other row (b * 256 + y) * 256 + x of 176 copies of the image laid out as 176 * 65536
  rows. Both row numbers lie inside their tables, so neither the shift of negative row numbers nor the not-a-number
  guard nor the clamp changes anything, and both rows are pixel (y, x) of the image.
-/
import proofs.«115037_j71897752535328_2_alg».proof.Proof.Spec
import proofs.«115037_j71897752535328_2_alg».proof.Proof.LibRowGather
import proofs.«115037_j71897752535328_2_alg».proof.Proof.LibReshape
import proofs.«115037_j71897752535328_2_alg».proof.Proof.GatherWord
import proofs.«115037_j71897752535328_2_alg».proof.Proof.GatherTake
import proofs.«115037_j71897752535328_2_alg».proof.Proof.GatherIdx
import Idealize.ShloMosaic.Lib.ValueIdx
import Idealize.ShloMosaic.Lib.Pipeline.Value
import Idealize.ShloMosaic.Lib.ReduceAll
import Idealize.ShloMosaic.Lib.IdealHost

noncomputable section

namespace Cert.Bridge

open Cert.KernelIdeal Cert.KernelIdeal.Gen Idealize.ShloMosaic Idealize.ShloMosaic.ValueIdx

variable {F : FTy → Type} [FloatOps F]

/-- A coordinate that lies in the image is in [0, 256) as a signed integer: -1 < a and a < 256. -/
theorem inImg_range (a : IVec S176x256x256 32) (p : S176x256x256.Idx) (h : inImg a p = 1#1) :
    0 ≤ (a p).toInt ∧ (a p).toInt < 256 := by
  have h' : IntOp.andi (IntOp.cmpi .sgt (a p) 4294967295#32) (IntOp.cmpi .slt (a p) 256#32) = 1#1 := h
  obtain ⟨h1, h2⟩ := IntOp.andi_eq_one.1 h'
  have h1' := IntOp.cmpi_sgt.1 h1
  have h2' := IntOp.cmpi_slt.1 h2
  rw [show (4294967295#32 : BitVec 32).toInt = -1 from by decide] at h1'
  rw [show (256#32 : BitVec 32).toInt = 256 from by decide] at h2'
  omega

/-- Where both coordinates lie in the image, each is in [0, 256) as a signed integer. -/
theorem both_range (a b : IVec S176x256x256 32) (p : S176x256x256.Idx) (h : both a b p = 1) :
    (0 ≤ (a p).toInt ∧ (a p).toInt < 256) ∧ (0 ≤ (b p).toInt ∧ (b p).toInt < 256) := by
  have h' : IntOp.andi (inImg a p) (inImg b p) = 1#1 := h
  obtain ⟨ha, hb⟩ := IntOp.andi_eq_one.1 h'
  exact ⟨inImg_range a p ha, inImg_range b p hb⟩

/-- The first program's lookup dimension numbers are those of a row lookup at one start per result row. -/
theorem gatherK_eq : gather_S65536x3_S11534336x1_S11534336x3_1_0_n_n_0_1_13
    = Cert.RowGather.dims2 65536 3 11534336 gather_S65536x3_S11534336x1_S11534336x3_1_0_n_n_0_1_13_wf := rfl

/-- So are the second program's. -/
theorem gatherR_eq : Cert.ReferenceIdeal.gather_S11534336x3_S11534336x1_S11534336x3_1_0_n_n_0_1_13
    = Cert.RowGather.dims2 11534336 3 11534336
        Cert.ReferenceIdeal.Gen.gather_S11534336x3_S11534336x1_S11534336x3_1_0_n_n_0_1_13_wf := rfl

/-- The two lookups agree: row y*256+x of the image's 65536 rows is row (b*256+y)*256+x of the 176 copies' rows, for sanitised y, x. -/
theorem take_eq (src : FVec F S1x256x256x3 .f32) (m : IVec S176x256x256 1) (yi xi : IVec S176x256x256 32)
    (hy : ∀ p, m p = 1 → 0 ≤ (yi p).toInt ∧ (yi p).toInt < 256) (hx : ∀ p, m p = 1 → 0 ≤ (xi p).toInt ∧ (xi p).toInt < 256) :
    takeRows gather_S65536x3_S11534336x1_S11534336x3_1_0_n_n_0_1_13 65536#32 65535#32 (tblK src) (rowsK m yi xi)
      = takeRows Cert.ReferenceIdeal.gather_S11534336x3_S11534336x1_S11534336x3_1_0_n_n_0_1_13 11534336#32 11534335#32 (tblR src) (rowsR m yi xi) := by
  rw [gatherK_eq, gatherR_eq]
  funext q
  obtain ⟨n, k, rfl⟩ : ∃ (n : Fin 11534336) (k : Fin 3), q = ix2 n k := ⟨q 0, q 1, eq_ix2 q⟩
  -- the sampling point with row-major position n
  obtain ⟨b, i, j, hn⟩ : ∃ (b : Fin 176) (i j : Fin 256), n.val = (b.val * 256 + i.val) * 256 + j.val :=
    ⟨⟨n.val / 65536, by omega⟩, ⟨n.val / 256 % 256, by omega⟩, ⟨n.val % 256, by omega⟩, by
      show n.val = (n.val / 65536 * 256 + n.val / 256 % 256) * 256 + n.val % 256
      omega⟩
  -- the two selected coordinates at the point read below 256
  have hY : (keep m yi (ix3 b i j)).toNat < 256 := Word.keep_lt _ _ (hy _)
  have hX : (keep m xi (ix3 b i j)).toNat < 256 := Word.keep_lt _ _ (hx _)
  have hK := rowsK_apply m yi xi b i j n hn
  have hR := rowsR_apply m yi xi b i j n hn
  generalize keep m yi (ix3 b i j) = Y at hY hK hR
  generalize keep m xi (ix3 b i j) = X at hX hK hR
  -- the two row numbers, without overflow
  have eK : (rowsK m yi xi (ix1 n)).toNat = Y.toNat * 256 + X.toNat := by
    rw [hK]; exact Word.row_small Y X hY hX
  have eR : (rowsR m yi xi (ix1 n)).toNat = (b.val * 256 + Y.toNat) * 256 + X.toNat := by
    rw [hR]; exact Word.row_big b.val Y X b.isLt hY hX
  have hb := b.isLt
  -- both lookups read pixel (Y, X)
  refine (takeRows_apply _ 65536#32 65535#32 (by omega) (by decide) (tblK src) (rowsK m yi xi) n k
    ⟨Y.toNat * 256 + X.toNat, by omega⟩ eK).trans ?_
  refine Eq.trans ?_ (takeRows_apply _ 11534336#32 11534335#32 (by omega) (by decide) (tblR src) (rowsR m yi xi) n k
    ⟨(b.val * 256 + Y.toNat) * 256 + X.toNat, by omega⟩ eR).symm
  rw [tblK_apply src ⟨Y.toNat, hY⟩ ⟨X.toNat, hX⟩ k _ rfl, tblR_apply src b ⟨Y.toNat, hY⟩ ⟨X.toNat, hX⟩ k _ rfl]

end Cert.Bridge

end
-- ==== Proof.RefStages.lean ====
/-
  The reference's operations cut into six consecutive stages — a prelude, one stage per neighbour of the cell, the final
  combination — and what one stage passes to the next.

  The fold of a concatenation is the fold of its parts in turn, so the value of the result buffer is found stage by stage,
  each stage read over arbitrary contents of the buffers. A stage writes exactly the result buffers of its operations; a
  buffer not among them holds after the stage what it held before. The per-neighbour stages all compute one function of
  six buffers (`tapOf`): two one-axis masks, the two coordinates, the grid numbers and the table; the last stage computes
  one function of the four weights and the four neighbours' values (`combOf`).
-/
import proofs.«115037_j71897752535328_2_alg».proof.Proof.RefOps
import proofs.«115037_j71897752535328_2_alg».proof.Proof.Spec2
import proofs.«115037_j71897752535328_2_alg».proof.Proof.LibTypedRef
import Idealize.ShloMosaic.Lib.StableHlo.Run

-- the shapes' literal extents (11534336 rows) are compared by unfolding when two spellings of one type are matched
set_option maxRecDepth 200000

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The stages -/

/-- The prelude: from the two arguments, the pixel coordinates, their floors (the cell corner) and fractional parts, the four bilinear weights, the four one-axis masks, the table of the 176 copies of the image, and the grid numbers. Operations 1 … 78 of the 290. -/
def stage0 : List (HloOp τ sig (Elt F)) :=
  [ StableHlo.reshape main_arg0 main_v0 rfl shapeCasts_S1x256x256x3_S256x256x3,
    StableHlo.unary main_v0 main_v1 (broadcastInDim S176x256x256x3 ![1, 2, 3] bcast_S256x256x3_S176x256x256x3_1_2_3 : (⟨S256x256x3, .f32⟩ : BufTy).Contents (Elt F) → (⟨S176x256x256x3, .f32⟩ : BufTy).Contents (Elt F)),
    StableHlo.reshape main_arg1 main_v2 rfl shapeCasts_S16x11x256x256x2_S176x256x256x2,
    StableHlo.unary main_v2 main_v3 ((extractStridedSlice S176x256x256x1 ![0, 0, 0, 0] · slices_S176x256x256x2_S176x256x256x1_0_0_0_0) : (⟨S176x256x256x2, .f32⟩ : BufTy).Contents (Elt F) → (⟨S176x256x256x1, .f32⟩ : BufTy).Contents (Elt F)),
    StableHlo.reshape main_v3 main_v4 rfl shapeCasts_S176x256x256x1_S176x256x256,
    StableHlo.nullary main_cst (constant S_ .f32 0x3F800000#32),
    StableHlo.unary main_cst main_v5 (broadcastInDim S176x256x256 ![] bcast_S_S176x256x256 : (⟨S_, .f32⟩ : BufTy).Contents (Elt F) → (⟨S176x256x256, .f32⟩ : BufTy).Contents (Elt F)),
    StableHlo.binary main_v4 main_v5 main_v6 (addf : (⟨S176x256x256, .f32⟩ : BufTy).Contents (Elt F) → (⟨S176x256x256, .f32⟩ : BufTy).Contents (Elt F) → (⟨S176x256x256, .f32⟩ : BufTy).Contents (Elt F)),
    StableHlo.nullary main_cst_0 (constant S_ .f32 0x43000000#32),
    StableHlo.unary main_cst_0 main_v7 (broadcastInDim S176x256x256 ![] bcast_S_S176x256x256 : (⟨S_, .f32⟩ : BufTy).Contents (Elt F) → (⟨S176x256x256, .f32⟩ : BufTy).Contents (Elt F)),
    StableHlo.binary main_v6 main_v7 main_v8 (mulf : (⟨S176x256x256, .f32⟩ : BufTy).Contents (Elt F) → (⟨S176x256x256, .f32⟩ : BufTy).Contents (Elt F) → (⟨S176x256x256, .f32⟩ : BufTy).Contents (Elt F)),
    StableHlo.nullary main_cst_1 (constant S_ .f32 0x3F000000#32),
    StableHlo.unary main_cst_1 main_v9 (broadcastInDim S176x256x256 ![] bcast_S_S176x256x256 : (⟨S_, .f32⟩ : BufTy).Contents (Elt F) → (⟨S176x256x256, .f32⟩ : BufTy).Contents (Elt F)),
    StableHlo.binary main_v8 main_v9 main_v10 (subf : (⟨S176x256x256, .f32⟩ : BufTy).Contents (Elt F) → (⟨S176x256x256, .f32⟩ : BufTy).Contents (Elt F) → (⟨S176x256x256, .f32⟩ : BufTy).Contents (Elt F)),
    StableHlo.unary main_v2 main_v11 ((extractStridedSlice S176x256x256x1 ![0, 0, 0, 1] · slices_S176x256x256x2_S176x256x256x1_0_0_0_1) : (⟨S176x256x256x2, .f32⟩ : BufTy).Contents (Elt F) → (⟨S176x256x256x1, .f32⟩ : BufTy).Contents (Elt F)),
    StableHlo.reshape main_v11 main_v12 rfl shapeCasts_S176x256x256x1_S176x256x256,
    StableHlo.nullary main_cst_2 (constant S_ .f32 0x3F800000#32),
    StableHlo.unary main_cst_2 main_v13 (broadcastInDim S176x256x256 ![] bcast_S_S176x256x256 : (⟨S_, .f32⟩ : BufTy).Contents (Elt F) → (⟨S176x256x256, .f32⟩ : BufTy).Contents (Elt F)),
    StableHlo.binary main_v12 main_v13 main_v14 (addf : (⟨S176x256x256, .f32⟩ : BufTy).Contents (Elt F) → (⟨S176x256x256, .f32⟩ : BufTy).Contents (Elt F) → (⟨S176x256x256, .f32⟩ : BufTy).Contents (Elt F)),
    StableHlo.nullary main_cst_3 (constant S_ .f32 0x43000000#32),
    StableHlo.unary main_cst_3 main_v15 (broadcastInDim S176x256x256 ![] bcast_S_S176x256x256 : (⟨S_, .f32⟩ : BufTy).Contents (Elt F) → (⟨S176x256x256, .f32⟩ : BufTy).Contents (Elt F)),
    StableHlo.binary main_v14 main_v15 main_v16 (mulf : (⟨S176x256x256, .f32⟩ : BufTy).Contents (Elt F) → (⟨S176x256x256, .f32⟩ : BufTy).Contents (Elt F) → (⟨S176x256x256, .f32⟩ : BufTy).Contents (Elt F)),
    StableHlo.nullary main_cst_4 (constant S_ .f32 0x3F000000#32),
    StableHlo.unary main_cst_4 main_v17 (broadcastInDim S176x256x256 ![] bcast_S_S176x256x256 : (⟨S_, .f32⟩ : BufTy).Contents (Elt F) → (⟨S176x256x256, .f32⟩ : BufTy).Contents (Elt F)),
    StableHlo.binary main_v16 main_v17 main_v18 (subf : (⟨S176x256x256, .f32⟩ : BufTy).Contents (Elt F) → (⟨S176x256x256, .f32⟩ : BufTy).Contents (Elt F) → (⟨S176x256x256, .f32⟩ : BufTy).Contents (Elt F)),
    StableHlo.unary main_v10 main_v19 (Host.floor : (⟨S176x256x256, .f32⟩ : BufTy).Contents (Elt F) → (⟨S176x256x256, .f32⟩ : BufTy).Contents (Elt F)),
    StableHlo.unary main_v18 main_v20 (Host.floor : (⟨S176x256x256, .f32⟩ : BufTy).Contents (Elt F) → (⟨S176x256x256, .f32⟩ : BufTy).Contents (Elt F)),
    StableHlo.binary main_v10 main_v19 main_v21 (subf : (⟨S176x256x256, .f32⟩ : BufTy).Contents (Elt F) → (⟨S176x256x256, .f32⟩ : BufTy).Contents (Elt F) → (⟨S176x256x256, .f32⟩ : BufTy).Contents (Elt F)),
    StableHlo.binary main_v18 main_v20 main_v22 (subf : (⟨S176x256x256, .f32⟩ : BufTy).Contents (Elt F) → (⟨S176x256x256, .f32⟩ : BufTy).Contents (Elt F) → (⟨S176x256x256, .f32⟩ : BufTy).Contents (Elt F)),
    StableHlo.nullary main_cst_5 (constant S_ .f32 0x3F800000#32),
    StableHlo.unary main_cst_5 main_v23 (broadcastInDim S176x256x256 ![] bcast_S_S176x256x256 : (⟨S_, .f32⟩ : BufTy).Contents (Elt F) → (⟨S176x256x256, .f32⟩ : BufTy).Contents (Elt F)),
    StableHlo.binary main_v23 main_v21 main_v24 (subf : (⟨S176x256x256, .f32⟩ : BufTy).Contents (Elt F) → (⟨S176x256x256, .f32⟩ : BufTy).Contents (Elt F) → (⟨S176x256x256, .f32⟩ : BufTy).Contents (Elt F)),
    StableHlo.nullary main_cst_6 (constant S_ .f32 0x3F800000#32),
    StableHlo.unary main_cst_6 main_v25 (broadcastInDim S176x256x256 ![] bcast_S_S176x256x256 : (⟨S_, .f32⟩ : BufTy).Contents (Elt F) → (⟨S176x256x256, .f32⟩ : BufTy).Contents (Elt F)),
    StableHlo.binary main_v25 main_v22 main_v26 (subf : (⟨S176x256x256, .f32⟩ : BufTy).Contents (Elt F) → (⟨S176x256x256, .f32⟩ : BufTy).Contents (Elt F) → (⟨S176x256x256, .f32⟩ : BufTy).Contents (Elt F)),
    StableHlo.binary main_v26 main_v24 main_v27 (mulf : (⟨S176x256x256, .f32⟩ : BufTy).Contents (Elt F) → (⟨S176x256x256, .f32⟩ : BufTy).Contents (Elt F) → (⟨S176x256x256, .f32⟩ : BufTy).Contents (Elt F)),
    StableHlo.binary main_v26 main_v21 main_v28 (mulf : (⟨S176x256x256, .f32⟩ : BufTy).Contents (Elt F) → (⟨S176x256x256, .f32⟩ : BufTy).Contents (Elt F) → (⟨S176x256x256, .f32⟩ : BufTy).Contents (Elt F)),
    StableHlo.binary main_v22 main_v24 main_v29 (mulf : (⟨S176x256x256, .f32⟩ : BufTy).Contents (Elt F) → (⟨S176x256x256, .f32⟩ : BufTy).Contents (Elt F) → (⟨S176x256x256, .f32⟩ : BufTy).Contents (Elt F)),
    StableHlo.binary main_v22 main_v21 main_v30 (mulf : (⟨S176x256x256, .f32⟩ : BufTy).Contents (Elt F) → (⟨S176x256x256, .f32⟩ : BufTy).Contents (Elt F) → (⟨S176x256x256, .f32⟩ : BufTy).Contents (Elt F)),
    StableHlo.unary main_v19 main_v31 (fptosi 32 : (⟨S176x256x256, .f32⟩ : BufTy).Contents (Elt F) → (⟨S176x256x256, .i32⟩ : BufTy).Contents (Elt F)),
    StableHlo.unary main_v20 main_v32 (fptosi 32 : (⟨S176x256x256, .f32⟩ : BufTy).Contents (Elt F) → (⟨S176x256x256, .i32⟩ : BufTy).Contents (Elt F)),
    StableHlo.nullary main_c (constantI S_ 32 1#32),
    StableHlo.unary main_c main_v33 (broadcastInDim S176x256x256 ![] bcast_S_S176x256x256 : (⟨S_, .i32⟩ : BufTy).Contents (Elt F) → (⟨S176x256x256, .i32⟩ : BufTy).Contents (Elt F)),
    StableHlo.binary main_v31 main_v33 main_v34 (addi : (⟨S176x256x256, .i32⟩ : BufTy).Contents (Elt F) → (⟨S176x256x256, .i32⟩ : BufTy).Contents (Elt F) → (⟨S176x256x256, .i32⟩ : BufTy).Contents (Elt F)),
    StableHlo.nullary main_c_7 (constantI S_ 32 1#32),
    StableHlo.unary main_c_7 main_v35 (broadcastInDim S176x256x256 ![] bcast_S_S176x256x256 : (⟨S_, .i32⟩ : BufTy).Contents (Elt F) → (⟨S176x256x256, .i32⟩ : BufTy).Contents (Elt F)),
    StableHlo.binary main_v32 main_v35 main_v36 (addi : (⟨S176x256x256, .i32⟩ : BufTy).Contents (Elt F) → (⟨S176x256x256, .i32⟩ : BufTy).Contents (Elt F) → (⟨S176x256x256, .i32⟩ : BufTy).Contents (Elt F)),
    StableHlo.nullary main_c_8 (constantI S_ 32 4294967295#32),
    StableHlo.unary main_c_8 main_v37 (broadcastInDim S176x256x256 ![] bcast_S_S176x256x256 : (⟨S_, .i32⟩ : BufTy).Contents (Elt F) → (⟨S176x256x256, .i32⟩ : BufTy).Contents (Elt F)),
    StableHlo.binary main_v31 main_v37 main_v38 (cmpi .sgt : (⟨S176x256x256, .i32⟩ : BufTy).Contents (Elt F) → (⟨S176x256x256, .i32⟩ : BufTy).Contents (Elt F) → (⟨S176x256x256, .i1⟩ : BufTy).Contents (Elt F)),
    StableHlo.nullary main_c_9 (constantI S_ 32 256#32),
    StableHlo.unary main_c_9 main_v39 (broadcastInDim S176x256x256 ![] bcast_S_S176x256x256 : (⟨S_, .i32⟩ : BufTy).Contents (Elt F) → (⟨S176x256x256, .i32⟩ : BufTy).Contents (Elt F)),
    StableHlo.binary main_v31 main_v39 main_v40 (cmpi .slt : (⟨S176x256x256, .i32⟩ : BufTy).Contents (Elt F) → (⟨S176x256x256, .i32⟩ : BufTy).Contents (Elt F) → (⟨S176x256x256, .i1⟩ : BufTy).Contents (Elt F)),
    StableHlo.binary main_v38 main_v40 main_v41 (andi : (⟨S176x256x256, .i1⟩ : BufTy).Contents (Elt F) → (⟨S176x256x256, .i1⟩ : BufTy).Contents (Elt F) → (⟨S176x256x256, .i1⟩ : BufTy).Contents (Elt F)),
    StableHlo.nullary main_c_10 (constantI S_ 32 4294967295#32),
    StableHlo.unary main_c_10 main_v42 (broadcastInDim S176x256x256 ![] bcast_S_S176x256x256 : (⟨S_, .i32⟩ : BufTy).Contents (Elt F) → (⟨S176x256x256, .i32⟩ : BufTy).Contents (Elt F)),
    StableHlo.binary main_v32 main_v42 main_v43 (cmpi .sgt : (⟨S176x256x256, .i32⟩ : BufTy).Contents (Elt F) → (⟨S176x256x256, .i32⟩ : BufTy).Contents (Elt F) → (⟨S176x256x256, .i1⟩ : BufTy).Contents (Elt F)),
    StableHlo.nullary main_c_11 (constantI S_ 32 256#32),
    StableHlo.unary main_c_11 main_v44 (broadcastInDim S176x256x256 ![] bcast_S_S176x256x256 : (⟨S_, .i32⟩ : BufTy).Contents (Elt F) → (⟨S176x256x256, .i32⟩ : BufTy).Contents (Elt F)),
    StableHlo.binary main_v32 main_v44 main_v45 (cmpi .slt : (⟨S176x256x256, .i32⟩ : BufTy).Contents (Elt F) → (⟨S176x256x256, .i32⟩ : BufTy).Contents (Elt F) → (⟨S176x256x256, .i1⟩ : BufTy).Contents (Elt F)),
    StableHlo.binary main_v43 main_v45 main_v46 (andi : (⟨S176x256x256, .i1⟩ : BufTy).Contents (Elt F) → (⟨S176x256x256, .i1⟩ : BufTy).Contents (Elt F) → (⟨S176x256x256, .i1⟩ : BufTy).Contents (Elt F)),
    StableHlo.nullary main_c_12 (constantI S_ 32 4294967295#32),
    StableHlo.unary main_c_12 main_v47 (broadcastInDim S176x256x256 ![] bcast_S_S176x256x256 : (⟨S_, .i32⟩ : BufTy).Contents (Elt F) → (⟨S176x256x256, .i32⟩ : BufTy).Contents (Elt F)),
    StableHlo.binary main_v34 main_v47 main_v48 (cmpi .sgt : (⟨S176x256x256, .i32⟩ : BufTy).Contents (Elt F) → (⟨S176x256x256, .i32⟩ : BufTy).Contents (Elt F) → (⟨S176x256x256, .i1⟩ : BufTy).Contents (Elt F)),
    StableHlo.nullary main_c_13 (constantI S_ 32 256#32),
    StableHlo.unary main_c_13 main_v49 (broadcastInDim S176x256x256 ![] bcast_S_S176x256x256 : (⟨S_, .i32⟩ : BufTy).Contents (Elt F) → (⟨S176x256x256, .i32⟩ : BufTy).Contents (Elt F)),
    StableHlo.binary main_v34 main_v49 main_v50 (cmpi .slt : (⟨S176x256x256, .i32⟩ : BufTy).Contents (Elt F) → (⟨S176x256x256, .i32⟩ : BufTy).Contents (Elt F) → (⟨S176x256x256, .i1⟩ : BufTy).Contents (Elt F)),
    StableHlo.binary main_v48 main_v50 main_v51 (andi : (⟨S176x256x256, .i1⟩ : BufTy).Contents (Elt F) → (⟨S176x256x256, .i1⟩ : BufTy).Contents (Elt F) → (⟨S176x256x256, .i1⟩ : BufTy).Contents (Elt F)),
    StableHlo.nullary main_c_14 (constantI S_ 32 4294967295#32),
    StableHlo.unary main_c_14 main_v52 (broadcastInDim S176x256x256 ![] bcast_S_S176x256x256 : (⟨S_, .i32⟩ : BufTy).Contents (Elt F) → (⟨S176x256x256, .i32⟩ : BufTy).Contents (Elt F)),
    StableHlo.binary main_v36 main_v52 main_v53 (cmpi .sgt : (⟨S176x256x256, .i32⟩ : BufTy).Contents (Elt F) → (⟨S176x256x256, .i32⟩ : BufTy).Contents (Elt F) → (⟨S176x256x256, .i1⟩ : BufTy).Contents (Elt F)),
    StableHlo.nullary main_c_15 (constantI S_ 32 256#32),
    StableHlo.unary main_c_15 main_v54 (broadcastInDim S176x256x256 ![] bcast_S_S176x256x256 : (⟨S_, .i32⟩ : BufTy).Contents (Elt F) → (⟨S176x256x256, .i32⟩ : BufTy).Contents (Elt F)),
    StableHlo.binary main_v36 main_v54 main_v55 (cmpi .slt : (⟨S176x256x256, .i32⟩ : BufTy).Contents (Elt F) → (⟨S176x256x256, .i32⟩ : BufTy).Contents (Elt F) → (⟨S176x256x256, .i1⟩ : BufTy).Contents (Elt F)),
    StableHlo.binary main_v53 main_v55 main_v56 (andi : (⟨S176x256x256, .i1⟩ : BufTy).Contents (Elt F) → (⟨S176x256x256, .i1⟩ : BufTy).Contents (Elt F) → (⟨S176x256x256, .i1⟩ : BufTy).Contents (Elt F)),
    StableHlo.reshape main_v1 main_v57 rfl shapeCasts_S176x256x256x3_S11534336x3,
    StableHlo.nullary main_v58 (iotaInDim S176 32 0),
    StableHlo.unary main_v58 main_v59 (broadcastInDim S176x1x1 ![0] bcast_S176_S176x1x1_0 : (⟨S176, .i32⟩ : BufTy).Contents (Elt F) → (⟨S176x1x1, .i32⟩ : BufTy).Contents (Elt F)) ]

/-- The north-west neighbour: its mask, its coordinates where it counts, its row numbers, the row lookup, and its value. Operations 79 … 127 of the 290. -/
def tap1 : List (HloOp τ sig (Elt F)) :=
  [ StableHlo.binary main_v41 main_v46 main_v60 (andi : (⟨S176x256x256, .i1⟩ : BufTy).Contents (Elt F) → (⟨S176x256x256, .i1⟩ : BufTy).Contents (Elt F) → (⟨S176x256x256, .i1⟩ : BufTy).Contents (Elt F)),
    StableHlo.nullary main_c_16 (constantI S_ 32 0#32),
    StableHlo.TRef.unary (.of main_c_16 : StableHlo.TRef sig ⟨S_, .i32⟩) (.of main_call0_v0 : StableHlo.TRef sig ⟨S_, .i32⟩) id,
    StableHlo.TRef.unary (.of main_call0_v0 : StableHlo.TRef sig ⟨S_, .i32⟩) (.of main_call0_v1 : StableHlo.TRef sig ⟨S176x256x256, .i32⟩) (broadcastInDim S176x256x256 ![] bcast_S_S176x256x256),
    StableHlo.TRef.ternary (.of main_v60 : StableHlo.TRef sig ⟨S176x256x256, .i1⟩) (.of main_v32 : StableHlo.TRef sig ⟨S176x256x256, .i32⟩) (.of main_call0_v1 : StableHlo.TRef sig ⟨S176x256x256, .i32⟩) (.of main_v61 : StableHlo.TRef sig ⟨S176x256x256, .i32⟩) select,
    StableHlo.nullary main_c_17 (constantI S_ 32 0#32),
    StableHlo.TRef.unary (.of main_c_17 : StableHlo.TRef sig ⟨S_, .i32⟩) (.of main_call1_v0 : StableHlo.TRef sig ⟨S_, .i32⟩) id,
    StableHlo.TRef.unary (.of main_call1_v0 : StableHlo.TRef sig ⟨S_, .i32⟩) (.of main_call1_v1 : StableHlo.TRef sig ⟨S176x256x256, .i32⟩) (broadcastInDim S176x256x256 ![] bcast_S_S176x256x256),
    StableHlo.TRef.ternary (.of main_v60 : StableHlo.TRef sig ⟨S176x256x256, .i1⟩) (.of main_v31 : StableHlo.TRef sig ⟨S176x256x256, .i32⟩) (.of main_call1_v1 : StableHlo.TRef sig ⟨S176x256x256, .i32⟩) (.of main_v62 : StableHlo.TRef sig ⟨S176x256x256, .i32⟩) select,
    StableHlo.nullary main_c_18 (constantI S_ 32 256#32),
    StableHlo.unary main_c_18 main_v63 (broadcastInDim S176x1x1 ![] bcast_S_S176x1x1 : (⟨S_, .i32⟩ : BufTy).Contents (Elt F) → (⟨S176x1x1, .i32⟩ : BufTy).Contents (Elt F)),
    StableHlo.binary main_v59 main_v63 main_v64 (muli : (⟨S176x1x1, .i32⟩ : BufTy).Contents (Elt F) → (⟨S176x1x1, .i32⟩ : BufTy).Contents (Elt F) → (⟨S176x1x1, .i32⟩ : BufTy).Contents (Elt F)),
    StableHlo.unary main_v64 main_v65 (broadcastInDim S176x256x256 ![0, 1, 2] bcast_S176x1x1_S176x256x256_0_1_2 : (⟨S176x1x1, .i32⟩ : BufTy).Contents (Elt F) → (⟨S176x256x256, .i32⟩ : BufTy).Contents (Elt F)),
    StableHlo.binary main_v65 main_v61 main_v66 (addi : (⟨S176x256x256, .i32⟩ : BufTy).Contents (Elt F) → (⟨S176x256x256, .i32⟩ : BufTy).Contents (Elt F) → (⟨S176x256x256, .i32⟩ : BufTy).Contents (Elt F)),
    StableHlo.nullary main_c_19 (constantI S_ 32 256#32),
    StableHlo.unary main_c_19 main_v67 (broadcastInDim S176x256x256 ![] bcast_S_S176x256x256 : (⟨S_, .i32⟩ : BufTy).Contents (Elt F) → (⟨S176x256x256, .i32⟩ : BufTy).Contents (Elt F)),
    StableHlo.binary main_v66 main_v67 main_v68 (muli : (⟨S176x256x256, .i32⟩ : BufTy).Contents (Elt F) → (⟨S176x256x256, .i32⟩ : BufTy).Contents (Elt F) → (⟨S176x256x256, .i32⟩ : BufTy).Contents (Elt F)),
    StableHlo.binary main_v68 main_v62 main_v69 (addi : (⟨S176x256x256, .i32⟩ : BufTy).Contents (Elt F) → (⟨S176x256x256, .i32⟩ : BufTy).Contents (Elt F) → (⟨S176x256x256, .i32⟩ : BufTy).Contents (Elt F)),
    StableHlo.reshape main_v69 main_v70 rfl shapeCasts_S176x256x256_S11534336,
    StableHlo.TRef.nullary (.of main_call2_c : StableHlo.TRef sig ⟨S_, .i32⟩) (constantI S_ 32 0#32),
    StableHlo.TRef.unary (.of main_call2_c : StableHlo.TRef sig ⟨S_, .i32⟩) (.of main_call2_v0 : StableHlo.TRef sig ⟨S11534336, .i32⟩) (broadcastInDim S11534336 ![] bcast_S_S11534336),
    StableHlo.TRef.binary (.of main_v70 : StableHlo.TRef sig ⟨S11534336, .i32⟩) (.of main_call2_v0 : StableHlo.TRef sig ⟨S11534336, .i32⟩) (.of main_call2_v1 : StableHlo.TRef sig ⟨S11534336, .i1⟩) (cmpi .slt),
    StableHlo.TRef.nullary (.of main_call2_c_0 : StableHlo.TRef sig ⟨S_, .i32⟩) (constantI S_ 32 11534336#32),
    StableHlo.TRef.unary (.of main_call2_c_0 : StableHlo.TRef sig ⟨S_, .i32⟩) (.of main_call2_v2 : StableHlo.TRef sig ⟨S11534336, .i32⟩) (broadcastInDim S11534336 ![] bcast_S_S11534336),
    StableHlo.TRef.binary (.of main_v70 : StableHlo.TRef sig ⟨S11534336, .i32⟩) (.of main_call2_v2 : StableHlo.TRef sig ⟨S11534336, .i32⟩) (.of main_call2_v3 : StableHlo.TRef sig ⟨S11534336, .i32⟩) addi,
    StableHlo.TRef.ternary (.of main_call2_v1 : StableHlo.TRef sig ⟨S11534336, .i1⟩) (.of main_call2_v3 : StableHlo.TRef sig ⟨S11534336, .i32⟩) (.of main_v70 : StableHlo.TRef sig ⟨S11534336, .i32⟩) (.of main_call2_v4 : StableHlo.TRef sig ⟨S11534336, .i32⟩) select,
    StableHlo.TRef.unary (.of main_call2_v4 : StableHlo.TRef sig ⟨S11534336, .i32⟩) (.of main_call2_v5 : StableHlo.TRef sig ⟨S11534336x1, .i32⟩) (broadcastInDim S11534336x1 ![0] bcast_S11534336_S11534336x1_0),
    StableHlo.TRef.nullary (.of main_call2_c_1 : StableHlo.TRef sig ⟨S1, .i32⟩) (constantI S1 32 11534335#32),
    StableHlo.TRef.nullary (.of main_call2_c_2 : StableHlo.TRef sig ⟨S_, .i32⟩) (constantI S_ 32 0#32),
    StableHlo.TRef.unary (.of main_call2_c_2 : StableHlo.TRef sig ⟨S_, .i32⟩) (.of main_call2_v6 : StableHlo.TRef sig ⟨S11534336x1, .i32⟩) (broadcastInDim S11534336x1 ![] bcast_S_S11534336x1),
    StableHlo.TRef.binary (.of main_call2_v5 : StableHlo.TRef sig ⟨S11534336x1, .i32⟩) (.of main_call2_v6 : StableHlo.TRef sig ⟨S11534336x1, .i32⟩) (.of main_call2_v7 : StableHlo.TRef sig ⟨S11534336x1, .i1⟩) (cmpi .sge),
    StableHlo.TRef.unary (.of main_call2_c_1 : StableHlo.TRef sig ⟨S1, .i32⟩) (.of main_call2_v8 : StableHlo.TRef sig ⟨S1x1, .i32⟩) (broadcastInDim S1x1 ![1] bcast_S1_S1x1_1),
    StableHlo.TRef.unary (.of main_call2_v8 : StableHlo.TRef sig ⟨S1x1, .i32⟩) (.of main_call2_v9 : StableHlo.TRef sig ⟨S11534336x1, .i32⟩) (broadcastInDim S11534336x1 ![0, 1] bcast_S1x1_S11534336x1_0_1),
    StableHlo.TRef.binary (.of main_call2_v5 : StableHlo.TRef sig ⟨S11534336x1, .i32⟩) (.of main_call2_v9 : StableHlo.TRef sig ⟨S11534336x1, .i32⟩) (.of main_call2_v10 : StableHlo.TRef sig ⟨S11534336x1, .i1⟩) (cmpi .sle),
    StableHlo.TRef.binary (.of main_call2_v7 : StableHlo.TRef sig ⟨S11534336x1, .i1⟩) (.of main_call2_v10 : StableHlo.TRef sig ⟨S11534336x1, .i1⟩) (.of main_call2_v11 : StableHlo.TRef sig ⟨S11534336x1, .i1⟩) andi,
    StableHlo.TRef.nullary (.of main_call2_c_3 : StableHlo.TRef sig ⟨S_, .i1⟩) (constantI S_ 1 1#1),
    StableHlo.TRef.binary (.of main_call2_v11 : StableHlo.TRef sig ⟨S11534336x1, .i1⟩) (.of main_call2_c_3 : StableHlo.TRef sig ⟨S_, .i1⟩) (.of main_call2_v12 : StableHlo.TRef sig ⟨S11534336, .i1⟩) (fun x v => Host.reduce IntOp.andi x v reducesTo_S11534336x1_S11534336_d1 h_S_),
    StableHlo.TRef.binary (.of main_v57 : StableHlo.TRef sig ⟨S11534336x3, .f32⟩) (.of main_call2_v5 : StableHlo.TRef sig ⟨S11534336x1, .i32⟩) (.of main_call2_v13 : StableHlo.TRef sig ⟨S11534336x3, .f32⟩) (fun x i => Host.gather gather_S11534336x3_S11534336x1_S11534336x3_1_0_n_n_0_1_13 x i),
    StableHlo.TRef.unary (.of main_call2_v12 : StableHlo.TRef sig ⟨S11534336, .i1⟩) (.of main_call2_v14 : StableHlo.TRef sig ⟨S11534336x3, .i1⟩) (broadcastInDim S11534336x3 ![0] bcast_S11534336_S11534336x3_0),
    StableHlo.TRef.nullary (.of main_call2_cst : StableHlo.TRef sig ⟨S_, .f32⟩) (constant S_ .f32 0x7FC00000#32),
    StableHlo.TRef.unary (.of main_call2_cst : StableHlo.TRef sig ⟨S_, .f32⟩) (.of main_call2_v15 : StableHlo.TRef sig ⟨S11534336x3, .f32⟩) (broadcastInDim S11534336x3 ![] bcast_S_S11534336x3),
    StableHlo.TRef.ternary (.of main_call2_v14 : StableHlo.TRef sig ⟨S11534336x3, .i1⟩) (.of main_call2_v13 : StableHlo.TRef sig ⟨S11534336x3, .f32⟩) (.of main_call2_v15 : StableHlo.TRef sig ⟨S11534336x3, .f32⟩) (.of main_v71 : StableHlo.TRef sig ⟨S11534336x3, .f32⟩) select,
    StableHlo.reshape main_v71 main_v72 rfl shapeCasts_S11534336x3_S176x256x256x3,
    StableHlo.unary main_v60 main_v73 (broadcastInDim S176x256x256x1 ![0, 1, 2] bcast_S176x256x256_S176x256x256x1_0_1_2 : (⟨S176x256x256, .i1⟩ : BufTy).Contents (Elt F) → (⟨S176x256x256x1, .i1⟩ : BufTy).Contents (Elt F)),
    StableHlo.nullary main_cst_20 (constant S_ .f32 0x00000000#32),
    StableHlo.TRef.unary (.of main_cst_20 : StableHlo.TRef sig ⟨S_, .f32⟩) (.of main_call3_v0 : StableHlo.TRef sig ⟨S_, .f32⟩) id,
    StableHlo.TRef.unary (.of main_v73 : StableHlo.TRef sig ⟨S176x256x256x1, .i1⟩) (.of main_call3_v1 : StableHlo.TRef sig ⟨S176x256x256x3, .i1⟩) (broadcastInDim S176x256x256x3 ![0, 1, 2, 3] bcast_S176x256x256x1_S176x256x256x3_0_1_2_3),
    StableHlo.TRef.unary (.of main_call3_v0 : StableHlo.TRef sig ⟨S_, .f32⟩) (.of main_call3_v2 : StableHlo.TRef sig ⟨S176x256x256x3, .f32⟩) (broadcastInDim S176x256x256x3 ![] bcast_S_S176x256x256x3),
    StableHlo.TRef.ternary (.of main_call3_v1 : StableHlo.TRef sig ⟨S176x256x256x3, .i1⟩) (.of main_v72 : StableHlo.TRef sig ⟨S176x256x256x3, .f32⟩) (.of main_call3_v2 : StableHlo.TRef sig ⟨S176x256x256x3, .f32⟩) (.of main_v74 : StableHlo.TRef sig ⟨S176x256x256x3, .f32⟩) select ]

/-- The north-east neighbour, likewise. Operations 128 … 176 of the 290. -/
def tap2 : List (HloOp τ sig (Elt F)) :=
  [ StableHlo.binary main_v51 main_v46 main_v75 (andi : (⟨S176x256x256, .i1⟩ : BufTy).Contents (Elt F) → (⟨S176x256x256, .i1⟩ : BufTy).Contents (Elt F) → (⟨S176x256x256, .i1⟩ : BufTy).Contents (Elt F)),
    StableHlo.nullary main_c_21 (constantI S_ 32 0#32),
    StableHlo.TRef.unary (.of main_c_21 : StableHlo.TRef sig ⟨S_, .i32⟩) (.of main_call4_v0 : StableHlo.TRef sig ⟨S_, .i32⟩) id,
    StableHlo.TRef.unary (.of main_call4_v0 : StableHlo.TRef sig ⟨S_, .i32⟩) (.of main_call4_v1 : StableHlo.TRef sig ⟨S176x256x256, .i32⟩) (broadcastInDim S176x256x256 ![] bcast_S_S176x256x256),
    StableHlo.TRef.ternary (.of main_v75 : StableHlo.TRef sig ⟨S176x256x256, .i1⟩) (.of main_v32 : StableHlo.TRef sig ⟨S176x256x256, .i32⟩) (.of main_call4_v1 : StableHlo.TRef sig ⟨S176x256x256, .i32⟩) (.of main_v76 : StableHlo.TRef sig ⟨S176x256x256, .i32⟩) select,
    StableHlo.nullary main_c_22 (constantI S_ 32 0#32),
    StableHlo.TRef.unary (.of main_c_22 : StableHlo.TRef sig ⟨S_, .i32⟩) (.of main_call5_v0 : StableHlo.TRef sig ⟨S_, .i32⟩) id,
    StableHlo.TRef.unary (.of main_call5_v0 : StableHlo.TRef sig ⟨S_, .i32⟩) (.of main_call5_v1 : StableHlo.TRef sig ⟨S176x256x256, .i32⟩) (broadcastInDim S176x256x256 ![] bcast_S_S176x256x256),
    StableHlo.TRef.ternary (.of main_v75 : StableHlo.TRef sig ⟨S176x256x256, .i1⟩) (.of main_v34 : StableHlo.TRef sig ⟨S176x256x256, .i32⟩) (.of main_call5_v1 : StableHlo.TRef sig ⟨S176x256x256, .i32⟩) (.of main_v77 : StableHlo.TRef sig ⟨S176x256x256, .i32⟩) select,
    StableHlo.nullary main_c_23 (constantI S_ 32 256#32),
    StableHlo.unary main_c_23 main_v78 (broadcastInDim S176x1x1 ![] bcast_S_S176x1x1 : (⟨S_, .i32⟩ : BufTy).Contents (Elt F) → (⟨S176x1x1, .i32⟩ : BufTy).Contents (Elt F)),
    StableHlo.binary main_v59 main_v78 main_v79 (muli : (⟨S176x1x1, .i32⟩ : BufTy).Contents (Elt F) → (⟨S176x1x1, .i32⟩ : BufTy).Contents (Elt F) → (⟨S176x1x1, .i32⟩ : BufTy).Contents (Elt F)),
    StableHlo.unary main_v79 main_v80 (broadcastInDim S176x256x256 ![0, 1, 2] bcast_S176x1x1_S176x256x256_0_1_2 : (⟨S176x1x1, .i32⟩ : BufTy).Contents (Elt F) → (⟨S176x256x256, .i32⟩ : BufTy).Contents (Elt F)),
    StableHlo.binary main_v80 main_v76 main_v81 (addi : (⟨S176x256x256, .i32⟩ : BufTy).Contents (Elt F) → (⟨S176x256x256, .i32⟩ : BufTy).Contents (Elt F) → (⟨S176x256x256, .i32⟩ : BufTy).Contents (Elt F)),
    StableHlo.nullary main_c_24 (constantI S_ 32 256#32),
    StableHlo.unary main_c_24 main_v82 (broadcastInDim S176x256x256 ![] bcast_S_S176x256x256 : (⟨S_, .i32⟩ : BufTy).Contents (Elt F) → (⟨S176x256x256, .i32⟩ : BufTy).Contents (Elt F)),
    StableHlo.binary main_v81 main_v82 main_v83 (muli : (⟨S176x256x256, .i32⟩ : BufTy).Contents (Elt F) → (⟨S176x256x256, .i32⟩ : BufTy).Contents (Elt F) → (⟨S176x256x256, .i32⟩ : BufTy).Contents (Elt F)),
    StableHlo.binary main_v83 main_v77 main_v84 (addi : (⟨S176x256x256, .i32⟩ : BufTy).Contents (Elt F) → (⟨S176x256x256, .i32⟩ : BufTy).Contents (Elt F) → (⟨S176x256x256, .i32⟩ : BufTy).Contents (Elt F)),
    StableHlo.reshape main_v84 main_v85 rfl shapeCasts_S176x256x256_S11534336,
    StableHlo.TRef.nullary (.of main_call6_c : StableHlo.TRef sig ⟨S_, .i32⟩) (constantI S_ 32 0#32),
    StableHlo.TRef.unary (.of main_call6_c : StableHlo.TRef sig ⟨S_, .i32⟩) (.of main_call6_v0 : StableHlo.TRef sig ⟨S11534336, .i32⟩) (broadcastInDim S11534336 ![] bcast_S_S11534336),
    StableHlo.TRef.binary (.of main_v85 : StableHlo.TRef sig ⟨S11534336, .i32⟩) (.of main_call6_v0 : StableHlo.TRef sig ⟨S11534336, .i32⟩) (.of main_call6_v1 : StableHlo.TRef sig ⟨S11534336, .i1⟩) (cmpi .slt),
    StableHlo.TRef.nullary (.of main_call6_c_0 : StableHlo.TRef sig ⟨S_, .i32⟩) (constantI S_ 32 11534336#32),
    StableHlo.TRef.unary (.of main_call6_c_0 : StableHlo.TRef sig ⟨S_, .i32⟩) (.of main_call6_v2 : StableHlo.TRef sig ⟨S11534336, .i32⟩) (broadcastInDim S11534336 ![] bcast_S_S11534336),
    StableHlo.TRef.binary (.of main_v85 : StableHlo.TRef sig ⟨S11534336, .i32⟩) (.of main_call6_v2 : StableHlo.TRef sig ⟨S11534336, .i32⟩) (.of main_call6_v3 : StableHlo.TRef sig ⟨S11534336, .i32⟩) addi,
    StableHlo.TRef.ternary (.of main_call6_v1 : StableHlo.TRef sig ⟨S11534336, .i1⟩) (.of main_call6_v3 : StableHlo.TRef sig ⟨S11534336, .i32⟩) (.of main_v85 : StableHlo.TRef sig ⟨S11534336, .i32⟩) (.of main_call6_v4 : StableHlo.TRef sig ⟨S11534336, .i32⟩) select,
    StableHlo.TRef.unary (.of main_call6_v4 : StableHlo.TRef sig ⟨S11534336, .i32⟩) (.of main_call6_v5 : StableHlo.TRef sig ⟨S11534336x1, .i32⟩) (broadcastInDim S11534336x1 ![0] bcast_S11534336_S11534336x1_0),
    StableHlo.TRef.nullary (.of main_call6_c_1 : StableHlo.TRef sig ⟨S1, .i32⟩) (constantI S1 32 11534335#32),
    StableHlo.TRef.nullary (.of main_call6_c_2 : StableHlo.TRef sig ⟨S_, .i32⟩) (constantI S_ 32 0#32),
    StableHlo.TRef.unary (.of main_call6_c_2 : StableHlo.TRef sig ⟨S_, .i32⟩) (.of main_call6_v6 : StableHlo.TRef sig ⟨S11534336x1, .i32⟩) (broadcastInDim S11534336x1 ![] bcast_S_S11534336x1),
    StableHlo.TRef.binary (.of main_call6_v5 : StableHlo.TRef sig ⟨S11534336x1, .i32⟩) (.of main_call6_v6 : StableHlo.TRef sig ⟨S11534336x1, .i32⟩) (.of main_call6_v7 : StableHlo.TRef sig ⟨S11534336x1, .i1⟩) (cmpi .sge),
    StableHlo.TRef.unary (.of main_call6_c_1 : StableHlo.TRef sig ⟨S1, .i32⟩) (.of main_call6_v8 : StableHlo.TRef sig ⟨S1x1, .i32⟩) (broadcastInDim S1x1 ![1] bcast_S1_S1x1_1),
    StableHlo.TRef.unary (.of main_call6_v8 : StableHlo.TRef sig ⟨S1x1, .i32⟩) (.of main_call6_v9 : StableHlo.TRef sig ⟨S11534336x1, .i32⟩) (broadcastInDim S11534336x1 ![0, 1] bcast_S1x1_S11534336x1_0_1),
    StableHlo.TRef.binary (.of main_call6_v5 : StableHlo.TRef sig ⟨S11534336x1, .i32⟩) (.of main_call6_v9 : StableHlo.TRef sig ⟨S11534336x1, .i32⟩) (.of main_call6_v10 : StableHlo.TRef sig ⟨S11534336x1, .i1⟩) (cmpi .sle),
    StableHlo.TRef.binary (.of main_call6_v7 : StableHlo.TRef sig ⟨S11534336x1, .i1⟩) (.of main_call6_v10 : StableHlo.TRef sig ⟨S11534336x1, .i1⟩) (.of main_call6_v11 : StableHlo.TRef sig ⟨S11534336x1, .i1⟩) andi,
    StableHlo.TRef.nullary (.of main_call6_c_3 : StableHlo.TRef sig ⟨S_, .i1⟩) (constantI S_ 1 1#1),
    StableHlo.TRef.binary (.of main_call6_v11 : StableHlo.TRef sig ⟨S11534336x1, .i1⟩) (.of main_call6_c_3 : StableHlo.TRef sig ⟨S_, .i1⟩) (.of main_call6_v12 : StableHlo.TRef sig ⟨S11534336, .i1⟩) (fun x v => Host.reduce IntOp.andi x v reducesTo_S11534336x1_S11534336_d1 h_S_),
    StableHlo.TRef.binary (.of main_v57 : StableHlo.TRef sig ⟨S11534336x3, .f32⟩) (.of main_call6_v5 : StableHlo.TRef sig ⟨S11534336x1, .i32⟩) (.of main_call6_v13 : StableHlo.TRef sig ⟨S11534336x3, .f32⟩) (fun x i => Host.gather gather_S11534336x3_S11534336x1_S11534336x3_1_0_n_n_0_1_13 x i),
    StableHlo.TRef.unary (.of main_call6_v12 : StableHlo.TRef sig ⟨S11534336, .i1⟩) (.of main_call6_v14 : StableHlo.TRef sig ⟨S11534336x3, .i1⟩) (broadcastInDim S11534336x3 ![0] bcast_S11534336_S11534336x3_0),
    StableHlo.TRef.nullary (.of main_call6_cst : StableHlo.TRef sig ⟨S_, .f32⟩) (constant S_ .f32 0x7FC00000#32),
    StableHlo.TRef.unary (.of main_call6_cst : StableHlo.TRef sig ⟨S_, .f32⟩) (.of main_call6_v15 : StableHlo.TRef sig ⟨S11534336x3, .f32⟩) (broadcastInDim S11534336x3 ![] bcast_S_S11534336x3),
    StableHlo.TRef.ternary (.of main_call6_v14 : StableHlo.TRef sig ⟨S11534336x3, .i1⟩) (.of main_call6_v13 : StableHlo.TRef sig ⟨S11534336x3, .f32⟩) (.of main_call6_v15 : StableHlo.TRef sig ⟨S11534336x3, .f32⟩) (.of main_v86 : StableHlo.TRef sig ⟨S11534336x3, .f32⟩) select,
    StableHlo.reshape main_v86 main_v87 rfl shapeCasts_S11534336x3_S176x256x256x3,
    StableHlo.unary main_v75 main_v88 (broadcastInDim S176x256x256x1 ![0, 1, 2] bcast_S176x256x256_S176x256x256x1_0_1_2 : (⟨S176x256x256, .i1⟩ : BufTy).Contents (Elt F) → (⟨S176x256x256x1, .i1⟩ : BufTy).Contents (Elt F)),
    StableHlo.nullary main_cst_25 (constant S_ .f32 0x00000000#32),
    StableHlo.TRef.unary (.of main_cst_25 : StableHlo.TRef sig ⟨S_, .f32⟩) (.of main_call7_v0 : StableHlo.TRef sig ⟨S_, .f32⟩) id,
    StableHlo.TRef.unary (.of main_v88 : StableHlo.TRef sig ⟨S176x256x256x1, .i1⟩) (.of main_call7_v1 : StableHlo.TRef sig ⟨S176x256x256x3, .i1⟩) (broadcastInDim S176x256x256x3 ![0, 1, 2, 3] bcast_S176x256x256x1_S176x256x256x3_0_1_2_3),
    StableHlo.TRef.unary (.of main_call7_v0 : StableHlo.TRef sig ⟨S_, .f32⟩) (.of main_call7_v2 : StableHlo.TRef sig ⟨S176x256x256x3, .f32⟩) (broadcastInDim S176x256x256x3 ![] bcast_S_S176x256x256x3),
    StableHlo.TRef.ternary (.of main_call7_v1 : StableHlo.TRef sig ⟨S176x256x256x3, .i1⟩) (.of main_v87 : StableHlo.TRef sig ⟨S176x256x256x3, .f32⟩) (.of main_call7_v2 : StableHlo.TRef sig ⟨S176x256x256x3, .f32⟩) (.of main_v89 : StableHlo.TRef sig ⟨S176x256x256x3, .f32⟩) select ]

/-- The south-west neighbour, likewise. Operations 177 … 225 of the 290. -/
def tap3 : List (HloOp τ sig (Elt F)) :=
  [ StableHlo.binary main_v56 main_v41 main_v90 (andi : (⟨S176x256x256, .i1⟩ : BufTy).Contents (Elt F) → (⟨S176x256x256, .i1⟩ : BufTy).Contents (Elt F) → (⟨S176x256x256, .i1⟩ : BufTy).Contents (Elt F)),
    StableHlo.nullary main_c_26 (constantI S_ 32 0#32),
    StableHlo.TRef.unary (.of main_c_26 : StableHlo.TRef sig ⟨S_, .i32⟩) (.of main_call8_v0 : StableHlo.TRef sig ⟨S_, .i32⟩) id,
    StableHlo.TRef.unary (.of main_call8_v0 : StableHlo.TRef sig ⟨S_, .i32⟩) (.of main_call8_v1 : StableHlo.TRef sig ⟨S176x256x256, .i32⟩) (broadcastInDim S176x256x256 ![] bcast_S_S176x256x256),
    StableHlo.TRef.ternary (.of main_v90 : StableHlo.TRef sig ⟨S176x256x256, .i1⟩) (.of main_v36 : StableHlo.TRef sig ⟨S176x256x256, .i32⟩) (.of main_call8_v1 : StableHlo.TRef sig ⟨S176x256x256, .i32⟩) (.of main_v91 : StableHlo.TRef sig ⟨S176x256x256, .i32⟩) select,
    StableHlo.nullary main_c_27 (constantI S_ 32 0#32),
    StableHlo.TRef.unary (.of main_c_27 : StableHlo.TRef sig ⟨S_, .i32⟩) (.of main_call9_v0 : StableHlo.TRef sig ⟨S_, .i32⟩) id,
    StableHlo.TRef.unary (.of main_call9_v0 : StableHlo.TRef sig ⟨S_, .i32⟩) (.of main_call9_v1 : StableHlo.TRef sig ⟨S176x256x256, .i32⟩) (broadcastInDim S176x256x256 ![] bcast_S_S176x256x256),
    StableHlo.TRef.ternary (.of main_v90 : StableHlo.TRef sig ⟨S176x256x256, .i1⟩) (.of main_v31 : StableHlo.TRef sig ⟨S176x256x256, .i32⟩) (.of main_call9_v1 : StableHlo.TRef sig ⟨S176x256x256, .i32⟩) (.of main_v92 : StableHlo.TRef sig ⟨S176x256x256, .i32⟩) select,
    StableHlo.nullary main_c_28 (constantI S_ 32 256#32),
    StableHlo.unary main_c_28 main_v93 (broadcastInDim S176x1x1 ![] bcast_S_S176x1x1 : (⟨S_, .i32⟩ : BufTy).Contents (Elt F) → (⟨S176x1x1, .i32⟩ : BufTy).Contents (Elt F)),
    StableHlo.binary main_v59 main_v93 main_v94 (muli : (⟨S176x1x1, .i32⟩ : BufTy).Contents (Elt F) → (⟨S176x1x1, .i32⟩ : BufTy).Contents (Elt F) → (⟨S176x1x1, .i32⟩ : BufTy).Contents (Elt F)),
    StableHlo.unary main_v94 main_v95 (broadcastInDim S176x256x256 ![0, 1, 2] bcast_S176x1x1_S176x256x256_0_1_2 : (⟨S176x1x1, .i32⟩ : BufTy).Contents (Elt F) → (⟨S176x256x256, .i32⟩ : BufTy).Contents (Elt F)),
    StableHlo.binary main_v95 main_v91 main_v96 (addi : (⟨S176x256x256, .i32⟩ : BufTy).Contents (Elt F) → (⟨S176x256x256, .i32⟩ : BufTy).Contents (Elt F) → (⟨S176x256x256, .i32⟩ : BufTy).Contents (Elt F)),
    StableHlo.nullary main_c_29 (constantI S_ 32 256#32),
    StableHlo.unary main_c_29 main_v97 (broadcastInDim S176x256x256 ![] bcast_S_S176x256x256 : (⟨S_, .i32⟩ : BufTy).Contents (Elt F) → (⟨S176x256x256, .i32⟩ : BufTy).Contents (Elt F)),
    StableHlo.binary main_v96 main_v97 main_v98 (muli : (⟨S176x256x256, .i32⟩ : BufTy).Contents (Elt F) → (⟨S176x256x256, .i32⟩ : BufTy).Contents (Elt F) → (⟨S176x256x256, .i32⟩ : BufTy).Contents (Elt F)),
    StableHlo.binary main_v98 main_v92 main_v99 (addi : (⟨S176x256x256, .i32⟩ : BufTy).Contents (Elt F) → (⟨S176x256x256, .i32⟩ : BufTy).Contents (Elt F) → (⟨S176x256x256, .i32⟩ : BufTy).Contents (Elt F)),
    StableHlo.reshape main_v99 main_v100 rfl shapeCasts_S176x256x256_S11534336,
    StableHlo.TRef.nullary (.of main_call10_c : StableHlo.TRef sig ⟨S_, .i32⟩) (constantI S_ 32 0#32),
    StableHlo.TRef.unary (.of main_call10_c : StableHlo.TRef sig ⟨S_, .i32⟩) (.of main_call10_v0 : StableHlo.TRef sig ⟨S11534336, .i32⟩) (broadcastInDim S11534336 ![] bcast_S_S11534336),
    StableHlo.TRef.binary (.of main_v100 : StableHlo.TRef sig ⟨S11534336, .i32⟩) (.of main_call10_v0 : StableHlo.TRef sig ⟨S11534336, .i32⟩) (.of main_call10_v1 : StableHlo.TRef sig ⟨S11534336, .i1⟩) (cmpi .slt),
    StableHlo.TRef.nullary (.of main_call10_c_0 : StableHlo.TRef sig ⟨S_, .i32⟩) (constantI S_ 32 11534336#32),
    StableHlo.TRef.unary (.of main_call10_c_0 : StableHlo.TRef sig ⟨S_, .i32⟩) (.of main_call10_v2 : StableHlo.TRef sig ⟨S11534336, .i32⟩) (broadcastInDim S11534336 ![] bcast_S_S11534336),
    StableHlo.TRef.binary (.of main_v100 : StableHlo.TRef sig ⟨S11534336, .i32⟩) (.of main_call10_v2 : StableHlo.TRef sig ⟨S11534336, .i32⟩) (.of main_call10_v3 : StableHlo.TRef sig ⟨S11534336, .i32⟩) addi,
    StableHlo.TRef.ternary (.of main_call10_v1 : StableHlo.TRef sig ⟨S11534336, .i1⟩) (.of main_call10_v3 : StableHlo.TRef sig ⟨S11534336, .i32⟩) (.of main_v100 : StableHlo.TRef sig ⟨S11534336, .i32⟩) (.of main_call10_v4 : StableHlo.TRef sig ⟨S11534336, .i32⟩) select,
    StableHlo.TRef.unary (.of main_call10_v4 : StableHlo.TRef sig ⟨S11534336, .i32⟩) (.of main_call10_v5 : StableHlo.TRef sig ⟨S11534336x1, .i32⟩) (broadcastInDim S11534336x1 ![0] bcast_S11534336_S11534336x1_0),
    StableHlo.TRef.nullary (.of main_call10_c_1 : StableHlo.TRef sig ⟨S1, .i32⟩) (constantI S1 32 11534335#32),
    StableHlo.TRef.nullary (.of main_call10_c_2 : StableHlo.TRef sig ⟨S_, .i32⟩) (constantI S_ 32 0#32),
    StableHlo.TRef.unary (.of main_call10_c_2 : StableHlo.TRef sig ⟨S_, .i32⟩) (.of main_call10_v6 : StableHlo.TRef sig ⟨S11534336x1, .i32⟩) (broadcastInDim S11534336x1 ![] bcast_S_S11534336x1),
    StableHlo.TRef.binary (.of main_call10_v5 : StableHlo.TRef sig ⟨S11534336x1, .i32⟩) (.of main_call10_v6 : StableHlo.TRef sig ⟨S11534336x1, .i32⟩) (.of main_call10_v7 : StableHlo.TRef sig ⟨S11534336x1, .i1⟩) (cmpi .sge),
    StableHlo.TRef.unary (.of main_call10_c_1 : StableHlo.TRef sig ⟨S1, .i32⟩) (.of main_call10_v8 : StableHlo.TRef sig ⟨S1x1, .i32⟩) (broadcastInDim S1x1 ![1] bcast_S1_S1x1_1),
    StableHlo.TRef.unary (.of main_call10_v8 : StableHlo.TRef sig ⟨S1x1, .i32⟩) (.of main_call10_v9 : StableHlo.TRef sig ⟨S11534336x1, .i32⟩) (broadcastInDim S11534336x1 ![0, 1] bcast_S1x1_S11534336x1_0_1),
    StableHlo.TRef.binary (.of main_call10_v5 : StableHlo.TRef sig ⟨S11534336x1, .i32⟩) (.of main_call10_v9 : StableHlo.TRef sig ⟨S11534336x1, .i32⟩) (.of main_call10_v10 : StableHlo.TRef sig ⟨S11534336x1, .i1⟩) (cmpi .sle),
    StableHlo.TRef.binary (.of main_call10_v7 : StableHlo.TRef sig ⟨S11534336x1, .i1⟩) (.of main_call10_v10 : StableHlo.TRef sig ⟨S11534336x1, .i1⟩) (.of main_call10_v11 : StableHlo.TRef sig ⟨S11534336x1, .i1⟩) andi,
    StableHlo.TRef.nullary (.of main_call10_c_3 : StableHlo.TRef sig ⟨S_, .i1⟩) (constantI S_ 1 1#1),
    StableHlo.TRef.binary (.of main_call10_v11 : StableHlo.TRef sig ⟨S11534336x1, .i1⟩) (.of main_call10_c_3 : StableHlo.TRef sig ⟨S_, .i1⟩) (.of main_call10_v12 : StableHlo.TRef sig ⟨S11534336, .i1⟩) (fun x v => Host.reduce IntOp.andi x v reducesTo_S11534336x1_S11534336_d1 h_S_),
    StableHlo.TRef.binary (.of main_v57 : StableHlo.TRef sig ⟨S11534336x3, .f32⟩) (.of main_call10_v5 : StableHlo.TRef sig ⟨S11534336x1, .i32⟩) (.of main_call10_v13 : StableHlo.TRef sig ⟨S11534336x3, .f32⟩) (fun x i => Host.gather gather_S11534336x3_S11534336x1_S11534336x3_1_0_n_n_0_1_13 x i),
    StableHlo.TRef.unary (.of main_call10_v12 : StableHlo.TRef sig ⟨S11534336, .i1⟩) (.of main_call10_v14 : StableHlo.TRef sig ⟨S11534336x3, .i1⟩) (broadcastInDim S11534336x3 ![0] bcast_S11534336_S11534336x3_0),
    StableHlo.TRef.nullary (.of main_call10_cst : StableHlo.TRef sig ⟨S_, .f32⟩) (constant S_ .f32 0x7FC00000#32),
    StableHlo.TRef.unary (.of main_call10_cst : StableHlo.TRef sig ⟨S_, .f32⟩) (.of main_call10_v15 : StableHlo.TRef sig ⟨S11534336x3, .f32⟩) (broadcastInDim S11534336x3 ![] bcast_S_S11534336x3),
    StableHlo.TRef.ternary (.of main_call10_v14 : StableHlo.TRef sig ⟨S11534336x3, .i1⟩) (.of main_call10_v13 : StableHlo.TRef sig ⟨S11534336x3, .f32⟩) (.of main_call10_v15 : StableHlo.TRef sig ⟨S11534336x3, .f32⟩) (.of main_v101 : StableHlo.TRef sig ⟨S11534336x3, .f32⟩) select,
    StableHlo.reshape main_v101 main_v102 rfl shapeCasts_S11534336x3_S176x256x256x3,
    StableHlo.unary main_v90 main_v103 (broadcastInDim S176x256x256x1 ![0, 1, 2] bcast_S176x256x256_S176x256x256x1_0_1_2 : (⟨S176x256x256, .i1⟩ : BufTy).Contents (Elt F) → (⟨S176x256x256x1, .i1⟩ : BufTy).Contents (Elt F)),
    StableHlo.nullary main_cst_30 (constant S_ .f32 0x00000000#32),
    StableHlo.TRef.unary (.of main_cst_30 : StableHlo.TRef sig ⟨S_, .f32⟩) (.of main_call11_v0 : StableHlo.TRef sig ⟨S_, .f32⟩) id,
    StableHlo.TRef.unary (.of main_v103 : StableHlo.TRef sig ⟨S176x256x256x1, .i1⟩) (.of main_call11_v1 : StableHlo.TRef sig ⟨S176x256x256x3, .i1⟩) (broadcastInDim S176x256x256x3 ![0, 1, 2, 3] bcast_S176x256x256x1_S176x256x256x3_0_1_2_3),
    StableHlo.TRef.unary (.of main_call11_v0 : StableHlo.TRef sig ⟨S_, .f32⟩) (.of main_call11_v2 : StableHlo.TRef sig ⟨S176x256x256x3, .f32⟩) (broadcastInDim S176x256x256x3 ![] bcast_S_S176x256x256x3),
    StableHlo.TRef.ternary (.of main_call11_v1 : StableHlo.TRef sig ⟨S176x256x256x3, .i1⟩) (.of main_v102 : StableHlo.TRef sig ⟨S176x256x256x3, .f32⟩) (.of main_call11_v2 : StableHlo.TRef sig ⟨S176x256x256x3, .f32⟩) (.of main_v104 : StableHlo.TRef sig ⟨S176x256x256x3, .f32⟩) select ]

/-- The south-east neighbour, likewise. Operations 226 … 274 of the 290. -/
def tap4 : List (HloOp τ sig (Elt F)) :=
  [ StableHlo.binary main_v51 main_v56 main_v105 (andi : (⟨S176x256x256, .i1⟩ : BufTy).Contents (Elt F) → (⟨S176x256x256, .i1⟩ : BufTy).Contents (Elt F) → (⟨S176x256x256, .i1⟩ : BufTy).Contents (Elt F)),
    StableHlo.nullary main_c_31 (constantI S_ 32 0#32),
    StableHlo.TRef.unary (.of main_c_31 : StableHlo.TRef sig ⟨S_, .i32⟩) (.of main_call12_v0 : StableHlo.TRef sig ⟨S_, .i32⟩) id,
    StableHlo.TRef.unary (.of main_call12_v0 : StableHlo.TRef sig ⟨S_, .i32⟩) (.of main_call12_v1 : StableHlo.TRef sig ⟨S176x256x256, .i32⟩) (broadcastInDim S176x256x256 ![] bcast_S_S176x256x256),
    StableHlo.TRef.ternary (.of main_v105 : StableHlo.TRef sig ⟨S176x256x256, .i1⟩) (.of main_v36 : StableHlo.TRef sig ⟨S176x256x256, .i32⟩) (.of main_call12_v1 : StableHlo.TRef sig ⟨S176x256x256, .i32⟩) (.of main_v106 : StableHlo.TRef sig ⟨S176x256x256, .i32⟩) select,
    StableHlo.nullary main_c_32 (constantI S_ 32 0#32),
    StableHlo.TRef.unary (.of main_c_32 : StableHlo.TRef sig ⟨S_, .i32⟩) (.of main_call13_v0 : StableHlo.TRef sig ⟨S_, .i32⟩) id,
    StableHlo.TRef.unary (.of main_call13_v0 : StableHlo.TRef sig ⟨S_, .i32⟩) (.of main_call13_v1 : StableHlo.TRef sig ⟨S176x256x256, .i32⟩) (broadcastInDim S176x256x256 ![] bcast_S_S176x256x256),
    StableHlo.TRef.ternary (.of main_v105 : StableHlo.TRef sig ⟨S176x256x256, .i1⟩) (.of main_v34 : StableHlo.TRef sig ⟨S176x256x256, .i32⟩) (.of main_call13_v1 : StableHlo.TRef sig ⟨S176x256x256, .i32⟩) (.of main_v107 : StableHlo.TRef sig ⟨S176x256x256, .i32⟩) select,
    StableHlo.nullary main_c_33 (constantI S_ 32 256#32),
    StableHlo.unary main_c_33 main_v108 (broadcastInDim S176x1x1 ![] bcast_S_S176x1x1 : (⟨S_, .i32⟩ : BufTy).Contents (Elt F) → (⟨S176x1x1, .i32⟩ : BufTy).Contents (Elt F)),
    StableHlo.binary main_v59 main_v108 main_v109 (muli : (⟨S176x1x1, .i32⟩ : BufTy).Contents (Elt F) → (⟨S176x1x1, .i32⟩ : BufTy).Contents (Elt F) → (⟨S176x1x1, .i32⟩ : BufTy).Contents (Elt F)),
    StableHlo.unary main_v109 main_v110 (broadcastInDim S176x256x256 ![0, 1, 2] bcast_S176x1x1_S176x256x256_0_1_2 : (⟨S176x1x1, .i32⟩ : BufTy).Contents (Elt F) → (⟨S176x256x256, .i32⟩ : BufTy).Contents (Elt F)),
    StableHlo.binary main_v110 main_v106 main_v111 (addi : (⟨S176x256x256, .i32⟩ : BufTy).Contents (Elt F) → (⟨S176x256x256, .i32⟩ : BufTy).Contents (Elt F) → (⟨S176x256x256, .i32⟩ : BufTy).Contents (Elt F)),
    StableHlo.nullary main_c_34 (constantI S_ 32 256#32),
    StableHlo.unary main_c_34 main_v112 (broadcastInDim S176x256x256 ![] bcast_S_S176x256x256 : (⟨S_, .i32⟩ : BufTy).Contents (Elt F) → (⟨S176x256x256, .i32⟩ : BufTy).Contents (Elt F)),
    StableHlo.binary main_v111 main_v112 main_v113 (muli : (⟨S176x256x256, .i32⟩ : BufTy).Contents (Elt F) → (⟨S176x256x256, .i32⟩ : BufTy).Contents (Elt F) → (⟨S176x256x256, .i32⟩ : BufTy).Contents (Elt F)),
    StableHlo.binary main_v113 main_v107 main_v114 (addi : (⟨S176x256x256, .i32⟩ : BufTy).Contents (Elt F) → (⟨S176x256x256, .i32⟩ : BufTy).Contents (Elt F) → (⟨S176x256x256, .i32⟩ : BufTy).Contents (Elt F)),
    StableHlo.reshape main_v114 main_v115 rfl shapeCasts_S176x256x256_S11534336,
    StableHlo.TRef.nullary (.of main_call14_c : StableHlo.TRef sig ⟨S_, .i32⟩) (constantI S_ 32 0#32),
    StableHlo.TRef.unary (.of main_call14_c : StableHlo.TRef sig ⟨S_, .i32⟩) (.of main_call14_v0 : StableHlo.TRef sig ⟨S11534336, .i32⟩) (broadcastInDim S11534336 ![] bcast_S_S11534336),
    StableHlo.TRef.binary (.of main_v115 : StableHlo.TRef sig ⟨S11534336, .i32⟩) (.of main_call14_v0 : StableHlo.TRef sig ⟨S11534336, .i32⟩) (.of main_call14_v1 : StableHlo.TRef sig ⟨S11534336, .i1⟩) (cmpi .slt),
    StableHlo.TRef.nullary (.of main_call14_c_0 : StableHlo.TRef sig ⟨S_, .i32⟩) (constantI S_ 32 11534336#32),
    StableHlo.TRef.unary (.of main_call14_c_0 : StableHlo.TRef sig ⟨S_, .i32⟩) (.of main_call14_v2 : StableHlo.TRef sig ⟨S11534336, .i32⟩) (broadcastInDim S11534336 ![] bcast_S_S11534336),
    StableHlo.TRef.binary (.of main_v115 : StableHlo.TRef sig ⟨S11534336, .i32⟩) (.of main_call14_v2 : StableHlo.TRef sig ⟨S11534336, .i32⟩) (.of main_call14_v3 : StableHlo.TRef sig ⟨S11534336, .i32⟩) addi,
    StableHlo.TRef.ternary (.of main_call14_v1 : StableHlo.TRef sig ⟨S11534336, .i1⟩) (.of main_call14_v3 : StableHlo.TRef sig ⟨S11534336, .i32⟩) (.of main_v115 : StableHlo.TRef sig ⟨S11534336, .i32⟩) (.of main_call14_v4 : StableHlo.TRef sig ⟨S11534336, .i32⟩) select,
    StableHlo.TRef.unary (.of main_call14_v4 : StableHlo.TRef sig ⟨S11534336, .i32⟩) (.of main_call14_v5 : StableHlo.TRef sig ⟨S11534336x1, .i32⟩) (broadcastInDim S11534336x1 ![0] bcast_S11534336_S11534336x1_0),
    StableHlo.TRef.nullary (.of main_call14_c_1 : StableHlo.TRef sig ⟨S1, .i32⟩) (constantI S1 32 11534335#32),
    StableHlo.TRef.nullary (.of main_call14_c_2 : StableHlo.TRef sig ⟨S_, .i32⟩) (constantI S_ 32 0#32),
    StableHlo.TRef.unary (.of main_call14_c_2 : StableHlo.TRef sig ⟨S_, .i32⟩) (.of main_call14_v6 : StableHlo.TRef sig ⟨S11534336x1, .i32⟩) (broadcastInDim S11534336x1 ![] bcast_S_S11534336x1),
    StableHlo.TRef.binary (.of main_call14_v5 : StableHlo.TRef sig ⟨S11534336x1, .i32⟩) (.of main_call14_v6 : StableHlo.TRef sig ⟨S11534336x1, .i32⟩) (.of main_call14_v7 : StableHlo.TRef sig ⟨S11534336x1, .i1⟩) (cmpi .sge),
    StableHlo.TRef.unary (.of main_call14_c_1 : StableHlo.TRef sig ⟨S1, .i32⟩) (.of main_call14_v8 : StableHlo.TRef sig ⟨S1x1, .i32⟩) (broadcastInDim S1x1 ![1] bcast_S1_S1x1_1),
    StableHlo.TRef.unary (.of main_call14_v8 : StableHlo.TRef sig ⟨S1x1, .i32⟩) (.of main_call14_v9 : StableHlo.TRef sig ⟨S11534336x1, .i32⟩) (broadcastInDim S11534336x1 ![0, 1] bcast_S1x1_S11534336x1_0_1),
    StableHlo.TRef.binary (.of main_call14_v5 : StableHlo.TRef sig ⟨S11534336x1, .i32⟩) (.of main_call14_v9 : StableHlo.TRef sig ⟨S11534336x1, .i32⟩) (.of main_call14_v10 : StableHlo.TRef sig ⟨S11534336x1, .i1⟩) (cmpi .sle),
    StableHlo.TRef.binary (.of main_call14_v7 : StableHlo.TRef sig ⟨S11534336x1, .i1⟩) (.of main_call14_v10 : StableHlo.TRef sig ⟨S11534336x1, .i1⟩) (.of main_call14_v11 : StableHlo.TRef sig ⟨S11534336x1, .i1⟩) andi,
    StableHlo.TRef.nullary (.of main_call14_c_3 : StableHlo.TRef sig ⟨S_, .i1⟩) (constantI S_ 1 1#1),
    StableHlo.TRef.binary (.of main_call14_v11 : StableHlo.TRef sig ⟨S11534336x1, .i1⟩) (.of main_call14_c_3 : StableHlo.TRef sig ⟨S_, .i1⟩) (.of main_call14_v12 : StableHlo.TRef sig ⟨S11534336, .i1⟩) (fun x v => Host.reduce IntOp.andi x v reducesTo_S11534336x1_S11534336_d1 h_S_),
    StableHlo.TRef.binary (.of main_v57 : StableHlo.TRef sig ⟨S11534336x3, .f32⟩) (.of main_call14_v5 : StableHlo.TRef sig ⟨S11534336x1, .i32⟩) (.of main_call14_v13 : StableHlo.TRef sig ⟨S11534336x3, .f32⟩) (fun x i => Host.gather gather_S11534336x3_S11534336x1_S11534336x3_1_0_n_n_0_1_13 x i),
    StableHlo.TRef.unary (.of main_call14_v12 : StableHlo.TRef sig ⟨S11534336, .i1⟩) (.of main_call14_v14 : StableHlo.TRef sig ⟨S11534336x3, .i1⟩) (broadcastInDim S11534336x3 ![0] bcast_S11534336_S11534336x3_0),
    StableHlo.TRef.nullary (.of main_call14_cst : StableHlo.TRef sig ⟨S_, .f32⟩) (constant S_ .f32 0x7FC00000#32),
    StableHlo.TRef.unary (.of main_call14_cst : StableHlo.TRef sig ⟨S_, .f32⟩) (.of main_call14_v15 : StableHlo.TRef sig ⟨S11534336x3, .f32⟩) (broadcastInDim S11534336x3 ![] bcast_S_S11534336x3),
    StableHlo.TRef.ternary (.of main_call14_v14 : StableHlo.TRef sig ⟨S11534336x3, .i1⟩) (.of main_call14_v13 : StableHlo.TRef sig ⟨S11534336x3, .f32⟩) (.of main_call14_v15 : StableHlo.TRef sig ⟨S11534336x3, .f32⟩) (.of main_v116 : StableHlo.TRef sig ⟨S11534336x3, .f32⟩) select,
    StableHlo.reshape main_v116 main_v117 rfl shapeCasts_S11534336x3_S176x256x256x3,
    StableHlo.unary main_v105 main_v118 (broadcastInDim S176x256x256x1 ![0, 1, 2] bcast_S176x256x256_S176x256x256x1_0_1_2 : (⟨S176x256x256, .i1⟩ : BufTy).Contents (Elt F) → (⟨S176x256x256x1, .i1⟩ : BufTy).Contents (Elt F)),
    StableHlo.nullary main_cst_35 (constant S_ .f32 0x00000000#32),
    StableHlo.TRef.unary (.of main_cst_35 : StableHlo.TRef sig ⟨S_, .f32⟩) (.of main_call15_v0 : StableHlo.TRef sig ⟨S_, .f32⟩) id,
    StableHlo.TRef.unary (.of main_v118 : StableHlo.TRef sig ⟨S176x256x256x1, .i1⟩) (.of main_call15_v1 : StableHlo.TRef sig ⟨S176x256x256x3, .i1⟩) (broadcastInDim S176x256x256x3 ![0, 1, 2, 3] bcast_S176x256x256x1_S176x256x256x3_0_1_2_3),
    StableHlo.TRef.unary (.of main_call15_v0 : StableHlo.TRef sig ⟨S_, .f32⟩) (.of main_call15_v2 : StableHlo.TRef sig ⟨S176x256x256x3, .f32⟩) (broadcastInDim S176x256x256x3 ![] bcast_S_S176x256x256x3),
    StableHlo.TRef.ternary (.of main_call15_v1 : StableHlo.TRef sig ⟨S176x256x256x3, .i1⟩) (.of main_v117 : StableHlo.TRef sig ⟨S176x256x256x3, .f32⟩) (.of main_call15_v2 : StableHlo.TRef sig ⟨S176x256x256x3, .f32⟩) (.of main_v119 : StableHlo.TRef sig ⟨S176x256x256x3, .f32⟩) select ]

/-- The combination: each neighbour's value times its weight, added, as the array of 16 x 11 grids. Operations 275 … 290 of the 290. -/
def fin : List (HloOp τ sig (Elt F)) :=
  [ StableHlo.unary main_v27 main_v120 (broadcastInDim S176x256x256x1 ![0, 1, 2] bcast_S176x256x256_S176x256x256x1_0_1_2 : (⟨S176x256x256, .f32⟩ : BufTy).Contents (Elt F) → (⟨S176x256x256x1, .f32⟩ : BufTy).Contents (Elt F)),
    StableHlo.unary main_v120 main_v121 (broadcastInDim S176x256x256x3 ![0, 1, 2, 3] bcast_S176x256x256x1_S176x256x256x3_0_1_2_3 : (⟨S176x256x256x1, .f32⟩ : BufTy).Contents (Elt F) → (⟨S176x256x256x3, .f32⟩ : BufTy).Contents (Elt F)),
    StableHlo.binary main_v121 main_v74 main_v122 (mulf : (⟨S176x256x256x3, .f32⟩ : BufTy).Contents (Elt F) → (⟨S176x256x256x3, .f32⟩ : BufTy).Contents (Elt F) → (⟨S176x256x256x3, .f32⟩ : BufTy).Contents (Elt F)),
    StableHlo.unary main_v29 main_v123 (broadcastInDim S176x256x256x1 ![0, 1, 2] bcast_S176x256x256_S176x256x256x1_0_1_2 : (⟨S176x256x256, .f32⟩ : BufTy).Contents (Elt F) → (⟨S176x256x256x1, .f32⟩ : BufTy).Contents (Elt F)),
    StableHlo.unary main_v123 main_v124 (broadcastInDim S176x256x256x3 ![0, 1, 2, 3] bcast_S176x256x256x1_S176x256x256x3_0_1_2_3 : (⟨S176x256x256x1, .f32⟩ : BufTy).Contents (Elt F) → (⟨S176x256x256x3, .f32⟩ : BufTy).Contents (Elt F)),
    StableHlo.binary main_v124 main_v104 main_v125 (mulf : (⟨S176x256x256x3, .f32⟩ : BufTy).Contents (Elt F) → (⟨S176x256x256x3, .f32⟩ : BufTy).Contents (Elt F) → (⟨S176x256x256x3, .f32⟩ : BufTy).Contents (Elt F)),
    StableHlo.binary main_v122 main_v125 main_v126 (addf : (⟨S176x256x256x3, .f32⟩ : BufTy).Contents (Elt F) → (⟨S176x256x256x3, .f32⟩ : BufTy).Contents (Elt F) → (⟨S176x256x256x3, .f32⟩ : BufTy).Contents (Elt F)),
    StableHlo.unary main_v28 main_v127 (broadcastInDim S176x256x256x1 ![0, 1, 2] bcast_S176x256x256_S176x256x256x1_0_1_2 : (⟨S176x256x256, .f32⟩ : BufTy).Contents (Elt F) → (⟨S176x256x256x1, .f32⟩ : BufTy).Contents (Elt F)),
    StableHlo.unary main_v127 main_v128 (broadcastInDim S176x256x256x3 ![0, 1, 2, 3] bcast_S176x256x256x1_S176x256x256x3_0_1_2_3 : (⟨S176x256x256x1, .f32⟩ : BufTy).Contents (Elt F) → (⟨S176x256x256x3, .f32⟩ : BufTy).Contents (Elt F)),
    StableHlo.binary main_v128 main_v89 main_v129 (mulf : (⟨S176x256x256x3, .f32⟩ : BufTy).Contents (Elt F) → (⟨S176x256x256x3, .f32⟩ : BufTy).Contents (Elt F) → (⟨S176x256x256x3, .f32⟩ : BufTy).Contents (Elt F)),
    StableHlo.binary main_v126 main_v129 main_v130 (addf : (⟨S176x256x256x3, .f32⟩ : BufTy).Contents (Elt F) → (⟨S176x256x256x3, .f32⟩ : BufTy).Contents (Elt F) → (⟨S176x256x256x3, .f32⟩ : BufTy).Contents (Elt F)),
    StableHlo.unary main_v30 main_v131 (broadcastInDim S176x256x256x1 ![0, 1, 2] bcast_S176x256x256_S176x256x256x1_0_1_2 : (⟨S176x256x256, .f32⟩ : BufTy).Contents (Elt F) → (⟨S176x256x256x1, .f32⟩ : BufTy).Contents (Elt F)),
    StableHlo.unary main_v131 main_v132 (broadcastInDim S176x256x256x3 ![0, 1, 2, 3] bcast_S176x256x256x1_S176x256x256x3_0_1_2_3 : (⟨S176x256x256x1, .f32⟩ : BufTy).Contents (Elt F) → (⟨S176x256x256x3, .f32⟩ : BufTy).Contents (Elt F)),
    StableHlo.binary main_v132 main_v119 main_v133 (mulf : (⟨S176x256x256x3, .f32⟩ : BufTy).Contents (Elt F) → (⟨S176x256x256x3, .f32⟩ : BufTy).Contents (Elt F) → (⟨S176x256x256x3, .f32⟩ : BufTy).Contents (Elt F)),
    StableHlo.binary main_v130 main_v133 main_v134 (addf : (⟨S176x256x256x3, .f32⟩ : BufTy).Contents (Elt F) → (⟨S176x256x256x3, .f32⟩ : BufTy).Contents (Elt F) → (⟨S176x256x256x3, .f32⟩ : BufTy).Contents (Elt F)),
    StableHlo.reshape main_v134 main_v135 rfl shapeCasts_S176x256x256x3_S16x11x256x256x3 ]

/-- The operations are the stages in order. -/
theorem ops_eq_stages : (ops : List (HloOp τ sig (Elt F))) = stage0 ++ (tap1 ++ (tap2 ++ (tap3 ++ (tap4 ++ fin)))) := rfl

/-! ## What a stage writes, and what it therefore leaves alone -/

section Writes

variable {Wl : List (Ref sig .tc)} {x a b c y : Ref sig .tc}

theorem nullary_writes_sub {v : y.ty.Contents (Elt F)} {hy} (h : y ∈ Wl) :
    (nullary (τ := τ) y v hy).writes ⊆ (Wl.map (Proc.devRef (τ := τ) .tc)).toFinset := by
  rw [nullary_writes, Finset.singleton_subset_iff, List.mem_toFinset]; exact List.mem_map_of_mem h
theorem unary_writes_sub {f : x.ty.Contents (Elt F) → y.ty.Contents (Elt F)} {hx hy} (h : y ∈ Wl) :
    (unary (τ := τ) x y f hx hy).writes ⊆ (Wl.map (Proc.devRef (τ := τ) .tc)).toFinset := by
  rw [unary_writes, Finset.singleton_subset_iff, List.mem_toFinset]; exact List.mem_map_of_mem h
theorem binary_writes_sub {f : a.ty.Contents (Elt F) → b.ty.Contents (Elt F) → y.ty.Contents (Elt F)} {ha hb hy} (h : y ∈ Wl) :
    (binary (τ := τ) a b y f ha hb hy).writes ⊆ (Wl.map (Proc.devRef (τ := τ) .tc)).toFinset := by
  rw [binary_writes, Finset.singleton_subset_iff, List.mem_toFinset]; exact List.mem_map_of_mem h
theorem ternary_writes_sub {f : c.ty.Contents (Elt F) → a.ty.Contents (Elt F) → b.ty.Contents (Elt F) → y.ty.Contents (Elt F)}
    {hc ha hb hy} (h : y ∈ Wl) :
    (ternary (τ := τ) c a b y f hc ha hb hy).writes ⊆ (Wl.map (Proc.devRef (τ := τ) .tc)).toFinset := by
  rw [ternary_writes, Finset.singleton_subset_iff, List.mem_toFinset]; exact List.mem_map_of_mem h
theorem reshape_writes_sub {he hn hx hy} (h : y ∈ Wl) :
    (reshape (τ := τ) (Val := Elt F) x y he hn hx hy).writes ⊆ (Wl.map (Proc.devRef (τ := τ) .tc)).toFinset := by
  rw [reshape_writes, Finset.singleton_subset_iff, List.mem_toFinset]; exact List.mem_map_of_mem h

end Writes

/-- The result buffers of the operations of `tap1`. -/
abbrev tap1W : List (Ref sig .tc) :=
  [main_v60, main_c_16, main_call0_v0, main_call0_v1, main_v61, main_c_17, main_call1_v0, main_call1_v1, main_v62, main_c_18, main_v63, main_v64,
     main_v65, main_v66, main_c_19, main_v67, main_v68, main_v69, main_v70, main_call2_c, main_call2_v0, main_call2_v1, main_call2_c_0, main_call2_v2,
     main_call2_v3, main_call2_v4, main_call2_v5, main_call2_c_1, main_call2_c_2, main_call2_v6, main_call2_v7, main_call2_v8, main_call2_v9,
     main_call2_v10, main_call2_v11, main_call2_c_3, main_call2_v12, main_call2_v13, main_call2_v14, main_call2_cst, main_call2_v15, main_v71,
     main_v72, main_v73, main_cst_20, main_call3_v0, main_call3_v1, main_call3_v2, main_v74]

/-- Every operation of `tap1` writes one of them. -/
theorem tap1_writes : (tap1 : List (HloOp τ sig (Elt F))).Forall fun op =>
    op.writes ⊆ (tap1W.map (Proc.devRef (τ := τ) .tc)).toFinset :=
  ⟨binary_writes_sub (by decide), nullary_writes_sub (by decide), unary_writes_sub (by decide), unary_writes_sub (by decide),
     ternary_writes_sub (by decide), nullary_writes_sub (by decide), unary_writes_sub (by decide), unary_writes_sub (by decide),
     ternary_writes_sub (by decide), nullary_writes_sub (by decide), unary_writes_sub (by decide), binary_writes_sub (by decide),
     unary_writes_sub (by decide), binary_writes_sub (by decide), nullary_writes_sub (by decide), unary_writes_sub (by decide),
     binary_writes_sub (by decide), binary_writes_sub (by decide), reshape_writes_sub (by decide), nullary_writes_sub (by decide),
     unary_writes_sub (by decide), binary_writes_sub (by decide), nullary_writes_sub (by decide), unary_writes_sub (by decide),
     binary_writes_sub (by decide), ternary_writes_sub (by decide), unary_writes_sub (by decide), nullary_writes_sub (by decide),
     nullary_writes_sub (by decide), unary_writes_sub (by decide), binary_writes_sub (by decide), unary_writes_sub (by decide),
     unary_writes_sub (by decide), binary_writes_sub (by decide), binary_writes_sub (by decide), nullary_writes_sub (by decide),
     binary_writes_sub (by decide), binary_writes_sub (by decide), unary_writes_sub (by decide), nullary_writes_sub (by decide),
     unary_writes_sub (by decide), ternary_writes_sub (by decide), reshape_writes_sub (by decide), unary_writes_sub (by decide),
     nullary_writes_sub (by decide), unary_writes_sub (by decide), unary_writes_sub (by decide), unary_writes_sub (by decide),
     ternary_writes_sub (by decide)⟩

/-- A buffer that is none of them holds after `tap1` what it held before. -/
theorem tap1_keep (U : Valuation τ sig (Elt F)) {r : Ref sig .tc} (h : r ∉ tap1W) :
    after tap1 U (Proc.devRef .tc r) = U (Proc.devRef .tc r) :=
  after_of_writes_sub tap1 U tap1_writes h

/-- The result buffers of the operations of `tap2`. -/
abbrev tap2W : List (Ref sig .tc) :=
  [main_v75, main_c_21, main_call4_v0, main_call4_v1, main_v76, main_c_22, main_call5_v0, main_call5_v1, main_v77, main_c_23, main_v78, main_v79,
     main_v80, main_v81, main_c_24, main_v82, main_v83, main_v84, main_v85, main_call6_c, main_call6_v0, main_call6_v1, main_call6_c_0, main_call6_v2,
     main_call6_v3, main_call6_v4, main_call6_v5, main_call6_c_1, main_call6_c_2, main_call6_v6, main_call6_v7, main_call6_v8, main_call6_v9,
     main_call6_v10, main_call6_v11, main_call6_c_3, main_call6_v12, main_call6_v13, main_call6_v14, main_call6_cst, main_call6_v15, main_v86,
     main_v87, main_v88, main_cst_25, main_call7_v0, main_call7_v1, main_call7_v2, main_v89]

/-- Every operation of `tap2` writes one of them. -/
theorem tap2_writes : (tap2 : List (HloOp τ sig (Elt F))).Forall fun op =>
    op.writes ⊆ (tap2W.map (Proc.devRef (τ := τ) .tc)).toFinset :=
  ⟨binary_writes_sub (by decide), nullary_writes_sub (by decide), unary_writes_sub (by decide), unary_writes_sub (by decide),
     ternary_writes_sub (by decide), nullary_writes_sub (by decide), unary_writes_sub (by decide), unary_writes_sub (by decide),
     ternary_writes_sub (by decide), nullary_writes_sub (by decide), unary_writes_sub (by decide), binary_writes_sub (by decide),
     unary_writes_sub (by decide), binary_writes_sub (by decide), nullary_writes_sub (by decide), unary_writes_sub (by decide),
     binary_writes_sub (by decide), binary_writes_sub (by decide), reshape_writes_sub (by decide), nullary_writes_sub (by decide),
     unary_writes_sub (by decide), binary_writes_sub (by decide), nullary_writes_sub (by decide), unary_writes_sub (by decide),
     binary_writes_sub (by decide), ternary_writes_sub (by decide), unary_writes_sub (by decide), nullary_writes_sub (by decide),
     nullary_writes_sub (by decide), unary_writes_sub (by decide), binary_writes_sub (by decide), unary_writes_sub (by decide),
     unary_writes_sub (by decide), binary_writes_sub (by decide), binary_writes_sub (by decide), nullary_writes_sub (by decide),
     binary_writes_sub (by decide), binary_writes_sub (by decide), unary_writes_sub (by decide), nullary_writes_sub (by decide),
     unary_writes_sub (by decide), ternary_writes_sub (by decide), reshape_writes_sub (by decide), unary_writes_sub (by decide),
     nullary_writes_sub (by decide), unary_writes_sub (by decide), unary_writes_sub (by decide), unary_writes_sub (by decide),
     ternary_writes_sub (by decide)⟩

/-- A buffer that is none of them holds after `tap2` what it held before. -/
theorem tap2_keep (U : Valuation τ sig (Elt F)) {r : Ref sig .tc} (h : r ∉ tap2W) :
    after tap2 U (Proc.devRef .tc r) = U (Proc.devRef .tc r) :=
  after_of_writes_sub tap2 U tap2_writes h

/-- The result buffers of the operations of `tap3`. -/
abbrev tap3W : List (Ref sig .tc) :=
  [main_v90, main_c_26, main_call8_v0, main_call8_v1, main_v91, main_c_27, main_call9_v0, main_call9_v1, main_v92, main_c_28, main_v93, main_v94,
     main_v95, main_v96, main_c_29, main_v97, main_v98, main_v99, main_v100, main_call10_c, main_call10_v0, main_call10_v1, main_call10_c_0,
     main_call10_v2, main_call10_v3, main_call10_v4, main_call10_v5, main_call10_c_1, main_call10_c_2, main_call10_v6, main_call10_v7, main_call10_v8,
     main_call10_v9, main_call10_v10, main_call10_v11, main_call10_c_3, main_call10_v12, main_call10_v13, main_call10_v14, main_call10_cst,
     main_call10_v15, main_v101, main_v102, main_v103, main_cst_30, main_call11_v0, main_call11_v1, main_call11_v2, main_v104]

/-- Every operation of `tap3` writes one of them. -/
theorem tap3_writes : (tap3 : List (HloOp τ sig (Elt F))).Forall fun op =>
    op.writes ⊆ (tap3W.map (Proc.devRef (τ := τ) .tc)).toFinset :=
  ⟨binary_writes_sub (by decide), nullary_writes_sub (by decide), unary_writes_sub (by decide), unary_writes_sub (by decide),
     ternary_writes_sub (by decide), nullary_writes_sub (by decide), unary_writes_sub (by decide), unary_writes_sub (by decide),
     ternary_writes_sub (by decide), nullary_writes_sub (by decide), unary_writes_sub (by decide), binary_writes_sub (by decide),
     unary_writes_sub (by decide), binary_writes_sub (by decide), nullary_writes_sub (by decide), unary_writes_sub (by decide),
     binary_writes_sub (by decide), binary_writes_sub (by decide), reshape_writes_sub (by decide), nullary_writes_sub (by decide),
     unary_writes_sub (by decide), binary_writes_sub (by decide), nullary_writes_sub (by decide), unary_writes_sub (by decide),
     binary_writes_sub (by decide), ternary_writes_sub (by decide), unary_writes_sub (by decide), nullary_writes_sub (by decide),
     nullary_writes_sub (by decide), unary_writes_sub (by decide), binary_writes_sub (by decide), unary_writes_sub (by decide),
     unary_writes_sub (by decide), binary_writes_sub (by decide), binary_writes_sub (by decide), nullary_writes_sub (by decide),
     binary_writes_sub (by decide), binary_writes_sub (by decide), unary_writes_sub (by decide), nullary_writes_sub (by decide),
     unary_writes_sub (by decide), ternary_writes_sub (by decide), reshape_writes_sub (by decide), unary_writes_sub (by decide),
     nullary_writes_sub (by decide), unary_writes_sub (by decide), unary_writes_sub (by decide), unary_writes_sub (by decide),
     ternary_writes_sub (by decide)⟩

/-- A buffer that is none of them holds after `tap3` what it held before. -/
theorem tap3_keep (U : Valuation τ sig (Elt F)) {r : Ref sig .tc} (h : r ∉ tap3W) :
    after tap3 U (Proc.devRef .tc r) = U (Proc.devRef .tc r) :=
  after_of_writes_sub tap3 U tap3_writes h

/-- The result buffers of the operations of `tap4`. -/
abbrev tap4W : List (Ref sig .tc) :=
  [main_v105, main_c_31, main_call12_v0, main_call12_v1, main_v106, main_c_32, main_call13_v0, main_call13_v1, main_v107, main_c_33, main_v108,
     main_v109, main_v110, main_v111, main_c_34, main_v112, main_v113, main_v114, main_v115, main_call14_c, main_call14_v0, main_call14_v1,
     main_call14_c_0, main_call14_v2, main_call14_v3, main_call14_v4, main_call14_v5, main_call14_c_1, main_call14_c_2, main_call14_v6,
     main_call14_v7, main_call14_v8, main_call14_v9, main_call14_v10, main_call14_v11, main_call14_c_3, main_call14_v12, main_call14_v13,
     main_call14_v14, main_call14_cst, main_call14_v15, main_v116, main_v117, main_v118, main_cst_35, main_call15_v0, main_call15_v1, main_call15_v2,
     main_v119]

/-- Every operation of `tap4` writes one of them. -/
theorem tap4_writes : (tap4 : List (HloOp τ sig (Elt F))).Forall fun op =>
    op.writes ⊆ (tap4W.map (Proc.devRef (τ := τ) .tc)).toFinset :=
  ⟨binary_writes_sub (by decide), nullary_writes_sub (by decide), unary_writes_sub (by decide), unary_writes_sub (by decide),
     ternary_writes_sub (by decide), nullary_writes_sub (by decide), unary_writes_sub (by decide), unary_writes_sub (by decide),
     ternary_writes_sub (by decide), nullary_writes_sub (by decide), unary_writes_sub (by decide), binary_writes_sub (by decide),
     unary_writes_sub (by decide), binary_writes_sub (by decide), nullary_writes_sub (by decide), unary_writes_sub (by decide),
     binary_writes_sub (by decide), binary_writes_sub (by decide), reshape_writes_sub (by decide), nullary_writes_sub (by decide),
     unary_writes_sub (by decide), binary_writes_sub (by decide), nullary_writes_sub (by decide), unary_writes_sub (by decide),
     binary_writes_sub (by decide), ternary_writes_sub (by decide), unary_writes_sub (by decide), nullary_writes_sub (by decide),
     nullary_writes_sub (by decide), unary_writes_sub (by decide), binary_writes_sub (by decide), unary_writes_sub (by decide),
     unary_writes_sub (by decide), binary_writes_sub (by decide), binary_writes_sub (by decide), nullary_writes_sub (by decide),
     binary_writes_sub (by decide), binary_writes_sub (by decide), unary_writes_sub (by decide), nullary_writes_sub (by decide),
     unary_writes_sub (by decide), ternary_writes_sub (by decide), reshape_writes_sub (by decide), unary_writes_sub (by decide),
     nullary_writes_sub (by decide), unary_writes_sub (by decide), unary_writes_sub (by decide), unary_writes_sub (by decide),
     ternary_writes_sub (by decide)⟩

/-- A buffer that is none of them holds after `tap4` what it held before. -/
theorem tap4_keep (U : Valuation τ sig (Elt F)) {r : Ref sig .tc} (h : r ∉ tap4W) :
    after tap4 U (Proc.devRef .tc r) = U (Proc.devRef .tc r) :=
  after_of_writes_sub tap4 U tap4_writes h

/-! ## What a per-neighbour stage and the last stage compute -/

/-- Row (b * 256 + y) * 256 + x per sampling point, the grid numbers b given as `g`: a neighbour's coordinates are taken
    where its mask `m` holds and are 0 elsewhere. -/
def rowsOf (g : IVec S176x1x1 32) (m : IVec S176x256x256 1) (yi xi : IVec S176x256x256 32) : IVec S11534336 32 :=
  shapeCast S11534336
    (addi
      (muli
        (addi
          (broadcastInDim S176x256x256 ![0, 1, 2] bcast_S176x1x1_S176x256x256_0_1_2
            (muli g (broadcastInDim S176x1x1 ![] bcast_S_S176x1x1 (constantI S_ 32 256#32))))
          (Cert.Bridge.keep m yi))
        (Cert.Bridge.cI 256#32))
      (Cert.Bridge.keep m xi))
    shapeCasts_S176x256x256_S11534336

/-- A neighbour's value from its two one-axis masks, its coordinates, the grid numbers and the table: the row looked
    up where both masks hold, 0 elsewhere. -/
def tapOf (ma mb : IVec S176x256x256 1) (yi xi : IVec S176x256x256 32) (g : IVec S176x1x1 32)
    (tbl : FVec F S11534336x3 .f32) : FVec F S176x256x256x3 .f32 :=
  Cert.Bridge.tapVal (andi ma mb)
    (Cert.Bridge.takeRows (M := 11534336) gather_S11534336x3_S11534336x1_S11534336x3_1_0_n_n_0_1_13 11534336#32 11534335#32 tbl
      (rowsOf g (andi ma mb) yi xi))

/-- The weighted sum of the four neighbours' values (north-west, north-east, south-west, south-east), added in the
    program's order, as the array of 16 x 11 grids. -/
def combOf (w1 w2 w3 w4 : FVec F S176x256x256 .f32) (t1 t2 t3 t4 : FVec F S176x256x256x3 .f32) :
    FVec F S16x11x256x256x3 .f32 :=
  shapeCast S16x11x256x256x3
    (addf
      (addf
        (addf (mulf (Cert.Bridge.wgt w1) t1) (mulf (Cert.Bridge.wgt w3) t3))
        (mulf (Cert.Bridge.wgt w2) t2))
      (mulf (Cert.Bridge.wgt w4) t4))
    shapeCasts_S176x256x256x3_S16x11x256x256x3

end Cert.ReferenceIdeal.RefRun

end
-- ==== Proof.RefStage0.lean ====
/-
  What the prelude leaves in the fourteen buffers the later stages read, as functions of the two arguments: the operations
  folded one by one over arbitrary contents `W`; each buffer's contents is then the composed term, which is the named
  function by unfolding its definition.
-/
import proofs.«115037_j71897752535328_2_alg».proof.Proof.RefOps
import proofs.«115037_j71897752535328_2_alg».proof.Proof.Spec2
import proofs.«115037_j71897752535328_2_alg».proof.Proof.LibTypedRef
import proofs.«115037_j71897752535328_2_alg».proof.Proof.RefStages
import Idealize.ShloMosaic.Lib.StableHlo.Run

-- the shapes' literal extents (11534336 rows) are compared by unfolding when two spellings of one type are matched
set_option maxRecDepth 200000

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

-- the and-reduction and the row lookup are compared as they stand, never opened over their 11534336 entries
attribute [local irreducible] Host.reduce Host.gather

/-- After the prelude `%27` holds the north-west weight (1 - fy)(1 - fx). -/
theorem stage0_v27 (W : Valuation τ sig (Elt F)) :
    after stage0 W (Proc.devRef .tc main_v27) = (mulf (subf (Cert.Bridge.cF (F := F) 0x3F800000#32) (Cert.Bridge.fracOf (Cert.Bridge.gyOf (W (Proc.devRef .tc main_arg1))))) (subf (Cert.Bridge.cF (F := F) 0x3F800000#32) (Cert.Bridge.fracOf (Cert.Bridge.gxOf (W (Proc.devRef .tc main_arg1)))))) := by
  simp only [stage0]
  after_results_simp
  rfl

/-- After the prelude `%28` holds the north-east weight (1 - fy) fx. -/
theorem stage0_v28 (W : Valuation τ sig (Elt F)) :
    after stage0 W (Proc.devRef .tc main_v28) = (mulf (subf (Cert.Bridge.cF (F := F) 0x3F800000#32) (Cert.Bridge.fracOf (Cert.Bridge.gyOf (W (Proc.devRef .tc main_arg1))))) (Cert.Bridge.fracOf (Cert.Bridge.gxOf (W (Proc.devRef .tc main_arg1))))) := by
  simp only [stage0]
  after_results_simp
  rfl

/-- After the prelude `%29` holds the south-west weight fy (1 - fx). -/
theorem stage0_v29 (W : Valuation τ sig (Elt F)) :
    after stage0 W (Proc.devRef .tc main_v29) = (mulf (Cert.Bridge.fracOf (Cert.Bridge.gyOf (W (Proc.devRef .tc main_arg1)))) (subf (Cert.Bridge.cF (F := F) 0x3F800000#32) (Cert.Bridge.fracOf (Cert.Bridge.gxOf (W (Proc.devRef .tc main_arg1)))))) := by
  simp only [stage0]
  after_results_simp
  rfl

/-- After the prelude `%30` holds the south-east weight fy fx. -/
theorem stage0_v30 (W : Valuation τ sig (Elt F)) :
    after stage0 W (Proc.devRef .tc main_v30) = (mulf (Cert.Bridge.fracOf (Cert.Bridge.gyOf (W (Proc.devRef .tc main_arg1)))) (Cert.Bridge.fracOf (Cert.Bridge.gxOf (W (Proc.devRef .tc main_arg1))))) := by
  simp only [stage0]
  after_results_simp
  rfl

/-- After the prelude `%31` holds the cell corner's x. -/
theorem stage0_v31 (W : Valuation τ sig (Elt F)) :
    after stage0 W (Proc.devRef .tc main_v31) = (Cert.Bridge.cellOf (Cert.Bridge.gxOf (W (Proc.devRef .tc main_arg1)))) := by
  simp only [stage0]
  after_results_simp
  rfl

/-- After the prelude `%32` holds the cell corner's y. -/
theorem stage0_v32 (W : Valuation τ sig (Elt F)) :
    after stage0 W (Proc.devRef .tc main_v32) = (Cert.Bridge.cellOf (Cert.Bridge.gyOf (W (Proc.devRef .tc main_arg1)))) := by
  simp only [stage0]
  after_results_simp
  rfl

/-- After the prelude `%34` holds the cell corner's x plus 1. -/
theorem stage0_v34 (W : Valuation τ sig (Elt F)) :
    after stage0 W (Proc.devRef .tc main_v34) = (addi (Cert.Bridge.cellOf (Cert.Bridge.gxOf (W (Proc.devRef .tc main_arg1)))) (Cert.Bridge.cI 1#32)) := by
  simp only [stage0]
  after_results_simp
  rfl

/-- After the prelude `%36` holds the cell corner's y plus 1. -/
theorem stage0_v36 (W : Valuation τ sig (Elt F)) :
    after stage0 W (Proc.devRef .tc main_v36) = (addi (Cert.Bridge.cellOf (Cert.Bridge.gyOf (W (Proc.devRef .tc main_arg1)))) (Cert.Bridge.cI 1#32)) := by
  simp only [stage0]
  after_results_simp
  rfl

/-- After the prelude `%41` holds whether x lies in the image. -/
theorem stage0_v41 (W : Valuation τ sig (Elt F)) :
    after stage0 W (Proc.devRef .tc main_v41) = (Cert.Bridge.inImg (Cert.Bridge.cellOf (Cert.Bridge.gxOf (W (Proc.devRef .tc main_arg1))))) := by
  simp only [stage0]
  after_results_simp
  rfl

/-- After the prelude `%46` holds whether y lies in the image. -/
theorem stage0_v46 (W : Valuation τ sig (Elt F)) :
    after stage0 W (Proc.devRef .tc main_v46) = (Cert.Bridge.inImg (Cert.Bridge.cellOf (Cert.Bridge.gyOf (W (Proc.devRef .tc main_arg1))))) := by
  simp only [stage0]
  after_results_simp
  rfl

/-- After the prelude `%51` holds whether x + 1 lies in the image. -/
theorem stage0_v51 (W : Valuation τ sig (Elt F)) :
    after stage0 W (Proc.devRef .tc main_v51) = (Cert.Bridge.inImg (addi (Cert.Bridge.cellOf (Cert.Bridge.gxOf (W (Proc.devRef .tc main_arg1)))) (Cert.Bridge.cI 1#32))) := by
  simp only [stage0]
  after_results_simp
  rfl

/-- After the prelude `%56` holds whether y + 1 lies in the image. -/
theorem stage0_v56 (W : Valuation τ sig (Elt F)) :
    after stage0 W (Proc.devRef .tc main_v56) = (Cert.Bridge.inImg (addi (Cert.Bridge.cellOf (Cert.Bridge.gyOf (W (Proc.devRef .tc main_arg1)))) (Cert.Bridge.cI 1#32))) := by
  simp only [stage0]
  after_results_simp
  rfl

/-- After the prelude `%57` holds the 176 copies of the image as a table of rows. -/
theorem stage0_v57 (W : Valuation τ sig (Elt F)) :
    after stage0 W (Proc.devRef .tc main_v57) = (Cert.Bridge.tblR (W (Proc.devRef .tc main_arg0))) := by
  simp only [stage0]
  after_results_simp
  rfl

/-- After the prelude `%59` holds the grid numbers. -/
theorem stage0_v59 (W : Valuation τ sig (Elt F)) :
    after stage0 W (Proc.devRef .tc main_v59) = (broadcastInDim S176x1x1 ![0] bcast_S176_S176x1x1_0 (iotaInDim S176 32 0) : IVec S176x1x1 32) := by
  simp only [stage0]
  after_results_simp

end Cert.ReferenceIdeal.RefRun

end
-- ==== Proof.RefTap1.lean ====
/-
  The north-west neighbour's stage, in three parts, each from any contents `U` of the buffers: the mask and the row
  numbers (the two one-axis masks joined; each coordinate kept where the mask holds by a call; the row number
  (b * 256 + y) * 256 + x from the grid numbers); the called row lookup with its own call; the reshaping and the call
  that zeroes the value where the mask fails. Each part's operations are folded one by one, and the buffer's contents is
  the named function by unfolding; contents carried to a called function's buffer type and back are unchanged. The
  parts in turn are the stage: its value is `tapOf` of the six buffers it reads.
-/
import proofs.«115037_j71897752535328_2_alg».proof.Proof.RefOps
import proofs.«115037_j71897752535328_2_alg».proof.Proof.Spec2
import proofs.«115037_j71897752535328_2_alg».proof.Proof.LibTypedRef
import proofs.«115037_j71897752535328_2_alg».proof.Proof.RefStages
import Idealize.ShloMosaic.Lib.Pipeline.Frame
import Idealize.ShloMosaic.Lib.StableHlo.Run

-- the shapes' literal extents (11534336 rows) are compared by unfolding when two spellings of one type are matched
set_option maxRecDepth 200000

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

-- the and-reduction and the row lookup are compared as they stand, never opened over their 11534336 entries
attribute [local irreducible] Host.reduce Host.gather

-- one declaration at a time: each fold holds its whole chain of rewrites while it runs
set_option Elab.async false

/-- The mask, the kept coordinates and the row numbers. -/
def tap1a : List (HloOp τ sig (Elt F)) :=
  [ StableHlo.binary main_v41 main_v46 main_v60 (andi : (⟨S176x256x256, .i1⟩ : BufTy).Contents (Elt F) → (⟨S176x256x256, .i1⟩ : BufTy).Contents (Elt F) → (⟨S176x256x256, .i1⟩ : BufTy).Contents (Elt F)),
    StableHlo.nullary main_c_16 (constantI S_ 32 0#32),
    StableHlo.TRef.unary (.of main_c_16 : StableHlo.TRef sig ⟨S_, .i32⟩) (.of main_call0_v0 : StableHlo.TRef sig ⟨S_, .i32⟩) id,
    StableHlo.TRef.unary (.of main_call0_v0 : StableHlo.TRef sig ⟨S_, .i32⟩) (.of main_call0_v1 : StableHlo.TRef sig ⟨S176x256x256, .i32⟩) (broadcastInDim S176x256x256 ![] bcast_S_S176x256x256),
    StableHlo.TRef.ternary (.of main_v60 : StableHlo.TRef sig ⟨S176x256x256, .i1⟩) (.of main_v32 : StableHlo.TRef sig ⟨S176x256x256, .i32⟩) (.of main_call0_v1 : StableHlo.TRef sig ⟨S176x256x256, .i32⟩) (.of main_v61 : StableHlo.TRef sig ⟨S176x256x256, .i32⟩) select,
    StableHlo.nullary main_c_17 (constantI S_ 32 0#32),
    StableHlo.TRef.unary (.of main_c_17 : StableHlo.TRef sig ⟨S_, .i32⟩) (.of main_call1_v0 : StableHlo.TRef sig ⟨S_, .i32⟩) id,
    StableHlo.TRef.unary (.of main_call1_v0 : StableHlo.TRef sig ⟨S_, .i32⟩) (.of main_call1_v1 : StableHlo.TRef sig ⟨S176x256x256, .i32⟩) (broadcastInDim S176x256x256 ![] bcast_S_S176x256x256),
    StableHlo.TRef.ternary (.of main_v60 : StableHlo.TRef sig ⟨S176x256x256, .i1⟩) (.of main_v31 : StableHlo.TRef sig ⟨S176x256x256, .i32⟩) (.of main_call1_v1 : StableHlo.TRef sig ⟨S176x256x256, .i32⟩) (.of main_v62 : StableHlo.TRef sig ⟨S176x256x256, .i32⟩) select,
    StableHlo.nullary main_c_18 (constantI S_ 32 256#32),
    StableHlo.unary main_c_18 main_v63 (broadcastInDim S176x1x1 ![] bcast_S_S176x1x1 : (⟨S_, .i32⟩ : BufTy).Contents (Elt F) → (⟨S176x1x1, .i32⟩ : BufTy).Contents (Elt F)),
    StableHlo.binary main_v59 main_v63 main_v64 (muli : (⟨S176x1x1, .i32⟩ : BufTy).Contents (Elt F) → (⟨S176x1x1, .i32⟩ : BufTy).Contents (Elt F) → (⟨S176x1x1, .i32⟩ : BufTy).Contents (Elt F)),
    StableHlo.unary main_v64 main_v65 (broadcastInDim S176x256x256 ![0, 1, 2] bcast_S176x1x1_S176x256x256_0_1_2 : (⟨S176x1x1, .i32⟩ : BufTy).Contents (Elt F) → (⟨S176x256x256, .i32⟩ : BufTy).Contents (Elt F)),
    StableHlo.binary main_v65 main_v61 main_v66 (addi : (⟨S176x256x256, .i32⟩ : BufTy).Contents (Elt F) → (⟨S176x256x256, .i32⟩ : BufTy).Contents (Elt F) → (⟨S176x256x256, .i32⟩ : BufTy).Contents (Elt F)),
    StableHlo.nullary main_c_19 (constantI S_ 32 256#32),
    StableHlo.unary main_c_19 main_v67 (broadcastInDim S176x256x256 ![] bcast_S_S176x256x256 : (⟨S_, .i32⟩ : BufTy).Contents (Elt F) → (⟨S176x256x256, .i32⟩ : BufTy).Contents (Elt F)),
    StableHlo.binary main_v66 main_v67 main_v68 (muli : (⟨S176x256x256, .i32⟩ : BufTy).Contents (Elt F) → (⟨S176x256x256, .i32⟩ : BufTy).Contents (Elt F) → (⟨S176x256x256, .i32⟩ : BufTy).Contents (Elt F)),
    StableHlo.binary main_v68 main_v62 main_v69 (addi : (⟨S176x256x256, .i32⟩ : BufTy).Contents (Elt F) → (⟨S176x256x256, .i32⟩ : BufTy).Contents (Elt F) → (⟨S176x256x256, .i32⟩ : BufTy).Contents (Elt F)),
    StableHlo.reshape main_v69 main_v70 rfl shapeCasts_S176x256x256_S11534336 ]

/-- The called row lookup. -/
def tap1b : List (HloOp τ sig (Elt F)) :=
  [ StableHlo.TRef.nullary (.of main_call2_c : StableHlo.TRef sig ⟨S_, .i32⟩) (constantI S_ 32 0#32),
    StableHlo.TRef.unary (.of main_call2_c : StableHlo.TRef sig ⟨S_, .i32⟩) (.of main_call2_v0 : StableHlo.TRef sig ⟨S11534336, .i32⟩) (broadcastInDim S11534336 ![] bcast_S_S11534336),
    StableHlo.TRef.binary (.of main_v70 : StableHlo.TRef sig ⟨S11534336, .i32⟩) (.of main_call2_v0 : StableHlo.TRef sig ⟨S11534336, .i32⟩) (.of main_call2_v1 : StableHlo.TRef sig ⟨S11534336, .i1⟩) (cmpi .slt),
    StableHlo.TRef.nullary (.of main_call2_c_0 : StableHlo.TRef sig ⟨S_, .i32⟩) (constantI S_ 32 11534336#32),
    StableHlo.TRef.unary (.of main_call2_c_0 : StableHlo.TRef sig ⟨S_, .i32⟩) (.of main_call2_v2 : StableHlo.TRef sig ⟨S11534336, .i32⟩) (broadcastInDim S11534336 ![] bcast_S_S11534336),
    StableHlo.TRef.binary (.of main_v70 : StableHlo.TRef sig ⟨S11534336, .i32⟩) (.of main_call2_v2 : StableHlo.TRef sig ⟨S11534336, .i32⟩) (.of main_call2_v3 : StableHlo.TRef sig ⟨S11534336, .i32⟩) addi,
    StableHlo.TRef.ternary (.of main_call2_v1 : StableHlo.TRef sig ⟨S11534336, .i1⟩) (.of main_call2_v3 : StableHlo.TRef sig ⟨S11534336, .i32⟩) (.of main_v70 : StableHlo.TRef sig ⟨S11534336, .i32⟩) (.of main_call2_v4 : StableHlo.TRef sig ⟨S11534336, .i32⟩) select,
    StableHlo.TRef.unary (.of main_call2_v4 : StableHlo.TRef sig ⟨S11534336, .i32⟩) (.of main_call2_v5 : StableHlo.TRef sig ⟨S11534336x1, .i32⟩) (broadcastInDim S11534336x1 ![0] bcast_S11534336_S11534336x1_0),
    StableHlo.TRef.nullary (.of main_call2_c_1 : StableHlo.TRef sig ⟨S1, .i32⟩) (constantI S1 32 11534335#32),
    StableHlo.TRef.nullary (.of main_call2_c_2 : StableHlo.TRef sig ⟨S_, .i32⟩) (constantI S_ 32 0#32),
    StableHlo.TRef.unary (.of main_call2_c_2 : StableHlo.TRef sig ⟨S_, .i32⟩) (.of main_call2_v6 : StableHlo.TRef sig ⟨S11534336x1, .i32⟩) (broadcastInDim S11534336x1 ![] bcast_S_S11534336x1),
    StableHlo.TRef.binary (.of main_call2_v5 : StableHlo.TRef sig ⟨S11534336x1, .i32⟩) (.of main_call2_v6 : StableHlo.TRef sig ⟨S11534336x1, .i32⟩) (.of main_call2_v7 : StableHlo.TRef sig ⟨S11534336x1, .i1⟩) (cmpi .sge),
    StableHlo.TRef.unary (.of main_call2_c_1 : StableHlo.TRef sig ⟨S1, .i32⟩) (.of main_call2_v8 : StableHlo.TRef sig ⟨S1x1, .i32⟩) (broadcastInDim S1x1 ![1] bcast_S1_S1x1_1),
    StableHlo.TRef.unary (.of main_call2_v8 : StableHlo.TRef sig ⟨S1x1, .i32⟩) (.of main_call2_v9 : StableHlo.TRef sig ⟨S11534336x1, .i32⟩) (broadcastInDim S11534336x1 ![0, 1] bcast_S1x1_S11534336x1_0_1),
    StableHlo.TRef.binary (.of main_call2_v5 : StableHlo.TRef sig ⟨S11534336x1, .i32⟩) (.of main_call2_v9 : StableHlo.TRef sig ⟨S11534336x1, .i32⟩) (.of main_call2_v10 : StableHlo.TRef sig ⟨S11534336x1, .i1⟩) (cmpi .sle),
    StableHlo.TRef.binary (.of main_call2_v7 : StableHlo.TRef sig ⟨S11534336x1, .i1⟩) (.of main_call2_v10 : StableHlo.TRef sig ⟨S11534336x1, .i1⟩) (.of main_call2_v11 : StableHlo.TRef sig ⟨S11534336x1, .i1⟩) andi,
    StableHlo.TRef.nullary (.of main_call2_c_3 : StableHlo.TRef sig ⟨S_, .i1⟩) (constantI S_ 1 1#1),
    StableHlo.TRef.binary (.of main_call2_v11 : StableHlo.TRef sig ⟨S11534336x1, .i1⟩) (.of main_call2_c_3 : StableHlo.TRef sig ⟨S_, .i1⟩) (.of main_call2_v12 : StableHlo.TRef sig ⟨S11534336, .i1⟩) (fun x v => Host.reduce IntOp.andi x v reducesTo_S11534336x1_S11534336_d1 h_S_),
    StableHlo.TRef.binary (.of main_v57 : StableHlo.TRef sig ⟨S11534336x3, .f32⟩) (.of main_call2_v5 : StableHlo.TRef sig ⟨S11534336x1, .i32⟩) (.of main_call2_v13 : StableHlo.TRef sig ⟨S11534336x3, .f32⟩) (fun x i => Host.gather gather_S11534336x3_S11534336x1_S11534336x3_1_0_n_n_0_1_13 x i),
    StableHlo.TRef.unary (.of main_call2_v12 : StableHlo.TRef sig ⟨S11534336, .i1⟩) (.of main_call2_v14 : StableHlo.TRef sig ⟨S11534336x3, .i1⟩) (broadcastInDim S11534336x3 ![0] bcast_S11534336_S11534336x3_0),
    StableHlo.TRef.nullary (.of main_call2_cst : StableHlo.TRef sig ⟨S_, .f32⟩) (constant S_ .f32 0x7FC00000#32),
    StableHlo.TRef.unary (.of main_call2_cst : StableHlo.TRef sig ⟨S_, .f32⟩) (.of main_call2_v15 : StableHlo.TRef sig ⟨S11534336x3, .f32⟩) (broadcastInDim S11534336x3 ![] bcast_S_S11534336x3),
    StableHlo.TRef.ternary (.of main_call2_v14 : StableHlo.TRef sig ⟨S11534336x3, .i1⟩) (.of main_call2_v13 : StableHlo.TRef sig ⟨S11534336x3, .f32⟩) (.of main_call2_v15 : StableHlo.TRef sig ⟨S11534336x3, .f32⟩) (.of main_v71 : StableHlo.TRef sig ⟨S11534336x3, .f32⟩) select ]

/-- The reshaping and the zeroing where the mask fails. -/
def tap1c : List (HloOp τ sig (Elt F)) :=
  [ StableHlo.reshape main_v71 main_v72 rfl shapeCasts_S11534336x3_S176x256x256x3,
    StableHlo.unary main_v60 main_v73 (broadcastInDim S176x256x256x1 ![0, 1, 2] bcast_S176x256x256_S176x256x256x1_0_1_2 : (⟨S176x256x256, .i1⟩ : BufTy).Contents (Elt F) → (⟨S176x256x256x1, .i1⟩ : BufTy).Contents (Elt F)),
    StableHlo.nullary main_cst_20 (constant S_ .f32 0x00000000#32),
    StableHlo.TRef.unary (.of main_cst_20 : StableHlo.TRef sig ⟨S_, .f32⟩) (.of main_call3_v0 : StableHlo.TRef sig ⟨S_, .f32⟩) id,
    StableHlo.TRef.unary (.of main_v73 : StableHlo.TRef sig ⟨S176x256x256x1, .i1⟩) (.of main_call3_v1 : StableHlo.TRef sig ⟨S176x256x256x3, .i1⟩) (broadcastInDim S176x256x256x3 ![0, 1, 2, 3] bcast_S176x256x256x1_S176x256x256x3_0_1_2_3),
    StableHlo.TRef.unary (.of main_call3_v0 : StableHlo.TRef sig ⟨S_, .f32⟩) (.of main_call3_v2 : StableHlo.TRef sig ⟨S176x256x256x3, .f32⟩) (broadcastInDim S176x256x256x3 ![] bcast_S_S176x256x256x3),
    StableHlo.TRef.ternary (.of main_call3_v1 : StableHlo.TRef sig ⟨S176x256x256x3, .i1⟩) (.of main_v72 : StableHlo.TRef sig ⟨S176x256x256x3, .f32⟩) (.of main_call3_v2 : StableHlo.TRef sig ⟨S176x256x256x3, .f32⟩) (.of main_v74 : StableHlo.TRef sig ⟨S176x256x256x3, .f32⟩) select ]

/-- The stage is its three parts in order. -/
theorem tap1_split : (tap1 : List (HloOp τ sig (Elt F))) = tap1a ++ (tap1b ++ tap1c) := rfl

/-- The result buffers of the operations of `tap1a`. -/
abbrev tap1aW : List (Ref sig .tc) :=
  [main_v60, main_c_16, main_call0_v0, main_call0_v1, main_v61, main_c_17, main_call1_v0, main_call1_v1, main_v62, main_c_18, main_v63, main_v64,
     main_v65, main_v66, main_c_19, main_v67, main_v68, main_v69, main_v70]

/-- Every operation of `tap1a` writes one of them. -/
theorem tap1a_writes : (tap1a : List (HloOp τ sig (Elt F))).Forall fun op =>
    op.writes ⊆ (tap1aW.map (Proc.devRef (τ := τ) .tc)).toFinset :=
  ⟨binary_writes_sub (by decide), nullary_writes_sub (by decide), unary_writes_sub (by decide), unary_writes_sub (by decide),
     ternary_writes_sub (by decide), nullary_writes_sub (by decide), unary_writes_sub (by decide), unary_writes_sub (by decide),
     ternary_writes_sub (by decide), nullary_writes_sub (by decide), unary_writes_sub (by decide), binary_writes_sub (by decide),
     unary_writes_sub (by decide), binary_writes_sub (by decide), nullary_writes_sub (by decide), unary_writes_sub (by decide),
     binary_writes_sub (by decide), binary_writes_sub (by decide), reshape_writes_sub (by decide)⟩

/-- A buffer that is none of them holds after `tap1a` what it held before. -/
theorem tap1a_keep (U : Valuation τ sig (Elt F)) {r : Ref sig .tc} (h : r ∉ tap1aW) :
    after tap1a U (Proc.devRef .tc r) = U (Proc.devRef .tc r) :=
  after_of_writes_sub tap1a U tap1a_writes h

/-- The result buffers of the operations of `tap1b`. -/
abbrev tap1bW : List (Ref sig .tc) :=
  [main_call2_c, main_call2_v0, main_call2_v1, main_call2_c_0, main_call2_v2, main_call2_v3, main_call2_v4, main_call2_v5, main_call2_c_1,
     main_call2_c_2, main_call2_v6, main_call2_v7, main_call2_v8, main_call2_v9, main_call2_v10, main_call2_v11, main_call2_c_3, main_call2_v12,
     main_call2_v13, main_call2_v14, main_call2_cst, main_call2_v15, main_v71]

/-- Every operation of `tap1b` writes one of them. -/
theorem tap1b_writes : (tap1b : List (HloOp τ sig (Elt F))).Forall fun op =>
    op.writes ⊆ (tap1bW.map (Proc.devRef (τ := τ) .tc)).toFinset :=
  ⟨nullary_writes_sub (by decide), unary_writes_sub (by decide), binary_writes_sub (by decide), nullary_writes_sub (by decide),
     unary_writes_sub (by decide), binary_writes_sub (by decide), ternary_writes_sub (by decide), unary_writes_sub (by decide),
     nullary_writes_sub (by decide), nullary_writes_sub (by decide), unary_writes_sub (by decide), binary_writes_sub (by decide),
     unary_writes_sub (by decide), unary_writes_sub (by decide), binary_writes_sub (by decide), binary_writes_sub (by decide),
     nullary_writes_sub (by decide), binary_writes_sub (by decide), binary_writes_sub (by decide), unary_writes_sub (by decide),
     nullary_writes_sub (by decide), unary_writes_sub (by decide), ternary_writes_sub (by decide)⟩

/-- A buffer that is none of them holds after `tap1b` what it held before. -/
theorem tap1b_keep (U : Valuation τ sig (Elt F)) {r : Ref sig .tc} (h : r ∉ tap1bW) :
    after tap1b U (Proc.devRef .tc r) = U (Proc.devRef .tc r) :=
  after_of_writes_sub tap1b U tap1b_writes h

/-- The mask: both one-axis masks. -/
theorem tap1a_mask (U : Valuation τ sig (Elt F)) :
    after tap1a U (Proc.devRef .tc main_v60) = andi (U (Proc.devRef .tc main_v41)) (U (Proc.devRef .tc main_v46)) := by
  simp only [tap1a]
  after_results_simp

set_option maxHeartbeats 40000000 in
/-- The row numbers, from the grid numbers and the coordinates kept where the mask holds. -/
theorem tap1a_rows (U : Valuation τ sig (Elt F)) :
    after tap1a U (Proc.devRef .tc main_v70) = rowsOf (U (Proc.devRef .tc main_v59)) (andi (U (Proc.devRef .tc main_v41)) (U (Proc.devRef .tc main_v46))) (U (Proc.devRef .tc main_v32)) (U (Proc.devRef .tc main_v31)) := by
  simp only [tap1a]
  after_results_simp
  simp only [Cert.TypedRef.ofBuf_toBuf, Cert.TypedRef.toBuf_of, Cert.TypedRef.ofBuf_of]
  rfl

set_option maxHeartbeats 40000000 in
/-- The rows looked up in the table at the row numbers. -/
theorem tap1b_take (U : Valuation τ sig (Elt F)) :
    after tap1b U (Proc.devRef .tc main_v71)
      = Cert.Bridge.takeRows (M := 11534336) gather_S11534336x3_S11534336x1_S11534336x3_1_0_n_n_0_1_13 11534336#32 11534335#32
          (U (Proc.devRef .tc main_v57)) (U (Proc.devRef .tc main_v70)) := by
  simp only [tap1b]
  after_results_simp
  simp only [Cert.TypedRef.ofBuf_toBuf, Cert.TypedRef.toBuf_of, Cert.TypedRef.ofBuf_of]
  rfl

set_option maxHeartbeats 40000000 in
/-- The neighbour's value: the looked-up rows where the mask holds, 0 elsewhere. -/
theorem tap1c_val (U : Valuation τ sig (Elt F)) :
    after tap1c U (Proc.devRef .tc main_v74) = Cert.Bridge.tapVal (U (Proc.devRef .tc main_v60)) (U (Proc.devRef .tc main_v71)) := by
  simp only [tap1c]
  after_results_simp
  simp only [Cert.TypedRef.ofBuf_toBuf, Cert.TypedRef.toBuf_of, Cert.TypedRef.ofBuf_of]
  rfl

/-- After `tap1`, from any contents `U`, `%74` holds the neighbour's value: `tapOf` of the six buffers the stage
    reads. The lookup does not write the mask, nor the first part the table. -/
theorem tap1_eq (U : Valuation τ sig (Elt F)) :
    after tap1 U (Proc.devRef .tc main_v74)
      = tapOf (U (Proc.devRef .tc main_v41)) (U (Proc.devRef .tc main_v46)) (U (Proc.devRef .tc main_v32)) (U (Proc.devRef .tc main_v31)) (U (Proc.devRef .tc main_v59)) (U (Proc.devRef .tc main_v57)) := by
  rw [tap1_split, after_append, after_append, tap1c_val, tap1b_take,
    tap1b_keep (after tap1a U) (r := main_v60) (by decide), tap1a_keep U (r := main_v57) (by decide),
    tap1a_mask, tap1a_rows]
  rfl

end Cert.ReferenceIdeal.RefRun

end
-- ==== Proof.RefTap2.lean ====
/-
  The north-east neighbour's stage, in three parts, each from any contents `U` of the buffers: the mask and the row
  numbers (the two one-axis masks joined; each coordinate kept where the mask holds by a call; the row number
  (b * 256 + y) * 256 + x from the grid numbers); the called row lookup with its own call; the reshaping and the call
  that zeroes the value where the mask fails. Each part's operations are folded one by one, and the buffer's contents is
  the named function by unfolding; contents carried to a called function's buffer type and back are unchanged. The
  parts in turn are the stage: its value is `tapOf` of the six buffers it reads.
-/
import proofs.«115037_j71897752535328_2_alg».proof.Proof.RefOps
import proofs.«115037_j71897752535328_2_alg».proof.Proof.Spec2
import proofs.«115037_j71897752535328_2_alg».proof.Proof.LibTypedRef
import proofs.«115037_j71897752535328_2_alg».proof.Proof.RefStages
import Idealize.ShloMosaic.Lib.Pipeline.Frame
import Idealize.ShloMosaic.Lib.StableHlo.Run

-- the shapes' literal extents (11534336 rows) are compared by unfolding when two spellings of one type are matched
set_option maxRecDepth 200000

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

-- the and-reduction and the row lookup are compared as they stand, never opened over their 11534336 entries
attribute [local irreducible] Host.reduce Host.gather

-- one declaration at a time: each fold holds its whole chain of rewrites while it runs
set_option Elab.async false

/-- The mask, the kept coordinates and the row numbers. -/
def tap2a : List (HloOp τ sig (Elt F)) :=
  [ StableHlo.binary main_v51 main_v46 main_v75 (andi : (⟨S176x256x256, .i1⟩ : BufTy).Contents (Elt F) → (⟨S176x256x256, .i1⟩ : BufTy).Contents (Elt F) → (⟨S176x256x256, .i1⟩ : BufTy).Contents (Elt F)),
    StableHlo.nullary main_c_21 (constantI S_ 32 0#32),
    StableHlo.TRef.unary (.of main_c_21 : StableHlo.TRef sig ⟨S_, .i32⟩) (.of main_call4_v0 : StableHlo.TRef sig ⟨S_, .i32⟩) id,
    StableHlo.TRef.unary (.of main_call4_v0 : StableHlo.TRef sig ⟨S_, .i32⟩) (.of main_call4_v1 : StableHlo.TRef sig ⟨S176x256x256, .i32⟩) (broadcastInDim S176x256x256 ![] bcast_S_S176x256x256),
    StableHlo.TRef.ternary (.of main_v75 : StableHlo.TRef sig ⟨S176x256x256, .i1⟩) (.of main_v32 : StableHlo.TRef sig ⟨S176x256x256, .i32⟩) (.of main_call4_v1 : StableHlo.TRef sig ⟨S176x256x256, .i32⟩) (.of main_v76 : StableHlo.TRef sig ⟨S176x256x256, .i32⟩) select,
    StableHlo.nullary main_c_22 (constantI S_ 32 0#32),
    StableHlo.TRef.unary (.of main_c_22 : StableHlo.TRef sig ⟨S_, .i32⟩) (.of main_call5_v0 : StableHlo.TRef sig ⟨S_, .i32⟩) id,
    StableHlo.TRef.unary (.of main_call5_v0 : StableHlo.TRef sig ⟨S_, .i32⟩) (.of main_call5_v1 : StableHlo.TRef sig ⟨S176x256x256, .i32⟩) (broadcastInDim S176x256x256 ![] bcast_S_S176x256x256),
    StableHlo.TRef.ternary (.of main_v75 : StableHlo.TRef sig ⟨S176x256x256, .i1⟩) (.of main_v34 : StableHlo.TRef sig ⟨S176x256x256, .i32⟩) (.of main_call5_v1 : StableHlo.TRef sig ⟨S176x256x256, .i32⟩) (.of main_v77 : StableHlo.TRef sig ⟨S176x256x256, .i32⟩) select,
    StableHlo.nullary main_c_23 (constantI S_ 32 256#32),
    StableHlo.unary main_c_23 main_v78 (broadcastInDim S176x1x1 ![] bcast_S_S176x1x1 : (⟨S_, .i32⟩ : BufTy).Contents (Elt F) → (⟨S176x1x1, .i32⟩ : BufTy).Contents (Elt F)),
    StableHlo.binary main_v59 main_v78 main_v79 (muli : (⟨S176x1x1, .i32⟩ : BufTy).Contents (Elt F) → (⟨S176x1x1, .i32⟩ : BufTy).Contents (Elt F) → (⟨S176x1x1, .i32⟩ : BufTy).Contents (Elt F)),
    StableHlo.unary main_v79 main_v80 (broadcastInDim S176x256x256 ![0, 1, 2] bcast_S176x1x1_S176x256x256_0_1_2 : (⟨S176x1x1, .i32⟩ : BufTy).Contents (Elt F) → (⟨S176x256x256, .i32⟩ : BufTy).Contents (Elt F)),
    StableHlo.binary main_v80 main_v76 main_v81 (addi : (⟨S176x256x256, .i32⟩ : BufTy).Contents (Elt F) → (⟨S176x256x256, .i32⟩ : BufTy).Contents (Elt F) → (⟨S176x256x256, .i32⟩ : BufTy).Contents (Elt F)),
    StableHlo.nullary main_c_24 (constantI S_ 32 256#32),
    StableHlo.unary main_c_24 main_v82 (broadcastInDim S176x256x256 ![] bcast_S_S176x256x256 : (⟨S_, .i32⟩ : BufTy).Contents (Elt F) → (⟨S176x256x256, .i32⟩ : BufTy).Contents (Elt F)),
    StableHlo.binary main_v81 main_v82 main_v83 (muli : (⟨S176x256x256, .i32⟩ : BufTy).Contents (Elt F) → (⟨S176x256x256, .i32⟩ : BufTy).Contents (Elt F) → (⟨S176x256x256, .i32⟩ : BufTy).Contents (Elt F)),
    StableHlo.binary main_v83 main_v77 main_v84 (addi : (⟨S176x256x256, .i32⟩ : BufTy).Contents (Elt F) → (⟨S176x256x256, .i32⟩ : BufTy).Contents (Elt F) → (⟨S176x256x256, .i32⟩ : BufTy).Contents (Elt F)),
    StableHlo.reshape main_v84 main_v85 rfl shapeCasts_S176x256x256_S11534336 ]

/-- The called row lookup. -/
def tap2b : List (HloOp τ sig (Elt F)) :=
  [ StableHlo.TRef.nullary (.of main_call6_c : StableHlo.TRef sig ⟨S_, .i32⟩) (constantI S_ 32 0#32),
    StableHlo.TRef.unary (.of main_call6_c : StableHlo.TRef sig ⟨S_, .i32⟩) (.of main_call6_v0 : StableHlo.TRef sig ⟨S11534336, .i32⟩) (broadcastInDim S11534336 ![] bcast_S_S11534336),
    StableHlo.TRef.binary (.of main_v85 : StableHlo.TRef sig ⟨S11534336, .i32⟩) (.of main_call6_v0 : StableHlo.TRef sig ⟨S11534336, .i32⟩) (.of main_call6_v1 : StableHlo.TRef sig ⟨S11534336, .i1⟩) (cmpi .slt),
    StableHlo.TRef.nullary (.of main_call6_c_0 : StableHlo.TRef sig ⟨S_, .i32⟩) (constantI S_ 32 11534336#32),
    StableHlo.TRef.unary (.of main_call6_c_0 : StableHlo.TRef sig ⟨S_, .i32⟩) (.of main_call6_v2 : StableHlo.TRef sig ⟨S11534336, .i32⟩) (broadcastInDim S11534336 ![] bcast_S_S11534336),
    StableHlo.TRef.binary (.of main_v85 : StableHlo.TRef sig ⟨S11534336, .i32⟩) (.of main_call6_v2 : StableHlo.TRef sig ⟨S11534336, .i32⟩) (.of main_call6_v3 : StableHlo.TRef sig ⟨S11534336, .i32⟩) addi,
    StableHlo.TRef.ternary (.of main_call6_v1 : StableHlo.TRef sig ⟨S11534336, .i1⟩) (.of main_call6_v3 : StableHlo.TRef sig ⟨S11534336, .i32⟩) (.of main_v85 : StableHlo.TRef sig ⟨S11534336, .i32⟩) (.of main_call6_v4 : StableHlo.TRef sig ⟨S11534336, .i32⟩) select,
    StableHlo.TRef.unary (.of main_call6_v4 : StableHlo.TRef sig ⟨S11534336, .i32⟩) (.of main_call6_v5 : StableHlo.TRef sig ⟨S11534336x1, .i32⟩) (broadcastInDim S11534336x1 ![0] bcast_S11534336_S11534336x1_0),
    StableHlo.TRef.nullary (.of main_call6_c_1 : StableHlo.TRef sig ⟨S1, .i32⟩) (constantI S1 32 11534335#32),
    StableHlo.TRef.nullary (.of main_call6_c_2 : StableHlo.TRef sig ⟨S_, .i32⟩) (constantI S_ 32 0#32),
    StableHlo.TRef.unary (.of main_call6_c_2 : StableHlo.TRef sig ⟨S_, .i32⟩) (.of main_call6_v6 : StableHlo.TRef sig ⟨S11534336x1, .i32⟩) (broadcastInDim S11534336x1 ![] bcast_S_S11534336x1),
    StableHlo.TRef.binary (.of main_call6_v5 : StableHlo.TRef sig ⟨S11534336x1, .i32⟩) (.of main_call6_v6 : StableHlo.TRef sig ⟨S11534336x1, .i32⟩) (.of main_call6_v7 : StableHlo.TRef sig ⟨S11534336x1, .i1⟩) (cmpi .sge),
    StableHlo.TRef.unary (.of main_call6_c_1 : StableHlo.TRef sig ⟨S1, .i32⟩) (.of main_call6_v8 : StableHlo.TRef sig ⟨S1x1, .i32⟩) (broadcastInDim S1x1 ![1] bcast_S1_S1x1_1),
    StableHlo.TRef.unary (.of main_call6_v8 : StableHlo.TRef sig ⟨S1x1, .i32⟩) (.of main_call6_v9 : StableHlo.TRef sig ⟨S11534336x1, .i32⟩) (broadcastInDim S11534336x1 ![0, 1] bcast_S1x1_S11534336x1_0_1),
    StableHlo.TRef.binary (.of main_call6_v5 : StableHlo.TRef sig ⟨S11534336x1, .i32⟩) (.of main_call6_v9 : StableHlo.TRef sig ⟨S11534336x1, .i32⟩) (.of main_call6_v10 : StableHlo.TRef sig ⟨S11534336x1, .i1⟩) (cmpi .sle),
    StableHlo.TRef.binary (.of main_call6_v7 : StableHlo.TRef sig ⟨S11534336x1, .i1⟩) (.of main_call6_v10 : StableHlo.TRef sig ⟨S11534336x1, .i1⟩) (.of main_call6_v11 : StableHlo.TRef sig ⟨S11534336x1, .i1⟩) andi,
    StableHlo.TRef.nullary (.of main_call6_c_3 : StableHlo.TRef sig ⟨S_, .i1⟩) (constantI S_ 1 1#1),
    StableHlo.TRef.binary (.of main_call6_v11 : StableHlo.TRef sig ⟨S11534336x1, .i1⟩) (.of main_call6_c_3 : StableHlo.TRef sig ⟨S_, .i1⟩) (.of main_call6_v12 : StableHlo.TRef sig ⟨S11534336, .i1⟩) (fun x v => Host.reduce IntOp.andi x v reducesTo_S11534336x1_S11534336_d1 h_S_),
    StableHlo.TRef.binary (.of main_v57 : StableHlo.TRef sig ⟨S11534336x3, .f32⟩) (.of main_call6_v5 : StableHlo.TRef sig ⟨S11534336x1, .i32⟩) (.of main_call6_v13 : StableHlo.TRef sig ⟨S11534336x3, .f32⟩) (fun x i => Host.gather gather_S11534336x3_S11534336x1_S11534336x3_1_0_n_n_0_1_13 x i),
    StableHlo.TRef.unary (.of main_call6_v12 : StableHlo.TRef sig ⟨S11534336, .i1⟩) (.of main_call6_v14 : StableHlo.TRef sig ⟨S11534336x3, .i1⟩) (broadcastInDim S11534336x3 ![0] bcast_S11534336_S11534336x3_0),
    StableHlo.TRef.nullary (.of main_call6_cst : StableHlo.TRef sig ⟨S_, .f32⟩) (constant S_ .f32 0x7FC00000#32),
    StableHlo.TRef.unary (.of main_call6_cst : StableHlo.TRef sig ⟨S_, .f32⟩) (.of main_call6_v15 : StableHlo.TRef sig ⟨S11534336x3, .f32⟩) (broadcastInDim S11534336x3 ![] bcast_S_S11534336x3),
    StableHlo.TRef.ternary (.of main_call6_v14 : StableHlo.TRef sig ⟨S11534336x3, .i1⟩) (.of main_call6_v13 : StableHlo.TRef sig ⟨S11534336x3, .f32⟩) (.of main_call6_v15 : StableHlo.TRef sig ⟨S11534336x3, .f32⟩) (.of main_v86 : StableHlo.TRef sig ⟨S11534336x3, .f32⟩) select ]

/-- The reshaping and the zeroing where the mask fails. -/
def tap2c : List (HloOp τ sig (Elt F)) :=
  [ StableHlo.reshape main_v86 main_v87 rfl shapeCasts_S11534336x3_S176x256x256x3,
    StableHlo.unary main_v75 main_v88 (broadcastInDim S176x256x256x1 ![0, 1, 2] bcast_S176x256x256_S176x256x256x1_0_1_2 : (⟨S176x256x256, .i1⟩ : BufTy).Contents (Elt F) → (⟨S176x256x256x1, .i1⟩ : BufTy).Contents (Elt F)),
    StableHlo.nullary main_cst_25 (constant S_ .f32 0x00000000#32),
    StableHlo.TRef.unary (.of main_cst_25 : StableHlo.TRef sig ⟨S_, .f32⟩) (.of main_call7_v0 : StableHlo.TRef sig ⟨S_, .f32⟩) id,
    StableHlo.TRef.unary (.of main_v88 : StableHlo.TRef sig ⟨S176x256x256x1, .i1⟩) (.of main_call7_v1 : StableHlo.TRef sig ⟨S176x256x256x3, .i1⟩) (broadcastInDim S176x256x256x3 ![0, 1, 2, 3] bcast_S176x256x256x1_S176x256x256x3_0_1_2_3),
    StableHlo.TRef.unary (.of main_call7_v0 : StableHlo.TRef sig ⟨S_, .f32⟩) (.of main_call7_v2 : StableHlo.TRef sig ⟨S176x256x256x3, .f32⟩) (broadcastInDim S176x256x256x3 ![] bcast_S_S176x256x256x3),
    StableHlo.TRef.ternary (.of main_call7_v1 : StableHlo.TRef sig ⟨S176x256x256x3, .i1⟩) (.of main_v87 : StableHlo.TRef sig ⟨S176x256x256x3, .f32⟩) (.of main_call7_v2 : StableHlo.TRef sig ⟨S176x256x256x3, .f32⟩) (.of main_v89 : StableHlo.TRef sig ⟨S176x256x256x3, .f32⟩) select ]

/-- The stage is its three parts in order. -/
theorem tap2_split : (tap2 : List (HloOp τ sig (Elt F))) = tap2a ++ (tap2b ++ tap2c) := rfl

/-- The result buffers of the operations of `tap2a`. -/
abbrev tap2aW : List (Ref sig .tc) :=
  [main_v75, main_c_21, main_call4_v0, main_call4_v1, main_v76, main_c_22, main_call5_v0, main_call5_v1, main_v77, main_c_23, main_v78, main_v79,
     main_v80, main_v81, main_c_24, main_v82, main_v83, main_v84, main_v85]

/-- Every operation of `tap2a` writes one of them. -/
theorem tap2a_writes : (tap2a : List (HloOp τ sig (Elt F))).Forall fun op =>
    op.writes ⊆ (tap2aW.map (Proc.devRef (τ := τ) .tc)).toFinset :=
  ⟨binary_writes_sub (by decide), nullary_writes_sub (by decide), unary_writes_sub (by decide), unary_writes_sub (by decide),
     ternary_writes_sub (by decide), nullary_writes_sub (by decide), unary_writes_sub (by decide), unary_writes_sub (by decide),
     ternary_writes_sub (by decide), nullary_writes_sub (by decide), unary_writes_sub (by decide), binary_writes_sub (by decide),
     unary_writes_sub (by decide), binary_writes_sub (by decide), nullary_writes_sub (by decide), unary_writes_sub (by decide),
     binary_writes_sub (by decide), binary_writes_sub (by decide), reshape_writes_sub (by decide)⟩

/-- A buffer that is none of them holds after `tap2a` what it held before. -/
theorem tap2a_keep (U : Valuation τ sig (Elt F)) {r : Ref sig .tc} (h : r ∉ tap2aW) :
    after tap2a U (Proc.devRef .tc r) = U (Proc.devRef .tc r) :=
  after_of_writes_sub tap2a U tap2a_writes h

/-- The result buffers of the operations of `tap2b`. -/
abbrev tap2bW : List (Ref sig .tc) :=
  [main_call6_c, main_call6_v0, main_call6_v1, main_call6_c_0, main_call6_v2, main_call6_v3, main_call6_v4, main_call6_v5, main_call6_c_1,
     main_call6_c_2, main_call6_v6, main_call6_v7, main_call6_v8, main_call6_v9, main_call6_v10, main_call6_v11, main_call6_c_3, main_call6_v12,
     main_call6_v13, main_call6_v14, main_call6_cst, main_call6_v15, main_v86]

/-- Every operation of `tap2b` writes one of them. -/
theorem tap2b_writes : (tap2b : List (HloOp τ sig (Elt F))).Forall fun op =>
    op.writes ⊆ (tap2bW.map (Proc.devRef (τ := τ) .tc)).toFinset :=
  ⟨nullary_writes_sub (by decide), unary_writes_sub (by decide), binary_writes_sub (by decide), nullary_writes_sub (by decide),
     unary_writes_sub (by decide), binary_writes_sub (by decide), ternary_writes_sub (by decide), unary_writes_sub (by decide),
     nullary_writes_sub (by decide), nullary_writes_sub (by decide), unary_writes_sub (by decide), binary_writes_sub (by decide),
     unary_writes_sub (by decide), unary_writes_sub (by decide), binary_writes_sub (by decide), binary_writes_sub (by decide),
     nullary_writes_sub (by decide), binary_writes_sub (by decide), binary_writes_sub (by decide), unary_writes_sub (by decide),
     nullary_writes_sub (by decide), unary_writes_sub (by decide), ternary_writes_sub (by decide)⟩

/-- A buffer that is none of them holds after `tap2b` what it held before. -/
theorem tap2b_keep (U : Valuation τ sig (Elt F)) {r : Ref sig .tc} (h : r ∉ tap2bW) :
    after tap2b U (Proc.devRef .tc r) = U (Proc.devRef .tc r) :=
  after_of_writes_sub tap2b U tap2b_writes h

/-- The mask: both one-axis masks. -/
theorem tap2a_mask (U : Valuation τ sig (Elt F)) :
    after tap2a U (Proc.devRef .tc main_v75) = andi (U (Proc.devRef .tc main_v51)) (U (Proc.devRef .tc main_v46)) := by
  simp only [tap2a]
  after_results_simp

set_option maxHeartbeats 40000000 in
/-- The row numbers, from the grid numbers and the coordinates kept where the mask holds. -/
theorem tap2a_rows (U : Valuation τ sig (Elt F)) :
    after tap2a U (Proc.devRef .tc main_v85) = rowsOf (U (Proc.devRef .tc main_v59)) (andi (U (Proc.devRef .tc main_v51)) (U (Proc.devRef .tc main_v46))) (U (Proc.devRef .tc main_v32)) (U (Proc.devRef .tc main_v34)) := by
  simp only [tap2a]
  after_results_simp
  simp only [Cert.TypedRef.ofBuf_toBuf, Cert.TypedRef.toBuf_of, Cert.TypedRef.ofBuf_of]
  rfl

set_option maxHeartbeats 40000000 in
/-- The rows looked up in the table at the row numbers. -/
theorem tap2b_take (U : Valuation τ sig (Elt F)) :
    after tap2b U (Proc.devRef .tc main_v86)
      = Cert.Bridge.takeRows (M := 11534336) gather_S11534336x3_S11534336x1_S11534336x3_1_0_n_n_0_1_13 11534336#32 11534335#32
          (U (Proc.devRef .tc main_v57)) (U (Proc.devRef .tc main_v85)) := by
  simp only [tap2b]
  after_results_simp
  simp only [Cert.TypedRef.ofBuf_toBuf, Cert.TypedRef.toBuf_of, Cert.TypedRef.ofBuf_of]
  rfl

set_option maxHeartbeats 40000000 in
/-- The neighbour's value: the looked-up rows where the mask holds, 0 elsewhere. -/
theorem tap2c_val (U : Valuation τ sig (Elt F)) :
    after tap2c U (Proc.devRef .tc main_v89) = Cert.Bridge.tapVal (U (Proc.devRef .tc main_v75)) (U (Proc.devRef .tc main_v86)) := by
  simp only [tap2c]
  after_results_simp
  simp only [Cert.TypedRef.ofBuf_toBuf, Cert.TypedRef.toBuf_of, Cert.TypedRef.ofBuf_of]
  rfl

/-- After `tap2`, from any contents `U`, `%89` holds the neighbour's value: `tapOf` of the six buffers the stage
    reads. The lookup does not write the mask, nor the first part the table. -/
theorem tap2_eq (U : Valuation τ sig (Elt F)) :
    after tap2 U (Proc.devRef .tc main_v89)
      = tapOf (U (Proc.devRef .tc main_v51)) (U (Proc.devRef .tc main_v46)) (U (Proc.devRef .tc main_v32)) (U (Proc.devRef .tc main_v34)) (U (Proc.devRef .tc main_v59)) (U (Proc.devRef .tc main_v57)) := by
  rw [tap2_split, after_append, after_append, tap2c_val, tap2b_take,
    tap2b_keep (after tap2a U) (r := main_v75) (by decide), tap2a_keep U (r := main_v57) (by decide),
    tap2a_mask, tap2a_rows]
  rfl

end Cert.ReferenceIdeal.RefRun

end
-- ==== Proof.RefTap3.lean ====
/-
  The south-west neighbour's stage, in three parts, each from any contents `U` of the buffers: the mask and the row
  numbers (the two one-axis masks joined; each coordinate kept where the mask holds by a call; the row number
  (b * 256 + y) * 256 + x from the grid numbers); the called row lookup with its own call; the reshaping and the call
  that zeroes the value where the mask fails. Each part's operations are folded one by one, and the buffer's contents is
  the named function by unfolding; contents carried to a called function's buffer type and back are unchanged. The
  parts in turn are the stage: its value is `tapOf` of the six buffers it reads.
-/
import proofs.«115037_j71897752535328_2_alg».proof.Proof.RefOps
import proofs.«115037_j71897752535328_2_alg».proof.Proof.Spec2
import proofs.«115037_j71897752535328_2_alg».proof.Proof.LibTypedRef
import proofs.«115037_j71897752535328_2_alg».proof.Proof.RefStages
import Idealize.ShloMosaic.Lib.Pipeline.Frame
import Idealize.ShloMosaic.Lib.StableHlo.Run

-- the shapes' literal extents (11534336 rows) are compared by unfolding when two spellings of one type are matched
set_option maxRecDepth 200000

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

-- the and-reduction and the row lookup are compared as they stand, never opened over their 11534336 entries
attribute [local irreducible] Host.reduce Host.gather

-- one declaration at a time: each fold holds its whole chain of rewrites while it runs
set_option Elab.async false

/-- The mask, the kept coordinates and the row numbers. -/
def tap3a : List (HloOp τ sig (Elt F)) :=
  [ StableHlo.binary main_v56 main_v41 main_v90 (andi : (⟨S176x256x256, .i1⟩ : BufTy).Contents (Elt F) → (⟨S176x256x256, .i1⟩ : BufTy).Contents (Elt F) → (⟨S176x256x256, .i1⟩ : BufTy).Contents (Elt F)),
    StableHlo.nullary main_c_26 (constantI S_ 32 0#32),
    StableHlo.TRef.unary (.of main_c_26 : StableHlo.TRef sig ⟨S_, .i32⟩) (.of main_call8_v0 : StableHlo.TRef sig ⟨S_, .i32⟩) id,
    StableHlo.TRef.unary (.of main_call8_v0 : StableHlo.TRef sig ⟨S_, .i32⟩) (.of main_call8_v1 : StableHlo.TRef sig ⟨S176x256x256, .i32⟩) (broadcastInDim S176x256x256 ![] bcast_S_S176x256x256),
    StableHlo.TRef.ternary (.of main_v90 : StableHlo.TRef sig ⟨S176x256x256, .i1⟩) (.of main_v36 : StableHlo.TRef sig ⟨S176x256x256, .i32⟩) (.of main_call8_v1 : StableHlo.TRef sig ⟨S176x256x256, .i32⟩) (.of main_v91 : StableHlo.TRef sig ⟨S176x256x256, .i32⟩) select,
    StableHlo.nullary main_c_27 (constantI S_ 32 0#32),
    StableHlo.TRef.unary (.of main_c_27 : StableHlo.TRef sig ⟨S_, .i32⟩) (.of main_call9_v0 : StableHlo.TRef sig ⟨S_, .i32⟩) id,
    StableHlo.TRef.unary (.of main_call9_v0 : StableHlo.TRef sig ⟨S_, .i32⟩) (.of main_call9_v1 : StableHlo.TRef sig ⟨S176x256x256, .i32⟩) (broadcastInDim S176x256x256 ![] bcast_S_S176x256x256),
    StableHlo.TRef.ternary (.of main_v90 : StableHlo.TRef sig ⟨S176x256x256, .i1⟩) (.of main_v31 : StableHlo.TRef sig ⟨S176x256x256, .i32⟩) (.of main_call9_v1 : StableHlo.TRef sig ⟨S176x256x256, .i32⟩) (.of main_v92 : StableHlo.TRef sig ⟨S176x256x256, .i32⟩) select,
    StableHlo.nullary main_c_28 (constantI S_ 32 256#32),
    StableHlo.unary main_c_28 main_v93 (broadcastInDim S176x1x1 ![] bcast_S_S176x1x1 : (⟨S_, .i32⟩ : BufTy).Contents (Elt F) → (⟨S176x1x1, .i32⟩ : BufTy).Contents (Elt F)),
    StableHlo.binary main_v59 main_v93 main_v94 (muli : (⟨S176x1x1, .i32⟩ : BufTy).Contents (Elt F) → (⟨S176x1x1, .i32⟩ : BufTy).Contents (Elt F) → (⟨S176x1x1, .i32⟩ : BufTy).Contents (Elt F)),
    StableHlo.unary main_v94 main_v95 (broadcastInDim S176x256x256 ![0, 1, 2] bcast_S176x1x1_S176x256x256_0_1_2 : (⟨S176x1x1, .i32⟩ : BufTy).Contents (Elt F) → (⟨S176x256x256, .i32⟩ : BufTy).Contents (Elt F)),
    StableHlo.binary main_v95 main_v91 main_v96 (addi : (⟨S176x256x256, .i32⟩ : BufTy).Contents (Elt F) → (⟨S176x256x256, .i32⟩ : BufTy).Contents (Elt F) → (⟨S176x256x256, .i32⟩ : BufTy).Contents (Elt F)),
    StableHlo.nullary main_c_29 (constantI S_ 32 256#32),
    StableHlo.unary main_c_29 main_v97 (broadcastInDim S176x256x256 ![] bcast_S_S176x256x256 : (⟨S_, .i32⟩ : BufTy).Contents (Elt F) → (⟨S176x256x256, .i32⟩ : BufTy).Contents (Elt F)),
    StableHlo.binary main_v96 main_v97 main_v98 (muli : (⟨S176x256x256, .i32⟩ : BufTy).Contents (Elt F) → (⟨S176x256x256, .i32⟩ : BufTy).Contents (Elt F) → (⟨S176x256x256, .i32⟩ : BufTy).Contents (Elt F)),
    StableHlo.binary main_v98 main_v92 main_v99 (addi : (⟨S176x256x256, .i32⟩ : BufTy).Contents (Elt F) → (⟨S176x256x256, .i32⟩ : BufTy).Contents (Elt F) → (⟨S176x256x256, .i32⟩ : BufTy).Contents (Elt F)),
    StableHlo.reshape main_v99 main_v100 rfl shapeCasts_S176x256x256_S11534336 ]

/-- The called row lookup. -/
def tap3b : List (HloOp τ sig (Elt F)) :=
  [ StableHlo.TRef.nullary (.of main_call10_c : StableHlo.TRef sig ⟨S_, .i32⟩) (constantI S_ 32 0#32),
    StableHlo.TRef.unary (.of main_call10_c : StableHlo.TRef sig ⟨S_, .i32⟩) (.of main_call10_v0 : StableHlo.TRef sig ⟨S11534336, .i32⟩) (broadcastInDim S11534336 ![] bcast_S_S11534336),
    StableHlo.TRef.binary (.of main_v100 : StableHlo.TRef sig ⟨S11534336, .i32⟩) (.of main_call10_v0 : StableHlo.TRef sig ⟨S11534336, .i32⟩) (.of main_call10_v1 : StableHlo.TRef sig ⟨S11534336, .i1⟩) (cmpi .slt),
    StableHlo.TRef.nullary (.of main_call10_c_0 : StableHlo.TRef sig ⟨S_, .i32⟩) (constantI S_ 32 11534336#32),
    StableHlo.TRef.unary (.of main_call10_c_0 : StableHlo.TRef sig ⟨S_, .i32⟩) (.of main_call10_v2 : StableHlo.TRef sig ⟨S11534336, .i32⟩) (broadcastInDim S11534336 ![] bcast_S_S11534336),
    StableHlo.TRef.binary (.of main_v100 : StableHlo.TRef sig ⟨S11534336, .i32⟩) (.of main_call10_v2 : StableHlo.TRef sig ⟨S11534336, .i32⟩) (.of main_call10_v3 : StableHlo.TRef sig ⟨S11534336, .i32⟩) addi,
    StableHlo.TRef.ternary (.of main_call10_v1 : StableHlo.TRef sig ⟨S11534336, .i1⟩) (.of main_call10_v3 : StableHlo.TRef sig ⟨S11534336, .i32⟩) (.of main_v100 : StableHlo.TRef sig ⟨S11534336, .i32⟩) (.of main_call10_v4 : StableHlo.TRef sig ⟨S11534336, .i32⟩) select,
    StableHlo.TRef.unary (.of main_call10_v4 : StableHlo.TRef sig ⟨S11534336, .i32⟩) (.of main_call10_v5 : StableHlo.TRef sig ⟨S11534336x1, .i32⟩) (broadcastInDim S11534336x1 ![0] bcast_S11534336_S11534336x1_0),
    StableHlo.TRef.nullary (.of main_call10_c_1 : StableHlo.TRef sig ⟨S1, .i32⟩) (constantI S1 32 11534335#32),
    StableHlo.TRef.nullary (.of main_call10_c_2 : StableHlo.TRef sig ⟨S_, .i32⟩) (constantI S_ 32 0#32),
    StableHlo.TRef.unary (.of main_call10_c_2 : StableHlo.TRef sig ⟨S_, .i32⟩) (.of main_call10_v6 : StableHlo.TRef sig ⟨S11534336x1, .i32⟩) (broadcastInDim S11534336x1 ![] bcast_S_S11534336x1),
    StableHlo.TRef.binary (.of main_call10_v5 : StableHlo.TRef sig ⟨S11534336x1, .i32⟩) (.of main_call10_v6 : StableHlo.TRef sig ⟨S11534336x1, .i32⟩) (.of main_call10_v7 : StableHlo.TRef sig ⟨S11534336x1, .i1⟩) (cmpi .sge),
    StableHlo.TRef.unary (.of main_call10_c_1 : StableHlo.TRef sig ⟨S1, .i32⟩) (.of main_call10_v8 : StableHlo.TRef sig ⟨S1x1, .i32⟩) (broadcastInDim S1x1 ![1] bcast_S1_S1x1_1),
    StableHlo.TRef.unary (.of main_call10_v8 : StableHlo.TRef sig ⟨S1x1, .i32⟩) (.of main_call10_v9 : StableHlo.TRef sig ⟨S11534336x1, .i32⟩) (broadcastInDim S11534336x1 ![0, 1] bcast_S1x1_S11534336x1_0_1),
    StableHlo.TRef.binary (.of main_call10_v5 : StableHlo.TRef sig ⟨S11534336x1, .i32⟩) (.of main_call10_v9 : StableHlo.TRef sig ⟨S11534336x1, .i32⟩) (.of main_call10_v10 : StableHlo.TRef sig ⟨S11534336x1, .i1⟩) (cmpi .sle),
    StableHlo.TRef.binary (.of main_call10_v7 : StableHlo.TRef sig ⟨S11534336x1, .i1⟩) (.of main_call10_v10 : StableHlo.TRef sig ⟨S11534336x1, .i1⟩) (.of main_call10_v11 : StableHlo.TRef sig ⟨S11534336x1, .i1⟩) andi,
    StableHlo.TRef.nullary (.of main_call10_c_3 : StableHlo.TRef sig ⟨S_, .i1⟩) (constantI S_ 1 1#1),
    StableHlo.TRef.binary (.of main_call10_v11 : StableHlo.TRef sig ⟨S11534336x1, .i1⟩) (.of main_call10_c_3 : StableHlo.TRef sig ⟨S_, .i1⟩) (.of main_call10_v12 : StableHlo.TRef sig ⟨S11534336, .i1⟩) (fun x v => Host.reduce IntOp.andi x v reducesTo_S11534336x1_S11534336_d1 h_S_),
    StableHlo.TRef.binary (.of main_v57 : StableHlo.TRef sig ⟨S11534336x3, .f32⟩) (.of main_call10_v5 : StableHlo.TRef sig ⟨S11534336x1, .i32⟩) (.of main_call10_v13 : StableHlo.TRef sig ⟨S11534336x3, .f32⟩) (fun x i => Host.gather gather_S11534336x3_S11534336x1_S11534336x3_1_0_n_n_0_1_13 x i),
    StableHlo.TRef.unary (.of main_call10_v12 : StableHlo.TRef sig ⟨S11534336, .i1⟩) (.of main_call10_v14 : StableHlo.TRef sig ⟨S11534336x3, .i1⟩) (broadcastInDim S11534336x3 ![0] bcast_S11534336_S11534336x3_0),
    StableHlo.TRef.nullary (.of main_call10_cst : StableHlo.TRef sig ⟨S_, .f32⟩) (constant S_ .f32 0x7FC00000#32),
    StableHlo.TRef.unary (.of main_call10_cst : StableHlo.TRef sig ⟨S_, .f32⟩) (.of main_call10_v15 : StableHlo.TRef sig ⟨S11534336x3, .f32⟩) (broadcastInDim S11534336x3 ![] bcast_S_S11534336x3),
    StableHlo.TRef.ternary (.of main_call10_v14 : StableHlo.TRef sig ⟨S11534336x3, .i1⟩) (.of main_call10_v13 : StableHlo.TRef sig ⟨S11534336x3, .f32⟩) (.of main_call10_v15 : StableHlo.TRef sig ⟨S11534336x3, .f32⟩) (.of main_v101 : StableHlo.TRef sig ⟨S11534336x3, .f32⟩) select ]

/-- The reshaping and the zeroing where the mask fails. -/
def tap3c : List (HloOp τ sig (Elt F)) :=
  [ StableHlo.reshape main_v101 main_v102 rfl shapeCasts_S11534336x3_S176x256x256x3,
    StableHlo.unary main_v90 main_v103 (broadcastInDim S176x256x256x1 ![0, 1, 2] bcast_S176x256x256_S176x256x256x1_0_1_2 : (⟨S176x256x256, .i1⟩ : BufTy).Contents (Elt F) → (⟨S176x256x256x1, .i1⟩ : BufTy).Contents (Elt F)),
    StableHlo.nullary main_cst_30 (constant S_ .f32 0x00000000#32),
    StableHlo.TRef.unary (.of main_cst_30 : StableHlo.TRef sig ⟨S_, .f32⟩) (.of main_call11_v0 : StableHlo.TRef sig ⟨S_, .f32⟩) id,
    StableHlo.TRef.unary (.of main_v103 : StableHlo.TRef sig ⟨S176x256x256x1, .i1⟩) (.of main_call11_v1 : StableHlo.TRef sig ⟨S176x256x256x3, .i1⟩) (broadcastInDim S176x256x256x3 ![0, 1, 2, 3] bcast_S176x256x256x1_S176x256x256x3_0_1_2_3),
    StableHlo.TRef.unary (.of main_call11_v0 : StableHlo.TRef sig ⟨S_, .f32⟩) (.of main_call11_v2 : StableHlo.TRef sig ⟨S176x256x256x3, .f32⟩) (broadcastInDim S176x256x256x3 ![] bcast_S_S176x256x256x3),
    StableHlo.TRef.ternary (.of main_call11_v1 : StableHlo.TRef sig ⟨S176x256x256x3, .i1⟩) (.of main_v102 : StableHlo.TRef sig ⟨S176x256x256x3, .f32⟩) (.of main_call11_v2 : StableHlo.TRef sig ⟨S176x256x256x3, .f32⟩) (.of main_v104 : StableHlo.TRef sig ⟨S176x256x256x3, .f32⟩) select ]

/-- The stage is its three parts in order. -/
theorem tap3_split : (tap3 : List (HloOp τ sig (Elt F))) = tap3a ++ (tap3b ++ tap3c) := rfl

/-- The result buffers of the operations of `tap3a`. -/
abbrev tap3aW : List (Ref sig .tc) :=
  [main_v90, main_c_26, main_call8_v0, main_call8_v1, main_v91, main_c_27, main_call9_v0, main_call9_v1, main_v92, main_c_28, main_v93, main_v94,
     main_v95, main_v96, main_c_29, main_v97, main_v98, main_v99, main_v100]

/-- Every operation of `tap3a` writes one of them. -/
theorem tap3a_writes : (tap3a : List (HloOp τ sig (Elt F))).Forall fun op =>
    op.writes ⊆ (tap3aW.map (Proc.devRef (τ := τ) .tc)).toFinset :=
  ⟨binary_writes_sub (by decide), nullary_writes_sub (by decide), unary_writes_sub (by decide), unary_writes_sub (by decide),
     ternary_writes_sub (by decide), nullary_writes_sub (by decide), unary_writes_sub (by decide), unary_writes_sub (by decide),
     ternary_writes_sub (by decide), nullary_writes_sub (by decide), unary_writes_sub (by decide), binary_writes_sub (by decide),
     unary_writes_sub (by decide), binary_writes_sub (by decide), nullary_writes_sub (by decide), unary_writes_sub (by decide),
     binary_writes_sub (by decide), binary_writes_sub (by decide), reshape_writes_sub (by decide)⟩

/-- A buffer that is none of them holds after `tap3a` what it held before. -/
theorem tap3a_keep (U : Valuation τ sig (Elt F)) {r : Ref sig .tc} (h : r ∉ tap3aW) :
    after tap3a U (Proc.devRef .tc r) = U (Proc.devRef .tc r) :=
  after_of_writes_sub tap3a U tap3a_writes h

/-- The result buffers of the operations of `tap3b`. -/
abbrev tap3bW : List (Ref sig .tc) :=
  [main_call10_c, main_call10_v0, main_call10_v1, main_call10_c_0, main_call10_v2, main_call10_v3, main_call10_v4, main_call10_v5, main_call10_c_1,
     main_call10_c_2, main_call10_v6, main_call10_v7, main_call10_v8, main_call10_v9, main_call10_v10, main_call10_v11, main_call10_c_3,
     main_call10_v12, main_call10_v13, main_call10_v14, main_call10_cst, main_call10_v15, main_v101]

/-- Every operation of `tap3b` writes one of them. -/
theorem tap3b_writes : (tap3b : List (HloOp τ sig (Elt F))).Forall fun op =>
    op.writes ⊆ (tap3bW.map (Proc.devRef (τ := τ) .tc)).toFinset :=
  ⟨nullary_writes_sub (by decide), unary_writes_sub (by decide), binary_writes_sub (by decide), nullary_writes_sub (by decide),
     unary_writes_sub (by decide), binary_writes_sub (by decide), ternary_writes_sub (by decide), unary_writes_sub (by decide),
     nullary_writes_sub (by decide), nullary_writes_sub (by decide), unary_writes_sub (by decide), binary_writes_sub (by decide),
     unary_writes_sub (by decide), unary_writes_sub (by decide), binary_writes_sub (by decide), binary_writes_sub (by decide),
     nullary_writes_sub (by decide), binary_writes_sub (by decide), binary_writes_sub (by decide), unary_writes_sub (by decide),
     nullary_writes_sub (by decide), unary_writes_sub (by decide), ternary_writes_sub (by decide)⟩

/-- A buffer that is none of them holds after `tap3b` what it held before. -/
theorem tap3b_keep (U : Valuation τ sig (Elt F)) {r : Ref sig .tc} (h : r ∉ tap3bW) :
    after tap3b U (Proc.devRef .tc r) = U (Proc.devRef .tc r) :=
  after_of_writes_sub tap3b U tap3b_writes h

/-- The mask: both one-axis masks. -/
theorem tap3a_mask (U : Valuation τ sig (Elt F)) :
    after tap3a U (Proc.devRef .tc main_v90) = andi (U (Proc.devRef .tc main_v56)) (U (Proc.devRef .tc main_v41)) := by
  simp only [tap3a]
  after_results_simp

set_option maxHeartbeats 40000000 in
/-- The row numbers, from the grid numbers and the coordinates kept where the mask holds. -/
theorem tap3a_rows (U : Valuation τ sig (Elt F)) :
    after tap3a U (Proc.devRef .tc main_v100) = rowsOf (U (Proc.devRef .tc main_v59)) (andi (U (Proc.devRef .tc main_v56)) (U (Proc.devRef .tc main_v41))) (U (Proc.devRef .tc main_v36)) (U (Proc.devRef .tc main_v31)) := by
  simp only [tap3a]
  after_results_simp
  simp only [Cert.TypedRef.ofBuf_toBuf, Cert.TypedRef.toBuf_of, Cert.TypedRef.ofBuf_of]
  rfl

set_option maxHeartbeats 40000000 in
/-- The rows looked up in the table at the row numbers. -/
theorem tap3b_take (U : Valuation τ sig (Elt F)) :
    after tap3b U (Proc.devRef .tc main_v101)
      = Cert.Bridge.takeRows (M := 11534336) gather_S11534336x3_S11534336x1_S11534336x3_1_0_n_n_0_1_13 11534336#32 11534335#32
          (U (Proc.devRef .tc main_v57)) (U (Proc.devRef .tc main_v100)) := by
  simp only [tap3b]
  after_results_simp
  simp only [Cert.TypedRef.ofBuf_toBuf, Cert.TypedRef.toBuf_of, Cert.TypedRef.ofBuf_of]
  rfl

set_option maxHeartbeats 40000000 in
/-- The neighbour's value: the looked-up rows where the mask holds, 0 elsewhere. -/
theorem tap3c_val (U : Valuation τ sig (Elt F)) :
    after tap3c U (Proc.devRef .tc main_v104) = Cert.Bridge.tapVal (U (Proc.devRef .tc main_v90)) (U (Proc.devRef .tc main_v101)) := by
  simp only [tap3c]
  after_results_simp
  simp only [Cert.TypedRef.ofBuf_toBuf, Cert.TypedRef.toBuf_of, Cert.TypedRef.ofBuf_of]
  rfl

/-- After `tap3`, from any contents `U`, `%104` holds the neighbour's value: `tapOf` of the six buffers the stage
    reads. The lookup does not write the mask, nor the first part the table. -/
theorem tap3_eq (U : Valuation τ sig (Elt F)) :
    after tap3 U (Proc.devRef .tc main_v104)
      = tapOf (U (Proc.devRef .tc main_v56)) (U (Proc.devRef .tc main_v41)) (U (Proc.devRef .tc main_v36)) (U (Proc.devRef .tc main_v31)) (U (Proc.devRef .tc main_v59)) (U (Proc.devRef .tc main_v57)) := by
  rw [tap3_split, after_append, after_append, tap3c_val, tap3b_take,
    tap3b_keep (after tap3a U) (r := main_v90) (by decide), tap3a_keep U (r := main_v57) (by decide),
    tap3a_mask, tap3a_rows]
  rfl

end Cert.ReferenceIdeal.RefRun

end
-- ==== Proof.RefTap4.lean ====
/-
  The south-east neighbour's stage, in three parts, each from any contents `U` of the buffers: the mask and the row
  numbers (the two one-axis masks joined; each coordinate kept where the mask holds by a call; the row number
  (b * 256 + y) * 256 + x from the grid numbers); the called row lookup with its own call; the reshaping and the call
  that zeroes the value where the mask fails. Each part's operations are folded one by one, and the buffer's contents is
  the named function by unfolding; contents carried to a called function's buffer type and back are unchanged. The
  parts in turn are the stage: its value is `tapOf` of the six buffers it reads.
-/
import proofs.«115037_j71897752535328_2_alg».proof.Proof.RefOps
import proofs.«115037_j71897752535328_2_alg».proof.Proof.Spec2
import proofs.«115037_j71897752535328_2_alg».proof.Proof.LibTypedRef
import proofs.«115037_j71897752535328_2_alg».proof.Proof.RefStages
import Idealize.ShloMosaic.Lib.Pipeline.Frame
import Idealize.ShloMosaic.Lib.StableHlo.Run

-- the shapes' literal extents (11534336 rows) are compared by unfolding when two spellings of one type are matched
set_option maxRecDepth 200000

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

-- the and-reduction and the row lookup are compared as they stand, never opened over their 11534336 entries
attribute [local irreducible] Host.reduce Host.gather

-- one declaration at a time: each fold holds its whole chain of rewrites while it runs
set_option Elab.async false

/-- The mask, the kept coordinates and the row numbers. -/
def tap4a : List (HloOp τ sig (Elt F)) :=
  [ StableHlo.binary main_v51 main_v56 main_v105 (andi : (⟨S176x256x256, .i1⟩ : BufTy).Contents (Elt F) → (⟨S176x256x256, .i1⟩ : BufTy).Contents (Elt F) → (⟨S176x256x256, .i1⟩ : BufTy).Contents (Elt F)),
    StableHlo.nullary main_c_31 (constantI S_ 32 0#32),
    StableHlo.TRef.unary (.of main_c_31 : StableHlo.TRef sig ⟨S_, .i32⟩) (.of main_call12_v0 : StableHlo.TRef sig ⟨S_, .i32⟩) id,
    StableHlo.TRef.unary (.of main_call12_v0 : StableHlo.TRef sig ⟨S_, .i32⟩) (.of main_call12_v1 : StableHlo.TRef sig ⟨S176x256x256, .i32⟩) (broadcastInDim S176x256x256 ![] bcast_S_S176x256x256),
    StableHlo.TRef.ternary (.of main_v105 : StableHlo.TRef sig ⟨S176x256x256, .i1⟩) (.of main_v36 : StableHlo.TRef sig ⟨S176x256x256, .i32⟩) (.of main_call12_v1 : StableHlo.TRef sig ⟨S176x256x256, .i32⟩) (.of main_v106 : StableHlo.TRef sig ⟨S176x256x256, .i32⟩) select,
    StableHlo.nullary main_c_32 (constantI S_ 32 0#32),
    StableHlo.TRef.unary (.of main_c_32 : StableHlo.TRef sig ⟨S_, .i32⟩) (.of main_call13_v0 : StableHlo.TRef sig ⟨S_, .i32⟩) id,
    StableHlo.TRef.unary (.of main_call13_v0 : StableHlo.TRef sig ⟨S_, .i32⟩) (.of main_call13_v1 : StableHlo.TRef sig ⟨S176x256x256, .i32⟩) (broadcastInDim S176x256x256 ![] bcast_S_S176x256x256),
    StableHlo.TRef.ternary (.of main_v105 : StableHlo.TRef sig ⟨S176x256x256, .i1⟩) (.of main_v34 : StableHlo.TRef sig ⟨S176x256x256, .i32⟩) (.of main_call13_v1 : StableHlo.TRef sig ⟨S176x256x256, .i32⟩) (.of main_v107 : StableHlo.TRef sig ⟨S176x256x256, .i32⟩) select,
    StableHlo.nullary main_c_33 (constantI S_ 32 256#32),
    StableHlo.unary main_c_33 main_v108 (broadcastInDim S176x1x1 ![] bcast_S_S176x1x1 : (⟨S_, .i32⟩ : BufTy).Contents (Elt F) → (⟨S176x1x1, .i32⟩ : BufTy).Contents (Elt F)),
    StableHlo.binary main_v59 main_v108 main_v109 (muli : (⟨S176x1x1, .i32⟩ : BufTy).Contents (Elt F) → (⟨S176x1x1, .i32⟩ : BufTy).Contents (Elt F) → (⟨S176x1x1, .i32⟩ : BufTy).Contents (Elt F)),
    StableHlo.unary main_v109 main_v110 (broadcastInDim S176x256x256 ![0, 1, 2] bcast_S176x1x1_S176x256x256_0_1_2 : (⟨S176x1x1, .i32⟩ : BufTy).Contents (Elt F) → (⟨S176x256x256, .i32⟩ : BufTy).Contents (Elt F)),
    StableHlo.binary main_v110 main_v106 main_v111 (addi : (⟨S176x256x256, .i32⟩ : BufTy).Contents (Elt F) → (⟨S176x256x256, .i32⟩ : BufTy).Contents (Elt F) → (⟨S176x256x256, .i32⟩ : BufTy).Contents (Elt F)),
    StableHlo.nullary main_c_34 (constantI S_ 32 256#32),
    StableHlo.unary main_c_34 main_v112 (broadcastInDim S176x256x256 ![] bcast_S_S176x256x256 : (⟨S_, .i32⟩ : BufTy).Contents (Elt F) → (⟨S176x256x256, .i32⟩ : BufTy).Contents (Elt F)),
    StableHlo.binary main_v111 main_v112 main_v113 (muli : (⟨S176x256x256, .i32⟩ : BufTy).Contents (Elt F) → (⟨S176x256x256, .i32⟩ : BufTy).Contents (Elt F) → (⟨S176x256x256, .i32⟩ : BufTy).Contents (Elt F)),
    StableHlo.binary main_v113 main_v107 main_v114 (addi : (⟨S176x256x256, .i32⟩ : BufTy).Contents (Elt F) → (⟨S176x256x256, .i32⟩ : BufTy).Contents (Elt F) → (⟨S176x256x256, .i32⟩ : BufTy).Contents (Elt F)),
    StableHlo.reshape main_v114 main_v115 rfl shapeCasts_S176x256x256_S11534336 ]

/-- The called row lookup. -/
def tap4b : List (HloOp τ sig (Elt F)) :=
  [ StableHlo.TRef.nullary (.of main_call14_c : StableHlo.TRef sig ⟨S_, .i32⟩) (constantI S_ 32 0#32),
    StableHlo.TRef.unary (.of main_call14_c : StableHlo.TRef sig ⟨S_, .i32⟩) (.of main_call14_v0 : StableHlo.TRef sig ⟨S11534336, .i32⟩) (broadcastInDim S11534336 ![] bcast_S_S11534336),
    StableHlo.TRef.binary (.of main_v115 : StableHlo.TRef sig ⟨S11534336, .i32⟩) (.of main_call14_v0 : StableHlo.TRef sig ⟨S11534336, .i32⟩) (.of main_call14_v1 : StableHlo.TRef sig ⟨S11534336, .i1⟩) (cmpi .slt),
    StableHlo.TRef.nullary (.of main_call14_c_0 : StableHlo.TRef sig ⟨S_, .i32⟩) (constantI S_ 32 11534336#32),
    StableHlo.TRef.unary (.of main_call14_c_0 : StableHlo.TRef sig ⟨S_, .i32⟩) (.of main_call14_v2 : StableHlo.TRef sig ⟨S11534336, .i32⟩) (broadcastInDim S11534336 ![] bcast_S_S11534336),
    StableHlo.TRef.binary (.of main_v115 : StableHlo.TRef sig ⟨S11534336, .i32⟩) (.of main_call14_v2 : StableHlo.TRef sig ⟨S11534336, .i32⟩) (.of main_call14_v3 : StableHlo.TRef sig ⟨S11534336, .i32⟩) addi,
    StableHlo.TRef.ternary (.of main_call14_v1 : StableHlo.TRef sig ⟨S11534336, .i1⟩) (.of main_call14_v3 : StableHlo.TRef sig ⟨S11534336, .i32⟩) (.of main_v115 : StableHlo.TRef sig ⟨S11534336, .i32⟩) (.of main_call14_v4 : StableHlo.TRef sig ⟨S11534336, .i32⟩) select,
    StableHlo.TRef.unary (.of main_call14_v4 : StableHlo.TRef sig ⟨S11534336, .i32⟩) (.of main_call14_v5 : StableHlo.TRef sig ⟨S11534336x1, .i32⟩) (broadcastInDim S11534336x1 ![0] bcast_S11534336_S11534336x1_0),
    StableHlo.TRef.nullary (.of main_call14_c_1 : StableHlo.TRef sig ⟨S1, .i32⟩) (constantI S1 32 11534335#32),
    StableHlo.TRef.nullary (.of main_call14_c_2 : StableHlo.TRef sig ⟨S_, .i32⟩) (constantI S_ 32 0#32),
    StableHlo.TRef.unary (.of main_call14_c_2 : StableHlo.TRef sig ⟨S_, .i32⟩) (.of main_call14_v6 : StableHlo.TRef sig ⟨S11534336x1, .i32⟩) (broadcastInDim S11534336x1 ![] bcast_S_S11534336x1),
    StableHlo.TRef.binary (.of main_call14_v5 : StableHlo.TRef sig ⟨S11534336x1, .i32⟩) (.of main_call14_v6 : StableHlo.TRef sig ⟨S11534336x1, .i32⟩) (.of main_call14_v7 : StableHlo.TRef sig ⟨S11534336x1, .i1⟩) (cmpi .sge),
    StableHlo.TRef.unary (.of main_call14_c_1 : StableHlo.TRef sig ⟨S1, .i32⟩) (.of main_call14_v8 : StableHlo.TRef sig ⟨S1x1, .i32⟩) (broadcastInDim S1x1 ![1] bcast_S1_S1x1_1),
    StableHlo.TRef.unary (.of main_call14_v8 : StableHlo.TRef sig ⟨S1x1, .i32⟩) (.of main_call14_v9 : StableHlo.TRef sig ⟨S11534336x1, .i32⟩) (broadcastInDim S11534336x1 ![0, 1] bcast_S1x1_S11534336x1_0_1),
    StableHlo.TRef.binary (.of main_call14_v5 : StableHlo.TRef sig ⟨S11534336x1, .i32⟩) (.of main_call14_v9 : StableHlo.TRef sig ⟨S11534336x1, .i32⟩) (.of main_call14_v10 : StableHlo.TRef sig ⟨S11534336x1, .i1⟩) (cmpi .sle),
    StableHlo.TRef.binary (.of main_call14_v7 : StableHlo.TRef sig ⟨S11534336x1, .i1⟩) (.of main_call14_v10 : StableHlo.TRef sig ⟨S11534336x1, .i1⟩) (.of main_call14_v11 : StableHlo.TRef sig ⟨S11534336x1, .i1⟩) andi,
    StableHlo.TRef.nullary (.of main_call14_c_3 : StableHlo.TRef sig ⟨S_, .i1⟩) (constantI S_ 1 1#1),
    StableHlo.TRef.binary (.of main_call14_v11 : StableHlo.TRef sig ⟨S11534336x1, .i1⟩) (.of main_call14_c_3 : StableHlo.TRef sig ⟨S_, .i1⟩) (.of main_call14_v12 : StableHlo.TRef sig ⟨S11534336, .i1⟩) (fun x v => Host.reduce IntOp.andi x v reducesTo_S11534336x1_S11534336_d1 h_S_),
    StableHlo.TRef.binary (.of main_v57 : StableHlo.TRef sig ⟨S11534336x3, .f32⟩) (.of main_call14_v5 : StableHlo.TRef sig ⟨S11534336x1, .i32⟩) (.of main_call14_v13 : StableHlo.TRef sig ⟨S11534336x3, .f32⟩) (fun x i => Host.gather gather_S11534336x3_S11534336x1_S11534336x3_1_0_n_n_0_1_13 x i),
    StableHlo.TRef.unary (.of main_call14_v12 : StableHlo.TRef sig ⟨S11534336, .i1⟩) (.of main_call14_v14 : StableHlo.TRef sig ⟨S11534336x3, .i1⟩) (broadcastInDim S11534336x3 ![0] bcast_S11534336_S11534336x3_0),
    StableHlo.TRef.nullary (.of main_call14_cst : StableHlo.TRef sig ⟨S_, .f32⟩) (constant S_ .f32 0x7FC00000#32),
    StableHlo.TRef.unary (.of main_call14_cst : StableHlo.TRef sig ⟨S_, .f32⟩) (.of main_call14_v15 : StableHlo.TRef sig ⟨S11534336x3, .f32⟩) (broadcastInDim S11534336x3 ![] bcast_S_S11534336x3),
    StableHlo.TRef.ternary (.of main_call14_v14 : StableHlo.TRef sig ⟨S11534336x3, .i1⟩) (.of main_call14_v13 : StableHlo.TRef sig ⟨S11534336x3, .f32⟩) (.of main_call14_v15 : StableHlo.TRef sig ⟨S11534336x3, .f32⟩) (.of main_v116 : StableHlo.TRef sig ⟨S11534336x3, .f32⟩) select ]

/-- The reshaping and the zeroing where the mask fails. -/
def tap4c : List (HloOp τ sig (Elt F)) :=
  [ StableHlo.reshape main_v116 main_v117 rfl shapeCasts_S11534336x3_S176x256x256x3,
    StableHlo.unary main_v105 main_v118 (broadcastInDim S176x256x256x1 ![0, 1, 2] bcast_S176x256x256_S176x256x256x1_0_1_2 : (⟨S176x256x256, .i1⟩ : BufTy).Contents (Elt F) → (⟨S176x256x256x1, .i1⟩ : BufTy).Contents (Elt F)),
    StableHlo.nullary main_cst_35 (constant S_ .f32 0x00000000#32),
    StableHlo.TRef.unary (.of main_cst_35 : StableHlo.TRef sig ⟨S_, .f32⟩) (.of main_call15_v0 : StableHlo.TRef sig ⟨S_, .f32⟩) id,
    StableHlo.TRef.unary (.of main_v118 : StableHlo.TRef sig ⟨S176x256x256x1, .i1⟩) (.of main_call15_v1 : StableHlo.TRef sig ⟨S176x256x256x3, .i1⟩) (broadcastInDim S176x256x256x3 ![0, 1, 2, 3] bcast_S176x256x256x1_S176x256x256x3_0_1_2_3),
    StableHlo.TRef.unary (.of main_call15_v0 : StableHlo.TRef sig ⟨S_, .f32⟩) (.of main_call15_v2 : StableHlo.TRef sig ⟨S176x256x256x3, .f32⟩) (broadcastInDim S176x256x256x3 ![] bcast_S_S176x256x256x3),
    StableHlo.TRef.ternary (.of main_call15_v1 : StableHlo.TRef sig ⟨S176x256x256x3, .i1⟩) (.of main_v117 : StableHlo.TRef sig ⟨S176x256x256x3, .f32⟩) (.of main_call15_v2 : StableHlo.TRef sig ⟨S176x256x256x3, .f32⟩) (.of main_v119 : StableHlo.TRef sig ⟨S176x256x256x3, .f32⟩) select ]

/-- The stage is its three parts in order. -/
theorem tap4_split : (tap4 : List (HloOp τ sig (Elt F))) = tap4a ++ (tap4b ++ tap4c) := rfl

/-- The result buffers of the operations of `tap4a`. -/
abbrev tap4aW : List (Ref sig .tc) :=
  [main_v105, main_c_31, main_call12_v0, main_call12_v1, main_v106, main_c_32, main_call13_v0, main_call13_v1, main_v107, main_c_33, main_v108,
     main_v109, main_v110, main_v111, main_c_34, main_v112, main_v113, main_v114, main_v115]

/-- Every operation of `tap4a` writes one of them. -/
theorem tap4a_writes : (tap4a : List (HloOp τ sig (Elt F))).Forall fun op =>
    op.writes ⊆ (tap4aW.map (Proc.devRef (τ := τ) .tc)).toFinset :=
  ⟨binary_writes_sub (by decide), nullary_writes_sub (by decide), unary_writes_sub (by decide), unary_writes_sub (by decide),
     ternary_writes_sub (by decide), nullary_writes_sub (by decide), unary_writes_sub (by decide), unary_writes_sub (by decide),
     ternary_writes_sub (by decide), nullary_writes_sub (by decide), unary_writes_sub (by decide), binary_writes_sub (by decide),
     unary_writes_sub (by decide), binary_writes_sub (by decide), nullary_writes_sub (by decide), unary_writes_sub (by decide),
     binary_writes_sub (by decide), binary_writes_sub (by decide), reshape_writes_sub (by decide)⟩

/-- A buffer that is none of them holds after `tap4a` what it held before. -/
theorem tap4a_keep (U : Valuation τ sig (Elt F)) {r : Ref sig .tc} (h : r ∉ tap4aW) :
    after tap4a U (Proc.devRef .tc r) = U (Proc.devRef .tc r) :=
  after_of_writes_sub tap4a U tap4a_writes h

/-- The result buffers of the operations of `tap4b`. -/
abbrev tap4bW : List (Ref sig .tc) :=
  [main_call14_c, main_call14_v0, main_call14_v1, main_call14_c_0, main_call14_v2, main_call14_v3, main_call14_v4, main_call14_v5, main_call14_c_1,
     main_call14_c_2, main_call14_v6, main_call14_v7, main_call14_v8, main_call14_v9, main_call14_v10, main_call14_v11, main_call14_c_3,
     main_call14_v12, main_call14_v13, main_call14_v14, main_call14_cst, main_call14_v15, main_v116]

/-- Every operation of `tap4b` writes one of them. -/
theorem tap4b_writes : (tap4b : List (HloOp τ sig (Elt F))).Forall fun op =>
    op.writes ⊆ (tap4bW.map (Proc.devRef (τ := τ) .tc)).toFinset :=
  ⟨nullary_writes_sub (by decide), unary_writes_sub (by decide), binary_writes_sub (by decide), nullary_writes_sub (by decide),
     unary_writes_sub (by decide), binary_writes_sub (by decide), ternary_writes_sub (by decide), unary_writes_sub (by decide),
     nullary_writes_sub (by decide), nullary_writes_sub (by decide), unary_writes_sub (by decide), binary_writes_sub (by decide),
     unary_writes_sub (by decide), unary_writes_sub (by decide), binary_writes_sub (by decide), binary_writes_sub (by decide),
     nullary_writes_sub (by decide), binary_writes_sub (by decide), binary_writes_sub (by decide), unary_writes_sub (by decide),
     nullary_writes_sub (by decide), unary_writes_sub (by decide), ternary_writes_sub (by decide)⟩

/-- A buffer that is none of them holds after `tap4b` what it held before. -/
theorem tap4b_keep (U : Valuation τ sig (Elt F)) {r : Ref sig .tc} (h : r ∉ tap4bW) :
    after tap4b U (Proc.devRef .tc r) = U (Proc.devRef .tc r) :=
  after_of_writes_sub tap4b U tap4b_writes h

/-- The mask: both one-axis masks. -/
theorem tap4a_mask (U : Valuation τ sig (Elt F)) :
    after tap4a U (Proc.devRef .tc main_v105) = andi (U (Proc.devRef .tc main_v51)) (U (Proc.devRef .tc main_v56)) := by
  simp only [tap4a]
  after_results_simp

set_option maxHeartbeats 40000000 in
/-- The row numbers, from the grid numbers and the coordinates kept where the mask holds. -/
theorem tap4a_rows (U : Valuation τ sig (Elt F)) :
    after tap4a U (Proc.devRef .tc main_v115) = rowsOf (U (Proc.devRef .tc main_v59)) (andi (U (Proc.devRef .tc main_v51)) (U (Proc.devRef .tc main_v56))) (U (Proc.devRef .tc main_v36)) (U (Proc.devRef .tc main_v34)) := by
  simp only [tap4a]
  after_results_simp
  simp only [Cert.TypedRef.ofBuf_toBuf, Cert.TypedRef.toBuf_of, Cert.TypedRef.ofBuf_of]
  rfl

set_option maxHeartbeats 40000000 in
/-- The rows looked up in the table at the row numbers. -/
theorem tap4b_take (U : Valuation τ sig (Elt F)) :
    after tap4b U (Proc.devRef .tc main_v116)
      = Cert.Bridge.takeRows (M := 11534336) gather_S11534336x3_S11534336x1_S11534336x3_1_0_n_n_0_1_13 11534336#32 11534335#32
          (U (Proc.devRef .tc main_v57)) (U (Proc.devRef .tc main_v115)) := by
  simp only [tap4b]
  after_results_simp
  simp only [Cert.TypedRef.ofBuf_toBuf, Cert.TypedRef.toBuf_of, Cert.TypedRef.ofBuf_of]
  rfl

set_option maxHeartbeats 40000000 in
/-- The neighbour's value: the looked-up rows where the mask holds, 0 elsewhere. -/
theorem tap4c_val (U : Valuation τ sig (Elt F)) :
    after tap4c U (Proc.devRef .tc main_v119) = Cert.Bridge.tapVal (U (Proc.devRef .tc main_v105)) (U (Proc.devRef .tc main_v116)) := by
  simp only [tap4c]
  after_results_simp
  simp only [Cert.TypedRef.ofBuf_toBuf, Cert.TypedRef.toBuf_of, Cert.TypedRef.ofBuf_of]
  rfl

/-- After `tap4`, from any contents `U`, `%119` holds the neighbour's value: `tapOf` of the six buffers the stage
    reads. The lookup does not write the mask, nor the first part the table. -/
theorem tap4_eq (U : Valuation τ sig (Elt F)) :
    after tap4 U (Proc.devRef .tc main_v119)
      = tapOf (U (Proc.devRef .tc main_v51)) (U (Proc.devRef .tc main_v56)) (U (Proc.devRef .tc main_v36)) (U (Proc.devRef .tc main_v34)) (U (Proc.devRef .tc main_v59)) (U (Proc.devRef .tc main_v57)) := by
  rw [tap4_split, after_append, after_append, tap4c_val, tap4b_take,
    tap4b_keep (after tap4a U) (r := main_v105) (by decide), tap4a_keep U (r := main_v57) (by decide),
    tap4a_mask, tap4a_rows]
  rfl

end Cert.ReferenceIdeal.RefRun

end
-- ==== Proof.RefFin.lean ====
/-
  The last stage, from any contents `U` of the buffers: each weight repeated over the channels times its neighbour's
  value, the four products added, the sum as the array of 16 x 11 grids — `combOf` of the eight buffers read.
-/
import proofs.«115037_j71897752535328_2_alg».proof.Proof.RefOps
import proofs.«115037_j71897752535328_2_alg».proof.Proof.Spec2
import proofs.«115037_j71897752535328_2_alg».proof.Proof.LibTypedRef
import proofs.«115037_j71897752535328_2_alg».proof.Proof.RefStages
import Idealize.ShloMosaic.Lib.StableHlo.Run

-- the shapes' literal extents (11534336 rows) are compared by unfolding when two spellings of one type are matched
set_option maxRecDepth 200000

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

-- the and-reduction and the row lookup are compared as they stand, never opened over their 11534336 entries
attribute [local irreducible] Host.reduce Host.gather

/-- After the last stage, from any contents `U`, the result buffer holds the weighted sum of the four neighbours' values. -/
theorem fin_eq (U : Valuation τ sig (Elt F)) :
    after fin U (Proc.devRef .tc main_v135)
      = combOf (U (Proc.devRef .tc main_v27)) (U (Proc.devRef .tc main_v28)) (U (Proc.devRef .tc main_v29)) (U (Proc.devRef .tc main_v30)) (U (Proc.devRef .tc main_v74)) (U (Proc.devRef .tc main_v89)) (U (Proc.devRef .tc main_v104)) (U (Proc.devRef .tc main_v119)) := by
  simp only [fin]
  after_results_simp
  rfl

end Cert.ReferenceIdeal.RefRun

end
-- ==== Proof.RefValue.lean ====
/-
  The reference's value. After @main's 290 operations, from any contents `W` of the buffers, the result buffer holds the
  bilinear combination of the four neighbours' values, each read from the rows of the 176 copies of the image
  (`Cert.Bridge.CombR`), at the cell corner and fractional parts formed from the second argument and the image in the
  first. The fold is taken stage by stage: the prelude's fourteen buffers as functions of the arguments; each neighbour's
  stage from what it reads, the buffers it does not write carried across it; the last stage's weighted sum. What results
  is `CombR` by unfolding the definitions: the row numbers built from the grid numbers are `rowsR`, the two one-axis masks
  joined are `both`.
-/
import proofs.«115037_j71897752535328_2_alg».proof.Proof.RefOps
import proofs.«115037_j71897752535328_2_alg».proof.Proof.Spec2
import proofs.«115037_j71897752535328_2_alg».proof.Proof.LibTypedRef
import proofs.«115037_j71897752535328_2_alg».proof.Proof.RefStages
import proofs.«115037_j71897752535328_2_alg».proof.Proof.RefStage0
import proofs.«115037_j71897752535328_2_alg».proof.Proof.RefTap1
import proofs.«115037_j71897752535328_2_alg».proof.Proof.RefTap2
import proofs.«115037_j71897752535328_2_alg».proof.Proof.RefTap3
import proofs.«115037_j71897752535328_2_alg».proof.Proof.RefTap4
import proofs.«115037_j71897752535328_2_alg».proof.Proof.RefFin
import Idealize.ShloMosaic.Lib.Pipeline.Frame
import Idealize.ShloMosaic.Lib.StableHlo.Run

-- the shapes' literal extents (11534336 rows) are compared by unfolding when two spellings of one type are matched
set_option maxRecDepth 200000

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

-- the and-reduction and the row lookup are compared as they stand, never opened over their 11534336 entries
attribute [local irreducible] Host.reduce Host.gather

/-! ## The quantities of the statement, named -/

section Named

variable (W : Valuation τ sig (Elt F))

/-- The x coordinates of the sampling points, read from the second argument. -/
abbrev refGx := Cert.Bridge.gxOf (W (Proc.devRef .tc main_arg1))
/-- The y coordinates. -/
abbrev refGy := Cert.Bridge.gyOf (W (Proc.devRef .tc main_arg1))
/-- The cell corner's x, and x + 1. -/
abbrev refXw := Cert.Bridge.cellOf (refGx W)
@[inherit_doc refXw] abbrev refXw1 := addi (refXw W) (Cert.Bridge.cI 1#32)
/-- The cell corner's y, and y + 1. -/
abbrev refYn := Cert.Bridge.cellOf (refGy W)
@[inherit_doc refYn] abbrev refYn1 := addi (refYn W) (Cert.Bridge.cI 1#32)
/-- The fractional parts. -/
abbrev refFx := Cert.Bridge.fracOf (refGx W)
@[inherit_doc refFx] abbrev refFy := Cert.Bridge.fracOf (refGy W)
/-- The 176 copies of the image in the first argument, as a table of rows. -/
abbrev refTbl := Cert.Bridge.tblR (W (Proc.devRef .tc main_arg0))

end Named

/-- The grid numbers: 0 … 175, one per grid. -/
abbrev refGrid : IVec S176x1x1 32 := broadcastInDim S176x1x1 ![0] bcast_S176_S176x1x1_0 (iotaInDim S176 32 0)

set_option maxHeartbeats 40000000 in
/-- The result buffer after the 290 operations, from any contents `W`: `CombR` of the cell corner, the fractional parts
    and the image. -/
theorem ref_eq (W : Valuation τ sig (Elt F)) :
    after (ops (F := F)) W (Proc.devRef .tc main_v135)
      = Cert.Bridge.CombR (Cert.Bridge.cellOf (Cert.Bridge.gxOf (W (Proc.devRef .tc main_arg1)))) (Cert.Bridge.cellOf (Cert.Bridge.gyOf (W (Proc.devRef .tc main_arg1))))
          (Cert.Bridge.fracOf (Cert.Bridge.gxOf (W (Proc.devRef .tc main_arg1)))) (Cert.Bridge.fracOf (Cert.Bridge.gyOf (W (Proc.devRef .tc main_arg1))))
          (W (Proc.devRef .tc main_arg0)) := by
  -- after the prelude: the fourteen buffers the later stages read
  have h1_v27 : (after stage0 W) (Proc.devRef .tc main_v27) = mulf (subf (Cert.Bridge.cF (F := F) 0x3F800000#32) (refFy W)) (subf (Cert.Bridge.cF (F := F) 0x3F800000#32) (refFx W)) := stage0_v27 W
  have h1_v28 : (after stage0 W) (Proc.devRef .tc main_v28) = mulf (subf (Cert.Bridge.cF (F := F) 0x3F800000#32) (refFy W)) (refFx W) := stage0_v28 W
  have h1_v29 : (after stage0 W) (Proc.devRef .tc main_v29) = mulf (refFy W) (subf (Cert.Bridge.cF (F := F) 0x3F800000#32) (refFx W)) := stage0_v29 W
  have h1_v30 : (after stage0 W) (Proc.devRef .tc main_v30) = mulf (refFy W) (refFx W) := stage0_v30 W
  have h1_v31 : (after stage0 W) (Proc.devRef .tc main_v31) = refXw W := stage0_v31 W
  have h1_v32 : (after stage0 W) (Proc.devRef .tc main_v32) = refYn W := stage0_v32 W
  have h1_v34 : (after stage0 W) (Proc.devRef .tc main_v34) = refXw1 W := stage0_v34 W
  have h1_v36 : (after stage0 W) (Proc.devRef .tc main_v36) = refYn1 W := stage0_v36 W
  have h1_v41 : (after stage0 W) (Proc.devRef .tc main_v41) = Cert.Bridge.inImg (refXw W) := stage0_v41 W
  have h1_v46 : (after stage0 W) (Proc.devRef .tc main_v46) = Cert.Bridge.inImg (refYn W) := stage0_v46 W
  have h1_v51 : (after stage0 W) (Proc.devRef .tc main_v51) = Cert.Bridge.inImg (refXw1 W) := stage0_v51 W
  have h1_v56 : (after stage0 W) (Proc.devRef .tc main_v56) = Cert.Bridge.inImg (refYn1 W) := stage0_v56 W
  have h1_v57 : (after stage0 W) (Proc.devRef .tc main_v57) = refTbl W := stage0_v57 W
  have h1_v59 : (after stage0 W) (Proc.devRef .tc main_v59) = (refGrid : IVec S176x1x1 32) := stage0_v59 W
  -- after tap1: the north-west neighbour's value; the stage writes none of the buffers still to be read
  have h2_v74 : (after tap1 (after stage0 W)) (Proc.devRef .tc main_v74)
      = tapOf (Cert.Bridge.inImg (refXw W)) (Cert.Bridge.inImg (refYn W)) (refYn W) (refXw W) refGrid (refTbl W) := by
    rw [tap1_eq, h1_v41, h1_v46, h1_v32, h1_v31, h1_v59, h1_v57]
  have h2_v27 : (after tap1 (after stage0 W)) (Proc.devRef .tc main_v27)
      = mulf (subf (Cert.Bridge.cF (F := F) 0x3F800000#32) (refFy W)) (subf (Cert.Bridge.cF (F := F) 0x3F800000#32) (refFx W)) :=
    (tap1_keep (after stage0 W) (r := main_v27) (by decide)).trans h1_v27
  have h2_v28 : (after tap1 (after stage0 W)) (Proc.devRef .tc main_v28)
      = mulf (subf (Cert.Bridge.cF (F := F) 0x3F800000#32) (refFy W)) (refFx W) :=
    (tap1_keep (after stage0 W) (r := main_v28) (by decide)).trans h1_v28
  have h2_v29 : (after tap1 (after stage0 W)) (Proc.devRef .tc main_v29)
      = mulf (refFy W) (subf (Cert.Bridge.cF (F := F) 0x3F800000#32) (refFx W)) :=
    (tap1_keep (after stage0 W) (r := main_v29) (by decide)).trans h1_v29
  have h2_v30 : (after tap1 (after stage0 W)) (Proc.devRef .tc main_v30)
      = mulf (refFy W) (refFx W) :=
    (tap1_keep (after stage0 W) (r := main_v30) (by decide)).trans h1_v30
  have h2_v31 : (after tap1 (after stage0 W)) (Proc.devRef .tc main_v31)
      = refXw W :=
    (tap1_keep (after stage0 W) (r := main_v31) (by decide)).trans h1_v31
  have h2_v32 : (after tap1 (after stage0 W)) (Proc.devRef .tc main_v32)
      = refYn W :=
    (tap1_keep (after stage0 W) (r := main_v32) (by decide)).trans h1_v32
  have h2_v34 : (after tap1 (after stage0 W)) (Proc.devRef .tc main_v34)
      = refXw1 W :=
    (tap1_keep (after stage0 W) (r := main_v34) (by decide)).trans h1_v34
  have h2_v36 : (after tap1 (after stage0 W)) (Proc.devRef .tc main_v36)
      = refYn1 W :=
    (tap1_keep (after stage0 W) (r := main_v36) (by decide)).trans h1_v36
  have h2_v41 : (after tap1 (after stage0 W)) (Proc.devRef .tc main_v41)
      = Cert.Bridge.inImg (refXw W) :=
    (tap1_keep (after stage0 W) (r := main_v41) (by decide)).trans h1_v41
  have h2_v46 : (after tap1 (after stage0 W)) (Proc.devRef .tc main_v46)
      = Cert.Bridge.inImg (refYn W) :=
    (tap1_keep (after stage0 W) (r := main_v46) (by decide)).trans h1_v46
  have h2_v51 : (after tap1 (after stage0 W)) (Proc.devRef .tc main_v51)
      = Cert.Bridge.inImg (refXw1 W) :=
    (tap1_keep (after stage0 W) (r := main_v51) (by decide)).trans h1_v51
  have h2_v56 : (after tap1 (after stage0 W)) (Proc.devRef .tc main_v56)
      = Cert.Bridge.inImg (refYn1 W) :=
    (tap1_keep (after stage0 W) (r := main_v56) (by decide)).trans h1_v56
  have h2_v57 : (after tap1 (after stage0 W)) (Proc.devRef .tc main_v57)
      = refTbl W :=
    (tap1_keep (after stage0 W) (r := main_v57) (by decide)).trans h1_v57
  have h2_v59 : (after tap1 (after stage0 W)) (Proc.devRef .tc main_v59)
      = (refGrid : IVec S176x1x1 32) :=
    (tap1_keep (after stage0 W) (r := main_v59) (by decide)).trans h1_v59
  -- after tap2: the north-east neighbour's value; the stage writes none of the buffers still to be read
  have h3_v89 : (after tap2 (after tap1 (after stage0 W))) (Proc.devRef .tc main_v89)
      = tapOf (Cert.Bridge.inImg (refXw1 W)) (Cert.Bridge.inImg (refYn W)) (refYn W) (refXw1 W) refGrid (refTbl W) := by
    rw [tap2_eq, h2_v51, h2_v46, h2_v32, h2_v34, h2_v59, h2_v57]
  have h3_v27 : (after tap2 (after tap1 (after stage0 W))) (Proc.devRef .tc main_v27)
      = mulf (subf (Cert.Bridge.cF (F := F) 0x3F800000#32) (refFy W)) (subf (Cert.Bridge.cF (F := F) 0x3F800000#32) (refFx W)) :=
    (tap2_keep (after tap1 (after stage0 W)) (r := main_v27) (by decide)).trans h2_v27
  have h3_v28 : (after tap2 (after tap1 (after stage0 W))) (Proc.devRef .tc main_v28)
      = mulf (subf (Cert.Bridge.cF (F := F) 0x3F800000#32) (refFy W)) (refFx W) :=
    (tap2_keep (after tap1 (after stage0 W)) (r := main_v28) (by decide)).trans h2_v28
  have h3_v29 : (after tap2 (after tap1 (after stage0 W))) (Proc.devRef .tc main_v29)
      = mulf (refFy W) (subf (Cert.Bridge.cF (F := F) 0x3F800000#32) (refFx W)) :=
    (tap2_keep (after tap1 (after stage0 W)) (r := main_v29) (by decide)).trans h2_v29
  have h3_v30 : (after tap2 (after tap1 (after stage0 W))) (Proc.devRef .tc main_v30)
      = mulf (refFy W) (refFx W) :=
    (tap2_keep (after tap1 (after stage0 W)) (r := main_v30) (by decide)).trans h2_v30
  have h3_v31 : (after tap2 (after tap1 (after stage0 W))) (Proc.devRef .tc main_v31)
      = refXw W :=
    (tap2_keep (after tap1 (after stage0 W)) (r := main_v31) (by decide)).trans h2_v31
  have h3_v34 : (after tap2 (after tap1 (after stage0 W))) (Proc.devRef .tc main_v34)
      = refXw1 W :=
    (tap2_keep (after tap1 (after stage0 W)) (r := main_v34) (by decide)).trans h2_v34
  have h3_v36 : (after tap2 (after tap1 (after stage0 W))) (Proc.devRef .tc main_v36)
      = refYn1 W :=
    (tap2_keep (after tap1 (after stage0 W)) (r := main_v36) (by decide)).trans h2_v36
  have h3_v41 : (after tap2 (after tap1 (after stage0 W))) (Proc.devRef .tc main_v41)
      = Cert.Bridge.inImg (refXw W) :=
    (tap2_keep (after tap1 (after stage0 W)) (r := main_v41) (by decide)).trans h2_v41
  have h3_v51 : (after tap2 (after tap1 (after stage0 W))) (Proc.devRef .tc main_v51)
      = Cert.Bridge.inImg (refXw1 W) :=
    (tap2_keep (after tap1 (after stage0 W)) (r := main_v51) (by decide)).trans h2_v51
  have h3_v56 : (after tap2 (after tap1 (after stage0 W))) (Proc.devRef .tc main_v56)
      = Cert.Bridge.inImg (refYn1 W) :=
    (tap2_keep (after tap1 (after stage0 W)) (r := main_v56) (by decide)).trans h2_v56
  have h3_v57 : (after tap2 (after tap1 (after stage0 W))) (Proc.devRef .tc main_v57)
      = refTbl W :=
    (tap2_keep (after tap1 (after stage0 W)) (r := main_v57) (by decide)).trans h2_v57
  have h3_v59 : (after tap2 (after tap1 (after stage0 W))) (Proc.devRef .tc main_v59)
      = (refGrid : IVec S176x1x1 32) :=
    (tap2_keep (after tap1 (after stage0 W)) (r := main_v59) (by decide)).trans h2_v59
  have h3_v74 : (after tap2 (after tap1 (after stage0 W))) (Proc.devRef .tc main_v74)
      = tapOf (Cert.Bridge.inImg (refXw W)) (Cert.Bridge.inImg (refYn W)) (refYn W) (refXw W) refGrid (refTbl W) :=
    (tap2_keep (after tap1 (after stage0 W)) (r := main_v74) (by decide)).trans h2_v74
  -- after tap3: the south-west neighbour's value; the stage writes none of the buffers still to be read
  have h4_v104 : (after tap3 (after tap2 (after tap1 (after stage0 W)))) (Proc.devRef .tc main_v104)
      = tapOf (Cert.Bridge.inImg (refYn1 W)) (Cert.Bridge.inImg (refXw W)) (refYn1 W) (refXw W) refGrid (refTbl W) := by
    rw [tap3_eq, h3_v56, h3_v41, h3_v36, h3_v31, h3_v59, h3_v57]
  have h4_v27 : (after tap3 (after tap2 (after tap1 (after stage0 W)))) (Proc.devRef .tc main_v27)
      = mulf (subf (Cert.Bridge.cF (F := F) 0x3F800000#32) (refFy W)) (subf (Cert.Bridge.cF (F := F) 0x3F800000#32) (refFx W)) :=
    (tap3_keep (after tap2 (after tap1 (after stage0 W))) (r := main_v27) (by decide)).trans h3_v27
  have h4_v28 : (after tap3 (after tap2 (after tap1 (after stage0 W)))) (Proc.devRef .tc main_v28)
      = mulf (subf (Cert.Bridge.cF (F := F) 0x3F800000#32) (refFy W)) (refFx W) :=
    (tap3_keep (after tap2 (after tap1 (after stage0 W))) (r := main_v28) (by decide)).trans h3_v28
  have h4_v29 : (after tap3 (after tap2 (after tap1 (after stage0 W)))) (Proc.devRef .tc main_v29)
      = mulf (refFy W) (subf (Cert.Bridge.cF (F := F) 0x3F800000#32) (refFx W)) :=
    (tap3_keep (after tap2 (after tap1 (after stage0 W))) (r := main_v29) (by decide)).trans h3_v29
  have h4_v30 : (after tap3 (after tap2 (after tap1 (after stage0 W)))) (Proc.devRef .tc main_v30)
      = mulf (refFy W) (refFx W) :=
    (tap3_keep (after tap2 (after tap1 (after stage0 W))) (r := main_v30) (by decide)).trans h3_v30
  have h4_v34 : (after tap3 (after tap2 (after tap1 (after stage0 W)))) (Proc.devRef .tc main_v34)
      = refXw1 W :=
    (tap3_keep (after tap2 (after tap1 (after stage0 W))) (r := main_v34) (by decide)).trans h3_v34
  have h4_v36 : (after tap3 (after tap2 (after tap1 (after stage0 W)))) (Proc.devRef .tc main_v36)
      = refYn1 W :=
    (tap3_keep (after tap2 (after tap1 (after stage0 W))) (r := main_v36) (by decide)).trans h3_v36
  have h4_v51 : (after tap3 (after tap2 (after tap1 (after stage0 W)))) (Proc.devRef .tc main_v51)
      = Cert.Bridge.inImg (refXw1 W) :=
    (tap3_keep (after tap2 (after tap1 (after stage0 W))) (r := main_v51) (by decide)).trans h3_v51
  have h4_v56 : (after tap3 (after tap2 (after tap1 (after stage0 W)))) (Proc.devRef .tc main_v56)
      = Cert.Bridge.inImg (refYn1 W) :=
    (tap3_keep (after tap2 (after tap1 (after stage0 W))) (r := main_v56) (by decide)).trans h3_v56
  have h4_v57 : (after tap3 (after tap2 (after tap1 (after stage0 W)))) (Proc.devRef .tc main_v57)
      = refTbl W :=
    (tap3_keep (after tap2 (after tap1 (after stage0 W))) (r := main_v57) (by decide)).trans h3_v57
  have h4_v59 : (after tap3 (after tap2 (after tap1 (after stage0 W)))) (Proc.devRef .tc main_v59)
      = (refGrid : IVec S176x1x1 32) :=
    (tap3_keep (after tap2 (after tap1 (after stage0 W))) (r := main_v59) (by decide)).trans h3_v59
  have h4_v74 : (after tap3 (after tap2 (after tap1 (after stage0 W)))) (Proc.devRef .tc main_v74)
      = tapOf (Cert.Bridge.inImg (refXw W)) (Cert.Bridge.inImg (refYn W)) (refYn W) (refXw W) refGrid (refTbl W) :=
    (tap3_keep (after tap2 (after tap1 (after stage0 W))) (r := main_v74) (by decide)).trans h3_v74
  have h4_v89 : (after tap3 (after tap2 (after tap1 (after stage0 W)))) (Proc.devRef .tc main_v89)
      = tapOf (Cert.Bridge.inImg (refXw1 W)) (Cert.Bridge.inImg (refYn W)) (refYn W) (refXw1 W) refGrid (refTbl W) :=
    (tap3_keep (after tap2 (after tap1 (after stage0 W))) (r := main_v89) (by decide)).trans h3_v89
  -- after tap4: the south-east neighbour's value; the stage writes none of the buffers still to be read
  have h5_v119 : (after tap4 (after tap3 (after tap2 (after tap1 (after stage0 W))))) (Proc.devRef .tc main_v119)
      = tapOf (Cert.Bridge.inImg (refXw1 W)) (Cert.Bridge.inImg (refYn1 W)) (refYn1 W) (refXw1 W) refGrid (refTbl W) := by
    rw [tap4_eq, h4_v51, h4_v56, h4_v36, h4_v34, h4_v59, h4_v57]
  have h5_v27 : (after tap4 (after tap3 (after tap2 (after tap1 (after stage0 W))))) (Proc.devRef .tc main_v27)
      = mulf (subf (Cert.Bridge.cF (F := F) 0x3F800000#32) (refFy W)) (subf (Cert.Bridge.cF (F := F) 0x3F800000#32) (refFx W)) :=
    (tap4_keep (after tap3 (after tap2 (after tap1 (after stage0 W)))) (r := main_v27) (by decide)).trans h4_v27
  have h5_v28 : (after tap4 (after tap3 (after tap2 (after tap1 (after stage0 W))))) (Proc.devRef .tc main_v28)
      = mulf (subf (Cert.Bridge.cF (F := F) 0x3F800000#32) (refFy W)) (refFx W) :=
    (tap4_keep (after tap3 (after tap2 (after tap1 (after stage0 W)))) (r := main_v28) (by decide)).trans h4_v28
  have h5_v29 : (after tap4 (after tap3 (after tap2 (after tap1 (after stage0 W))))) (Proc.devRef .tc main_v29)
      = mulf (refFy W) (subf (Cert.Bridge.cF (F := F) 0x3F800000#32) (refFx W)) :=
    (tap4_keep (after tap3 (after tap2 (after tap1 (after stage0 W)))) (r := main_v29) (by decide)).trans h4_v29
  have h5_v30 : (after tap4 (after tap3 (after tap2 (after tap1 (after stage0 W))))) (Proc.devRef .tc main_v30)
      = mulf (refFy W) (refFx W) :=
    (tap4_keep (after tap3 (after tap2 (after tap1 (after stage0 W)))) (r := main_v30) (by decide)).trans h4_v30
  have h5_v74 : (after tap4 (after tap3 (after tap2 (after tap1 (after stage0 W))))) (Proc.devRef .tc main_v74)
      = tapOf (Cert.Bridge.inImg (refXw W)) (Cert.Bridge.inImg (refYn W)) (refYn W) (refXw W) refGrid (refTbl W) :=
    (tap4_keep (after tap3 (after tap2 (after tap1 (after stage0 W)))) (r := main_v74) (by decide)).trans h4_v74
  have h5_v89 : (after tap4 (after tap3 (after tap2 (after tap1 (after stage0 W))))) (Proc.devRef .tc main_v89)
      = tapOf (Cert.Bridge.inImg (refXw1 W)) (Cert.Bridge.inImg (refYn W)) (refYn W) (refXw1 W) refGrid (refTbl W) :=
    (tap4_keep (after tap3 (after tap2 (after tap1 (after stage0 W)))) (r := main_v89) (by decide)).trans h4_v89
  have h5_v104 : (after tap4 (after tap3 (after tap2 (after tap1 (after stage0 W))))) (Proc.devRef .tc main_v104)
      = tapOf (Cert.Bridge.inImg (refYn1 W)) (Cert.Bridge.inImg (refXw W)) (refYn1 W) (refXw W) refGrid (refTbl W) :=
    (tap4_keep (after tap3 (after tap2 (after tap1 (after stage0 W)))) (r := main_v104) (by decide)).trans h4_v104
  -- the fold of the concatenation is the fold of the stages in turn; the last stage's sum, at what the buffers hold
  rw [ops_eq_stages, after_append, after_append, after_append, after_append, after_append, fin_eq,
    h5_v27, h5_v28, h5_v29, h5_v30, h5_v74, h5_v89, h5_v104, h5_v119]
  -- both sides spelled out are one term: the row numbers from the grid numbers are `rowsR`, the joined masks are `both`
  unfold combOf tapOf rowsOf Cert.Bridge.CombR Cert.Bridge.Comb Cert.Bridge.gR Cert.Bridge.rowsR Cert.Bridge.gridBase Cert.Bridge.both
  rfl

end Cert.ReferenceIdeal.RefRun

end
-- ==== Proof.Bridge.lean ====
/-
  The two programs' results are one function of the inputs.

  The kernel leaves the cell corners and fractional parts of the 176 * 256 * 256 sampling points; the operations after it
  combine four neighbours read from the image's 65536 rows (`CombK`). The reference computes the same corners and
  fractional parts on the host and combines four neighbours read from the rows of 176 copies of the image (`CombR`). A
  neighbour's row and column are sanitised into [0, 256) before the image is read, so row y * 256 + x of the image is row
  (b * 256 + y) * 256 + x of the copies, and the two lookups return the same rows: `CombK = CombR`.
-/
import proofs.«115037_j71897752535328_2_alg».proof.Proof.FrameKI
import proofs.«115037_j71897752535328_2_alg».proof.Proof.KValue
import proofs.«115037_j71897752535328_2_alg».proof.Proof.KTail
import proofs.«115037_j71897752535328_2_alg».proof.Proof.Gather
import proofs.«115037_j71897752535328_2_alg».proof.Proof.RefRun
import proofs.«115037_j71897752535328_2_alg».proof.Proof.RefValue

set_option maxRecDepth 200000

noncomputable section

namespace Cert.Bridge

open Idealize.ShloMosaic Idealize.ShloMosaic.TcCoe Idealize.SL.Sem

section Lookups

open Cert.KernelIdeal Cert.KernelIdeal.Gen

variable {F : FTy → Type} [FloatOps F]

/-- With the row taken from `b` and the column from `a`, both sanitised where `a` and `b` lie in the image: the two
    lookups agree. -/
theorem gK_eq_gR (src : FVec F S1x256x256x3 .f32) (a b : IVec S176x256x256 32) :
    gK src (both a b) b a = gR src (both a b) b a :=
  take_eq src (both a b) b a (fun p h => (both_range a b p h).2) (fun p h => (both_range a b p h).1)

/-- The same with the row taken from `a` and the column from `b`. -/
theorem gK_eq_gR' (src : FVec F S1x256x256x3 .f32) (a b : IVec S176x256x256 32) :
    gK src (both a b) a b = gR src (both a b) a b :=
  take_eq src (both a b) a b (fun p h => (both_range a b p h).1) (fun p h => (both_range a b p h).2)

/-- The bilinear combination does not depend on which of the two tables the neighbours are read from. -/
theorem CombK_eq_CombR (xw yn : IVec S176x256x256 32) (fx fy : FVec F S176x256x256 .f32) (src : FVec F S1x256x256x3 .f32) :
    CombK xw yn fx fy src = CombR xw yn fx fy src := by
  unfold CombK CombR
  rw [gK_eq_gR src xw yn, gK_eq_gR src (addi xw (cI 1#32)) yn, gK_eq_gR' src (addi yn (cI 1#32)) xw,
    gK_eq_gR src (addi xw (cI 1#32)) (addi yn (cI 1#32))]

end Lookups

/-- What both programs return, from the image `src` and the motion field `mot`. -/
def result (src : FVec Ideal Cert.KernelIdeal.S1x256x256x3 .f32) (mot : FVec Ideal Cert.KernelIdeal.S16x11x256x256x2 .f32) :
    FVec Ideal Cert.KernelIdeal.S16x11x256x256x3 .f32 :=
  CombR (cellOf (gxOf mot)) (cellOf (gyOf mot)) (fracOf (gxOf mot)) (fracOf (gyOf mot)) src

section Kernel

open Cert.KernelIdeal Cert.KernelIdeal.Gen Cert.KernelIdeal.Fr Cert.KernelIdeal.KVal

/-- From any contents of the buffers in which the kernel's four arrays hold the cell corners and fractional parts of the
    motion field's points and the image's buffer holds the image, the operations after the kernel give `result`. -/
theorem tail_result (src : FVec Ideal S1x256x256x3 .f32) (mot : FVec Ideal S16x11x256x256x2 .f32) (W : Valuation τ sig (Elt Ideal))
    (h2 : W (Proc.devRef .tc main_v5_0) = cellOf (gxOf mot)) (h3 : W (Proc.devRef .tc main_v5_1) = cellOf (gyOf mot))
    (h4 : W (Proc.devRef .tc main_v5_2) = fracOf (gxOf mot)) (h5 : W (Proc.devRef .tc main_v5_3) = fracOf (gyOf mot))
    (h0 : W (Proc.devRef .tc main_arg0) = src) :
    StableHlo.after (tailOps (F := Ideal)).flatten W (Proc.devRef .tc main_v99) = result src mot := by
  refine (Cert.KernelIdeal.KTail.tail_eq (F := Ideal) W).trans ?_
  rw [h2, h3, h4, h5, h0]
  exact CombK_eq_CombR _ _ _ _ _

/-- The kernel program's result buffer after the run: the operations after the region, folded over the region's exit
    contents (the kernel's four arrays at their closed forms, the image as launched), give `result`. -/
theorem kernel_result (m : (ℓ : Loc nD τ sig) → Buf (Elt Ideal) ℓ) (c : Dev nD) :
    Pipeline.afterTail₀ cfgs (dats (F := Ideal) m) 0 (V0 m) tailOps c main_v99
      = result (m ((c.tc : Thread nD τ).loc main_arg0)) (m ((c.tc : Thread nD τ).loc main_arg1)) := by
  unfold Pipeline.afterTail₀
  refine tail_result _ _ _ ?_ ?_ ?_ ?_ ?_
  · exact (Pipeline.withArrays_arr spec0 launch0.win.arr_inj c _ _ 2).trans ((final2 m c).trans (congrArg cellOf (V_v2 m c)))
  · exact (Pipeline.withArrays_arr spec0 launch0.win.arr_inj c _ _ 3).trans ((final3 m c).trans (congrArg cellOf (V_v4 m c)))
  · exact (Pipeline.withArrays_arr spec0 launch0.win.arr_inj c _ _ 4).trans ((final4 m c).trans (congrArg fracOf (V_v2 m c)))
  · exact (Pipeline.withArrays_arr spec0 launch0.win.arr_inj c _ _ 5).trans ((final5 m c).trans (congrArg fracOf (V_v4 m c)))
  · exact (Pipeline.withArrays_of_ne spec0 c _ _ main_arg0 (by decide)).trans (V_arg0 m c)

end Kernel

section Reference

open Cert.ReferenceIdeal Cert.ReferenceIdeal.RefRun

/-- The reference program's result buffer after the run is `result` of its arguments. -/
theorem reference_result (m : (ℓ : Loc nD τ sig) → Buf (Elt Ideal) ℓ) (d : Dev nD) :
    StableHlo.after (ops (F := Ideal)) (StableHlo.launchContents m d) (Proc.devRef .tc main_v135)
      = result (m ((d.tc : Thread nD τ).loc main_arg0)) (m ((d.tc : Thread nD τ).loc main_arg1)) :=
  ref_eq (F := Ideal) (StableHlo.launchContents m d)

end Reference

end Cert.Bridge

end
-- ==== Proof.lean ====
/-
  The proof of `Cert.Claim`.

  The program samples a 256 x 256 image of 3 channels bilinearly at 16 * 11 grids of 256 x 256 points given by a motion
  field. The kernel program computes, inside one region of 22 grid points, the cell corner and the fractional part of
  every sampling point, and after the region reads the four neighbours of each point from the image laid out as 65536
  rows; the reference computes corners and fractional parts on the host and reads the neighbours from 176 copies of the
  image laid out as 176 * 65536 rows. Both weight the neighbours by the bilinear weights and mask those outside the image.

  * Frames: each kernel program runs its region block by block (the body loads its two input blocks and stores four
    blocks computed from them point by point), then the operations after it, none of which writes an argument; the
    reference is a list of host operations none of which writes an argument.
  * `preserves`: the idealised kernel is the kernel's own text, nothing was rewritten.
  * `algebraic`: both results are `Cert.Bridge.result` of the image and the motion field — the kernel's by the closed
    form of its four arrays and the fold of the later operations, the reference's by the fold of its operations, and the
    two ways of reading a neighbour agree because its row and column are first brought into [0, 256).
-/
import proofs.«115037_j71897752535328_2_alg».proof.Defs
import proofs.«115037_j71897752535328_2_alg».proof.Proof.Gen.Kernel
import proofs.«115037_j71897752535328_2_alg».proof.Proof.Gen.KernelIdeal
import proofs.«115037_j71897752535328_2_alg».proof.Proof.Gen.ReferenceIdeal
import proofs.«115037_j71897752535328_2_alg».proof.Proof.Gen.Pre_finite_inputs
import proofs.«115037_j71897752535328_2_alg».proof.Proof.FrameK
import proofs.«115037_j71897752535328_2_alg».proof.Proof.FrameKI
import proofs.«115037_j71897752535328_2_alg».proof.Proof.RefRun
import proofs.«115037_j71897752535328_2_alg».proof.Proof.Bridge
import Idealize.ShloMosaic.Adequacy
import Idealize.ShloMosaic.Init

set_option maxRecDepth 200000

noncomputable section

namespace Cert.Proof

open Idealize.ShloMosaic Idealize.ShloMosaic.TcCoe Idealize.SL.Sem

/-- The kernel as printed runs and leaves its arguments unchanged. -/
theorem frame_k : Cert.frame_Kernel := fun m ρ _ => Cert.Kernel.Fr.frame m ρ

/-- So does its idealisation. -/
theorem frame_ki : Cert.frame_KernelIdeal := fun m ρ _ => Cert.KernelIdeal.Fr.frame m ρ

/-- The reference runs, and no operation of it writes an argument. -/
theorem frame_ri : Cert.frame_ReferenceIdeal := fun m ρ _ =>
  (θ_run Cert.ReferenceIdeal.defs _ _).mono
    (fun _ h c => ⟨(h c Cert.ReferenceIdeal.main_arg0).trans (Cert.ReferenceIdeal.RefRun.kept_arg0 m c),
      (h c Cert.ReferenceIdeal.main_arg1).trans (Cert.ReferenceIdeal.RefRun.kept_arg1 m c)⟩)
    (Cert.ReferenceIdeal.RefRun.run (F := Ideal) m ρ)

/-- Nothing was rewritten when the kernel was idealised. -/
theorem preserves : Cert.preserves_Kernel_KernelIdeal := trivial

/-- From memories agreeing on the image and the motion field both programs end with `Cert.Bridge.result` of them in their
    result buffers, and with their arguments unchanged. -/
theorem algebraic : Cert.algebraic_KernelIdeal_ReferenceIdeal := by
  intro m ρ m' ρ' _ hagree
  refine ⟨fun c => Cert.Bridge.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun _ h c => ⟨?_, ?_, ?_⟩) (Cert.KernelIdeal.Fr.run_main (F := Ideal) m ρ)
    · exact ((h c).2 Cert.KernelIdeal.main_v99 (Pipeline.mem_restRefs_of Cert.KernelIdeal.main_v99 rfl (by decide))).trans
        (Cert.Bridge.kernel_result m c)
    · exact ((h c).2 Cert.KernelIdeal.main_arg0 (Pipeline.mem_restRefs_of Cert.KernelIdeal.main_arg0 rfl (by decide))).trans
        ((Cert.KernelIdeal.Fr.afterTail_of_lt m c Cert.KernelIdeal.main_arg0 (by decide) (by decide)).trans
          (Cert.KernelIdeal.Fr.V0_of_lt m c Cert.KernelIdeal.main_arg0 (by decide)))
    · exact ((h c).2 Cert.KernelIdeal.main_arg1 (Pipeline.mem_restRefs_of Cert.KernelIdeal.main_arg1 rfl (by decide))).trans
        ((Cert.KernelIdeal.Fr.afterTail_of_lt m c Cert.KernelIdeal.main_arg1 (by decide) (by decide)).trans
          (Cert.KernelIdeal.Fr.V0_of_lt m c Cert.KernelIdeal.main_arg1 (by decide)))
  · refine (θ_run Cert.ReferenceIdeal.defs _ _).mono (fun _ h c => ⟨?_, ?_, ?_⟩) (Cert.ReferenceIdeal.RefRun.run (F := Ideal) m' ρ')
    · refine ((h c Cert.ReferenceIdeal.main_v135).trans (Cert.Bridge.reference_result m' c)).trans ?_
      rw [(hagree c).1, (hagree c).2]
    · exact (h c Cert.ReferenceIdeal.main_arg0).trans (Cert.ReferenceIdeal.RefRun.kept_arg0 m' c)
    · exact (h c Cert.ReferenceIdeal.main_arg1).trans (Cert.ReferenceIdeal.RefRun.kept_arg1 m' c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
